-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x2048 : Shape := ⟨2, ![4096, 2048]⟩
abbrev S2048x2048 : Shape := ⟨2, ![2048, 2048]⟩
abbrev S2048x4096 : Shape := ⟨2, ![2048, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4096x2048 .f32) (main_arg5 : FVec F S2048x2048 .f32) (main_arg6 : FVec F S2048x4096 .f32) (main_arg7 : FVec F S4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x4096 .f32 := Host.absf main_arg6
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4096x2048 .f32) (main_arg2 : FVec F S2048x2048 .f32) (main_arg3 : FVec F S2048x4096 .f32) (main_arg4 : FVec F S4096x2048 .f32) (main_arg5 : FVec F S2048x2048 .f32) (main_arg6 : FVec F S2048x4096 .f32) (main_arg7 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_v13 main_v16
-- ==== Kernel.lean ====
abbrev S4096x4096 : Shape := ⟨2, ![4096, 4096]⟩
abbrev S4096x2048 : Shape := ⟨2, ![4096, 2048]⟩
abbrev S2048x2048 : Shape := ⟨2, ![2048, 2048]⟩
abbrev S2048x4096 : Shape := ⟨2, ![2048, 4096]⟩
abbrev S4096 : Shape := ⟨1, ![4096]⟩
abbrev S16x2048 : Shape := ⟨2, ![16, 2048]⟩
abbrev S_ : Shape := ⟨0, ![]⟩
abbrev S1x16 : Shape := ⟨2, ![1, 16]⟩
abbrev S16 : Shape := ⟨1, ![16]⟩
abbrev S2048x1024 : Shape := ⟨2, ![2048, 1024]⟩
abbrev S1024x1024 : Shape := ⟨2, ![1024, 1024]⟩
abbrev S1024x2048 : Shape := ⟨2, ![1024, 2048]⟩
abbrev S1x4096 : Shape := ⟨2, ![1, 4096]⟩
abbrev S1x1024 : Shape := ⟨2, ![1, 1024]⟩

abbrev nBuf : Table → Nat
  | .hbm => 13
  | .local .tc .vmem => 26
  | .local .scVector .vmem => 2
  | _ => 0

abbrev bufTy : (tb : Table) → Fin (nBuf tb) → BufTy
  | .hbm, ⟨0, _⟩ => ⟨S4096x4096, .f32⟩
  | .hbm, ⟨1, _⟩ => ⟨S4096x2048, .f32⟩
  | .hbm, ⟨2, _⟩ => ⟨S2048x2048, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x4096, .f32⟩
  | .hbm, ⟨7, _⟩ => ⟨S4096, .f32⟩
  | .hbm, ⟨8, _⟩ => ⟨S2048x2048, .f32⟩
  | .hbm, ⟨9, _⟩ => ⟨S4096x2048, .bf16⟩
  | .hbm, ⟨10, _⟩ => ⟨S4096x2048, .bf16⟩
  | .hbm, ⟨11, _⟩ => ⟨S1x4096, .f32⟩
  | .hbm, ⟨12, _⟩ => ⟨S4096x4096, .f32⟩
  | .local .tc .vmem, ⟨0, _⟩ => ⟨S2048x1024, .f32⟩
  | .local .tc .vmem, ⟨1, _⟩ => ⟨S2048x1024, .f32⟩
  | .local .tc .vmem, ⟨2, _⟩ => ⟨S1024x1024, .f32⟩
  | .local .tc .vmem, ⟨3, _⟩ => ⟨S1024x1024, .f32⟩
  | .local .tc .vmem, ⟨4, _⟩ => ⟨S1024x1024, .f32⟩
  | .local .tc .vmem, ⟨5, _⟩ => ⟨S1024x1024, .f32⟩
  | .local .tc .vmem, ⟨6, _⟩ => ⟨S2048x1024, .bf16⟩
  | .local .tc .vmem, ⟨7, _⟩ => ⟨S2048x1024, .bf16⟩
  | .local .tc .vmem, ⟨8, _⟩ => ⟨S2048x1024, .f32⟩
  | .local .tc .vmem, ⟨9, _⟩ => ⟨S2048x2048, .bf16⟩
  | .local .tc .vmem, ⟨10, _⟩ => ⟨S2048x2048, .bf16⟩
  | .local .tc .vmem, ⟨11, _⟩ => ⟨S1024x2048, .f32⟩
  | .local .tc .vmem, ⟨12, _⟩ => ⟨S1024x2048, .f32⟩
  | .local .tc .vmem, ⟨13, _⟩ => ⟨S2048x1024, .bf16⟩
  | .local .tc .vmem, ⟨14, _⟩ => ⟨S2048x1024, .bf16⟩
  | .local .tc .vmem, ⟨15, _⟩ => ⟨S2048x1024, .bf16⟩
  | .local .tc .vmem, ⟨16, _⟩ => ⟨S2048x1024, .bf16⟩
  | .local .tc .vmem, ⟨17, _⟩ => ⟨S1024x1024, .f32⟩
  | .local .tc .vmem, ⟨18, _⟩ => ⟨S1024x1024, .f32⟩
  | .local .tc .vmem, ⟨19, _⟩ => ⟨S1024x1024, .f32⟩
  | .local .tc .vmem, ⟨20, _⟩ => ⟨S1024x1024, .f32⟩
  | .local .tc .vmem, ⟨21, _⟩ => ⟨S1x1024, .f32⟩
  | .local .tc .vmem, ⟨22, _⟩ => ⟨S1x1024, .f32⟩
  | .local .tc .vmem, ⟨23, _⟩ => ⟨S2048x1024, .f32⟩
  | .local .tc .vmem, ⟨24, _⟩ => ⟨S2048x1024, .f32⟩
  | .local .tc .vmem, ⟨25, _⟩ => ⟨S2048x1024, .f32⟩
  | .local .scVector .vmem, ⟨0, _⟩ => ⟨S16x2048, .f32⟩
  | .local .scVector .vmem, ⟨1, _⟩ => ⟨S16x2048, .f32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg2_scv : Ref sig .scVector := ⟨.hbm, 2, rfl⟩
abbrev main_arg5_scv : Ref sig .scVector := ⟨.hbm, 5, rfl⟩
abbrev main_v0_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_scratch0 : Ref sig .tc := ⟨.vmem, 25, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_0 : BitVec 32 := 0#32
  let c1_i32 : BitVec 32 := 1#32
  let arg7 : BitVec 32 := Scf.iv c0_i32_0 c1_i32 k0_t1
  let c16_i32 : BitVec 32 := 16#32
  let v4 : BitVec 32 := Scalar.muli arg7 c16_i32
  let v5 : BitVec 32 := Scalar.addi v2 v4
  let c0_i32_6_r0 : BitVec 32 := 0#32
  ![v5.toNat, 0]
@[reducible] def k0_t2_loop : Scf.Loop 32 :=
  let c0_i32_3 : BitVec 32 := 0#32
  let c32_i32 : BitVec 32 := 32#32
  let v6 : BitVec 32 := Scalar.addi c0_i32_3 c32_i32
  let c1_i32_4 : BitVec 32 := 1#32
  ⟨c0_i32_3, v6, c1_i32_4⟩
def k0_off2 (k0_t2 : Fin k0_t2_loop.trips) (c0_i32_7 : BitVec 32) : Fin 2 → Nat :=
  let c0_i32_8 : BitVec 32 := 0#32
  let v9 : Index := Scalar.indexCast c0_i32_8
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v8 : BitVec 32 := Scalar.addi v7 c0_i32_7
  let v10 : Index := Scalar.indexCast v8
  ![0, v10.toNat]
def k0_off3 (k0_t2 : Fin k0_t2_loop.trips) (c0_i32_22 : BitVec 32) : Fin 2 → Nat :=
  let c1_i32_23 : BitVec 32 := 1#32
  let v69 : Index := Scalar.indexCast c1_i32_23
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v68 : BitVec 32 := Scalar.addi v7 c0_i32_22
  let v70 : Index := Scalar.indexCast v68
  ![1, v70.toNat]
def k0_off4 (k0_t2 : Fin k0_t2_loop.trips) (c0_i32_38 : BitVec 32) : Fin 2 → Nat :=
  let c2_i32_39 : BitVec 32 := 2#32
  let v129 : Index := Scalar.indexCast c2_i32_39
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v128 : BitVec 32 := Scalar.addi v7 c0_i32_38
  let v130 : Index := Scalar.indexCast v128
  ![2, v130.toNat]
def k0_off5 (k0_t2 : Fin k0_t2_loop.trips) (c0_i32_54 : BitVec 32) : Fin 2 → Nat :=
  let c3_i32 : BitVec 32 := 3#32
  let v189 : Index := Scalar.indexCast c3_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v188 : BitVec 32 := Scalar.addi v7 c0_i32_54
  let v190 : Index := Scalar.indexCast v188
  ![3, v190.toNat]
def k0_off6 (k0_t2 : Fin k0_t2_loop.trips) (c0_i32_69 : BitVec 32) : Fin 2 → Nat :=
  let c4_i32_70 : BitVec 32 := 4#32
  let v249 : Index := Scalar.indexCast c4_i32_70
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v248 : BitVec 32 := Scalar.addi v7 c0_i32_69
  let v250 : Index := Scalar.indexCast v248
  ![4, v250.toNat]
def k0_off7 (k0_t2 : Fin k0_t2_loop.trips) (c0_i32_85 : BitVec 32) : Fin 2 → Nat :=
  let c5_i32 : BitVec 32 := 5#32
  let v309 : Index := Scalar.indexCast c5_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v308 : BitVec 32 := Scalar.addi v7 c0_i32_85
  let v310 : Index := Scalar.indexCast v308
  ![5, v310.toNat]
def k0_off8 (k0_t2 : Fin k0_t2_loop.trips) (c0_i32_100 : BitVec 32) : Fin 2 → Nat :=
  let c6_i32 : BitVec 32 := 6#32
  let v369 : Index := Scalar.indexCast c6_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v368 : BitVec 32 := Scalar.addi v7 c0_i32_100
  let v370 : Index := Scalar.indexCast v368
  ![6, v370.toNat]
def k0_off9 (k0_t2 : Fin k0_t2_loop.trips) (c0_i32_115 : BitVec 32) : Fin 2 → Nat :=
  let c7_i32 : BitVec 32 := 7#32
  let v429 : Index := Scalar.indexCast c7_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v428 : BitVec 32 := Scalar.addi v7 c0_i32_115
  let v430 : Index := Scalar.indexCast v428
  ![7, v430.toNat]
def k0_off10 (k0_t2 : Fin k0_t2_loop.trips) (c0_i32_130 : BitVec 32) : Fin 2 → Nat :=
  let c8_i32 : BitVec 32 := 8#32
  let v489 : Index := Scalar.indexCast c8_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v488 : BitVec 32 := Scalar.addi v7 c0_i32_130
  let v490 : Index := Scalar.indexCast v488
  ![8, v490.toNat]
def k0_off11 (k0_t2 : Fin k0_t2_loop.trips) (c0_i32_145 : BitVec 32) : Fin 2 → Nat :=
  let c9_i32 : BitVec 32 := 9#32
  let v549 : Index := Scalar.indexCast c9_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v548 : BitVec 32 := Scalar.addi v7 c0_i32_145
  let v550 : Index := Scalar.indexCast v548
  ![9, v550.toNat]
def k0_off12 (k0_t2 : Fin k0_t2_loop.trips) (c0_i32_160 : BitVec 32) : Fin 2 → Nat :=
  let c10_i32 : BitVec 32 := 10#32
  let v609 : Index := Scalar.indexCast c10_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v608 : BitVec 32 := Scalar.addi v7 c0_i32_160
  let v610 : Index := Scalar.indexCast v608
  ![10, v610.toNat]
def k0_off13 (k0_t2 : Fin k0_t2_loop.trips) (c0_i32_175 : BitVec 32) : Fin 2 → Nat :=
  let c11_i32 : BitVec 32 := 11#32
  let v669 : Index := Scalar.indexCast c11_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v668 : BitVec 32 := Scalar.addi v7 c0_i32_175
  let v670 : Index := Scalar.indexCast v668
  ![11, v670.toNat]
def k0_off14 (k0_t2 : Fin k0_t2_loop.trips) (c0_i32_190 : BitVec 32) : Fin 2 → Nat :=
  let c12_i32 : BitVec 32 := 12#32
  let v729 : Index := Scalar.indexCast c12_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v728 : BitVec 32 := Scalar.addi v7 c0_i32_190
  let v730 : Index := Scalar.indexCast v728
  ![12, v730.toNat]
def k0_off15 (k0_t2 : Fin k0_t2_loop.trips) (c0_i32_205 : BitVec 32) : Fin 2 → Nat :=
  let c13_i32 : BitVec 32 := 13#32
  let v789 : Index := Scalar.indexCast c13_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v788 : BitVec 32 := Scalar.addi v7 c0_i32_205
  let v790 : Index := Scalar.indexCast v788
  ![13, v790.toNat]
def k0_off16 (k0_t2 : Fin k0_t2_loop.trips) (c0_i32_220 : BitVec 32) : Fin 2 → Nat :=
  let c14_i32 : BitVec 32 := 14#32
  let v849 : Index := Scalar.indexCast c14_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v848 : BitVec 32 := Scalar.addi v7 c0_i32_220
  let v850 : Index := Scalar.indexCast v848
  ![14, v850.toNat]
def k0_off17 (k0_t2 : Fin k0_t2_loop.trips) (c0_i32_235 : BitVec 32) : Fin 2 → Nat :=
  let c15_i32 : BitVec 32 := 15#32
  let v909 : Index := Scalar.indexCast c15_i32
  let c0_i32_3 : BitVec 32 := 0#32
  let c1_i32_4 : BitVec 32 := 1#32
  let arg8 : BitVec 32 := Scf.iv c0_i32_3 c1_i32_4 k0_t2
  let c64_i32_6 : BitVec 32 := 64#32
  let v7 : BitVec 32 := Scalar.muli arg8 c64_i32_6
  let v908 : BitVec 32 := Scalar.addi v7 c0_i32_235
  let v910 : Index := Scalar.indexCast v908
  ![15, v910.toNat]
abbrev grid1 : Pipeline.Grid := ⟨3, ![2, 2, 4], ![false, false, false]⟩

def k1_cond3 (i : grid1.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 4, 2], ![false, false, false]⟩

def k3_cond3 (i : grid3.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, false]

abbrev stage3_4 : Fin 2 → Memref sig .tc .vmem S2048x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S1x16 : 0 < S1x16.numel
  shapeCasts_S1x16_S16 : S1x16.ShapeCasts S16
  shapeCasts_S16_S1x16 : S16.ShapeCasts S1x16
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  dot_S2048x2048_S1024x2048_S2048x1024_1_1_0_0_n_n_wf : DotDims.WF S2048x2048 S1024x2048 S2048x1024 [1] [1] [0] [0] [] []
  hcc0_scoped0 : 0 + S_.numel ≤ 27
  hcc0_scoped1 : 1 + S_.numel ≤ 27
  hcc0_scoped2 : 2 + S_.numel ≤ 27
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S16x2048.size a ≤ S2048x2048.size a
  k0_t2_ok : k0_t2_loop.OK
  k0_off2_inb : ∀ k0_t2 : Fin k0_t2_loop.trips, ∀ (r : Fin 4), ∀ a, (k0_off2 k0_t2 (BitVec.ofNat 32 (16 * r.val))) a + S1x16.size a ≤ S16x2048.size a
  k0_off3_inb : ∀ k0_t2 : Fin k0_t2_loop.trips, ∀ (r : Fin 4), ∀ a, (k0_off3 k0_t2 (BitVec.ofNat 32 (16 * r.val))) a + S1x16.size a ≤ S16x2048.size a
  k0_off4_inb : ∀ k0_t2 : Fin k0_t2_loop.trips, ∀ (r : Fin 4), ∀ a, (k0_off4 k0_t2 (BitVec.ofNat 32 (16 * r.val))) a + S1x16.size a ≤ S16x2048.size a
  k0_off5_inb : ∀ k0_t2 : Fin k0_t2_loop.trips, ∀ (r : Fin 4), ∀ a, (k0_off5 k0_t2 (BitVec.ofNat 32 (16 * r.val))) a + S1x16.size a ≤ S16x2048.size a
  k0_off6_inb : ∀ k0_t2 : Fin k0_t2_loop.trips, ∀ (r : Fin 4), ∀ a, (k0_off6 k0_t2 (BitVec.ofNat 32 (16 * r.val))) a + S1x16.size a ≤ S16x2048.size a
  k0_off7_inb : ∀ k0_t2 : Fin k0_t2_loop.trips, ∀ (r : Fin 4), ∀ a, (k0_off7 k0_t2 (BitVec.ofNat 32 (16 * r.val))) a + S1x16.size a ≤ S16x2048.size a
  k0_off8_inb : ∀ k0_t2 : Fin k0_t2_loop.trips, ∀ (r : Fin 4), ∀ a, (k0_off8 k0_t2 (BitVec.ofNat 32 (16 * r.val))) a + S1x16.size a ≤ S16x2048.size a
  k0_off9_inb : ∀ k0_t2 : Fin k0_t2_loop.trips, ∀ (r : Fin 4), ∀ a, (k0_off9 k0_t2 (BitVec.ofNat 32 (16 * r.val))) a + S1x16.size a ≤ S16x2048.size a
  k0_off10_inb : ∀ k0_t2 : Fin k0_t2_loop.trips, ∀ (r : Fin 4), ∀ a, (k0_off10 k0_t2 (BitVec.ofNat 32 (16 * r.val))) a + S1x16.size a ≤ S16x2048.size a
  k0_off11_inb : ∀ k0_t2 : Fin k0_t2_loop.trips, ∀ (r : Fin 4), ∀ a, (k0_off11 k0_t2 (BitVec.ofNat 32 (16 * r.val))) a + S1x16.size a ≤ S16x2048.size a
  k0_off12_inb : ∀ k0_t2 : Fin k0_t2_loop.trips, ∀ (r : Fin 4), ∀ a, (k0_off12 k0_t2 (BitVec.ofNat 32 (16 * r.val))) a + S1x16.size a ≤ S16x2048.size a
  k0_off13_inb : ∀ k0_t2 : Fin k0_t2_loop.trips, ∀ (r : Fin 4), ∀ a, (k0_off13 k0_t2 (BitVec.ofNat 32 (16 * r.val))) a + S1x16.size a ≤ S16x2048.size a
  k0_off14_inb : ∀ k0_t2 : Fin k0_t2_loop.trips, ∀ (r : Fin 4), ∀ a, (k0_off14 k0_t2 (BitVec.ofNat 32 (16 * r.val))) a + S1x16.size a ≤ S16x2048.size a
  k0_off15_inb : ∀ k0_t2 : Fin k0_t2_loop.trips, ∀ (r : Fin 4), ∀ a, (k0_off15 k0_t2 (BitVec.ofNat 32 (16 * r.val))) a + S1x16.size a ≤ S16x2048.size a
  k0_off16_inb : ∀ k0_t2 : Fin k0_t2_loop.trips, ∀ (r : Fin 4), ∀ a, (k0_off16 k0_t2 (BitVec.ofNat 32 (16 * r.val))) a + S1x16.size a ≤ S16x2048.size a
  k0_off17_inb : ∀ k0_t2 : Fin k0_t2_loop.trips, ∀ (r : Fin 4), ∀ a, (k0_off17 k0_t2 (BitVec.ofNat 32 (16 * r.val))) a + S1x16.size a ≤ S16x2048.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x4096.size a
  hwx1_0 : ∀ i : grid1.Coords, EltTy.bits .f32 = 32 ∨ (Rect.block (s := S4096x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x4096.size a
  hwx1_1 : ∀ i : grid1.Coords, EltTy.bits .f32 = 32 ∨ (Rect.block (s := S2048x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S2048x4096.size a
  hwx1_2 : ∀ i : grid1.Coords, EltTy.bits .f32 = 32 ∨ (Rect.block (s := S2048x4096) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S4096x2048.size a
  hwx1_3 : ∀ i : grid1.Coords, EltTy.bits .bf16 = 32 ∨ (Rect.block (s := S4096x2048) S2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S4096x2048.size a
  hwx2_0 : ∀ i : grid2.Coords, EltTy.bits .bf16 = 32 ∨ (Rect.block (s := S4096x2048) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S2048x2048.size a
  hwx2_1 : ∀ i : grid2.Coords, EltTy.bits .f32 = 32 ∨ (Rect.block (s := S2048x2048) S1024x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S4096x2048.size a
  hwx2_2 : ∀ i : grid2.Coords, EltTy.bits .bf16 = 32 ∨ (Rect.block (s := S4096x2048) S2048x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S4096x2048.size a
  hwx3_0 : ∀ i : grid3.Coords, EltTy.bits .bf16 = 32 ∨ (Rect.block (s := S4096x2048) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x2048.size a
  hwx3_1 : ∀ i : grid3.Coords, EltTy.bits .f32 = 32 ∨ (Rect.block (s := S4096x2048) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x2048.size a
  hwx3_2 : ∀ i : grid3.Coords, EltTy.bits .f32 = 32 ∨ (Rect.block (s := S4096x2048) S1024x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x4096.size a
  hwx3_3 : ∀ i : grid3.Coords, EltTy.bits .f32 = 32 ∨ (Rect.block (s := S1x4096) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x1024.size a ≤ S4096x4096.size a
  hwx3_4 : ∀ i : grid3.Coords, EltTy.bits .f32 = 32 ∨ (Rect.block (s := S4096x4096) S2048x1024.size (cc3_transform_4 i) (hinb3_4 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x2048_S1024x2048_S2048x1024_1_1_0_0_n_n : DotDims S2048x2048 S1024x2048 S2048x1024 where
  lhsContracting := [1]
  rhsContracting := [1]
  lhsNonContracting := [0]
  rhsNonContracting := [0]
  lhsBatch := []
  rhsBatch := []
  wf := dot_S2048x2048_S1024x2048_S2048x1024_1_1_0_0_n_n_wf

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v1) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v4) S2048x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond3 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x2048 : Shape := ⟨2, ![4096, 2048]⟩
abbrev S2048x2048 : Shape := ⟨2, ![2048, 2048]⟩
abbrev S2048x4096 : Shape := ⟨2, ![2048, 4096]⟩
abbrev S4096 : Shape := ⟨1, ![4096]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S2048x2048, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x4096, .f32⟩
  | .hbm, ⟨7, _⟩ => ⟨S4096, .f32⟩
  | .hbm, ⟨8, _⟩ => ⟨S4096x2048, .f32⟩
  | .hbm, ⟨9, _⟩ => ⟨S2048x2048, .f32⟩
  | .hbm, ⟨10, _⟩ => ⟨S2048x4096, .f32⟩
  | .hbm, ⟨11, _⟩ => ⟨S4096x4096, .f32⟩
  | .hbm, ⟨12, _⟩ => ⟨S2048x4096, .f32⟩
  | .hbm, ⟨13, _⟩ => ⟨S2048x4096, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S2048x4096_S4096x4096_S2048x4096_1_0_0_1_n_n_wf : DotDims.WF S2048x4096 S4096x4096 S2048x4096 [1] [0] [0] [1] [] []
  dot_S2048x2048_S2048x4096_S2048x4096_1_0_0_1_n_n_wf : DotDims.WF S2048x2048 S2048x4096 S2048x4096 [1] [0] [0] [1] [] []
  dot_S4096x2048_S2048x4096_S4096x4096_1_0_0_1_n_n_wf : DotDims.WF S4096x2048 S2048x4096 S4096x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf
def dot_S2048x2048_S2048x4096_S2048x4096_1_0_0_1_n_n : DotDims S2048x2048 S2048x4096 S2048x4096 where
  lhsContracting := [1]
  rhsContracting := [0]
  lhsNonContracting := [0]
  rhsNonContracting := [1]
  lhsBatch := []
  rhsBatch := []
  wf := dot_S2048x2048_S2048x4096_S2048x4096_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KI.Setup.lean ====
/-
  The shared setting of the kernel's proof: the program as the SparseCore launch theorem sees it, the ghost state
  (the handshakes' rounds, the TensorCore pipelines' rounds, the local transfers' counters), the arrays the
  SparseCore call touches, how their rows are dealt to the 32 vector subcores, and what the handshakes carry.

  The SparseCore call computes the elementwise product s1 = W1 ∘ M1 of two 2048×2048 arrays: vector subcore s of
  SparseCore c takes the 64 rows [64·(2s + c), 64·(2s + c) + 64), so the 32 tasks partition the rows.
-/
import proofs.«214096_g36816459661730_cont_8to1_b_1468_17_alg».proof.Defs
import proofs.«214096_g36816459661730_cont_8to1_b_1468_17_alg».proof.Proof.Gen.KernelIdeal
import proofs.«214096_g36816459661730_cont_8to1_b_1468_17_alg».proof.Proof.Gen.KernelIdeal.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipelines' rounds library: the left of the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The launch memory and the arrays of the SparseCore call -/

variable (m : (ℓ : Loc nD τ sig) → Buf (Elt F) ℓ) (ρ : Dev nD → PrngReg)

abbrev wLoc (d : Dev nD) : Loc nD τ sig := (SparseCore.T d).loc main_arg2
abbrev mLoc (d : Dev nD) : Loc nD τ sig := (SparseCore.T d).loc main_arg5
abbrev oLoc (d : Dev nD) : Loc nD τ sig := (SparseCore.T d).loc main_v0

abbrev wV : Memref sig .scVector .hbm S2048x2048 .f32 := Memref.whole main_arg2_scv
abbrev mV : Memref sig .scVector .hbm S2048x2048 .f32 := Memref.whole main_arg5_scv
abbrev oV : Memref sig .scVector .hbm S2048x2048 .f32 := Memref.whole main_v0_scv

/-- 32 blocks of 64 rows. -/
theorem hdiv : 32 ∣ S2048x2048.size 0 := ⟨64, rfl⟩
abbrev rows (w : Fin 32) : Rect S2048x2048 := Rect.part (s := S2048x2048) (a₀ := 0) hdiv w
abbrev rowSet (w : Fin 32) : Finset S2048x2048.Idx := ((wV : Memref sig .scVector .hbm S2048x2048 .f32).view.slice (rows w)).set

/-- The block of rows of vector subcore `i` of SparseCore `c`: number 2·i + c. -/
def wid (c : Fin 2) (i : Fin 16) : Fin 32 := ⟨2 * i.val + c.val, by omega⟩

variable [FloatOps F]

/-- The SparseCore call's result: the elementwise product of the two arrays as launched. -/
def s1Val (d : Dev nD) : Buf (Elt F) (oLoc d) := mulf (m (wLoc d)) (m (mLoc d))

/-! ## What the handshakes carry -/

abbrev wRowPts (d : Dev nD) (w : Fin 32) : sProp 𝕄 := wLoc d ↦[rowSet w]{fullShare} m (wLoc d)
abbrev mRowPts (d : Dev nD) (w : Fin 32) : sProp 𝕄 := mLoc d ↦[rowSet w]{fullShare} m (mLoc d)
abbrev oRowPts (d : Dev nD) (w : Fin 32) (f : Buf (Elt F) (oLoc d)) : sProp 𝕄 := oLoc d ↦[rowSet w]{fullShare} f

/-- What a task is handed: its block of rows of the two operands at their launch contents, and of the result at any
    contents. -/
def goP (d : Dev nD) (w : Fin 32) : sProp 𝕄 := iprop(wRowPts m d w ∗ mRowPts m d w ∗ ∃ f, oRowPts d w f)
/-- What it hands back: the operands' rows unchanged, the result's rows at the product. -/
def tdP (d : Dev nD) (w : Fin 32) : sProp 𝕄 := iprop(wRowPts m d w ∗ mRowPts m d w ∗ oRowPts d w (s1Val m d))

instance goP_storable (d : Dev nD) (w : Fin 32) : BI.Storable (upEmb : UEmb _ 𝕄) (goP m d w) := by unfold goP; infer_instance
instance tdP_storable (d : Dev nD) (w : Fin 32) : BI.Storable (upEmb : UEmb _ 𝕄) (tdP m d w) := by unfold tdP; infer_instance

/-- The one SparseCore call: a SparseCore is handed its sixteen tasks' rows and hands them back, each task its own. -/
def P : (K (F := F)).Pay (nD := nD) (Val := Elt F) (Name := ℕ) (U := UU) where
  st := fun q d c => match q with | 0 => bigSep Finset.univ fun i : Fin 16 => goP m d (wid (Fin.cast nCore_zero c) i)
  dn := fun q d c => match q with | 0 => bigSep Finset.univ fun i : Fin 16 => tdP m d (wid (Fin.cast nCore_zero c) i)
  go := fun q d c i => match q with | 0 => goP m d (wid (Fin.cast nCore_zero c) (Fin.cast nSub_zero i))
  td := fun q d c i => match q with | 0 => tdP m d (wid (Fin.cast nCore_zero c) (Fin.cast nSub_zero i))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KI

end
-- ==== Proof.KI.Thread.lean ====
/-
  The buffers' contents threaded through @main, over proof data for the three regions given as a bundle: the launch
  contents; after the SparseCore call the product s1 = W1 ∘ M1 in its result array; after each region that region's
  arrays at what its pipeline leaves; after the reshape the bias as a row.
-/
import proofs.«214096_g36816459661730_cont_8to1_b_1468_17_alg».proof.Proof.KI.Setup
import Idealize.ShloMosaic.Lib.Pipeline.FrameBody
import Idealize.ShloMosaic.Lib.Pipeline.RegionsLoop
import Idealize.ShloMosaic.Lib.Pipeline.FrameSuffix

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Pipeline (Dat Seg HostSeg RegionSeg BodyObligation)

variable {F : FTy → Type} [FloatOps F]

local notation "𝕄" => MT nD τ sig (HIx 1) (Elt F) ℕ UU ℕ

/-! ## What a region's proof supplies -/

/-- The proof data of one pipelined region at any entry contents of the TensorCore's buffers, with what the launch
    asks of them: the arrays are the entry contents, full shares, nothing owed, the body obligation, and the invariant
    entered from (and left at) the generator register and the scoped buffers no window stages. -/
structure RegionData (cfg : Pipeline.Cfg sig Λ₀) where
  dat : ((c : Dev nD) → (b : Ref sig .tc) → Buf (Elt F) ((c.tc : Thread nD τ).loc b)) → (c : Dev nD) → Dat τ (Elt F) (HIx 1) ℕ UU ℕ cfg c
  A_eq : ∀ V c (w : Fin cfg.W), (dat V c).A w = V c (Pipeline.arrRef (fun w => (cfg.win w).toWinSpec) w)
  q_full : ∀ V c (w : Fin cfg.W), (dat V c).q w = fullShare
  owed : ∀ V c t, (dat V c).owed t = 0
  recorded : ∀ V c t, (dat V c).recorded t = Set.univ
  body : ∀ V c, BodyObligation (dat V c) (defs₀ (F := F)) Variants.none (none : HIx 1) Set.univ
  hin : ∀ V c, iprop((∃ r, prngReg c r) ∗ Pipeline.scopedRest (fun w => (cfg.win w).toWinSpec) c) ⊢ ((dat V c).Φ 0 : sProp 𝕄)
  hout : ∀ V c, ((dat V c).Φ (Fin.last cfg.N) : sProp 𝕄) ⊢ iprop((∃ r, prngReg c r) ∗ Pipeline.scopedRest (fun w => (cfg.win w).toWinSpec) c)

variable (m : (ℓ : Loc nD τ sig) → Buf (Elt F) ℓ) (ρ : Dev nD → PrngReg)
variable (R1 : RegionData (F := F) cfg1) (R2 : RegionData (F := F) cfg2) (R3 : RegionData (F := F) cfg3)

/-! ## The buffers' contents through @main -/

/-- The one host operation of @main: the bias as a row. -/
abbrev opR : HloOp τ sig (Elt F) := StableHlo.reshape main_arg7 main_v3 rfl shapeCasts_S4096_S1x4096
abbrev hostOpsR : List (HloOp τ sig (Elt F)) := [opR]

/-- At launch. -/
abbrev W0 : Dev nD → Valuation τ sig (Elt F) := fun c b => m (c, b)
/-- After the SparseCore call: its result array at the product. -/
def W1 (c : Dev nD) : Valuation τ sig (Elt F) := Function.update (W0 m c) (Proc.devRef .tc main_v0) (s1Val m c)
abbrev V1 : (c : Dev nD) → (b : Ref sig .tc) → Buf (Elt F) ((c.tc : Thread nD τ).loc b) := fun c b => W1 m c (Proc.devRef .tc b)
/-- After the first region. -/
def W2 (c : Dev nD) : Valuation τ sig (Elt F) :=
  Pipeline.withArrays spec1 c (W1 m c) fun w => (R1.dat (V1 m) c).arrAt w cfg1.N
abbrev V2 : (c : Dev nD) → (b : Ref sig .tc) → Buf (Elt F) ((c.tc : Thread nD τ).loc b) := fun c b => W2 m R1 c (Proc.devRef .tc b)
/-- After the second region. -/
def W3 (c : Dev nD) : Valuation τ sig (Elt F) :=
  Pipeline.withArrays spec2 c (W2 m R1 c) fun w => (R2.dat (V2 m R1) c).arrAt w cfg2.N
/-- After the reshape. -/
abbrev W4 : Dev nD → Valuation τ sig (Elt F) := fun c => StableHlo.after hostOpsR (W3 m R1 R2 c)
abbrev V4 : (c : Dev nD) → (b : Ref sig .tc) → Buf (Elt F) ((c.tc : Thread nD τ).loc b) := fun c b => W4 m R1 R2 c (Proc.devRef .tc b)
/-- After the third region. -/
def W5 (c : Dev nD) : Valuation τ sig (Elt F) :=
  Pipeline.withArrays spec3 c (W4 m R1 R2 c) fun w => (R3.dat (V4 m R1 R2) c).arrAt w cfg3.N

theorem W2_arr (c : Dev nD) (w : Fin cfg1.W) :
    W2 m R1 c (Proc.devRef .tc (Pipeline.arrRef spec1 w)) = (R1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m R1 c (Proc.devRef .tc b) = W1 m c (Proc.devRef .tc b) := by
  unfold W2; exact Pipeline.withArrays_of_ne spec1 c _ _ b hb
theorem W3_arr (c : Dev nD) (w : Fin cfg2.W) :
    W3 m R1 R2 c (Proc.devRef .tc (Pipeline.arrRef spec2 w)) = (R2.dat (V2 m R1) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m R1 R2 c (Proc.devRef .tc b) = W2 m R1 c (Proc.devRef .tc b) := by
  unfold W3; exact Pipeline.withArrays_of_ne spec2 c _ _ b hb
theorem W5_arr (c : Dev nD) (w : Fin cfg3.W) :
    W5 m R1 R2 R3 c (Proc.devRef .tc (Pipeline.arrRef spec3 w)) = (R3.dat (V4 m R1 R2) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m R1 R2 R3 c (Proc.devRef .tc b) = W4 m R1 R2 c (Proc.devRef .tc b) := by
  unfold W5; exact Pipeline.withArrays_of_ne spec3 c _ _ b hb

end Cert.Proof.KI

end
-- ==== Proof.KI.Launch.lean ====
/-
  The launch: @main on the TensorCore — the SparseCore call, then the three matrix products as pipelined regions with
  one reshape between — run from what the launch deals, over proof data for the three regions given as hypotheses.

  The buffers' contents are threaded through @main: the launch contents; after the SparseCore call the product
  s1 = W1 ∘ M1 in its result array; after each region that region's arrays at what its pipeline leaves; after the
  reshape the bias as a row.
-/
import proofs.«214096_g36816459661730_cont_8to1_b_1468_17_alg».proof.Proof.KI.Thread
import Idealize.ShloMosaic.Lib.Pipeline.FrameBody
import Idealize.ShloMosaic.Lib.Pipeline.RegionsLoop
import Idealize.ShloMosaic.Lib.Pipeline.FrameSuffix

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Pipeline (Dat Seg HostSeg RegionSeg BodyObligation)

variable {F : FTy → Type} [FloatOps F]

local notation "𝕄" => MT nD τ sig (HIx 1) (Elt F) ℕ UU ℕ

variable (m : (ℓ : Loc nD τ sig) → Buf (Elt F) ℓ) (ρ : Dev nD → PrngReg)
variable (R1 : RegionData (F := F) cfg1) (R2 : RegionData (F := F) cfg2) (R3 : RegionData (F := F) cfg3)

/-! ## The proof data family and the thread state -/

/-- No pipeline has a prefetched table. -/
abbrev adm : (p : Fin 3) → (pcfgs (F := F) p).Adm := fun p => (cfgs p).toPCfg_adm

/-- Every pipeline's proof data, each at its region's entry contents. -/
def pdats : (p : Fin 3) → (c : Dev nD) → Dat τ (Elt F) (HIx 1) ℕ UU ℕ (Pipeline.pin (pcfgs (F := F)) adm p) c
  | ⟨0, _⟩ => fun c => R1.dat (V1 m) c
  | ⟨1, _⟩ => fun c => R2.dat (V2 m R1) c
  | ⟨2, _⟩ => fun c => R3.dat (V4 m R1 R2) c

theorem hF1 (c : Dev nD) (w : Fin cfg1.W) : (pdats m R1 R2 R3 0 c).arrAt w cfg1.N = W2 m R1 c (Proc.devRef .tc (Pipeline.arrRef spec1 w)) :=
  (W2_arr m R1 c w).symm
theorem hrest1 (c : Dev nD) : ∀ b, b ∉ Finset.univ.image (Pipeline.arrRef spec1) → W2 m R1 c (Proc.devRef .tc b) = V1 m c b :=
  fun b hb => W2_of_ne m R1 c b fun w e => hb (Finset.mem_image.mpr ⟨w, Finset.mem_univ _, e⟩)
theorem hF2 (c : Dev nD) (w : Fin cfg2.W) : (pdats m R1 R2 R3 1 c).arrAt w cfg2.N = W3 m R1 R2 c (Proc.devRef .tc (Pipeline.arrRef spec2 w)) :=
  (W3_arr m R1 R2 c w).symm
theorem hrest2 (c : Dev nD) : ∀ b, b ∉ Finset.univ.image (Pipeline.arrRef spec2) → W3 m R1 R2 c (Proc.devRef .tc b) = V2 m R1 c b :=
  fun b hb => W3_of_ne m R1 R2 c b fun w e => hb (Finset.mem_image.mpr ⟨w, Finset.mem_univ _, e⟩)
theorem hF3 (c : Dev nD) (w : Fin cfg3.W) : (pdats m R1 R2 R3 2 c).arrAt w cfg3.N = W5 m R1 R2 R3 c (Proc.devRef .tc (Pipeline.arrRef spec3 w)) :=
  (W5_arr m R1 R2 R3 c w).symm
theorem hrest3 (c : Dev nD) : ∀ b, b ∉ Finset.univ.image (Pipeline.arrRef spec3) → W5 m R1 R2 R3 c (Proc.devRef .tc b) = V4 m R1 R2 c b :=
  fun b hb => W5_of_ne m R1 R2 R3 c b fun w e => hb (Finset.mem_image.mpr ⟨w, Finset.mem_univ _, e⟩)

/-- What rides beside the buffers through the TensorCore's segments: the generator register at some state, and the
    core owing nothing. -/
abbrev Rr (c : Dev nD) : sProp 𝕄 := iprop((∃ r, prngReg c r) ∗ ∃ W, owes (c : Thread nD τ) (0 : CellTallies nD τ sig (HIx 1)) W)

/-! ## The regions as segments -/

set_option backward.isDefEq.respectTransparency.types false in
/-- Region 0 (pallas_call 1) over the thread state: entered with every unscoped buffer at W1 m, left at W2 m R1.
    Its arrays are split out of the unscoped buffers and put back at the exit contents; the generator register goes into
    the region's invariant and comes back; nothing is owed; the kernel has no semaphore of its own. -/
def reg1 : RegionSeg (pcfgs (F := F)) adm (pdats m R1 R2 R3) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (R1.body (V1 m) c).loose
  hwaits := Pipeline.hwaits_of_owed_zero _ _ _ _ (K (F := F)).L (K (F := F)).lev 0 fun c t => R1.owed (V1 m) c t
  pre c := iprop(held (c : Thread nD τ) (Pipeline.ucRefs τ sig) (W1 m c) ∗ Rr c)
  post c := iprop(held (c : Thread nD τ) (Pipeline.ucRefs τ sig) (W2 m R1 c) ∗ Rr c)
  X c := iprop(∃ r, prngReg c r)
  Y c := iprop(∃ r, prngReg c r)
  Z c := Pipeline.unscopedRest (Ix := HIx 1) (Name := ℕ) (U := UU) (Lvl := ℕ) spec1 c (V1 m c)
  hentry c := by
    rw [Pipeline.ownSems0_none]
    have hsplit := Pipeline.arrays_of_unscopedBufs (p := 0) (pcfgs (F := F)) adm (pdats m R1 R2 R3) launch1.win launch1.arr_whole c
      ((pdats m R1 R2 R3 0 c).share_full fun w => R1.q_full (V1 m) c w) (V1 m c) fun w => R1.A_eq (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m R1 R2 R3 0 c).recorded 0 = Set.univ from R1.recorded (V1 m) c 0]; trivial)
      rw [show (pdats m R1 R2 R3 0 c).owed 0 = 0 from R1.owed (V1 m) c 0]
      iexact HO
    isplitl [Hp]; · iexact Hp
    iexact Hrest
  hin c := by
    have h := R1.hin (V1 m) c
    change _ ⊢ ((R1.dat (V1 m) c).Φ 0 : sProp 𝕄)
    iintro ⟨Hp, -, Hr⟩
    iapply h
    isplitl [Hp]; · iexact Hp
    iexact Hr
  hout c := by
    rw [Pipeline.ownSems0_none]
    refine (R1.hout (V1 m) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m R1 R2 R3) ((pdats m R1 R2 R3 0 c).share_full fun w => R1.q_full (V1 m) c w)
      (V1 m c) (fun b => W2 m R1 c (Proc.devRef .tc b)) ((pdats m R1 R2 R3 0 c).arrAt · cfg1.N) (hF1 m R1 R2 R3 c) (hrest1 m R1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m R1 R2 R3 0 c).owed (Fin.last _) = 0 from R1.owed (V1 m) c _]
    iexact HO

set_option backward.isDefEq.respectTransparency.types false in
/-- Region 1 (pallas_call 2) over the thread state: entered with every unscoped buffer at W2 m R1, left at W3 m R1 R2.
    Its arrays are split out of the unscoped buffers and put back at the exit contents; the generator register goes into
    the region's invariant and comes back; nothing is owed; the kernel has no semaphore of its own. -/
def reg2 : RegionSeg (pcfgs (F := F)) adm (pdats m R1 R2 R3) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (R2.body (V2 m R1) c).loose
  hwaits := Pipeline.hwaits_of_owed_zero _ _ _ _ (K (F := F)).L (K (F := F)).lev 1 fun c t => R2.owed (V2 m R1) c t
  pre c := iprop(held (c : Thread nD τ) (Pipeline.ucRefs τ sig) (W2 m R1 c) ∗ Rr c)
  post c := iprop(held (c : Thread nD τ) (Pipeline.ucRefs τ sig) (W3 m R1 R2 c) ∗ Rr c)
  X c := iprop(∃ r, prngReg c r)
  Y c := iprop(∃ r, prngReg c r)
  Z c := Pipeline.unscopedRest (Ix := HIx 1) (Name := ℕ) (U := UU) (Lvl := ℕ) spec2 c (V2 m R1 c)
  hentry c := by
    rw [Pipeline.ownSems0_none]
    have hsplit := Pipeline.arrays_of_unscopedBufs (p := 1) (pcfgs (F := F)) adm (pdats m R1 R2 R3) launch2.win launch2.arr_whole c
      ((pdats m R1 R2 R3 1 c).share_full fun w => R2.q_full (V2 m R1) c w) (V2 m R1 c) fun w => R2.A_eq (V2 m R1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m R1 R2 R3 1 c).recorded 0 = Set.univ from R2.recorded (V2 m R1) c 0]; trivial)
      rw [show (pdats m R1 R2 R3 1 c).owed 0 = 0 from R2.owed (V2 m R1) c 0]
      iexact HO
    isplitl [Hp]; · iexact Hp
    iexact Hrest
  hin c := by
    have h := R2.hin (V2 m R1) c
    change _ ⊢ ((R2.dat (V2 m R1) c).Φ 0 : sProp 𝕄)
    iintro ⟨Hp, -, Hr⟩
    iapply h
    isplitl [Hp]; · iexact Hp
    iexact Hr
  hout c := by
    rw [Pipeline.ownSems0_none]
    refine (R2.hout (V2 m R1) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m R1 R2 R3) ((pdats m R1 R2 R3 1 c).share_full fun w => R2.q_full (V2 m R1) c w)
      (V2 m R1 c) (fun b => W3 m R1 R2 c (Proc.devRef .tc b)) ((pdats m R1 R2 R3 1 c).arrAt · cfg2.N) (hF2 m R1 R2 R3 c) (hrest2 m R1 R2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m R1 R2 R3 1 c).owed (Fin.last _) = 0 from R2.owed (V2 m R1) c _]
    iexact HO

set_option backward.isDefEq.respectTransparency.types false in
/-- Region 2 (pallas_call 3) over the thread state: entered with every unscoped buffer at W4 m R1 R2, left at W5 m R1 R2 R3.
    Its arrays are split out of the unscoped buffers and put back at the exit contents; the generator register goes into
    the region's invariant and comes back; nothing is owed; the kernel has no semaphore of its own. -/
def reg3 : RegionSeg (pcfgs (F := F)) adm (pdats m R1 R2 R3) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (R3.body (V4 m R1 R2) c).loose
  hwaits := Pipeline.hwaits_of_owed_zero _ _ _ _ (K (F := F)).L (K (F := F)).lev 2 fun c t => R3.owed (V4 m R1 R2) c t
  pre c := iprop(held (c : Thread nD τ) (Pipeline.ucRefs τ sig) (W4 m R1 R2 c) ∗ Rr c)
  post c := iprop(held (c : Thread nD τ) (Pipeline.ucRefs τ sig) (W5 m R1 R2 R3 c) ∗ Rr c)
  X c := iprop(∃ r, prngReg c r)
  Y c := iprop(∃ r, prngReg c r)
  Z c := Pipeline.unscopedRest (Ix := HIx 1) (Name := ℕ) (U := UU) (Lvl := ℕ) spec3 c (V4 m R1 R2 c)
  hentry c := by
    rw [Pipeline.ownSems0_none]
    have hsplit := Pipeline.arrays_of_unscopedBufs (p := 2) (pcfgs (F := F)) adm (pdats m R1 R2 R3) launch3.win launch3.arr_whole c
      ((pdats m R1 R2 R3 2 c).share_full fun w => R3.q_full (V4 m R1 R2) c w) (V4 m R1 R2 c) fun w => R3.A_eq (V4 m R1 R2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m R1 R2 R3 2 c).recorded 0 = Set.univ from R3.recorded (V4 m R1 R2) c 0]; trivial)
      rw [show (pdats m R1 R2 R3 2 c).owed 0 = 0 from R3.owed (V4 m R1 R2) c 0]
      iexact HO
    isplitl [Hp]; · iexact Hp
    iexact Hrest
  hin c := by
    have h := R3.hin (V4 m R1 R2) c
    change _ ⊢ ((R3.dat (V4 m R1 R2) c).Φ 0 : sProp 𝕄)
    iintro ⟨Hp, -, Hr⟩
    iapply h
    isplitl [Hp]; · iexact Hp
    iexact Hr
  hout c := by
    rw [Pipeline.ownSems0_none]
    refine (R3.hout (V4 m R1 R2) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats m R1 R2 R3) ((pdats m R1 R2 R3 2 c).share_full fun w => R3.q_full (V4 m R1 R2) c w)
      (V4 m R1 R2 c) (fun b => W5 m R1 R2 R3 c (Proc.devRef .tc b)) ((pdats m R1 R2 R3 2 c).arrAt · cfg3.N) (hF3 m R1 R2 R3 c) (hrest3 m R1 R2 R3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m R1 R2 R3 2 c).owed (Fin.last _) = 0 from R3.owed (V4 m R1 R2) c _]
    iexact HO

/-! ## The reshape as a segment, and @main's tail as segments -/

theorem hostOpsR_sub : ∀ op ∈ (hostOpsR : List (HloOp τ sig (Elt F))), op.bufs ⊆ Pipeline.ucRefs τ sig := by
  intro op h
  obtain rfl := List.mem_singleton.mp h
  show ({Proc.devRef .tc main_arg7, Proc.devRef .tc main_v3} : Finset (DevRef τ sig)) ⊆ Pipeline.ucRefs τ sig
  decide
theorem hostOpsR_fresh : ∀ op ∈ (hostOpsR : List (HloOp τ sig (Elt F))), op.fresh = ∅ := by
  intro op h
  obtain rfl := List.mem_singleton.mp h
  rfl

/-- The reshape over the unscoped buffers from the contents after the second region. -/
abbrev hsegR : HostSeg (Name := ℕ) (U := UU) (pcfgs (F := F)) defs₀ 𝒱₀ (K (F := F)).L (K (F := F)).lev :=
  HostSeg.ofOps _ _ _ _ _ (Pipeline.ucRefs τ sig) hostOpsR hostOpsR_sub hostOpsR_fresh (W3 m R1 R2) Rr

/-- @main after the SparseCore call: region, region, reshape, region. -/
abbrev segs : List (Seg (pcfgs (F := F)) adm (pdats m R1 R2 R3) (none : HIx 1) defs₀ 𝒱₀ (K (F := F)).L (K (F := F)).lev) :=
  [ .region (reg1 m R1 R2 R3), .region (reg2 m R1 R2 R3), .host (hsegR m R1 R2), .region (reg3 m R1 R2 R3) ]

/-- @main is the SparseCore call followed by the segments' run, lifted to the program's body table. -/
theorem main_eq (d : Dev nD) :
    main (F := F) d = ((K (F := F)).run d 0 >>= fun _ => SparseCore.liftProg (Seg.run (segs m R1 R2 R3))) := by
  rfl

/-! ## The launch element -/

/-- What the launch leaves each TensorCore for the regions: the rounds ghost state of the three pipelines' cells. -/
abbrev G (d : Dev nD) : sProp 𝕄 := Pipeline.ghostOn (pcfgs (F := F)) adm EP Finset.univ d

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hghost : iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun c : Dev nD => G (F := F) c := by
    rw [← bigSep_sep']
    exact bigSep_mono fun c _ => show iprop((bigSep Finset.univ fun p => Pipeline.cellsGhost (Pipeline.pin (pcfgs (F := F)) adm) EP p c)
          ∗ bigSep Finset.univ fun p => (Pipeline.toksInit (Pipeline.pin (pcfgs (F := F)) adm) EP p c : sProp 𝕄))
        ⊢ Pipeline.ghostOn (pcfgs (F := F)) adm EP Finset.univ c
      from Entails.of_eq (by unfold Pipeline.ghostOn Pipeline.PerCore.ghostOn; rw [bigSep_sep'])
  unfold u₀
  iintro Hu
  ihave H := (ownU_pair _ _) $$ Hu
  icases H with ⟨HH, HR⟩
  ihave HR' := (show (BI.own (embR (initOf (Pipeline.cells (Pipeline.pin (pcfgs (F := F)) adm) cellOf_inj) (Pipeline.launchToks (Pipeline.pin (pcfgs (F := F)) adm) cellOf_inj), (1 : Counters))) : sProp 𝕄)
      ⊢ BI.own (EP (initOf (Pipeline.cells (Pipeline.pin (pcfgs (F := F)) adm) cellOf_inj) (Pipeline.launchToks (Pipeline.pin (pcfgs (F := F)) adm) cellOf_inj))) from .rfl) $$ HR
  imod (Pipeline.fund_ghost (Pipeline.pin (pcfgs (F := F)) adm) EP cellOf_inj) $$ HR' with ⟨Hg, Ht⟩
  imodintro
  isplitl [HH]; · iexact HH
  isplitl [Hg Ht]
  · iapply hghost; isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The SparseCore call's three arrays among the unscoped buffers -/

abbrev w' : DevRef τ sig := Proc.devRef .tc (main_arg2 : Ref sig .tc)
abbrev m' : DevRef τ sig := Proc.devRef .tc (main_arg5 : Ref sig .tc)
abbrev o' : DevRef τ sig := Proc.devRef .tc (main_v0 : Ref sig .tc)
abbrev T3 : Finset (DevRef τ sig) := {w', m', o'}
theorem T3_sub : T3 ⊆ Pipeline.ucRefs τ sig := by decide

theorem held_T3 (d : Dev nD) (W : Valuation τ sig (Elt F)) :
    (held (T d) T3 W : sProp 𝕄) = iprop((wLoc d ↦{fullShare} W w') ∗ (mLoc d ↦{fullShare} W m') ∗ oLoc d ↦{fullShare} W o') := by
  unfold held T3
  rw [SparseCore.bigSep_insert' (by decide), SparseCore.bigSep_insert' (by decide), bigSep_singleton]

theorem W1_w (d : Dev nD) : W1 m d w' = m (wLoc d) := Function.update_of_ne (show w' ≠ o' by decide) _ _
theorem W1_m (d : Dev nD) : W1 m d m' = m (mLoc d) := Function.update_of_ne (show m' ≠ o' by decide) _ _
theorem W1_o (d : Dev nD) : W1 m d o' = s1Val m d := Function.update_self _ _ _
theorem held_rest_W1 (d : Dev nD) :
    (held (T d) (Pipeline.ucRefs τ sig \ T3) (W1 m d) : sProp 𝕄) = held (T d) (Pipeline.ucRefs τ sig \ T3) (W0 m d) :=
  held_congr (T d) fun b hb => Function.update_of_ne (fun e => (Finset.mem_sdiff.mp hb).2 (by subst e; decide)) _ _

/-- The three arrays back from the call, the result at the product, beside the other unscoped buffers: every
    unscoped buffer at the contents after the call. -/
theorem held_W1_intro (d : Dev nD) :
    iprop((wLoc d ↦{fullShare} m (wLoc d)) ∗ (mLoc d ↦{fullShare} m (mLoc d)) ∗ (oLoc d ↦{fullShare} s1Val m d)
        ∗ held (T d) (Pipeline.ucRefs τ sig \ T3) (W0 m d))
      ⊢ (held (T d) (Pipeline.ucRefs τ sig) (W1 m d) : sProp 𝕄) := by
  rw [held_sub_split (T d) T3_sub (W1 m d), held_T3, W1_w, W1_m, W1_o, held_rest_W1]
  iintro ⟨Hw, Hm, Ho, Hr⟩
  isplitr [Hr]
  · isplitl [Hw]; · iexact Hw
    isplitl [Hm]; · iexact Hm
    iexact Ho
  iexact Hr

/-! ## The TensorCore's handshake state after the one call -/

/-- With one SparseCore call every recorded wait sits at or below level 8. -/
theorem wbelow_any (d : Dev nD) (W : Waits sig (HIx 1)) : (K (F := F)).WBelow (T d) W (8 * 1) := by
  intro p _
  rcases p with ⟨sm, ι⟩
  cases ι with
  | none => show (K (F := F)).lev (T d, sm) none ≤ 8; rw [SparseCore.Cfg.lev_none]; omega
  | some q =>
    have h := (K (F := F)).lev_some_le (T d, sm) q
    have hq : q.val = 0 := by omega
    show (K (F := F)).lev (T d, sm) (some q) ≤ 8
    omega

/-- After its one call the TensorCore owes nothing: its `owes` can be lent out and, returned with any recorded
    waits, restores the handshake state. -/
theorem tcSt_owes (d : Dev nD) :
    ((K (F := F)).tcSt EH d ((0 : Fin 1).val + 1) : sProp 𝕄)
      ⊢ iprop((∃ W, owes (T d) (0 : CellTallies nD τ sig (HIx 1)) W)
          ∗ ((∃ W, owes (T d) (0 : CellTallies nD τ sig (HIx 1)) W) -∗ (K (F := F)).tcSt EH d 1)) := by
  show ((K (F := F)).tcSt EH d 1 : sProp 𝕄) ⊢ _
  unfold SparseCore.Cfg.tcSt
  rw [(K (F := F)).Otc_end d (le_refl 1)]
  iintro ⟨⟨%W, -, HO⟩, Hr⟩
  isplitl [HO]; · iexists W; iexact HO
  iintro ⟨%W', HO'⟩
  isplitl [HO']
  · iexists W'; isplitr
    · ipureintro; exact wbelow_any d W'
    · iexact HO'
  iexact Hr

/-! ## @main on the TensorCore -/

/-- What @main leaves the claim: every unscoped buffer at the last contents. -/
abbrev FIN (d : Dev nD) : sProp 𝕄 := held (T d) (Pipeline.ucRefs τ sig) (W5 m R1 R2 R3 d)

set_option backward.isDefEq.respectTransparency.types false in
/-- @main on device `d`'s TensorCore: the SparseCore call (its three arrays out of the unscoped buffers and back,
    the result at the product), then the three regions and the reshape as segments, entered from the region boundary,
    the unscoped buffers, the generator register, the core owing nothing, and the pipelines' ghost state. -/
theorem hmain
    (hst0 : ∀ d : Dev nD, iprop((wLoc d ↦{fullShare} m (wLoc d)) ∗ (mLoc d ↦{fullShare} m (mLoc d)) ∗ ∃ f : Buf (Elt F) (oLoc d), oLoc d ↦{fullShare} f)
      ⊢ (bigSep Finset.univ fun c : Fin ((K (F := F)).nCore 0) => (P m).st 0 d c : sProp 𝕄))
    (hdn0 : ∀ d : Dev nD, (bigSep Finset.univ fun c : Fin ((K (F := F)).nCore 0) => (P m).dn 0 d c : sProp 𝕄)
      ⊢ iprop((wLoc d ↦{fullShare} m (wLoc d)) ∗ (mLoc d ↦{fullShare} m (mLoc d)) ∗ oLoc d ↦{fullShare} s1Val m d))
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R1 R2 R3 d) := by
  unfold SparseCore.Cfg.tcRes
  rw [Pipeline.unscopedBufs_held d (W0 m d), main_eq m R1 R2 R3 d, wp_bind]
  iintro ⟨#Hctx, Hst, ⟨Hb, Hheld, -, Hpr⟩, HG⟩
  ihave Hh := (Entails.of_eq (held_sub_split (T d) T3_sub (W0 m d))) $$ Hheld
  icases Hh with ⟨H3, Hrest⟩
  ihave H3' := (Entails.of_eq (held_T3 (F := F) d _)) $$ H3
  icases H3' with ⟨Hw, Hm, Ho⟩
  iapply ((K (F := F)).wp_run (D (F := F)) 𝒱 (EH := EH) (P := P m) κ d 0) $$ [Hst Hw Hm Ho Hb Hrest Hpr HG]
  isplitr; · iexact Hctx
  isplitl [Hst]; · iexact Hst
  isplitl [Hw Hm Ho]
  · iapply (hst0 d)
    isplitl [Hw]; · iexact Hw
    isplitl [Hm]; · iexact Hm
    iexists _; iexact Ho
  iintro ⟨Hst, Hdn⟩
  ihave Hdn' := (hdn0 d) $$ Hdn
  icases Hdn' with ⟨Hw, Hm, Ho⟩
  ihave Hheld := (held_W1_intro m d) $$ [Hw Hm Ho Hrest]
  · isplitl [Hw]; · iexact Hw
    isplitl [Hm]; · iexact Hm
    isplitl [Ho]; · iexact Ho
    iexact Hrest
  ihave Hs := (tcSt_owes (F := F) d) $$ Hst
  icases Hs with ⟨HO, Hback⟩
  iapply ((K (F := F)).wp_liftProg (D (F := F)) 𝒱 (T d) Set.univ none _ _)
  iapply (Pipeline.wp_segs (pcfgs (F := F)) adm (pdats m R1 R2 R3) (none : HIx 1) cellOf_inj EP defs₀ 𝒱₀ (K (F := F)).L (K (F := F)).lev d
      (segs m R1 R2 R3) Finset.univ
      (fun c => iprop(held (c : Thread nD τ) (Pipeline.ucRefs τ sig) (W1 m c) ∗ Rr c))
      (fun c => iprop(held (c : Thread nD τ) (Pipeline.ucRefs τ sig) (W5 m R1 R2 R3 c) ∗ Rr c))
      (by simp only [segs, Seg.pipes_host, Seg.pipes_region, Seg.pipes_nil]; decide) (fun p _ => Finset.mem_univ p)
      ⟨fun _ => .rfl, fun _ => .rfl, fun _ => .rfl, fun _ => .rfl, fun _ => .rfl⟩)
  isplitl [Hback]
  · iintro ⟨-, Hh, -, HO⟩
    isplitl [Hback HO]; · iapply Hback; iexact HO
    iexact Hh
  isplitl [Hb]; · iexact Hb
  isplitl [Hheld Hpr HO]
  · isplitl [Hheld]; · iexact Hheld
    isplitl [Hpr]; · iexists _; iexact Hpr
    iexact HO
  isplitr; · iapply (SparseCore.Cfg.ctx_levAts κ); iexact Hctx
  iexact HG

/-! ## Reading the claim off the final memory -/

def fq (d : Dev nD) (s' : Phys nD τ sig (Elt F)) : Prop := ∀ b ∈ Pipeline.ucRefs τ sig, s'.mem.mem (d, b) = W5 m R1 R2 R3 d b

theorem hfin (d : Dev nD) (s' : Phys nD τ sig (Elt F)) : iprop(FIN m R1 R2 R3 d ∗ SI s') ⊢ (⌜fq m R1 R2 R3 d s'⌝ : sProp 𝕄) := by
  show iprop((bigSep (Pipeline.ucRefs τ sig) fun b => (((T d : Thread nD τ).1, b) ↦{fullShare} W5 m R1 R2 R3 d b : sProp 𝕄)) ∗ SI s') ⊢ _
  iintro ⟨Hh, HSI⟩
  ihave Hr := (pointsTo_read_all (Pipeline.ucRefs τ sig) (fun b => ((T d : Thread nD τ).1, b)) (W5 m R1 R2 R3 d) s') $$ [Hh HSI]
  · isplitl [Hh] <;> iassumption
  icases Hr with ⟨%h, -⟩
  ipureintro; exact h

/-! ## The program's run -/

/-- Every unscoped buffer of every TensorCore ends at the last contents. -/
def QC : PUnit × MemSt nD τ sig (Elt F) → Prop := fun r => ∀ c : Dev nD, ∀ b ∈ Pipeline.ucRefs τ sig, r.2.mem (c, b) = W5 m R1 R2 R3 c b

/-- The program's run, from the SparseCore kernel's two obligations, the dealing of the call's arrays, and the three
    regions' proof data: every weakly fair execution of all the threads terminates, nothing faulting, and every
    unscoped buffer of every TensorCore ends at the last contents. -/
theorem run_main [∀ e, Nonempty (Elt F e)]
    (htile : (K (F := F)).TileObl (D (F := F)) 𝒱 (P m) v₀ 0) (hvec : (K (F := F)).VecSplit' (P m) 0)
    (hst0 : ∀ d : Dev nD, iprop((wLoc d ↦{fullShare} m (wLoc d)) ∗ (mLoc d ↦{fullShare} m (mLoc d)) ∗ ∃ f : Buf (Elt F) (oLoc d), oLoc d ↦{fullShare} f)
      ⊢ (bigSep Finset.univ fun c : Fin ((K (F := F)).nCore 0) => (P m).st 0 d c : sProp 𝕄))
    (hdn0 : ∀ d : Dev nD, (bigSep Finset.univ fun c : Fin ((K (F := F)).nCore 0) => (P m).dn 0 d c : sProp 𝕄)
      ⊢ iprop((wLoc d ↦{fullShare} m (wLoc d)) ∗ (mLoc d ↦{fullShare} m (mLoc d)) ∗ oLoc d ↦{fullShare} s1Val m d)) :
    θ_run (Cert.KernelIdeal.defs (F := F)) (Cert.KernelIdeal.threads (F := F)) ⟨m, fun _ => 0, ρ⟩ (QC m R1 R2 R3) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (fun d => G (F := F) d) (FIN m R1 R2 R3) (u₀ (F := F)) (sep_elim_left.trans (hu₀ m)) (hmain m ρ R1 R2 R3 hst0 hdn0)
    (fq m R1 R2 R3) (hfin m R1 R2 R3) (QC m R1 R2 R3) (fun _ h => h)

end Cert.Proof.KI

end
-- ==== Proof.KI.TileTrip.lean ====
import proofs.«214096_g36816459661730_cont_8to1_b_1468_17_alg».proof.Proof.KI.Setup
import proofs.«214096_g36816459661730_cont_8to1_b_1468_17_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## One trip of the inner loop: sixty-four 16-lane pieces of the two scratch rows multiplied in place

Trip `k` of the inner loop treats the columns `[64 k, 64 k + 64)` of the two 16 × 2048 scratch buffers: for each row
`r < 16` and each quarter `q < 4` it loads the 1 × 16 piece at `(r, 64 k + 16 q)` of both buffers and stores the
lane-wise product into the first. The pieces are pairwise disjoint, so every load reads what the first buffer held
before the trip, and after the trip it holds the product on the trip's columns and its old contents elsewhere. -/

section Tile
variable (d : Dev nD) (L : grid0.Coords)

abbrev cV (L : grid0.Coords) : Fin τ.nSC := (L 0).castLE hcore0
abbrev jV (L : grid0.Coords) : Fin τ.nSub := (L 1).castLE hsub0
abbrev sW : Memref sig .scVector .vmem S16x2048 .f32 := Memref.whole cc0_scratch0
abbrev sM : Memref sig .scVector .vmem S16x2048 .f32 := Memref.whole cc0_scratch1

/-- Row and column of an index of a 16 × 2048 scratch buffer. -/
abbrev row (y : S16x2048.Idx) : ℕ := (y (0 : Fin 2)).val
abbrev col (y : S16x2048.Idx) : ℕ := (y (1 : Fin 2)).val

/-- The lane-wise product of two 1 × 16 pieces, spelt as the program computes it (through the flat 16-lane vector). -/
def mulfPiece (a b : Vec F S1x16 .f32) : FVec F S1x16 .f32 :=
  shapeCast S1x16 (mulf (shapeCast S16 a shapeCasts_S1x16_S16) (shapeCast S16 b shapeCasts_S1x16_S16)) shapeCasts_S16_S1x16

theorem mulfPiece_apply (a b : Vec F S1x16 .f32) (x : S1x16.Idx) : mulfPiece a b x = FloatOps.mulf (a x) (b x) := by
  show FloatOps.mulf (a (Shape.reshapeEquiv _ (Shape.reshapeEquiv _ x))) (b (Shape.reshapeEquiv _ (Shape.reshapeEquiv _ x))) = _
  rw [Shape.reshapeEquiv_reshapeEquiv, Shape.reshapeEquiv_self]

/-- The column constant of quarter `q`. -/
def colC : Fin 4 → BitVec 32 := ![0#32, 16#32, 32#32, 48#32]
omit [FloatOps F] in
theorem colC_eq (q : Fin 4) : colC q = BitVec.ofNat 32 (16 * q.val) := by
  match q with
  | ⟨0, _⟩ => rfl
  | ⟨1, _⟩ => rfl
  | ⟨2, _⟩ => rfl
  | ⟨3, _⟩ => rfl

/-- The offsets of the piece of row `r` at column constant `c` in trip `k`, as the program computes them. -/
def offRow (k : Fin k0_t2_loop.trips) (c : BitVec 32) : Fin 16 → Fin 2 → ℕ :=
  ![k0_off2 k c, k0_off3 k c, k0_off4 k c, k0_off5 k c, k0_off6 k c, k0_off7 k c, k0_off8 k c, k0_off9 k c, k0_off10 k c, k0_off11 k c, k0_off12 k c, k0_off13 k c, k0_off14 k c, k0_off15 k c, k0_off16 k c, k0_off17 k c]

/-- In closed form: row `r`, column `64 k + 16 q`. -/
theorem offRow_eq (k : Fin k0_t2_loop.trips) (r : Fin 16) (q : Fin 4) :
    offRow k (colC q) r = ![r.val, 64 * k.val + 16 * q.val] := by
  rw [colC_eq]
  match r with
  | ⟨0, _⟩ => exact k0_off2_eq k q
  | ⟨1, _⟩ => exact k0_off3_eq k q
  | ⟨2, _⟩ => exact k0_off4_eq k q
  | ⟨3, _⟩ => exact k0_off5_eq k q
  | ⟨4, _⟩ => exact k0_off6_eq k q
  | ⟨5, _⟩ => exact k0_off7_eq k q
  | ⟨6, _⟩ => exact k0_off8_eq k q
  | ⟨7, _⟩ => exact k0_off9_eq k q
  | ⟨8, _⟩ => exact k0_off10_eq k q
  | ⟨9, _⟩ => exact k0_off11_eq k q
  | ⟨10, _⟩ => exact k0_off12_eq k q
  | ⟨11, _⟩ => exact k0_off13_eq k q
  | ⟨12, _⟩ => exact k0_off14_eq k q
  | ⟨13, _⟩ => exact k0_off15_eq k q
  | ⟨14, _⟩ => exact k0_off16_eq k q
  | ⟨15, _⟩ => exact k0_off17_eq k q
  | ⟨n + 16, h⟩ => exact absurd h (by omega)

theorem offRow_inb (k : Fin k0_t2_loop.trips) (r : Fin 16) (q : Fin 4) :
    ∀ a, offRow k (colC q) r a + S1x16.size a ≤ S16x2048.size a := by
  rw [offRow_eq]
  have hk : k.val < 32 := k.isLt
  have hr := r.isLt
  have hq := q.isLt
  intro a
  match a with
  | ⟨0, _⟩ => show r.val + 1 ≤ 16; omega
  | ⟨1, _⟩ => show 64 * k.val + 16 * q.val + 16 ≤ 2048; omega

/-- The rectangle of the piece of row `r`, quarter `q` in trip `k`. -/
abbrev pieceRect (k : Fin k0_t2_loop.trips) (rq : Fin 16 × Fin 4) : Rect S16x2048 :=
  Rect.unit (s := S16x2048) (offRow k (colC rq.2) rq.1) S1x16.size (offRow_inb k rq.1 rq.2)

omit [FloatOps F] in
theorem mem_pieceRect (k : Fin k0_t2_loop.trips) (rq : Fin 16 × Fin 4) (y : S16x2048.Idx) :
    y ∈ (pieceRect k rq).set ↔ row y = rq.1.val ∧ 64 * k.val + 16 * rq.2.val ≤ col y ∧ col y < 64 * k.val + 16 * rq.2.val + 16 := by
  unfold pieceRect
  rw [Rect.mem_set_unit, offRow_eq]
  constructor
  · intro h
    have h0 := h (0 : Fin 2)
    have h1 := h (1 : Fin 2)
    change rq.1.val ≤ row y ∧ row y < rq.1.val + 1 at h0
    change 64 * k.val + 16 * rq.2.val ≤ col y ∧ col y < 64 * k.val + 16 * rq.2.val + 16 at h1
    omega
  · intro h a
    match a with
    | ⟨0, _⟩ => show rq.1.val ≤ row y ∧ row y < rq.1.val + 1; omega
    | ⟨1, _⟩ => show 64 * k.val + 16 * rq.2.val ≤ col y ∧ col y < 64 * k.val + 16 * rq.2.val + 16; omega

variable (k : Fin k0_t2_loop.trips)
  (fw : (sW : Memref sig .scVector .vmem S16x2048 .f32).view.ty.Contents (Elt F))
  (fm : (sM : Memref sig .scVector .vmem S16x2048 .f32).view.ty.Contents (Elt F))

/-- The piece trip `k` stores at row `r`, quarter `q`: the product of what the two buffers hold there. -/
def piece (rq : Fin 16 × Fin 4) : View.Piece (Elt F) S16x2048 .f32 :=
  ⟨pieceRect k rq,
    mulfPiece (View.readAt (Elt F) (sW : Memref sig .scVector .vmem S16x2048 .f32).view (pieceRect k rq).toLoadRect fw)
      (View.readAt (Elt F) (sM : Memref sig .scVector .vmem S16x2048 .f32).view (pieceRect k rq).toLoadRect fm)⟩

/-- The trip's pieces, the last stored first. -/
def pairs : List (Fin 16 × Fin 4) := [(15, 3), (15, 2), (15, 1), (15, 0), (14, 3), (14, 2), (14, 1), (14, 0), (13, 3), (13, 2), (13, 1), (13, 0), (12, 3), (12, 2), (12, 1), (12, 0), (11, 3), (11, 2), (11, 1), (11, 0), (10, 3), (10, 2), (10, 1), (10, 0), (9, 3), (9, 2), (9, 1), (9, 0), (8, 3), (8, 2), (8, 1), (8, 0), (7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]
omit [FloatOps F] in
theorem pairs_mem : ∀ rq : Fin 16 × Fin 4, rq ∈ pairs := by decide

def tripPieces : List (View.Piece (Elt F) S16x2048 .f32) := pairs.map (piece k fw fm)

/-- What the first buffer holds after the trip: the product on the trip's columns, its old contents elsewhere. -/
theorem tripPieces_read (y : S16x2048.Idx) :
    (sW : Memref sig .scVector .vmem S16x2048 .f32).view.read (Elt F)
        (View.writes (sW : Memref sig .scVector .vmem S16x2048 .f32).view (Elt F) fw (tripPieces k fw fm)) y
      = if 64 * k.val ≤ col y ∧ col y < 64 * k.val + 64 then
          (FloatOps.mulf ((sW : Memref sig .scVector .vmem S16x2048 .f32).view.read (Elt F) fw y : F .f32)
            ((sM : Memref sig .scVector .vmem S16x2048 .f32).view.read (Elt F) fm y : F .f32) : F .f32)
        else (sW : Memref sig .scVector .vmem S16x2048 .f32).view.read (Elt F) fw y := by
  split
  · rename_i h
    refine View.read_writes_apply_of_pieces (sW : Memref sig .scVector .vmem S16x2048 .f32).view fw
      (fun y => (FloatOps.mulf ((sW : Memref sig .scVector .vmem S16x2048 .f32).view.read (Elt F) fw y : F .f32)
            ((sM : Memref sig .scVector .vmem S16x2048 .f32).view.read (Elt F) fm y : F .f32) : F .f32)) (tripPieces k fw fm) ?_ y ?_
    · intro p hp x
      obtain ⟨rq, -, rfl⟩ := List.mem_map.mp hp
      exact mulfPiece_apply _ _ x
    · have hr : row y < 16 := (y (0 : Fin 2)).isLt
      have hq : (col y - 64 * k.val) / 16 < 4 := by omega
      refine ⟨piece k fw fm (⟨row y, hr⟩, ⟨(col y - 64 * k.val) / 16, hq⟩), List.mem_map.mpr ⟨_, pairs_mem _, rfl⟩, ?_⟩
      show y ∈ (pieceRect k _).set
      rw [mem_pieceRect]
      show row y = row y ∧ 64 * k.val + 16 * ((col y - 64 * k.val) / 16) ≤ col y ∧ col y < 64 * k.val + 16 * ((col y - 64 * k.val) / 16) + 16
      omega
  · rename_i h
    refine View.read_writes_apply_of_forall_not_mem (sW : Memref sig .scVector .vmem S16x2048 .f32).view fw y _ ?_
    intro p hp hy
    obtain ⟨rq, -, rfl⟩ := List.mem_map.mp hp
    have := (mem_pieceRect k rq y).mp hy
    have hq := rq.2.isLt
    omega

set_option maxHeartbeats 1000000 in
/-- One trip, run: the first buffer takes the trip's pieces, the second is read only. -/
theorem trip2 (fw : Buf (Elt F) ((V d (cV L) (jV L)).loc cc0_scratch0)) (fm : Buf (Elt F) ((V d (cV L) (jV L)).loc cc0_scratch1)) :
    iprop(((sW : Memref sig .scVector .vmem S16x2048 .f32).view.loc (V d (cV L) (jV L)) ↦{fullShare} fw)
        ∗ ((sM : Memref sig .scVector .vmem S16x2048 .f32).view.loc (V d (cV L) (jV L)) ↦{fullShare} fm))
      ⊢ (wp frame (wpE (defs₀ (F := F)) 𝒱₀ (V d (cV L) (jV L)) none) Set.univ
          (k0_t2_body L wV (Memref.isWhole_whole _) mV (Memref.isWhole_whole _) oV (Memref.isWhole_whole _)
            sW (Memref.isWhole_whole _) sM (Memref.isWhole_whole _) cc0_scoped0 cc0_scoped1 cc0_scoped2 k ())
          fun _ => iprop(((sW : Memref sig .scVector .vmem S16x2048 .f32).view.loc (V d (cV L) (jV L)) ↦{fullShare}
                View.writes (sW : Memref sig .scVector .vmem S16x2048 .f32).view (Elt F) fw (tripPieces k fw fm))
            ∗ ((sM : Memref sig .scVector .vmem S16x2048 .f32).view.loc (V d (cV L) (jV L)) ↦{fullShare} fm)) : sProp 𝕄) := by
  unfold k0_t2_body
  iintro ⟨Hw, Hm⟩
  sl_exec
  sl_step
  isplitl [Hw]
  · iexact Hw
  · iexact Hm

end Tile
end Cert.Proof.KI
end
-- ==== Proof.KI.TileBody.lean ====
import proofs.«214096_g36816459661730_cont_8to1_b_1468_17_alg».proof.Proof.KI.Setup
import proofs.«214096_g36816459661730_cont_8to1_b_1468_17_alg».proof.Proof.Gen.KernelIdeal.Skeleton
import proofs.«214096_g36816459661730_cont_8to1_b_1468_17_alg».proof.Proof.KI.TileTrip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

section Tile
variable (d : Dev nD) (L : grid0.Coords)

/-- The sixteen rows chunk `k1` of the task moves. -/
abbrev chunkRect (L : grid0.Coords) (k1 : Fin k0_t1_loop.trips) : Rect S2048x2048 :=
  Rect.unit (s := S2048x2048) (k0_off1 L k1) S16x2048.size (k0_off1_inb L k1)
abbrev wSl (L : grid0.Coords) (k1 : Fin k0_t1_loop.trips) : Memref sig .scVector .hbm S16x2048 .f32 :=
  (wV : Memref sig .scVector .hbm S2048x2048 .f32).slice (chunkRect L k1) (fun _ => rfl)
abbrev mSl (L : grid0.Coords) (k1 : Fin k0_t1_loop.trips) : Memref sig .scVector .hbm S16x2048 .f32 :=
  (mV : Memref sig .scVector .hbm S2048x2048 .f32).slice (chunkRect L k1) (fun _ => rfl)
abbrev oSl (L : grid0.Coords) (k1 : Fin k0_t1_loop.trips) : Memref sig .scVector .hbm S16x2048 .f32 :=
  (oV : Memref sig .scVector .hbm S2048x2048 .f32).slice (chunkRect L k1) (fun _ => rfl)

/-- The inner loop's invariant: before trip `k` the first scratch holds the product on the columns below `64 k` and
    what it held at loop entry (`fw0`) elsewhere; the second scratch is unchanged. -/
def invIn (fw0 : Buf (Elt F) ((V d (cV L) (jV L)).loc cc0_scratch0)) (fm : Buf (Elt F) ((V d (cV L) (jV L)).loc cc0_scratch1))
    (k : Nat) (_ : PUnit) : sProp 𝕄 :=
  iprop(∃ fw : Buf (Elt F) ((V d (cV L) (jV L)).loc cc0_scratch0),
    ⌜∀ y : S16x2048.Idx, (sW : Memref sig .scVector .vmem S16x2048 .f32).view.read (Elt F) fw y
        = if col y < 64 * k then
            (FloatOps.mulf ((sW : Memref sig .scVector .vmem S16x2048 .f32).view.read (Elt F) fw0 y : F .f32)
              ((sM : Memref sig .scVector .vmem S16x2048 .f32).view.read (Elt F) fm y : F .f32) : F .f32)
          else (sW : Memref sig .scVector .vmem S16x2048 .f32).view.read (Elt F) fw0 y⌝
      ∗ ((sW : Memref sig .scVector .vmem S16x2048 .f32).view.loc (V d (cV L) (jV L)) ↦{fullShare} fw)
      ∗ ((sM : Memref sig .scVector .vmem S16x2048 .f32).view.loc (V d (cV L) (jV L)) ↦{fullShare} fm))

/-- One trip keeps the invariant. -/
theorem invIn_step (fw0 : Buf (Elt F) ((V d (cV L) (jV L)).loc cc0_scratch0)) (fm : Buf (Elt F) ((V d (cV L) (jV L)).loc cc0_scratch1))
    (k : Fin k0_t2_loop.trips) (acc : PUnit) :
    invIn d L fw0 fm k.val acc
      ⊢ (wp frame (wpE (defs₀ (F := F)) 𝒱₀ (V d (cV L) (jV L)) none) Set.univ
          (k0_t2_body L wV (Memref.isWhole_whole _) mV (Memref.isWhole_whole _) oV (Memref.isWhole_whole _)
            sW (Memref.isWhole_whole _) sM (Memref.isWhole_whole _) cc0_scoped0 cc0_scoped1 cc0_scoped2 k acc)
          (invIn d L fw0 fm (k.val + 1)) : sProp 𝕄) := by
  unfold invIn
  have key : ∀ (fw : Buf (Elt F) ((V d (cV L) (jV L)).loc cc0_scratch0)),
      (∀ y : S16x2048.Idx, (sW : Memref sig .scVector .vmem S16x2048 .f32).view.read (Elt F) fw y
        = if col y < 64 * k.val then
            (FloatOps.mulf ((sW : Memref sig .scVector .vmem S16x2048 .f32).view.read (Elt F) fw0 y : F .f32)
              ((sM : Memref sig .scVector .vmem S16x2048 .f32).view.read (Elt F) fm y : F .f32) : F .f32)
          else (sW : Memref sig .scVector .vmem S16x2048 .f32).view.read (Elt F) fw0 y) →
      iprop(((sW : Memref sig .scVector .vmem S16x2048 .f32).view.loc (V d (cV L) (jV L)) ↦{fullShare} fw)
        ∗ ((sM : Memref sig .scVector .vmem S16x2048 .f32).view.loc (V d (cV L) (jV L)) ↦{fullShare} fm))
      ⊢ (wp frame (wpE (defs₀ (F := F)) 𝒱₀ (V d (cV L) (jV L)) none) Set.univ
          (k0_t2_body L wV (Memref.isWhole_whole _) mV (Memref.isWhole_whole _) oV (Memref.isWhole_whole _)
            sW (Memref.isWhole_whole _) sM (Memref.isWhole_whole _) cc0_scoped0 cc0_scoped1 cc0_scoped2 k acc)
          (invIn d L fw0 fm (k.val + 1)) : sProp 𝕄) := by
    intro fw hfw
    refine (trip2 d L k fw fm).trans (wp_mono frame _ _ fun _ => ?_)
    unfold invIn
    iintro ⟨Hw, Hm⟩
    iexists _
    isplitr
    · ipureintro
      intro y
      rw [tripPieces_read k fw fm y, hfw y]
      by_cases h1 : col y < 64 * k.val
      · have h2 : ¬ (64 * k.val ≤ col y ∧ col y < 64 * k.val + 64) := by omega
        have h3 : col y < 64 * (k.val + 1) := by omega
        rw [if_neg h2, if_pos h1, if_pos h3]
      · by_cases h2 : col y < 64 * k.val + 64
        · have h3 : 64 * k.val ≤ col y ∧ col y < 64 * k.val + 64 := by omega
          have h4 : col y < 64 * (k.val + 1) := by omega
          rw [if_pos h3, if_neg h1, if_pos h4]
        · have h3 : ¬ (64 * k.val ≤ col y ∧ col y < 64 * k.val + 64) := by omega
          have h4 : ¬ col y < 64 * (k.val + 1) := by omega
          rw [if_neg h3, if_neg h1, if_neg h4]
    · isplitl [Hw]
      · iexact Hw
      · iexact Hm
  iintro ⟨%fw, %hfw, Hw, Hm⟩
  iapply (key fw hfw)
  isplitl [Hw]
  · iexact Hw
  · iexact Hm

/-- What chunk `k1`'s write-out leaves in its rows of the result, read through the chunk's view: the product of the two
    operands' rows. -/
theorem chunk_read (k1 : Fin k0_t1_loop.trips) (fo : Buf (Elt F) (oLoc d))
    (fw : Buf (Elt F) ((V d (cV L) (jV L)).loc cc0_scratch0)) (fm : Buf (Elt F) ((V d (cV L) (jV L)).loc cc0_scratch1))
    (fw2 : Buf (Elt F) ((V d (cV L) (jV L)).loc cc0_scratch0))
    (hfw2 : ∀ y : S16x2048.Idx, (sW : Memref sig .scVector .vmem S16x2048 .f32).view.read (Elt F) fw2 y
        = if col y < 64 * Scf.trips k0_t2_loop.lb k0_t2_loop.ub k0_t2_loop.st then
            (FloatOps.mulf ((sW : Memref sig .scVector .vmem S16x2048 .f32).view.read (Elt F)
                (View.write (Elt F) (sW : Memref sig .scVector .vmem S16x2048 .f32).view fw ((wSl L k1).view.read (Elt F) (m (wLoc d))) Finset.univ) y : F .f32)
              ((sM : Memref sig .scVector .vmem S16x2048 .f32).view.read (Elt F)
                (View.write (Elt F) (sM : Memref sig .scVector .vmem S16x2048 .f32).view fm ((mSl L k1).view.read (Elt F) (m (mLoc d))) Finset.univ) y : F .f32) : F .f32)
          else (sW : Memref sig .scVector .vmem S16x2048 .f32).view.read (Elt F)
                (View.write (Elt F) (sW : Memref sig .scVector .vmem S16x2048 .f32).view fw ((wSl L k1).view.read (Elt F) (m (wLoc d))) Finset.univ) y)
    (y : S16x2048.Idx) :
    (oSl L k1).view.read (Elt F) ((oSl L k1).view.writes (Elt F) fo [⟨Rect.whole S16x2048, (sW : Memref sig .scVector .vmem S16x2048 .f32).view.read (Elt F) fw2⟩]) y
      = (FloatOps.mulf ((wSl L k1).view.read (Elt F) (m (wLoc d)) y : F .f32) ((mSl L k1).view.read (Elt F) (m (mLoc d)) y : F .f32) : F .f32) := by
  have h32 : Scf.trips k0_t2_loop.lb k0_t2_loop.ub k0_t2_loop.st = 32 := rfl
  have hy : col y < 64 * Scf.trips k0_t2_loop.lb k0_t2_loop.ub k0_t2_loop.st := by
    rw [h32]; exact (y (1 : Fin 2)).isLt
  rw [View.read_writes_whole, hfw2 y, if_pos hy, View.read_write_univ, View.read_write_univ]

set_option maxHeartbeats 1000000 in
/-- Read as elements of the result array: the product. -/
theorem chunk_congr (k1 : Fin k0_t1_loop.trips) (f : Buf (Elt F) (oLoc d))
    (hf : ∀ y : S16x2048.Idx, (oSl L k1).view.read (Elt F) f y
      = (FloatOps.mulf ((wSl L k1).view.read (Elt F) (m (wLoc d)) y : F .f32) ((mSl L k1).view.read (Elt F) (m (mLoc d)) y : F .f32) : F .f32)) :
    ∀ i ∈ (oSl L k1).view.set, f i = s1Val m d i := by
  intro i hi
  obtain ⟨y, -, rfl⟩ := Finset.mem_map.mp hi
  exact hf y

/-- Chunk `c`'s rows of the result, as the outer loop holds them before chunk `k`: at the product if already done. -/
def oChunk (k : Nat) (c : Fin k0_t1_loop.trips) : sProp 𝕄 :=
  iprop(∃ f : Buf (Elt F) (oLoc d), ⌜c.val < k → ∀ i ∈ (oSl L c).view.set, f i = s1Val m d i⌝
      ∗ ((oSl L c).view.loc (V d (cV L) (jV L)) ↦[(oSl L c).view.set]{fullShare} f))

/-- The outer loop's invariant: before chunk `k` the operands' rows are unchanged, the result's rows of the chunks below
    `k` hold the product, the two scratch buffers hold anything, the three semaphores are at zero. -/
def invOut (O : CellTallies nD τ sig (HIx 1)) (W : Waits sig (HIx 1)) (k : Nat) (_ : PUnit) : sProp 𝕄 :=
  iprop(Transfers.MayWaits (V d (cV L) (jV L)) (none : HIx 1) O
    ∗ (bigSep Finset.univ (fun c : Fin k0_t1_loop.trips => ((wSl L c).view.loc (V d (cV L) (jV L)) ↦[(wSl L c).view.set]{fullShare} m (wLoc d) : sProp 𝕄)))
    ∗ (bigSep Finset.univ (fun c : Fin k0_t1_loop.trips => ((mSl L c).view.loc (V d (cV L) (jV L)) ↦[(mSl L c).view.set]{fullShare} m (mLoc d) : sProp 𝕄)))
    ∗ (bigSep Finset.univ fun c : Fin k0_t1_loop.trips => oChunk m d L k c)
    ∗ (∃ fw, (sW : Memref sig .scVector .vmem S16x2048 .f32).view.loc (V d (cV L) (jV L)) ↦{fullShare} fw)
    ∗ (∃ fm, (sM : Memref sig .scVector .vmem S16x2048 .f32).view.loc (V d (cV L) (jV L)) ↦{fullShare} fm)
    ∗ semVal ((V d (cV L) (jV L)), SemLoc.dma cc0_scoped0.sem) 0
    ∗ semVal ((V d (cV L) (jV L)), SemLoc.dma cc0_scoped1.sem) 0
    ∗ semVal ((V d (cV L) (jV L)), SemLoc.dma cc0_scoped2.sem) 0
    ∗ ∃ W', ⌜∀ p ∈ W', p ∈ W ∨ p.2 = none⌝ ∗ owes (V d (cV L) (jV L)) O W')

/-- The chunks other than `k1` are as they were. -/
theorem oRest_mono (k1 : Fin k0_t1_loop.trips) :
    (bigSep (Finset.univ.erase k1) fun c : Fin k0_t1_loop.trips => oChunk m d L k1.val c)
      ⊢ (bigSep (Finset.univ.erase k1) fun c : Fin k0_t1_loop.trips => oChunk m d L (k1.val + 1) c : sProp 𝕄) := by
  have hc : ∀ c ∈ Finset.univ.erase k1, oChunk m d L k1.val c ⊢ (oChunk m d L (k1.val + 1) c : sProp 𝕄) := by
    intro c hc
    have hne : c.val ≠ k1.val := fun e => (Finset.mem_erase.mp hc).1 (Fin.ext e)
    unfold oChunk
    iintro ⟨%f, %hf, H⟩
    iexists f
    isplitr
    · ipureintro; exact fun h => hf (by omega)
    · iexact H
  exact bigSep_mono hc

set_option maxHeartbeats 2000000 in
/-- One chunk keeps the invariant: both operands' rows copied in, the inner loop, the product copied out. -/
theorem invOut_step (O : CellTallies nD τ sig (HIx 1)) (W : Waits sig (HIx 1)) (k1 : Fin k0_t1_loop.trips) (acc : PUnit) :
    invOut m d L O W k1.val acc
      ⊢ (wp frame (wpE (defs₀ (F := F)) 𝒱₀ (V d (cV L) (jV L)) none) Set.univ
          (k0_t1_body L wV (Memref.isWhole_whole _) mV (Memref.isWhole_whole _) oV (Memref.isWhole_whole _)
            sW (Memref.isWhole_whole _) sM (Memref.isWhole_whole _) cc0_scoped0 cc0_scoped1 cc0_scoped2 k1 acc)
          (invOut m d L O W (k1.val + 1)) : sProp 𝕄) := by
  unfold invOut
  rw [SparseCore.bigSep_erase' (Finset.mem_univ k1) (Φ := (fun c : Fin k0_t1_loop.trips => ((wSl L c).view.loc (V d (cV L) (jV L)) ↦[(wSl L c).view.set]{fullShare} m (wLoc d) : sProp 𝕄))),
    SparseCore.bigSep_erase' (Finset.mem_univ k1) (Φ := (fun c : Fin k0_t1_loop.trips => ((mSl L c).view.loc (V d (cV L) (jV L)) ↦[(mSl L c).view.set]{fullShare} m (mLoc d) : sProp 𝕄))),
    SparseCore.bigSep_erase' (Finset.mem_univ k1) (Φ := fun c : Fin k0_t1_loop.trips => oChunk m d L k1.val c),
    SparseCore.bigSep_erase' (Finset.mem_univ k1) (Φ := fun c : Fin k0_t1_loop.trips => oChunk m d L (k1.val + 1) c)]
  unfold k0_t1_body
  iintro ⟨Hmw, ⟨Hws, Hwr⟩, ⟨Hms, Hmr⟩, ⟨Hoc, Hor⟩, ⟨%fw, Hw⟩, ⟨%fm, Hm⟩, Hs0, Hs1, Hs2, %W', %hW', HO⟩
  unfold oChunk
  icases Hoc with ⟨%fo, -, Hos⟩
  sl_exec
  sl_for (invIn d L (View.write (Elt F) (sW : Memref sig .scVector .vmem S16x2048 .f32).view fw ((wSl L k1).view.read (Elt F) (m (wLoc d))) Finset.univ)
      (View.write (Elt F) (sM : Memref sig .scVector .vmem S16x2048 .f32).view fm ((mSl L k1).view.read (Elt F) (m (mLoc d))) Finset.univ)) $$ [Hw Hm]
  case region => exact fun k acc => invIn_step d L _ _ k acc
  · unfold invIn
    iexists _
    isplitr
    · ipureintro; intro y; rw [if_neg (by omega)]
    isplitl [Hw]
    · iexact Hw
    · iexact Hm
  iintro %_ HI
  unfold invIn
  icases HI with ⟨%fw2, %hfw2, Hw, Hm⟩
  sl_exec
  sl_step
  isplitl [Hmw]; · iexact Hmw
  isplitl [Hws Hwr]
  · isplitl [Hws]; · iexact Hws
    iexact Hwr
  isplitl [Hms Hmr]
  · isplitl [Hms]; · iexact Hms
    iexact Hmr
  isplitl [Hos Hor]
  · isplitl [Hos]
    · iexists _
      isplitr
      · ipureintro
        exact fun _ => chunk_congr m d L k1 _ (chunk_read m d L k1 fo fw fm fw2 hfw2)
      · iexact Hos
    · iapply (oRest_mono m d L k1); iexact Hor
  isplitl [Hw]; · iexists _; iexact Hw
  isplitl [Hm]; · iexists _; iexact Hm
  isplitl [Hs0]; · iexact Hs0
  isplitl [Hs1]; · iexact Hs1
  isplitl [Hs2]; · iexact Hs2
  iexists (insert (SemLoc.dma cc0_scoped2.sem, (default : HIx 1)) (insert (SemLoc.dma cc0_scoped1.sem, (default : HIx 1))
    (insert (SemLoc.dma cc0_scoped0.sem, (default : HIx 1)) W')))
  isplitr
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  · iexact HO

end Tile
end Cert.Proof.KI
end
-- ==== Proof.KI.TileRows.lean ====
import proofs.«214096_g36816459661730_cont_8to1_b_1468_17_alg».proof.Proof.KI.Setup
import proofs.«214096_g36816459661730_cont_8to1_b_1468_17_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## How the call's arrays are dealt to the 32 tasks

Task `(c, i)` takes block `2 i + c` of the 32 blocks of 64 rows; `(c, i) ↦ 2 i + c` is a bijection onto `Fin 32`, the
blocks are pairwise disjoint and cover the rows, so an array held whole is its 32 blocks held apart, and back. -/

omit [FloatOps F] in
theorem rowSet_eq (w : Fin 32) : rowSet w = (rows w).set := by
  show ((View.whole (main_arg2_scv : Ref sig .scVector)).slice (rows w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)

/-- `(c, i) ↦ 2 i + c`, a bijection of the 2 × 16 tasks with the 32 blocks. -/
def widEquiv : Fin 2 × Fin 16 ≃ Fin 32 where
  toFun p := wid p.1 p.2
  invFun w := (⟨w.val % 2, by omega⟩, ⟨w.val / 2, by omega⟩)
  left_inv p := by
    obtain ⟨c, i⟩ := p
    have hc := c.isLt
    refine Prod.ext (Fin.ext ?_) (Fin.ext ?_)
    · show (2 * i.val + c.val) % 2 = c.val; omega
    · show (2 * i.val + c.val) / 2 = i.val; omega
  right_inv w := by
    apply Fin.ext
    show 2 * (w.val / 2) + w.val % 2 = w.val; omega

omit [FloatOps F] in
theorem bigSep_wid (Ψ : Fin 32 → sProp 𝕄) :
    (bigSep Finset.univ fun c : Fin 2 => bigSep Finset.univ fun i : Fin 16 => Ψ (wid c i)) = bigSep Finset.univ Ψ := by
  rw [BI.bigSep_univ_equiv widEquiv Ψ, BI.bigSep_univ_prod]; rfl

omit [FloatOps F] in
theorem wPts_rows (d : Dev nD) (f : Buf (Elt F) (wLoc d)) :
    (wLoc d ↦{fullShare} f : sProp 𝕄) = bigSep Finset.univ fun w : Fin 32 => wLoc d ↦[rowSet w]{fullShare} f := by
  rw [← pointsTo_biUnion Finset.univ (ℓ := wLoc d) rowSet rows_disjoint, rows_cover]; try rfl
omit [FloatOps F] in
theorem mPts_rows (d : Dev nD) (f : Buf (Elt F) (mLoc d)) :
    (mLoc d ↦{fullShare} f : sProp 𝕄) = bigSep Finset.univ fun w : Fin 32 => mLoc d ↦[rowSet w]{fullShare} f := by
  rw [← pointsTo_biUnion Finset.univ (ℓ := mLoc d) rowSet rows_disjoint, rows_cover]; try rfl
omit [FloatOps F] in
theorem oPts_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_eq (d : Dev nD) (c : Fin ((K (F := F)).nCore 0)) :
    (P m).st 0 d c = bigSep Finset.univ fun i : Fin 16 => goP m d (wid (Fin.cast nCore_zero c) i) := rfl
theorem dn_eq (d : Dev nD) (c : Fin ((K (F := F)).nCore 0)) :
    (P m).dn 0 d c = bigSep Finset.univ fun i : Fin 16 => tdP m d (wid (Fin.cast nCore_zero c) i) := rfl
theorem go_eq (d : Dev nD) (c : Fin ((K (F := F)).nCore 0)) (i : Fin ((K (F := F)).nSub 0)) :
    (P m).go 0 d c i = goP m d (wid (Fin.cast nCore_zero c) (Fin.cast nSub_zero i)) := rfl
theorem td_eq (d : Dev nD) (c : Fin ((K (F := F)).nCore 0)) (i : Fin ((K (F := F)).nSub 0)) :
    (P m).td 0 d c i = tdP m d (wid (Fin.cast nCore_zero c) (Fin.cast nSub_zero i)) := rfl

/-- A SparseCore's sixteen blocks go to its sixteen tasks and come back from them, each task its own. -/
theorem vecSplit : (K (F := F)).VecSplit' (P m) 0 := by
  intro d c
  rw [st_eq, dn_eq]
  simp only [go_eq, td_eq]
  rw [bigSep_tasks (F := F) (fun i => goP m d (wid (Fin.cast nCore_zero c) i)),
    bigSep_tasks (F := F) (fun i => tdP m d (wid (Fin.cast nCore_zero c) i))]
  iintro H; imodintro
  isplitl [H]; · iexact H
  iintro H; iexact H

theorem st0_eq (d : Dev nD) :
    (bigSep Finset.univ fun c : Fin ((K (F := F)).nCore 0) => (P m).st 0 d c : sProp 𝕄) = bigSep Finset.univ fun w : Fin 32 => goP m d w := by
  simp only [st_eq]
  rw [bigSep_cores (F := F) (fun c => bigSep Finset.univ fun i : Fin 16 => goP m d (wid c i))]
  exact bigSep_wid (fun w => goP m d w)
theorem dn0_eq (d : Dev nD) :
    (bigSep Finset.univ fun c : Fin ((K (F := F)).nCore 0) => (P m).dn 0 d c : sProp 𝕄) = bigSep Finset.univ fun w : Fin 32 => tdP m d w := by
  simp only [dn_eq]
  rw [bigSep_cores (F := F) (fun c => bigSep Finset.univ fun i : Fin 16 => tdP m d (wid c i))]
  exact bigSep_wid (fun w => tdP m d w)

omit [FloatOps F] in
theorem oRows_intro (d : Dev nD) (f : Buf (Elt F) (oLoc d)) :
    (oLoc d ↦{fullShare} f : sProp 𝕄) ⊢ (bigSep Finset.univ fun w : Fin 32 => iprop(∃ f, oLoc d ↦[rowSet w]{fullShare} f) : sProp 𝕄) := by
  have hex : ∀ w : Fin 32, (oLoc d ↦[rowSet w]{fullShare} f : sProp 𝕄) ⊢ iprop(∃ f, oLoc d ↦[rowSet w]{fullShare} f) :=
    fun w => by iintro H; iexists f; iexact H
  rw [oPts_rows]
  exact bigSep_mono fun w _ => hex w

/-- The three arrays held whole, the result at any contents, are what the call hands the two SparseCores. -/
theorem st0_intro (d : Dev nD) :
    iprop((wLoc d ↦{fullShare} m (wLoc d)) ∗ (mLoc d ↦{fullShare} m (mLoc d)) ∗ ∃ f : Buf (Elt F) (oLoc d), oLoc d ↦{fullShare} f)
      ⊢ (bigSep Finset.univ fun c : Fin ((K (F := F)).nCore 0) => (P m).st 0 d c : sProp 𝕄) := by
  rw [st0_eq]
  unfold goP wRowPts mRowPts oRowPts
  rw [bigSep_sep', bigSep_sep', ← wPts_rows, ← mPts_rows]
  iintro ⟨Hw, Hm, %f, Ho⟩
  isplitl [Hw]; · iexact Hw
  isplitl [Hm]; · iexact Hm
  iapply (oRows_intro d f)
  iexact Ho

/-- What the two SparseCores hand back is the three arrays whole, the result at the product. -/
theorem dn0_elim (d : Dev nD) :
    (bigSep Finset.univ fun c : Fin ((K (F := F)).nCore 0) => (P m).dn 0 d c : sProp 𝕄)
      ⊢ iprop((wLoc d ↦{fullShare} m (wLoc d)) ∗ (mLoc d ↦{fullShare} m (mLoc d)) ∗ oLoc d ↦{fullShare} s1Val m d) := by
  rw [dn0_eq]
  unfold tdP wRowPts mRowPts oRowPts
  rw [bigSep_sep', bigSep_sep', ← wPts_rows, ← mPts_rows, ← oPts_rows]

end Cert.Proof.KI
end
-- ==== Proof.KI.TileChunks.lean ====
import proofs.«214096_g36816459661730_cont_8to1_b_1468_17_alg».proof.Proof.KI.Setup
import proofs.«214096_g36816459661730_cont_8to1_b_1468_17_alg».proof.Proof.Gen.KernelIdeal.Skeleton
import proofs.«214096_g36816459661730_cont_8to1_b_1468_17_alg».proof.Proof.KI.TileRows
import proofs.«214096_g36816459661730_cont_8to1_b_1468_17_alg».proof.Proof.KI.TileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## A task's block of 64 rows as its four chunks of 16 rows

The task at grid coordinates `L = (c, i)` takes block `2 i + c` of the 32 blocks of 64 rows; trip `k` of its outer loop
moves the 16 rows from `128 i + 64 c + 16 k`. The four chunks are pairwise disjoint and together are the block, so the
block held at given contents is its four chunks held apart, and back. -/

theorem bound_zero : grid0.bound 0 = 2 := rfl
theorem bound_one : grid0.bound 1 = 16 := rfl

/-- The block of rows of the task at grid coordinates `L`. -/
abbrev widL (L : grid0.Coords) : Fin 32 := wid (Fin.cast bound_zero (L 0)) (Fin.cast bound_one (L 1))

omit [FloatOps F] in
theorem trips1 : k0_t1_loop.trips = 4 := by decide

section Tile
variable (d : Dev nD) (L : grid0.Coords)

omit [FloatOps F] in
theorem widL_val : (widL L).val = 2 * (L 1).val + (L 0).val := rfl

/-- A block of 64 rows: the rows from `64 w`. -/
theorem mem_rows (w : Fin 32) (y : S2048x2048.Idx) :
    y ∈ (rows w).set ↔ 64 * w.val ≤ (y (0 : Fin 2)).val ∧ (y (0 : Fin 2)).val < 64 * w.val + 64 := by
  rw [Rect.mem_set_unit]
  constructor
  · intro h
    have h0 := h (0 : Fin 2)
    change w.val * 64 ≤ (y (0 : Fin 2)).val ∧ (y (0 : Fin 2)).val < w.val * 64 + 64 at h0
    omega
  · intro h a
    have h1 : (y (1 : Fin 2)).val < 2048 := (y (1 : Fin 2)).isLt
    match a with
    | ⟨0, _⟩ => show w.val * 64 ≤ (y (0 : Fin 2)).val ∧ (y (0 : Fin 2)).val < w.val * 64 + 64; omega
    | ⟨1, _⟩ => show 0 * 2048 ≤ (y (1 : Fin 2)).val ∧ (y (1 : Fin 2)).val < 0 * 2048 + 2048; omega

/-- A chunk of 16 rows: the rows from `128 i + 64 c + 16 k`. -/
theorem mem_chunk (k1 : Fin k0_t1_loop.trips) (y : S2048x2048.Idx) :
    y ∈ (chunkRect L k1).set ↔ 128 * (L 1).val + 64 * (L 0).val + 16 * k1.val ≤ (y (0 : Fin 2)).val
      ∧ (y (0 : Fin 2)).val < 128 * (L 1).val + 64 * (L 0).val + 16 * k1.val + 16 := by
  unfold chunkRect
  rw [Rect.mem_set_unit, k0_off1_eq]
  constructor
  · intro h
    have h0 := h (0 : Fin 2)
    change 128 * (L 1).val + 64 * (L 0).val + 16 * k1.val ≤ (y (0 : Fin 2)).val
      ∧ (y (0 : Fin 2)).val < 128 * (L 1).val + 64 * (L 0).val + 16 * k1.val + 16 at h0
    exact h0
  · intro h a
    have h1 : (y (1 : Fin 2)).val < 2048 := (y (1 : Fin 2)).isLt
    match a with
    | ⟨0, _⟩ =>
      show 128 * (L 1).val + 64 * (L 0).val + 16 * k1.val ≤ (y (0 : Fin 2)).val
        ∧ (y (0 : Fin 2)).val < 128 * (L 1).val + 64 * (L 0).val + 16 * k1.val + 16
      exact h
    | ⟨1, _⟩ => show 0 ≤ (y (1 : Fin 2)).val ∧ (y (1 : Fin 2)).val < 0 + 2048; omega

omit [FloatOps F] in
theorem set_wSl (k1 : Fin k0_t1_loop.trips) : (wSl L k1).view.set = (chunkRect L k1).set := by
  show ((View.whole (main_arg2_scv : Ref sig .scVector)).slice (chunkRect L k1)).set = _
  rw [View.set_slice]; exact Finset.map_refl
omit [FloatOps F] in
theorem set_mSl (k1 : Fin k0_t1_loop.trips) : (mSl L k1).view.set = (chunkRect L k1).set := by
  show ((View.whole (main_arg5_scv : Ref sig .scVector)).slice (chunkRect L k1)).set = _
  rw [View.set_slice]; exact Finset.map_refl
omit [FloatOps F] in
theorem set_oSl (k1 : Fin k0_t1_loop.trips) : (oSl L k1).view.set = (chunkRect L k1).set := by
  show ((View.whole (main_v0_scv : Ref sig .scVector)).slice (chunkRect L k1)).set = _
  rw [View.set_slice]; exact Finset.map_refl

/-- The four chunks are pairwise disjoint, -/
theorem chunk_disjoint : ∀ c ∈ (Finset.univ : Finset (Fin k0_t1_loop.trips)), ∀ c' ∈ (Finset.univ : Finset (Fin k0_t1_loop.trips)),
    c ≠ c' → Disjoint (chunkRect L c).set (chunkRect L c').set := by
  intro c _ c' _ hne
  have hv : c.val ≠ c'.val := fun h => hne (Fin.ext h)
  rw [Finset.disjoint_left]
  intro y hy hy'
  rw [mem_chunk] at hy hy'
  omega

/-- and together they are the task's block. -/
theorem chunk_cover : (Finset.univ : Finset (Fin k0_t1_loop.trips)).biUnion (fun c => (chunkRect L c).set) = rowSet (widL L) := by
  have hL0 : (L 0).val < 2 := (L 0).isLt
  have hL1 : (L 1).val < 16 := (L 1).isLt
  ext y
  rw [rowSet_eq, mem_rows, widL_val]
  simp only [Finset.mem_biUnion, Finset.mem_univ, true_and]
  constructor
  · rintro ⟨c, hc⟩
    have hc4 : c.val < 4 := lt_of_lt_of_eq c.isLt trips1
    rw [mem_chunk] at hc
    omega
  · intro h
    refine ⟨⟨((y (0 : Fin 2)).val - (128 * (L 1).val + 64 * (L 0).val)) / 16, by rw [trips1]; omega⟩, ?_⟩
    rw [mem_chunk]
    show 128 * (L 1).val + 64 * (L 0).val + 16 * (((y (0 : Fin 2)).val - (128 * (L 1).val + 64 * (L 0).val)) / 16) ≤ (y (0 : Fin 2)).val
      ∧ (y (0 : Fin 2)).val < 128 * (L 1).val + 64 * (L 0).val + 16 * (((y (0 : Fin 2)).val - (128 * (L 1).val + 64 * (L 0).val)) / 16) + 16
    omega

omit [FloatOps F] in
/-- A points-to at an equal element set. -/
theorem pts_congr_set {ℓ : Loc nD τ sig} (K K' : Finset (Idx ℓ)) (h : K = K') (f : Buf (Elt F) ℓ) :
    (ℓ ↦[K]{fullShare} f : sProp 𝕄) = ℓ ↦[K']{fullShare} f := by rw [h]

/-- The task's block of the first operand, held at contents `f`, is its four chunks held apart, each through the slice
    of the array the outer loop's trip moves. -/
theorem wChunks (f : Buf (Elt F) (wLoc d)) :
    (wLoc d ↦[rowSet (widL L)]{fullShare} f : sProp 𝕄)
      = bigSep Finset.univ fun c : Fin k0_t1_loop.trips => (wSl L c).view.loc (V d (cV L) (jV L)) ↦[(wSl L c).view.set]{fullShare} f := by
  have h : (wLoc d ↦[rowSet (widL L)]{fullShare} f : sProp 𝕄)
      = bigSep Finset.univ fun c : Fin k0_t1_loop.trips => wLoc d ↦[(chunkRect L c).set]{fullShare} f := by
    rw [← chunk_cover L, pointsTo_biUnion Finset.univ _ (chunk_disjoint L)]
  exact h.trans (bigSep_congr fun c _ => pts_congr_set (ℓ := wLoc d) _ _ (set_wSl L c).symm f)

theorem mChunks (f : Buf (Elt F) (mLoc d)) :
    (mLoc d ↦[rowSet (widL L)]{fullShare} f : sProp 𝕄)
      = bigSep Finset.univ fun c : Fin k0_t1_loop.trips => (mSl L c).view.loc (V d (cV L) (jV L)) ↦[(mSl L c).view.set]{fullShare} f := by
  have h : (mLoc d ↦[rowSet (widL L)]{fullShare} f : sProp 𝕄)
      = bigSep Finset.univ fun c : Fin k0_t1_loop.trips => mLoc d ↦[(chunkRect L c).set]{fullShare} f := by
    rw [← chunk_cover L, pointsTo_biUnion Finset.univ _ (chunk_disjoint L)]
  exact h.trans (bigSep_congr fun c _ => pts_congr_set (ℓ := mLoc d) _ _ (set_mSl L c).symm f)

theorem oChunks (f : Buf (Elt F) (oLoc d)) :
    (oLoc d ↦[rowSet (widL L)]{fullShare} f : sProp 𝕄)
      = bigSep Finset.univ fun c : Fin k0_t1_loop.trips => (oSl L c).view.loc (V d (cV L) (jV L)) ↦[(oSl L c).view.set]{fullShare} f := by
  have h : (oLoc d ↦[rowSet (widL L)]{fullShare} f : sProp 𝕄)
      = bigSep Finset.univ fun c : Fin k0_t1_loop.trips => oLoc d ↦[(chunkRect L c).set]{fullShare} f := by
    rw [← chunk_cover L, pointsTo_biUnion Finset.univ _ (chunk_disjoint L)]
  exact h.trans (bigSep_congr fun c _ => pts_congr_set (ℓ := oLoc d) _ _ (set_oSl L c).symm f)

end Tile

end Cert.Proof.KI

end
-- ==== Proof.KI.TileWrap.lean ====
/-
  A vector subcore's task of the SparseCore call, as the launch states it and as the body is proved: the task's scoped
  semaphores and buffers with the three DMA semaphores and the two scratch rows the body uses named and split off, the
  body table's row at a vector subcore, and the task's obligation from the body's triple at every subcore of the grid.
-/
import proofs.«214096_g36816459661730_cont_8to1_b_1468_17_alg».proof.Proof.KI.TileBody
import proofs.«214096_g36816459661730_cont_8to1_b_1468_17_alg».proof.Proof.KI.TileChunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

section Tile
variable (d : Dev nD) (L : grid0.Coords)

/-! ## The subcore's own semaphores and buffers, the ones the body uses split off -/

omit [FloatOps F] in
/-- The three DMA semaphores of the body's transfers are among the subcore's own cells: all at zero is these three at
    zero and the rest at zero. -/
theorem ownSems0_V :
    (ownSems0 (V d (cV L) (jV L)) : sProp 𝕄)
      = iprop(semVal (V d (cV L) (jV L), SemLoc.dma cc0_scoped0.sem) 0 ∗ semVal (V d (cV L) (jV L), SemLoc.dma cc0_scoped1.sem) 0
          ∗ semVal (V d (cV L) (jV L), SemLoc.dma cc0_scoped2.sem) 0
          ∗ bigSep ((((ownCells (V d (cV L) (jV L))).erase (V d (cV L) (jV L), SemLoc.dma cc0_scoped0.sem)).erase
              (V d (cV L) (jV L), SemLoc.dma cc0_scoped1.sem)).erase (V d (cV L) (jV L), SemLoc.dma cc0_scoped2.sem))
              fun g => semVal g 0) := by
  unfold SparseCore.Cfg.ownSems0
  rw [SparseCore.bigSep_erase' ((mem_ownCells (g := (V d (cV L) (jV L), SemLoc.dma cc0_scoped0.sem))).mpr ⟨rfl, by
      show (SemLoc.dma cc0_scoped0.sem : SemLoc sig).isScoped .scVector = true; decide⟩),
    SparseCore.bigSep_erase' (Finset.mem_erase.mpr ⟨by simp; decide, (mem_ownCells (g := (V d (cV L) (jV L), SemLoc.dma cc0_scoped1.sem))).mpr ⟨rfl, by
      show (SemLoc.dma cc0_scoped1.sem : SemLoc sig).isScoped .scVector = true; decide⟩⟩),
    SparseCore.bigSep_erase' (Finset.mem_erase.mpr ⟨by simp; decide, Finset.mem_erase.mpr ⟨by simp; decide,
      (mem_ownCells (g := (V d (cV L) (jV L), SemLoc.dma cc0_scoped2.sem))).mpr ⟨rfl, by show (SemLoc.dma cc0_scoped2.sem : SemLoc sig).isScoped .scVector = true; decide⟩⟩⟩)]

omit [FloatOps F] in
/-- The two scratch rows are among the subcore's own buffers: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

/-! ## The task's obligation from the body's triple -/

/-- The grid coordinates of the task of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The body table's row at a vector subcore: the call's body at the subcore's coordinates, on the whole arrays and the
    subcore's scratch, where the subcore is in the grid. -/
theorem defs₀_vector (c : Fin τ.nSC) (s : Fin τ.nSub) :
    defs₀ (F := F) (.scVector c s) 0 ()
      = SparseCore.onTile hcore0 hsub0 (fun c s => cc0_body (coordsV c s)
          wV (Memref.isWhole_whole _) mV (Memref.isWhole_whole _) oV (Memref.isWhole_whole _)
          sW (Memref.isWhole_whole _) sM (Memref.isWhole_whole _) cc0_scoped0 cc0_scoped1 cc0_scoped2) ⟨⟩ c s := rfl

omit [FloatOps F] in
/-- A task that records no wait of the call's own index records none outside what the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the call's tasks, from the body's triple at every subcore of the grid: handed its block
    of rows of the two operands and of the result, its scoped storage and what it owes, the body runs to the rows
    handed back with the result's at the product, the storage returned, and the same dues. -/
theorem tileObl_of
    (h : ∀ (d : Dev nD) (L : grid0.Coords) (O : CellTallies nD τ sig (HIx 1)) (W : Waits sig (HIx 1)), (∀ g, O g none = 0) →
      iprop(levAts (K (F := F)).L (K (F := F)).lev ∗ emp ∗ goP m d (widL L) ∗ scopedBufs (V d (cV L) (jV L)) ∗ scopedSems0 (V d (cV L) (jV L))
          ∗ owes (V d (cV L) (jV L)) O W)
        ⊢ wp frame (wpE (defs₀ (F := F)) 𝒱₀ (V d (cV L) (jV L)) none) Set.univ
            (cc0_body L wV (Memref.isWhole_whole _) mV (Memref.isWhole_whole _) oV (Memref.isWhole_whole _)
              sW (Memref.isWhole_whole _) sM (Memref.isWhole_whole _) cc0_scoped0 cc0_scoped1 cc0_scoped2) fun _ =>
            iprop(tdP m d (widL L) ∗ scopedBufs (V d (cV L) (jV L)) ∗ scopedSems0 (V d (cV L) (jV L))
              ∗ ∃ W', ⌜∀ p ∈ W', p ∈ W ∨ p.2 = none⌝ ∗ owes (V d (cV L) (jV L)) O W')) :
    (K (F := F)).TileObl (D (F := F)) 𝒱 (P m) v₀ 0 := by
  intro d c i O W hO _ _
  -- the call owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (h d (coordsV ⟨_, hc.1⟩ ⟨_, hc.2⟩) O W hO).trans (wp_mono frame _ _ fun _ => obl_post)

end Cert.Proof.KI

end
-- ==== Proof.KI.Tile.lean ====
import proofs.«214096_g36816459661730_cont_8to1_b_1468_17_alg».proof.Proof.KI.Setup
import proofs.«214096_g36816459661730_cont_8to1_b_1468_17_alg».proof.Proof.Gen.KernelIdeal.Skeleton
import proofs.«214096_g36816459661730_cont_8to1_b_1468_17_alg».proof.Proof.KI.TileWrap
import proofs.«214096_g36816459661730_cont_8to1_b_1468_17_alg».proof.Proof.KI.TileRows
/-
  The SparseCore call's vector-subcore task and how the call's arrays are dealt to the 32 tasks.

  Task `(c, i)` owns the 64 rows of block `2 i + c` of the two operands and of the result. It works through them in four
  chunks of sixteen rows: the chunk's rows of both operands are copied into two scratch buffers (each copy issued and
  waited for on its own semaphore), the first scratch is multiplied in place by the second in 32 trips of sixty-four
  16-lane pieces, and the first scratch is copied out to the chunk's rows of the result. The outer loop's invariant says
  that the result's rows of the chunks already treated hold the elementwise product of the operands as launched; after
  the fourth chunk the whole block does.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

section Tile
variable (d : Dev nD) (L : grid0.Coords)

omit [FloatOps F] in
theorem pts_sW (f : Buf (Elt F) ((V d (cV L) (jV L)).loc cc0_scratch0)) :
    ((sW : Memref sig .scVector .vmem S16x2048 .f32).view.loc (V d (cV L) (jV L)) ↦{fullShare} f : sProp 𝕄) = (V d (cV L) (jV L)).loc cc0_scratch0 ↦{fullShare} f := rfl
omit [FloatOps F] in
theorem pts_sM (f : Buf (Elt F) ((V d (cV L) (jV L)).loc cc0_scratch1)) :
    ((sM : Memref sig .scVector .vmem S16x2048 .f32).view.loc (V d (cV L) (jV L)) ↦{fullShare} f : sProp 𝕄) = (V d (cV L) (jV L)).loc cc0_scratch1 ↦{fullShare} f := rfl

/-- The result's rows at any contents are the chunks as the outer loop holds them before chunk 0. -/
theorem oChunks_in (fo : Buf (Elt F) (oLoc d)) :
    (bigSep Finset.univ fun c : Fin k0_t1_loop.trips => ((oSl L c).view.loc (V d (cV L) (jV L)) ↦[(oSl L c).view.set]{fullShare} fo : sProp 𝕄))
      ⊢ (bigSep Finset.univ fun c : Fin k0_t1_loop.trips => oChunk m d L 0 c : sProp 𝕄) := by
  have hc : ∀ c ∈ (Finset.univ : Finset (Fin k0_t1_loop.trips)),
      ((oSl L c).view.loc (V d (cV L) (jV L)) ↦[(oSl L c).view.set]{fullShare} fo : sProp 𝕄) ⊢ oChunk m d L 0 c := by
    intro c _
    unfold oChunk
    iintro H
    iexists fo
    isplitr
    · ipureintro; exact fun h => absurd h (Nat.not_lt_zero _)
    · iexact H
  exact bigSep_mono hc

/-- After the last chunk every chunk of the result's rows holds the product. -/
theorem oChunks_out :
    (bigSep Finset.univ fun c : Fin k0_t1_loop.trips => oChunk m d L k0_t1_loop.trips c : sProp 𝕄)
      ⊢ (bigSep Finset.univ fun c : Fin k0_t1_loop.trips => ((oSl L c).view.loc (V d (cV L) (jV L)) ↦[(oSl L c).view.set]{fullShare} s1Val m d : sProp 𝕄)) := by
  have hc : ∀ c ∈ (Finset.univ : Finset (Fin k0_t1_loop.trips)),
      oChunk m d L k0_t1_loop.trips c ⊢ ((oSl L c).view.loc (V d (cV L) (jV L)) ↦[(oSl L c).view.set]{fullShare} s1Val m d : sProp 𝕄) := by
    intro c _
    unfold oChunk
    iintro ⟨%f, %hf, H⟩
    iapply (Entails.of_eq (pointsTo_congr (q := fullShare) (hf c.isLt)))
    iexact H
  exact bigSep_mono hc

set_option maxHeartbeats 2000000 in
/-- The task on vector subcore `(L 0, L 1)` of device `d`: four chunks of sixteen rows. -/
theorem tile_body (hF : (K (F := F)).Facts) (O : CellTallies nD τ sig (HIx 1)) (W : Waits sig (HIx 1)) (hO : ∀ g, O g none = 0) :
    iprop(levAts (K (F := F)).L (K (F := F)).lev ∗ emp ∗ goP m d (widL L)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_body L wV (Memref.isWhole_whole _) mV (Memref.isWhole_whole _) oV (Memref.isWhole_whole _)
            sW (Memref.isWhole_whole _) sM (Memref.isWhole_whole _) cc0_scoped0 cc0_scoped1 cc0_scoped2)
          fun _ => iprop(tdP m d (widL L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold goP tdP wRowPts mRowPts oRowPts
  rw [wChunks, mChunks, oChunks d L (s1Val m d)]
  iintro ⟨#Hlv, -, ⟨Hwc, Hmc, %fo, Ho⟩, ⟨⟨%fw, Hw⟩, ⟨%fm, Hm⟩, Hbufs⟩, ⟨Hs0, Hs1, Hs2, Hsems⟩, HO⟩
  ihave Hmw := ((K (F := F)).mayWaits_none (thr := (V d (cV L) (jV L))) hO) $$ Hlv
  ihave Hoc := (Entails.of_eq (oChunks d L fo)) $$ Ho
  ihave Hoc' := (oChunks_in m d L fo) $$ Hoc
  ihave Hw' := (Entails.of_eq (pts_sW (F := F) d L fw).symm) $$ Hw
  ihave Hm' := (Entails.of_eq (pts_sM (F := F) d L fm).symm) $$ Hm
  sl_for (invOut m d L O W) $$ [Hmw Hwc Hmc Hoc' Hw' Hm' Hs0 Hs1 Hs2 HO]
  case region => exact fun k acc => invOut_step m d L O W k acc
  · unfold invOut
    isplitl [Hmw]; · iexact Hmw
    isplitl [Hwc]; · iexact Hwc
    isplitl [Hmc]; · iexact Hmc
    isplitl [Hoc']; · iexact Hoc'
    isplitl [Hw']; · iexists _; iexact Hw'
    isplitl [Hm']; · iexists _; iexact Hm'
    isplitl [Hs0]; · iexact Hs0
    isplitl [Hs1]; · iexact Hs1
    isplitl [Hs2]; · iexact Hs2
    iexists W; isplitr
    · ipureintro; exact fun p hp => .inl hp
    · iexact HO
  iintro %_ HI
  unfold invOut
  icases HI with ⟨-, Hwc, Hmc, Hoc, ⟨%fw', Hw⟩, ⟨%fm', Hm⟩, Hs0, Hs1, Hs2, %W', %hW', HO⟩
  sl_exec
  sl_step
  isplitl [Hwc Hmc Hoc]
  · isplitl [Hwc]; · iexact Hwc
    isplitl [Hmc]; · iexact Hmc
    iapply (oChunks_out m d L); iexact Hoc
  isplitl [Hw Hm Hbufs]
  · isplitl [Hw]; · iexists _; iapply (Entails.of_eq (pts_sW (F := F) d L _)); iexact Hw
    isplitl [Hm]; · iexists _; iapply (Entails.of_eq (pts_sM (F := F) d L _)); iexact Hm
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro; exact hW'
  · iexact HO

end Tile

/-- The task's obligation at the one SparseCore call: its block of the result at the product, everything else as handed. -/
theorem tileObl : (K (F := F)).TileObl (D (F := F)) 𝒱 (P m) v₀ 0 :=
  tileObl_of m (fun d L O W hO => tile_body m d L facts O W hO)

end Cert.Proof.KI
end
-- ==== Proof.KI.Region1.lean ====
/-
  Region 1 of the kernel: the first masked product `a1 = U · (W2 ∘ M2)ᵀ`, computed block by block on the grid
  (m, n, k) = (2, 2, 4): at each point the 2048×1024 block of U at (m, k) is multiplied (contracting the last axis of
  both) with the elementwise product of the 1024×1024 blocks of W2 and M2 at (n, k); the products over k are summed in
  a 2048×1024 accumulator (set at k = 0, added to at 0 < k < 3), and at k = 3 the sum, rounded, is stored into the
  output block at (m, n), which is written back there and nowhere else.

  This file states the pipeline's proof data at ANY entry contents `V` of the core's buffers — what every staging
  buffer holds after each point, and what the accumulator holds between points (the region invariant) — and proves
  the body obligation: the body's triple in each of its three cases, then the obligation at a generic point.
-/
import proofs.«214096_g36816459661730_cont_8to1_b_1468_17_alg».proof.Proof.KI.Setup
import proofs.«214096_g36816459661730_cont_8to1_b_1468_17_alg».proof.Proof.Gen.KernelIdeal.Skeleton
import proofs.«214096_g36816459661730_cont_8to1_b_1468_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c.tc : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch conditions, in closed form over the grid -/

/-- The first conditional's condition (`k = 0`), from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (`0 < k < 3`). -/
abbrev cond1_1 (i : grid1.Coords) : Prop := (Scalar.cmpi .ne (Scalar.extui (Scalar.andi (Scalar.cmpi .sgt (BitVec.ofNat 32 (i 2).val) 0#32) (Scalar.cmpi .slt (BitVec.ofNat 32 (i 2).val) 3#32))) 0#32) = 1#1
theorem hcond1_1 : ∀ t : Fin cfg1.N, cond1_1 (grid1.coords t) ↔ (t.val % 4 = 1 ∨ t.val % 4 = 2) :=
  (by decide +kernel : ∀ t : Fin grid1.N, cond1_1 (grid1.coords t) ↔ (t.val % 4 = 1 ∨ t.val % 4 = 2))

/-- The third conditional's condition (`k = 3`). -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off `k = 3` the output window is idle and not written back. -/
theorem idleAt1_3 : ∀ t : Fin cfg1.N, ¬ t.val % 4 = 3 → cfg1.idle 3 (grid1.coords t) = true := by decide +kernel
theorem noFlush1_3 : ∀ t : Fin cfg1.N, ¬ t.val % 4 = 3 → (cfg1.win 3).flush t = false := by decide +kernel
/-- At `k = 3` it is live. -/
theorem liveAt1_3 : ∀ t : Fin cfg1.N, t.val % 4 = 3 → cfg1.idle 3 (grid1.coords t) = false := by decide +kernel

/-! ## The body's accesses and what it leaves -/

abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0

/-- The accumulator after the first step of a run (`k = 0`): the product of the blocks. -/
def accA (x0 : Vec F S2048x1024 .f32) (x1 x2 : Vec F S1024x1024 .f32) : Vec F S2048x1024 .f32 :=
  View.canon [⟨rA, k1_pay1 (View.ld x0 rA) (View.ld x1 rW) (View.ld x2 rW)⟩]

/-- The accumulator after a middle step (`0 < k < 3`): what it held plus the product of the blocks. -/
def accB (xs x0 : Vec F S2048x1024 .f32) (x1 x2 : Vec F S1024x1024 .f32) : Vec F S2048x1024 .f32 :=
  View.canon [⟨rA, k1_pay2 (View.ld xs rA) (View.ld x0 rA) (View.ld x1 rW) (View.ld x2 rW)⟩]

/-- The output block after the last step (`k = 3`): the accumulator plus the product of the blocks, rounded. -/
def outC (xs x0 : Vec F S2048x1024 .f32) (x1 x2 : Vec F S1024x1024 .f32) : Vec F S2048x1024 .bf16 :=
  View.canon [⟨rA, k1_pay3 (View.ld xs rA) (View.ld x0 rA) (View.ld x1 rW) (View.ld x2 rW)⟩]

/-- One whole-buffer store covers the buffer. -/
theorem cover1 {e : EltTy} (p0 : rA.shape.Idx → Elt F e) (y : S2048x1024.Idx) :
    ∃ pc ∈ ([⟨rA, p0⟩] : List (View.Piece (Elt F) S2048x1024 e)), y ∈ pc.1.set :=
  View.cover_of_tiled [⟨rA, p0⟩] S2048x1024.size (by rfl) y

/-! ## The body's triple, case by case -/

/-- A load of a whole memref through the whole rectangle reads its contents there. -/
theorem readAt_unread {s : Shape} {e : EltTy} (m : Memref sig .tc .vmem s e) (h : m.IsWhole) (r : Rect s) (X : s.Idx → Elt F e) :
    View.readAt (Elt F) m.view r.toLoadRect (h.unread X) = View.ld X r :=
  (View.readAt_eq_ld _ _ _).trans (by rw [h.read_unread])

set_option maxHeartbeats 1000000 in
/-- Case `k = 0`: the inputs' buffers and the (idle) output's are handed back as found, the accumulator — loaded, its value
    unused, then stored whole — holds the product of the blocks. -/
theorem sound_kernel1_A (c : Dev nD) (E : Set ℕ) (i : grid1.Coords)
    (arg3 : Memref sig .tc .vmem S2048x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S2048x1024 .bf16) (harg6 : arg6.IsWhole)
    (arg7 : Memref sig .tc .vmem S2048x1024 .f32) (harg7 : arg7.IsWhole)
    (hc0 : cond1_0 i) (hc1 : ¬cond1_1 i) (hc2 : ¬cond1_2 i)
    (x0 : Vec F S2048x1024 .f32) (x1 x2 : Vec F S1024x1024 .f32) (xi3 : Vec F S2048x1024 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (accA x0 x1 x2)) -∗ K ⟨⟩))
      ⊢ wp frame (wpE (defs₀ (F := F)) Variants.none c none) E (cc1__mm_body i arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%d7, %f7, -, H7⟩, Hk⟩
  obtain rfl := harg3.eq_unread hf0; obtain rfl := harg4.eq_unread hf1; obtain rfl := harg5.eq_unread hf2; obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H7
  ipureintro
  rw [readAt_unread, readAt_unread, readAt_unread]
  exact View.read_writes_eq_canon _ _ _ (cover1 _)

set_option maxHeartbeats 1000000 in
/-- Case `0 < k < 3`: the accumulator, at `xs`, ends at `xs` plus the product of the blocks. -/
theorem sound_kernel1_B (c : Dev nD) (E : Set ℕ) (i : grid1.Coords)
    (arg3 : Memref sig .tc .vmem S2048x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S2048x1024 .bf16) (harg6 : arg6.IsWhole)
    (arg7 : Memref sig .tc .vmem S2048x1024 .f32) (harg7 : arg7.IsWhole)
    (hc0 : ¬cond1_0 i) (hc1 : cond1_1 i) (hc2 : ¬cond1_2 i)
    (x0 : Vec F S2048x1024 .f32) (x1 x2 : Vec F S1024x1024 .f32) (xi3 : Vec F S2048x1024 .bf16) (xs : Vec F S2048x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (accB xs x0 x1 x2)) -∗ K ⟨⟩))
      ⊢ wp frame (wpE (defs₀ (F := F)) Variants.none c none) E (cc1__mm_body i arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf7
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H7
  ipureintro
  rw [readAt_unread, readAt_unread, readAt_unread, readAt_unread]
  exact View.read_writes_eq_canon _ _ _ (cover1 _)

set_option maxHeartbeats 1000000 in
/-- Case `k = 3`: the accumulator, at `xs`, is left as it was; the output block — loaded, its value unused, then stored
    whole — holds `xs` plus the product of the blocks, rounded. -/
theorem sound_kernel1_C (c : Dev nD) (E : Set ℕ) (i : grid1.Coords)
    (arg3 : Memref sig .tc .vmem S2048x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S2048x1024 .bf16) (harg6 : arg6.IsWhole)
    (arg7 : Memref sig .tc .vmem S2048x1024 .f32) (harg7 : arg7.IsWhole)
    (hc0 : ¬cond1_0 i) (hc1 : ¬cond1_1 i) (hc2 : cond1_2 i)
    (x0 : Vec F S2048x1024 .f32) (x1 x2 : Vec F S1024x1024 .f32) (xs : Vec F S2048x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (outC xs x0 x1 x2) ∗ owns (c : Thread nD τ) arg7 fullShare xs) -∗ K ⟨⟩))
      ⊢ wp frame (wpE (defs₀ (F := F)) Variants.none c none) E (cc1__mm_body i arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%d3, %f3, -, H3⟩, ⟨%f7, %hf7, H7⟩, Hk⟩
  obtain rfl := harg3.eq_unread hf0; obtain rfl := harg4.eq_unread hf1; obtain rfl := harg5.eq_unread hf2
  obtain rfl := harg7.eq_unread hf7
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [readAt_unread, readAt_unread, readAt_unread, readAt_unread]
    exact View.read_writes_eq_canon _ _ _ (cover1 _)
  iexists _; isplitr; · ipureintro; exact harg7.read_unread _
  iexact H7

/-! ## What the accumulator holds after each point -/

/-- The accumulator after the body at position `n`: at `k = 0` the product of the point's blocks; at `0 < k < 3` what the
    point before left plus the product; at `k = 3` what the point before left (the step reads it and does not store it). -/
def sAt1 (c : Dev nD) : (n : ℕ) → n < cfg1.N → Vec F S2048x1024 .f32
  | 0, hn => accA (iblk1 V c 0 ⟨0, hn⟩) (iblk1 V c 1 ⟨0, hn⟩) (iblk1 V c 2 ⟨0, hn⟩)
  | n + 1, hn =>
    if (n + 1) % 4 = 0 then accA (iblk1 V c 0 ⟨n + 1, hn⟩) (iblk1 V c 1 ⟨n + 1, hn⟩) (iblk1 V c 2 ⟨n + 1, hn⟩)
    else if (n + 1) % 4 = 3 then sAt1 c n (Nat.lt_of_succ_lt hn)
    else accB (sAt1 c n (Nat.lt_of_succ_lt hn)) (iblk1 V c 0 ⟨n + 1, hn⟩) (iblk1 V c 1 ⟨n + 1, hn⟩) (iblk1 V c 2 ⟨n + 1, hn⟩)

theorem prev1 (t : Fin cfg1.N) : t.val - 1 < cfg1.N := Nat.lt_of_le_of_lt (Nat.sub_le _ _) t.isLt

theorem sAt1_A (c : Dev nD) (t : Fin cfg1.N) (h0 : t.val % 4 = 0) :
    sAt1 V c t.val t.isLt = accA (iblk1 V c 0 t) (iblk1 V c 1 t) (iblk1 V c 2 t) := by
  obtain ⟨n, hn⟩ := t
  cases n with
  | zero => exact rfl
  | succ n => exact (if_pos h0).trans rfl

theorem sAt1_B (c : Dev nD) (t : Fin cfg1.N) (h : t.val % 4 = 1 ∨ t.val % 4 = 2) :
    sAt1 V c t.val t.isLt = accB (sAt1 V c (t.val - 1) (prev1 t)) (iblk1 V c 0 t) (iblk1 V c 1 t) (iblk1 V c 2 t) := by
  obtain ⟨n, hn⟩ := t
  cases n with
  | zero => exfalso; have h' : 0 % 4 = 1 ∨ 0 % 4 = 2 := h; omega
  | succ n =>
    have h' : (n + 1) % 4 = 1 ∨ (n + 1) % 4 = 2 := h
    exact (if_neg (by omega)).trans ((if_neg (by omega)).trans rfl)

theorem sAt1_C (c : Dev nD) (t : Fin cfg1.N) (h3 : t.val % 4 = 3) :
    sAt1 V c t.val t.isLt = sAt1 V c (t.val - 1) (prev1 t) := by
  obtain ⟨n, hn⟩ := t
  cases n with
  | zero => exfalso; have h' : 0 % 4 = 3 := h3; omega
  | succ n =>
    have h' : (n + 1) % 4 = 3 := h3
    exact (if_neg (by omega)).trans ((if_pos h').trans rfl)

/-! ## The region invariant: the accumulator's contents between points -/

/-- The accumulator: a whole scoped buffer of the kernel's own, passed beside the windows. -/
abbrev scM1 : Memref sig .tc .vmem S2048x1024 .f32 := Memref.whole cc1_scratch0

/-- The invariant before position `n`: before the first point the generator register and every scoped buffer that is no
    staging buffer at anything; afterwards the accumulator at what the point before left, the other scoped buffers at
    anything, and the register. -/
def PhiS1 (c : Dev nD) : (n : ℕ) → n ≤ cfg1.N → sProp 𝕄
  | 0, _ => iprop((∃ r, prngReg c r) ∗ Pipeline.scopedRest spec1 c)
  | n + 1, hn => iprop((∃ r, prngReg c r) ∗ owns (c : Thread nD τ) scM1 fullShare (sAt1 V c n hn) ∗ Pipeline.scopedRestBut spec1 c [cc1_scratch0])

theorem PhiS1_zero (c : Dev nD) (n : ℕ) (h : n ≤ cfg1.N) (hz : n = 0) :
    PhiS1 V c n h = iprop((∃ r, prngReg c r) ∗ Pipeline.scopedRest spec1 c) := by
  subst hz; rfl

theorem PhiS1_succ (c : Dev nD) (n : ℕ) (hn : n < cfg1.N) :
    PhiS1 V c (n + 1) hn = iprop((∃ r, prngReg c r) ∗ owns (c : Thread nD τ) scM1 fullShare (sAt1 V c n hn) ∗ Pipeline.scopedRestBut spec1 c [cc1_scratch0]) := rfl

theorem PhiS1_pos (c : Dev nD) (n : ℕ) (h : n ≤ cfg1.N) (hz : n ≠ 0) :
    PhiS1 V c n h = iprop((∃ r, prngReg c r) ∗ owns (c : Thread nD τ) scM1 fullShare (sAt1 V c (n - 1) (by omega)) ∗ Pipeline.scopedRestBut spec1 c [cc1_scratch0]) := by
  cases n with
  | zero => exact absurd rfl hz
  | succ n => rfl

/-- The scoped rest with the accumulator split off, as a memref owned at some contents. -/
theorem scopedRest1_split (c : Dev nD) :
    (Pipeline.scopedRest spec1 c : sProp 𝕄)
      = iprop((∃ d, owns (c : Thread nD τ) scM1 fullShare d) ∗ Pipeline.scopedRestBut spec1 c [cc1_scratch0]) := by
  rw [Pipeline.scopedRest_split_of_list spec1 c [cc1_scratch0] (by decide) (by decide)]
  simp only [scM1, owns_whole]
  rfl

/-! ## The pipeline's proof data -/

/-- The proof data of the pipeline on core `c`: the arrays as the region finds them; after the body at point `t` each
    input's buffer at its block and the output's at the last step's result over what the point before left in the
    accumulator (consulted at `k = 3` only: elsewhere the window is idle); the invariant `PhiS1`; nothing owed; full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outC (sAt1 V c (t.val - 1) (prev1 t)) (iblk1 V c 0 t) (iblk1 V c 1 t) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_full1 (c : Dev nD) (w) : (dat1 V c).q w = fullShare := rfl
theorem owed1 (c : Dev nD) (t) : (dat1 V c).owed t = 0 := rfl
theorem recorded1 (c : Dev nD) (t) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outC (sAt1 V c (t.val - 1) (prev1 t)) (iblk1 V c 0 t) (iblk1 V c 1 t) (iblk1 V c 2 t) := by dsimp only [dat1]

/-- Each input is fetched at every point, and its window is uncut: its current staging buffer holds its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)

/-! ## The body obligation, at a generic point -/

/-- Each window's current staging memref at point `t`, spelled as the pipeline passes it, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .bf16 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt none t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt none t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything before the first point) and
    takes it back at this point's contents; off `k = 3` the output's buffer is handed back as found; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt none t.succ = (dat1 V c).owesAt none t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 4 = 0
  · have h1 : ¬(t.val % 4 = 1 ∨ t.val % 4 = 2) := by omega
    have h3 : ¬t.val % 4 = 3 := by omega
    rw [Dat.leavesExact_idle (dat1 V c) 3 t (idleAt1_3 t h3) (noFlush1_3 t h3)]
    rw [sAt1_A V c t h0]
    by_cases hz : t.val = 0
    · rw [PhiS1_castSucc V c t, PhiS1_zero V c _ _ hz, scopedRest1_split]
      iintro ⟨⟨Hg, HS, HR⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (fun h => h3 ((hcond1_2 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hg, HS, HR⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (fun h => h3 ((hcond1_2 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3
  · have hz : t.val ≠ 0 := by omega
    by_cases h3 : t.val % 4 = 3
    · have h1 : ¬(t.val % 4 = 1 ∨ t.val % 4 = 2) := by omega
      rw [show (dat1 V c).leavesExact 3 t = owns (c : Thread nD τ) (ms1_3 t) fullShare ((dat1 V c).after 3 t) from by
        unfold Dat.leavesExact; rw [liveAt1_3 t h3], after1_3]
      rw [sAt1_C V c t h3]
      rw [PhiS1_castSucc V c t, PhiS1_pos V c _ _ hz]
      iintro ⟨⟨Hg, HS, HR⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) (fun h => h1 ((hcond1_1 t).mp h)) ((hcond1_2 t).mpr h3)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexact H3
    · have h1 : t.val % 4 = 1 ∨ t.val % 4 = 2 := by omega
      rw [Dat.leavesExact_idle (dat1 V c) 3 t (idleAt1_3 t h3) (noFlush1_3 t h3)]
      rw [sAt1_B V c t h1]
      rw [PhiS1_castSucc V c t, PhiS1_pos V c _ _ hz]
      iintro ⟨⟨Hg, HS, HR⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) ((hcond1_1 t).mpr h1) (fun h => h3 ((hcond1_2 t).mp h))
        (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3

/-- The library's body obligation, at every point. -/
theorem body_obligation1 (c : Dev nD) : Pipeline.BodyObligation (dat1 (F := F) V c) (defs₀ (F := F)) Variants.none (none : HIx 1) Set.univ := fun t => by
  rw [bigSep_W1, bigSep_W1]
  exact sound_body1 V c t

/-- What the region is entered with is the invariant before the first point. -/
theorem hin1 (c : Dev nD) : iprop((∃ r, prngReg c r) ∗ Pipeline.scopedRest spec1 c) ⊢ ((dat1 V c).Φ 0 : sProp 𝕄) := by
  rw [show (dat1 V c).Φ 0 = PhiS1 V c 0 (Nat.zero_le _) from rfl, PhiS1_zero V c 0 _ rfl]

/-- After the last point the invariant gives it back: the accumulator's named contents are forgotten. -/
theorem hout1 (c : Dev nD) : ((dat1 V c).Φ (Fin.last cfg1.N) : sProp 𝕄) ⊢ iprop((∃ r, prngReg c r) ∗ Pipeline.scopedRest spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), scopedRest1_split]
  iintro ⟨Hg, HS, HR⟩
  isplitl [Hg]; · iexact Hg
  isplitl [HS]; · iexists _; iexact HS
  iexact HR

end Cert.Proof.KI

end
-- ==== Proof.KI.Region2.lean ====
/-
  The second TensorCore matrix product of the kernel, a2 = a1 · s1ᵀ rounded to bf16, as a pipeline over the grid
  (m, n, k) = (2, 2, 1): at each point the body reads a 2048×2048 block of a1 and a 1024×2048 block of s1 and leaves
  the 2048×1024 block  trunc(a1_blk · (trunc s1_blk)ᵀ)  in the output window, which is written back at every point.
  There is one contraction step, so no accumulator and one control case.

  This file gives the pipeline's proof data at ANY contents `V` of the core's buffers on entry, and the body's
  obligation against them.
-/
import proofs.«214096_g36816459661730_cont_8to1_b_1468_17_alg».proof.Proof.KI.Setup
import proofs.«214096_g36816459661730_cont_8to1_b_1468_17_alg».proof.Proof.Gen.KernelIdeal.Skeleton
import proofs.«214096_g36816459661730_cont_8to1_b_1468_17_alg».proof.Proof.Gen.KernelIdeal.Points
import Idealize.ShloMosaic.Lib.Pipeline.FrameBody
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered
variable (V : (c : Dev nD) → (b : Ref sig .tc) → Buf (Elt F) ((c.tc : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a point that does
    not fetch it has the block index of the point before), for any proof data whose array is `V`'s and whose body
    leaves the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_x : Rect S2048x2048 := Rect.unit (s := S2048x2048) ![0, 0] S2048x2048.size inb_S2048x2048_S2048x2048_0_0
abbrev r2_s : Rect S1024x2048 := Rect.unit (s := S1024x2048) ![0, 0] S1024x2048.size inb_S1024x2048_S1024x2048_0_0
abbrev r2_o : Rect S2048x1024 := Rect.unit (s := S2048x1024) ![0, 0] S2048x1024.size inb_S2048x1024_S2048x1024_0_0

/-! ## What the body leaves in the output window's buffer -/

/-- The output window's staging buffer after the body, from the input windows' blocks: its one store. -/
def out2_2 (x0 : Vec F S2048x2048 .bf16) (x1 : Vec F S1024x2048 .f32) : Vec F S2048x1024 .bf16 :=
  View.canon [⟨r2_o, k2_pay1 (View.ld x0 r2_x) (View.ld x1 r2_s)⟩]

/-- The store is of the whole buffer, so it covers it. -/
theorem cover2_2 (p0 : Vec F S2048x1024 .bf16) (y : S2048x1024.Idx) :
    ∃ pc ∈ ([⟨r2_o, p0⟩] : List (View.Piece (Elt F) S2048x1024 .bf16)), y ∈ pc.1.set :=
  View.cover_of_tiled [⟨r2_o, p0⟩] S2048x1024.size (by rfl) y

/-! ## The body's triple -/

set_option maxHeartbeats 1000000 in
/-- The kernel body on whole staging memrefs, the inputs' at read contents `x0`, `x1` and the output's at anything,
    runs to the continuation holding the inputs' as they were and the output's at `out2_2` of the inputs'. The body
    also loads the output's buffer before it stores to it; nothing reads the loaded value. -/
theorem sound_kernel2 (c : Dev nD) (E : Set ℕ) (i : grid2.Coords)
    (arg0 : Memref sig .tc .vmem S2048x2048 .bf16) (harg0 : arg0.IsWhole)
    (arg1 : Memref sig .tc .vmem S1024x2048 .f32) (harg1 : arg1.IsWhole)
    (arg2 : Memref sig .tc .vmem S2048x1024 .bf16) (harg2 : arg2.IsWhole)
    (x0 : Vec F S2048x2048 .bf16) (x1 : Vec F S1024x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__mm_body i arg0 harg0 arg1 harg1 arg2 harg2) K := by
  simp only [cc2__mm_body_eq_skeleton]; unfold cc2__mm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them; after the body at point `t` each
    input's buffer at its block and the output's at `out2_2` of the input blocks; the invariant: the core's scoped buffers
    that are no staging buffer of this pipeline and its generator register, untouched; nothing owed; full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := iprop(Pipeline.scopedRest spec2 c ∗ ∃ r, prngReg c r)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The body owes nothing at any point. -/
theorem owed2 (c : Dev nD) (t : Fin (cfg2.N + 1)) : (dat2 V c).owed t = 0 := rfl

/-- No bound is put on the pairs the core's waits have recorded. -/
theorem recorded2 (c : Dev nD) (t : Fin (cfg2.N + 1)) : (dat2 V c).recorded t = Set.univ := rfl

/-- Every array is held at the full share. -/
theorem q_full2 (c : Dev nD) (w : Fin cfg2.W) : (dat2 V c).q w = fullShare := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt (none : HIx 1) t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt (none : HIx 1) t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt (none : HIx 1) t.succ = (dat2 V c).owesAt (none : HIx 1) t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none (none : HIx 1) Set.univ := fun t => by
  rw [bigSep_W2, bigSep_W2]
  exact sound_body2 V c t

/-! ## The invariant at the region's two ends -/

/-- Entering, the region hands the pipeline the generator register and the scoped buffers that are not its own staging
    buffers: the invariant at the first point. -/
theorem hin2 (c : Dev nD) : iprop((∃ r, prngReg c r) ∗ Pipeline.scopedRest spec2 c) ⊢ ((dat2 V c).Φ 0 : sProp 𝕄) := by
  dsimp only [dat2]
  iintro ⟨H1, H2⟩
  isplitl [H2]; · iexact H2
  iexact H1

/-- Leaving, the invariant after the last point hands them back. -/
theorem hout2 (c : Dev nD) : ((dat2 V c).Φ (Fin.last cfg2.N) : sProp 𝕄) ⊢ iprop((∃ r, prngReg c r) ∗ Pipeline.scopedRest spec2 c) := by
  dsimp only [dat2]
  iintro ⟨H1, H2⟩
  isplitl [H2]; · iexact H2
  iexact H1

end Cert.Proof.KI

end
-- ==== Proof.KI.Region3.lean ====
/-
  The third TensorCore call: out = a2 · (W0 ∘ M0)ᵀ + bias, computed block by block on the grid (m, n, k) = (2, 4, 2).

  At a point (m, n, k) the body forms the product of the (m, k) block of a2 with the transposed masked (n, k) block
  of W0 ∘ M0. At k = 0 it stores that product into the accumulator (a scratch buffer the kernel carries from point
  to point); at k = 1 it adds the product to the accumulator, adds the bias row's n-th block to every row, and stores
  the sum into the output's (m, n) block, which is then written back. The case 0 < k < 1 of the body meets no point.

  This module states, for ANY contents `V` the call finds in the TensorCore's buffers: the blocks the windows hold,
  what the accumulator and the output block hold after each point, the invariant that carries the accumulator, and
  the body's obligation at every point.
-/
import proofs.«214096_g36816459661730_cont_8to1_b_1468_17_alg».proof.Proof.KI.Setup
import proofs.«214096_g36816459661730_cont_8to1_b_1468_17_alg».proof.Proof.Gen.KernelIdeal.Skeleton
import proofs.«214096_g36816459661730_cont_8to1_b_1468_17_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the call is entered
variable (V : (c : Dev nD) → (b : Ref sig .tc) → Buf (Elt F) ((c.tc : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (where it is not
    fetched, its block index has not moved), for any proof data whose array is the entry contents and whose body
    leaves the block in place. -/
theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 1) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) (HIx 1) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's three conditions on the grid coordinate k -/

/-- k = 0. -/
abbrev cond3_0 (i : grid3.Coords) : Prop := (Scalar.cmpi .ne (Scalar.extui (Scalar.cmpi .eq (BitVec.ofNat 32 (i 2).val) 0#32)) 0#32) = 1#1
/-- 0 < k < 1. -/
abbrev cond3_1 (i : grid3.Coords) : Prop :=
  (Scalar.cmpi .ne (Scalar.extui (Scalar.andi (Scalar.cmpi .sgt (BitVec.ofNat 32 (i 2).val) 0#32) (Scalar.cmpi .slt (BitVec.ofNat 32 (i 2).val) 1#32))) 0#32) = 1#1
/-- k = 1. -/
abbrev cond3_2 (i : grid3.Coords) : Prop := k3_cond3 i = 1#1

/-- k = 0 at the even points, -/
theorem hcond3_0 : ∀ t : Fin cfg3.N, cond3_0 (grid3.coords t) ↔ t.val % 2 = 0 :=
  (by decide +kernel : ∀ t : Fin grid3.N, cond3_0 (grid3.coords t) ↔ t.val % 2 = 0)
/-- no point has 0 < k < 1, -/
theorem hcond3_1 : ∀ t : Fin cfg3.N, ¬cond3_1 (grid3.coords t) :=
  (by decide +kernel : ∀ t : Fin grid3.N, ¬cond3_1 (grid3.coords t))
/-- k = 1 at the odd points. -/
theorem hcond3_2 : ∀ t : Fin cfg3.N, cond3_2 (grid3.coords t) ↔ t.val % 2 = 1 :=
  (by decide +kernel : ∀ t : Fin grid3.N, cond3_2 (grid3.coords t) ↔ t.val % 2 = 1)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At the even points (k = 0) the body stores nothing into the output's buffer, and the block is not written back; -/
theorem idleAt3_4 : ∀ t : Fin cfg3.N, t.val % 2 = 0 → cfg3.idle 4 (grid3.coords t) = true := by decide +kernel
theorem noFlush3_4 : ∀ t : Fin cfg3.N, t.val % 2 = 0 → (cfg3.win 4).flush t = false := by decide +kernel
/-- at the odd points (k = 1) it stores the block. -/
theorem liveAt3_4 : ∀ t : Fin cfg3.N, t.val % 2 = 1 → cfg3.idle 4 (grid3.coords t) = false := by decide +kernel

/-- The zero offsets of a whole-buffer access. -/
theorem hz3 : (![0, 0] : Fin 2 → Nat) = fun _ => 0 := funext fun a => by fin_cases a <;> rfl

/-! ## The body's triples, case by case -/

/-- The k = 0 case: on whole staging memrefs — the a2, W0 and M0 blocks at `x0`, `x1`, `x2`, the accumulator at anything
    (the body loads it, and drops what it loaded) — the body runs to the accumulator holding the blocks' product; it
    touches neither the bias row's buffer nor the output's. -/
theorem sound_kernel3_A (c : Dev nD) (E : Set ℕ) (i : grid3.Coords)
    (arg3 : Memref sig .tc .vmem S2048x1024 .bf16) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : cond3_0 i) (hc1 : ¬cond3_1 i) (hc2 : ¬cond3_2 i)
    (x0 : Vec F S2048x1024 .bf16) (x1 x2 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg8 fullShare (k3_pay1 x0 x1 x2)) -∗ K ⟨⟩))
      ⊢ wp frame (wpE (defs₀ (F := F)) Variants.none c none) E (cc3__mm_body i arg3 harg3 arg4 harg4 arg5 harg5 arg6 harg6 arg7 harg7 arg8 harg8) K := by
  simp only [cc3__mm_body_eq_skeleton]; unfold cc3__mm_body_skel
  unfold owns
  iintro ⟨⟨%f0, %hf0, H0⟩, ⟨%f1, %hf1, H1⟩, ⟨%f2, %hf2, H2⟩, ⟨%d8, %f8, -, H8⟩, Hk⟩
  subst hf0; subst hf1; subst hf2
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H8
  ipureintro
  rw [View.read_writes_eq_canon _ _ _ (fun y => ⟨_, List.mem_singleton_self _, View.mem_set_unit_zero hz3 inb_S2048x1024_S2048x1024_0_0 y⟩),
    View.canon_unit_zero hz3]
  simp only [View.readAt_eq_ld, View.ld_unit_zero (S := S2048x1024) hz3, View.ld_unit_zero (S := S1024x1024) hz3, View.ld_unit_zero (S := S1x1024) hz3]

/-- The k = 1 case: the accumulator at `xs`, the a2, W0 and M0 blocks at `x0`, `x1`, `x2`, the bias row's block at `x3`, the
    output's buffer at anything (the body loads it, and drops what it loaded): the body runs to the output's buffer
    holding (xs + the blocks' product) + the bias row on every row; the accumulator is left as it was. -/
theorem sound_kernel3_C (c : Dev nD) (E : Set ℕ) (i : grid3.Coords)
    (arg3 : Memref sig .tc .vmem S2048x1024 .bf16) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬cond3_0 i) (hc1 : ¬cond3_1 i) (hc2 : cond3_2 i)
    (xs : Vec F S2048x1024 .f32) (x0 : Vec F S2048x1024 .bf16) (x1 x2 : Vec F S1024x1024 .f32) (x3 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k3_pay3 xs x0 x1 x2 x3)
            ∗ owns (c : Thread nD τ) arg8 fullShare xs) -∗ K ⟨⟩))
      ⊢ wp frame (wpE (defs₀ (F := F)) Variants.none c none) E (cc3__mm_body i arg3 harg3 arg4 harg4 arg5 harg5 arg6 harg6 arg7 harg7 arg8 harg8) K := by
  simp only [cc3__mm_body_eq_skeleton]; unfold cc3__mm_body_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  subst hf0; subst hf1; subst hf2; subst hf3; subst hf8
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists _; isplitr
    swap; · iexact H7
    ipureintro
    rw [View.read_writes_eq_canon _ _ _ (fun y => ⟨_, List.mem_singleton_self _, View.mem_set_unit_zero hz3 inb_S2048x1024_S2048x1024_0_0 y⟩),
      View.canon_unit_zero hz3]
    simp only [View.readAt_eq_ld, View.ld_unit_zero (S := S2048x1024) hz3, View.ld_unit_zero (S := S1024x1024) hz3, View.ld_unit_zero (S := S1x1024) hz3]
  iexists f8; isplitr; · ipureintro; rfl
  iexact H8

/-! ## The staging memrefs at a point, and the accumulator -/

/-- Each window's current staging memref at point `t`, as the pipeline passes it to the body, and its wholeness. -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x1024 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3 : Memref sig .tc .vmem S2048x1024 .f32 := Memref.whole cc3_scratch0

/-- The even point (k = 0) of the pair of points that `s` is in. -/
def ev3 (s : Fin cfg3.N) : Fin cfg3.N := ⟨2 * (s.val / 2), by have := s.isLt; omega⟩

theorem ev3_even (s : Fin cfg3.N) (h : s.val % 2 = 0) : ev3 s = s := Fin.ext (by show 2 * (s.val / 2) = s.val; omega)

/-- What the accumulator holds after point `s`: the product of the blocks at the k = 0 point of `s`'s pair (stored there,
    and left alone at the k = 1 point). -/
def acc3 (c : Dev nD) (s : Fin cfg3.N) : Vec F S2048x1024 .f32 :=
  k3_pay1 (iblk3 V c 0 (ev3 s)) (iblk3 V c 1 (ev3 s)) (iblk3 V c 2 (ev3 s))

theorem acc3_congr (c : Dev nD) (s s' : Fin cfg3.N) (h : ev3 s = ev3 s') : acc3 V c s = acc3 V c s' := by
  unfold acc3; rw [h]

theorem acc3_even (c : Dev nD) (s : Fin cfg3.N) (h : s.val % 2 = 0) :
    acc3 V c s = k3_pay1 (iblk3 V c 0 s) (iblk3 V c 1 s) (iblk3 V c 2 s) := by
  unfold acc3; rw [ev3_even s h]

/-- What the body leaves in the output's buffer at a k = 1 point: (accumulator + product of the blocks) + bias row. -/
def out3 (c : Dev nD) (t : Fin cfg3.N) : Vec F S2048x1024 .f32 :=
  k3_pay3 (acc3 V c t) (iblk3 V c 0 t) (iblk3 V c 1 t) (iblk3 V c 2 t) (iblk3 V c 3 t)

/-! ## The invariant: the accumulator carried from point to point -/

/-- The core's scoped buffers other than this call's staging buffers and accumulator, at some contents each. -/
abbrev rest3 (c : Dev nD) : sProp 𝕄 := Pipeline.scopedRestBut spec3 c [cc3_scratch0]

/-- The scoped rest with the accumulator split off. -/
theorem scopedRest3_split (c : Dev nD) :
    (Pipeline.scopedRest spec3 c : sProp 𝕄) = iprop((∃ d, owns (c : Thread nD τ) scM3 fullShare d) ∗ rest3 c) := by
  rw [Pipeline.scopedRest_split_of_list spec3 c [cc3_scratch0] (by decide) (by decide)]
  simp only [bigSepL_singleton, scM3, owns_whole]; try rfl

/-- The invariant before position `n`: before the first point the generator register at some state and the scoped rest
    (the accumulator at anything); afterwards the same with the accumulator at what the point before left in it. -/
def Phi3 (c : Dev nD) : (n : ℕ) → n ≤ cfg3.N → sProp 𝕄
  | 0, _ => iprop((∃ r, prngReg c r) ∗ Pipeline.scopedRest spec3 c)
  | n + 1, hn => iprop((∃ r, prngReg c r) ∗ rest3 c ∗ owns (c : Thread nD τ) scM3 fullShare (acc3 V c ⟨n, hn⟩))

theorem Phi3_zero (c : Dev nD) (n : ℕ) (h : n ≤ cfg3.N) (hz : n = 0) :
    Phi3 V c n h = iprop((∃ r, prngReg c r) ∗ Pipeline.scopedRest spec3 c) := by subst hz; rfl

theorem Phi3_succ (c : Dev nD) (n : ℕ) (hn : n < cfg3.N) :
    Phi3 V c (n + 1) hn = iprop((∃ r, prngReg c r) ∗ rest3 c ∗ owns (c : Thread nD τ) scM3 fullShare (acc3 V c ⟨n, hn⟩)) := rfl

theorem Phi3_pos (c : Dev nD) (n : ℕ) (h : n ≤ cfg3.N) (hz : n ≠ 0) :
    Phi3 V c n h = iprop((∃ r, prngReg c r) ∗ rest3 c ∗ owns (c : Thread nD τ) scM3 fullShare (acc3 V c ⟨n - 1, by omega⟩)) := by
  cases n with
  | zero => exact absurd rfl hz
  | succ n => rfl

/-- At any position the invariant yields the accumulator at SOME contents beside the rest. -/
theorem Phi3_forget (c : Dev nD) (n : ℕ) (h : n ≤ cfg3.N) :
    Phi3 V c n h ⊢ iprop((∃ r, prngReg c r) ∗ rest3 c ∗ ∃ d, owns (c : Thread nD τ) scM3 fullShare d) := by
  cases n with
  | zero =>
    rw [Phi3_zero V c 0 h rfl, scopedRest3_split]
    iintro ⟨Hg, HS, HR⟩
    isplitl [Hg]; · iexact Hg
    isplitl [HR]; · iexact HR
    iexact HS
  | succ n =>
    rw [Phi3_succ]
    iintro ⟨Hg, HR, HS⟩
    isplitl [Hg]; · iexact Hg
    isplitl [HR]; · iexact HR
    iexists _; iexact HS

/-! ## The proof data -/

/-- The proof data of this call on core `c`: the arrays as the call finds them; after the body at point `t` each input's
    buffer at its block and the output's at `out3`; the invariant `Phi3`; nothing owed; full shares. -/
def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_full3 (c : Dev nD) (w) : (dat3 V c).q w = fullShare := rfl
theorem owed3 (c : Dev nD) (t) : (dat3 V c).owed t = 0 := rfl
theorem recorded3 (c : Dev nD) (t) : (dat3 V c).recorded t = Set.univ := rfl

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt (none : HIx 1) t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt (none : HIx 1) t.succ
    ∗ (dat3 V c).leavesExact 0 t ∗ (dat3 V c).leavesExact 1 t ∗ (dat3 V c).leavesExact 2 t
    ∗ (dat3 V c).leavesExact 3 t ∗ (dat3 V c).leavesExact 4 t)

/-- The inputs are never idle: each is handed back at its block. -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (ms3_3 t) fullShare (iblk3 V c 3 t) := by
  unfold Dat.leavesExact; rw [liveAt3_3 t, after3_3]

set_option maxHeartbeats 4800000 in
/-- The body at any point. The inputs' memrefs hold their blocks. At an even point (k = 0) the invariant hands the body
    the accumulator at whatever it held and takes it back at the blocks' product; the output's buffer is handed back as it
    was found. At an odd point (k = 1) the invariant hands the accumulator at what the point before left, and takes it
    back unchanged; the output's buffer is left at `out3`. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt (none : HIx 1) t.succ = (dat3 V c).owesAt (none : HIx 1) t.castSucc from rfl]
  rw [show (dat3 V c).Φ t.succ = Phi3 V c (t.val + 1) t.isLt from rfl, Phi3_succ]
  rw [leaves3_0, leaves3_1, leaves3_2, leaves3_3, Phi3_castSucc]
  have hN : t.val < 16 := lt_of_lt_of_eq t.isLt (show cfg3.N = 16 from N_3)
  by_cases h0 : t.val % 2 = 0
  · have hc0 : cond3_0 (grid3.coords t) := (hcond3_0 t).mpr h0
    have hc2 : ¬cond3_2 (grid3.coords t) := fun h => by have := (hcond3_2 t).mp h; omega
    rw [Dat.leavesExact_idle (dat3 V c) 4 t (idleAt3_4 t h0) (noFlush3_4 t h0)]
    rw [show acc3 V c ⟨t.val, t.isLt⟩ = k3_pay1 (iblk3 V c 0 t) (iblk3 V c 1 t) (iblk3 V c 2 t) from acc3_even V c t h0]
    iintro ⟨HΦ, Ho, ⟨%d0, H0⟩, ⟨%d1, H1⟩, ⟨%d2, H2⟩, ⟨%d3, H3⟩, H4⟩
    ihave HΦ' := (Phi3_forget V c _ _) $$ HΦ
    icases HΦ' with ⟨Hg, HR, HS⟩
    iapply (sound_kernel3_A c Set.univ (grid3.coords t) _ _ _ _ _ _ _ (hs3_3 t) _ (hs3_4 t) _ _ hc0 (hcond3_1 t) hc2 (iblk3 V c 0 t) (iblk3 V c 1 t) (iblk3 V c 2 t) _)
    isplitl [H0]; · iexact H0
    isplitl [H1]; · iexact H1
    isplitl [H2]; · iexact H2
    isplitl [HS]; · iexact HS
    iintro ⟨H0, H1, H2, HS⟩
    isplitl [Hg HR HS]
    · isplitl [Hg]; · iexact Hg
      isplitl [HR]; · iexact HR
      iexact HS
    isplitl [Ho]; · iexact Ho
    isplitl [H0]; · iexact H0
    isplitl [H1]; · iexact H1
    isplitl [H2]; · iexact H2
    isplitl [H3]; · iexact H3
    iexact H4
  · have h1 : t.val % 2 = 1 := by omega
    have hc0 : ¬cond3_0 (grid3.coords t) := fun h => h0 ((hcond3_0 t).mp h)
    have hc2 : cond3_2 (grid3.coords t) := (hcond3_2 t).mpr h1
    have hz : t.val ≠ 0 := by omega
    rw [show (dat3 V c).leavesExact 4 t = owns (c : Thread nD τ) (ms3_4 t) fullShare (out3 V c t) from by
      unfold Dat.leavesExact; rw [liveAt3_4 t h1, after3_4]]
    rw [Phi3_pos V c _ _ hz,
      acc3_congr V c ⟨t.val - 1, _⟩ t (Fin.ext (by show 2 * ((t.val - 1) / 2) = 2 * (t.val / 2); omega)),
      show acc3 V c ⟨t.val, t.isLt⟩ = acc3 V c t from rfl]
    unfold out3
    iintro ⟨⟨Hg, HR, HS⟩, Ho, ⟨%d0, H0⟩, ⟨%d1, H1⟩, ⟨%d2, H2⟩, ⟨%d3, H3⟩, ⟨%d4, H4⟩⟩
    iapply (sound_kernel3_C c Set.univ (grid3.coords t) _ _ _ _ _ _ _ _ _ _ _ _ hc0 (hcond3_1 t) hc2 (acc3 V c t) (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hg HR HS]
    · isplitl [Hg]; · iexact Hg
      isplitl [HR]; · iexact HR
      iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation3 (c : Dev nD) : BodyObligation (dat3 (F := F) V c) (defs₀ (F := F)) Variants.none (none : HIx 1) Set.univ := fun t => by
  rw [bigSep_W3, bigSep_W3]
  exact sound_body3 V c t

/-- What the call is entered with is the invariant before the first point. -/
theorem hin3 (c : Dev nD) : iprop((∃ r, prngReg c r) ∗ Pipeline.scopedRest spec3 c) ⊢ ((dat3 V c).Φ 0 : sProp 𝕄) := by
  rw [show (dat3 V c).Φ 0 = Phi3 V c 0 (Nat.zero_le _) from rfl, Phi3_zero V c 0 _ rfl]

/-- After the last point the invariant gives it back: the accumulator's named contents are forgotten. -/
theorem hout3 (c : Dev nD) : ((dat3 V c).Φ (Fin.last cfg3.N) : sProp 𝕄) ⊢ iprop((∃ r, prngReg c r) ∗ Pipeline.scopedRest spec3 c) := by
  rw [show (dat3 V c).Φ (Fin.last cfg3.N) = Phi3 V c cfg3.N (le_refl _) from rfl, scopedRest3_split]
  refine (Phi3_forget V c _ _).trans ?_
  iintro ⟨Hg, HR, HS⟩
  isplitl [Hg]; · iexact Hg
  isplitl [HS]; · iexact HS
  iexact HR

end Cert.Proof.KI

end
-- ==== Proof.KI.Chase.lean ====
/-
  The eight arguments of @main end as launched: no step of the program writes one. The SparseCore call writes only its
  result array; a pipelined region changes only its output window's array (an argument it reads through an input window
  comes back as entered, one it does not stage is untouched); the reshape writes only the bias row.
-/
import proofs.«214096_g36816459661730_cont_8to1_b_1468_17_alg».proof.Proof.KI.Thread
import Idealize.ShloMosaic.Lib.StableHlo.Run

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)
variable (R1 : RegionData (F := F) cfg1) (R2 : RegionData (F := F) cfg2) (R3 : RegionData (F := F) cfg3)

/-! ## What each step leaves unchanged -/

/-- The SparseCore call changes only its result array. -/
theorem W1_of_ne (c : Dev nD) (b : Ref sig .tc) (h : b ≠ main_v0) :
    W1 m c (Proc.devRef .tc b) = m ((c.tc : Thread nD τ).loc b) := by
  unfold W1
  rw [Function.update_of_ne (StableHlo.devRef_ne_of_ne h : (Proc.devRef .tc b : DevRef τ sig) ≠ Proc.devRef .tc main_v0)]
/-- and leaves the product there. -/
theorem W1_v0 (c : Dev nD) : W1 m c (Proc.devRef .tc main_v0) = s1Val m c := by
  unfold W1; exact Function.update_self _ _ _

/-- An input window's array leaves a region as it entered it. -/
theorem W2_in (c : Dev nD) (w : Fin cfg1.W) (hin : (cfg1.win w).isOut = false) :
    W2 m R1 c (Proc.devRef .tc (Pipeline.arrRef spec1 w)) = W1 m c (Proc.devRef .tc (Pipeline.arrRef spec1 w)) :=
  (W2_arr m R1 c w).trans (((R1.dat (V1 m) c).arrAt_in w hin _).trans (R1.A_eq (V1 m) c w))
theorem W3_in (c : Dev nD) (w : Fin cfg2.W) (hin : (cfg2.win w).isOut = false) :
    W3 m R1 R2 c (Proc.devRef .tc (Pipeline.arrRef spec2 w)) = W2 m R1 c (Proc.devRef .tc (Pipeline.arrRef spec2 w)) :=
  (W3_arr m R1 R2 c w).trans (((R2.dat (V2 m R1) c).arrAt_in w hin _).trans (R2.A_eq (V2 m R1) c w))
theorem W5_in (c : Dev nD) (w : Fin cfg3.W) (hin : (cfg3.win w).isOut = false) :
    W5 m R1 R2 R3 c (Proc.devRef .tc (Pipeline.arrRef spec3 w)) = W4 m R1 R2 c (Proc.devRef .tc (Pipeline.arrRef spec3 w)) :=
  (W5_arr m R1 R2 R3 c w).trans (((R3.dat (V4 m R1 R2) c).arrAt_in w hin _).trans (R3.A_eq (V4 m R1 R2) c w))

/-- The reshape writes the bias row and nothing else. -/
abbrev hostOpsR_W : List (Ref sig .tc) := [main_v3]
theorem hostOpsR_writes : (hostOpsR : List (HloOp τ sig (Elt F))).Forall fun op => op.writes ⊆ (hostOpsR_W.map (Proc.devRef (τ := τ) .tc)).toFinset := by
  simp only [List.Forall]; exact (by simp only [StableHlo.reshape_writes, Finset.singleton_subset_iff, List.mem_toFinset]; exact List.mem_map_of_mem (by decide))
theorem W4_of_ne (c : Dev nD) (b : Ref sig .tc) (h : b ∉ hostOpsR_W) :
    W4 m R1 R2 c (Proc.devRef .tc b) = W3 m R1 R2 c (Proc.devRef .tc b) :=
  StableHlo.after_of_writes_sub hostOpsR _ hostOpsR_writes h

/-! ## The arguments end as launched -/

/-- The arguments the last region reads, as it finds them. -/
theorem W4_arg1 (c : Dev nD) : W4 m R1 R2 c (Proc.devRef .tc main_arg1) = m ((c.tc : Thread nD τ).loc main_arg1) :=
  (W4_of_ne m R1 R2 c main_arg1 (by decide)).trans <|
    (W3_of_ne m R1 R2 c main_arg1 (by decide)).trans <| (W2_of_ne m R1 c main_arg1 (by decide)).trans <| W1_of_ne m c main_arg1 (by decide)
theorem W4_arg4 (c : Dev nD) : W4 m R1 R2 c (Proc.devRef .tc main_arg4) = m ((c.tc : Thread nD τ).loc main_arg4) :=
  (W4_of_ne m R1 R2 c main_arg4 (by decide)).trans <|
    (W3_of_ne m R1 R2 c main_arg4 (by decide)).trans <| (W2_of_ne m R1 c main_arg4 (by decide)).trans <| W1_of_ne m c main_arg4 (by decide)
/-- The bias, as the reshape finds it. -/
theorem W3_arg7 (c : Dev nD) : W3 m R1 R2 c (Proc.devRef .tc main_arg7) = m ((c.tc : Thread nD τ).loc main_arg7) :=
  (W3_of_ne m R1 R2 c main_arg7 (by decide)).trans <| (W2_of_ne m R1 c main_arg7 (by decide)).trans <| W1_of_ne m c main_arg7 (by decide)

theorem W5_arg0 (c : Dev nD) : W5 m R1 R2 R3 c (Proc.devRef .tc main_arg0) = m ((c.tc : Thread nD τ).loc main_arg0) :=
  (W5_of_ne m R1 R2 R3 c main_arg0 (by decide)).trans <| (W4_of_ne m R1 R2 c main_arg0 (by decide)).trans <|
    (W3_of_ne m R1 R2 c main_arg0 (by decide)).trans <| (W2_in m R1 c 0 rfl).trans <| W1_of_ne m c main_arg0 (by decide)
theorem W5_arg1 (c : Dev nD) : W5 m R1 R2 R3 c (Proc.devRef .tc main_arg1) = m ((c.tc : Thread nD τ).loc main_arg1) :=
  (W5_in m R1 R2 R3 c 1 rfl).trans (W4_arg1 m R1 R2 c)
theorem W5_arg2 (c : Dev nD) : W5 m R1 R2 R3 c (Proc.devRef .tc main_arg2) = m ((c.tc : Thread nD τ).loc main_arg2) :=
  (W5_of_ne m R1 R2 R3 c main_arg2 (by decide)).trans <| (W4_of_ne m R1 R2 c main_arg2 (by decide)).trans <|
    (W3_of_ne m R1 R2 c main_arg2 (by decide)).trans <| (W2_of_ne m R1 c main_arg2 (by decide)).trans <| W1_of_ne m c main_arg2 (by decide)
theorem W5_arg3 (c : Dev nD) : W5 m R1 R2 R3 c (Proc.devRef .tc main_arg3) = m ((c.tc : Thread nD τ).loc main_arg3) :=
  (W5_of_ne m R1 R2 R3 c main_arg3 (by decide)).trans <| (W4_of_ne m R1 R2 c main_arg3 (by decide)).trans <|
    (W3_of_ne m R1 R2 c main_arg3 (by decide)).trans <| (W2_in m R1 c 1 rfl).trans <| W1_of_ne m c main_arg3 (by decide)
theorem W5_arg4 (c : Dev nD) : W5 m R1 R2 R3 c (Proc.devRef .tc main_arg4) = m ((c.tc : Thread nD τ).loc main_arg4) :=
  (W5_in m R1 R2 R3 c 2 rfl).trans (W4_arg4 m R1 R2 c)
theorem W5_arg5 (c : Dev nD) : W5 m R1 R2 R3 c (Proc.devRef .tc main_arg5) = m ((c.tc : Thread nD τ).loc main_arg5) :=
  (W5_of_ne m R1 R2 R3 c main_arg5 (by decide)).trans <| (W4_of_ne m R1 R2 c main_arg5 (by decide)).trans <|
    (W3_of_ne m R1 R2 c main_arg5 (by decide)).trans <| (W2_of_ne m R1 c main_arg5 (by decide)).trans <| W1_of_ne m c main_arg5 (by decide)
theorem W5_arg6 (c : Dev nD) : W5 m R1 R2 R3 c (Proc.devRef .tc main_arg6) = m ((c.tc : Thread nD τ).loc main_arg6) :=
  (W5_of_ne m R1 R2 R3 c main_arg6 (by decide)).trans <| (W4_of_ne m R1 R2 c main_arg6 (by decide)).trans <|
    (W3_of_ne m R1 R2 c main_arg6 (by decide)).trans <| (W2_in m R1 c 2 rfl).trans <| W1_of_ne m c main_arg6 (by decide)
theorem W5_arg7 (c : Dev nD) : W5 m R1 R2 R3 c (Proc.devRef .tc main_arg7) = m ((c.tc : Thread nD τ).loc main_arg7) :=
  (W5_of_ne m R1 R2 R3 c main_arg7 (by decide)).trans <| (W4_of_ne m R1 R2 c main_arg7 (by decide)).trans <|
    (W3_of_ne m R1 R2 c main_arg7 (by decide)).trans <| (W2_of_ne m R1 c main_arg7 (by decide)).trans <| W1_of_ne m c main_arg7 (by decide)

/-! ## The arrays the regions and the two other steps write, where the next reader finds them -/

/-- The first region's result, as the second finds it. -/
theorem W2_v1 (c : Dev nD) : W2 m R1 c (Proc.devRef .tc main_v1) = (R1.dat (V1 m) c).arrAt 3 cfg1.N := W2_arr m R1 c 3
/-- The SparseCore call's result, as the second region finds it: the first region does not stage it. -/
theorem W2_v0 (c : Dev nD) : W2 m R1 c (Proc.devRef .tc main_v0) = s1Val m c :=
  (W2_of_ne m R1 c main_v0 (by decide)).trans (W1_v0 m c)
/-- The second region's result, as the third finds it: the reshape does not write it. -/
theorem W4_v2 (c : Dev nD) : W4 m R1 R2 c (Proc.devRef .tc main_v2) = (R2.dat (V2 m R1) c).arrAt 2 cfg2.N :=
  (W4_of_ne m R1 R2 c main_v2 (by decide)).trans (W3_arr m R1 R2 c 2)
/-- The bias row: the reshape of the bias as launched. -/
theorem W4_v3 (c : Dev nD) : W4 m R1 R2 c (Proc.devRef .tc main_v3)
    = fun i => shapeCast S1x4096 (m ((c.tc : Thread nD τ).loc main_arg7)) shapeCasts_S4096_S1x4096 i := by
  show StableHlo.after [opR] (W3 m R1 R2 c) (Proc.devRef .tc main_v3) = _
  rw [StableHlo.after_cons, StableHlo.after_nil]
  refine (StableHlo.reshape_result main_arg7 main_v3 rfl shapeCasts_S4096_S1x4096 _ _ (W3 m R1 R2 c)).trans ?_
  rw [W3_arg7]
  rfl

end Cert.Proof.KI

end
-- ==== Proof.KI.Run.lean ====
/-
  The kernel program's run with everything supplied: the SparseCore task, the dealing of the call's arrays, and the
  three regions' proof data. From it the frame: every weakly fair execution terminates, nothing faulting, and the
  eight argument arrays end as launched.
-/
import proofs.«214096_g36816459661730_cont_8to1_b_1468_17_alg».proof.Proof.KI.Launch
import proofs.«214096_g36816459661730_cont_8to1_b_1468_17_alg».proof.Proof.KI.Tile
import proofs.«214096_g36816459661730_cont_8to1_b_1468_17_alg».proof.Proof.KI.Region1
import proofs.«214096_g36816459661730_cont_8to1_b_1468_17_alg».proof.Proof.KI.Region2
import proofs.«214096_g36816459661730_cont_8to1_b_1468_17_alg».proof.Proof.KI.Region3
import proofs.«214096_g36816459661730_cont_8to1_b_1468_17_alg».proof.Proof.KI.Chase

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The three regions' proof data, bundled. -/
def RD1 : RegionData (F := F) cfg1 where
  dat V c := dat1 V c
  A_eq V c w := A_eq1 V c w
  q_full V c w := q_full1 V c w
  owed V c t := owed1 V c t
  recorded V c t := recorded1 V c t
  body V c := body_obligation1 V c
  hin V c := hin1 V c
  hout V c := hout1 V c
def RD2 : RegionData (F := F) cfg2 where
  dat V c := dat2 V c
  A_eq V c w := A_eq2 V c w
  q_full V c w := q_full2 V c w
  owed V c t := owed2 V c t
  recorded V c t := recorded2 V c t
  body V c := body_obligation2 V c
  hin V c := hin2 V c
  hout V c := hout2 V c
def RD3 : RegionData (F := F) cfg3 where
  dat V c := dat3 V c
  A_eq V c w := A_eq3 V c w
  q_full V c w := q_full3 V c w
  owed V c t := owed3 V c t
  recorded V c t := recorded3 V c t
  body V c := body_obligation3 V c
  hin V c := hin3 V c
  hout V c := hout3 V c

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run: every unscoped buffer of every TensorCore ends at the last contents. -/
theorem run [∀ e, Nonempty (Elt F e)] :
    θ_run (Cert.KernelIdeal.defs (F := F)) (Cert.KernelIdeal.threads (F := F)) ⟨m, fun _ => 0, ρ⟩ (QC m RD1 RD2 RD3) :=
  run_main m ρ RD1 RD2 RD3 (tileObl m) (vecSplit m) (st0_intro m) (dn0_elim m)

/-- The run with its result named: the result array ends at the last contents and the eight argument arrays as
    launched. -/
theorem run_result [∀ e, Nonempty (Elt F e)] :
    θ_run (Cert.KernelIdeal.defs (F := F)) (Cert.KernelIdeal.threads (F := F)) ⟨m, fun _ => 0, ρ⟩ (fun r => ∀ c : Dev nD,
      r.2.mem ((c.tc : Thread nD τ).loc main_v4) = W5 m RD1 RD2 RD3 c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := F)) _ _).mono (fun r h c =>
    ⟨h c _ (mem_uc main_v4 (by decide)),
     (h c _ (mem_uc main_arg0 (by decide))).trans (W5_arg0 m RD1 RD2 RD3 c),
     (h c _ (mem_uc main_arg1 (by decide))).trans (W5_arg1 m RD1 RD2 RD3 c),
     (h c _ (mem_uc main_arg2 (by decide))).trans (W5_arg2 m RD1 RD2 RD3 c),
     (h c _ (mem_uc main_arg3 (by decide))).trans (W5_arg3 m RD1 RD2 RD3 c),
     (h c _ (mem_uc main_arg4 (by decide))).trans (W5_arg4 m RD1 RD2 RD3 c),
     (h c _ (mem_uc main_arg5 (by decide))).trans (W5_arg5 m RD1 RD2 RD3 c),
     (h c _ (mem_uc main_arg6 (by decide))).trans (W5_arg6 m RD1 RD2 RD3 c),
     (h c _ (mem_uc main_arg7 (by decide))).trans (W5_arg7 m RD1 RD2 RD3 c)⟩) (run m ρ)

/-- The frame: the eight argument arrays end as launched. -/
theorem frame [∀ e, Nonempty (Elt F e)] :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := F)) _ _).mono (fun r h c => (h c).2) (run_result m ρ)

end Cert.Proof.KI

end
-- ==== Proof.KB.Setup.lean ====
/-
  The shared setting of the kernel's proof: the program as the SparseCore launch theorem sees it, the ghost state
  (the handshakes' rounds, the TensorCore pipelines' rounds, the local transfers' counters), the arrays the
  SparseCore call touches, how their rows are dealt to the 32 vector subcores, and what the handshakes carry.

  The SparseCore call computes the elementwise product s1 = W1 ∘ M1 of two 2048×2048 arrays: vector subcore s of
  SparseCore c takes the 64 rows [64·(2s + c), 64·(2s + c) + 64), so the 32 tasks partition the rows.
-/
import proofs.«214096_g36816459661730_cont_8to1_b_1468_17_alg».proof.Defs
import proofs.«214096_g36816459661730_cont_8to1_b_1468_17_alg».proof.Proof.Gen.Kernel
import proofs.«214096_g36816459661730_cont_8to1_b_1468_17_alg».proof.Proof.Gen.Kernel.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipelines' rounds library: the left of the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The launch memory and the arrays of the SparseCore call -/

variable (m : (ℓ : Loc nD τ sig) → Buf (Elt F) ℓ) (ρ : Dev nD → PrngReg)

abbrev wLoc (d : Dev nD) : Loc nD τ sig := (SparseCore.T d).loc main_arg2
abbrev mLoc (d : Dev nD) : Loc nD τ sig := (SparseCore.T d).loc main_arg5
abbrev oLoc (d : Dev nD) : Loc nD τ sig := (SparseCore.T d).loc main_v0

abbrev wV : Memref sig .scVector .hbm S2048x2048 .f32 := Memref.whole main_arg2_scv
abbrev mV : Memref sig .scVector .hbm S2048x2048 .f32 := Memref.whole main_arg5_scv
abbrev oV : Memref sig .scVector .hbm S2048x2048 .f32 := Memref.whole main_v0_scv

/-- 32 blocks of 64 rows. -/
theorem hdiv : 32 ∣ S2048x2048.size 0 := ⟨64, rfl⟩
abbrev rows (w : Fin 32) : Rect S2048x2048 := Rect.part (s := S2048x2048) (a₀ := 0) hdiv w
abbrev rowSet (w : Fin 32) : Finset S2048x2048.Idx := ((wV : Memref sig .scVector .hbm S2048x2048 .f32).view.slice (rows w)).set

/-- The block of rows of vector subcore `i` of SparseCore `c`: number 2·i + c. -/
def wid (c : Fin 2) (i : Fin 16) : Fin 32 := ⟨2 * i.val + c.val, by omega⟩

variable [FloatOps F]

/-- The SparseCore call's result: the elementwise product of the two arrays as launched. -/
def s1Val (d : Dev nD) : Buf (Elt F) (oLoc d) := mulf (m (wLoc d)) (m (mLoc d))

/-! ## What the handshakes carry -/

abbrev wRowPts (d : Dev nD) (w : Fin 32) : sProp 𝕄 := wLoc d ↦[rowSet w]{fullShare} m (wLoc d)
abbrev mRowPts (d : Dev nD) (w : Fin 32) : sProp 𝕄 := mLoc d ↦[rowSet w]{fullShare} m (mLoc d)
abbrev oRowPts (d : Dev nD) (w : Fin 32) (f : Buf (Elt F) (oLoc d)) : sProp 𝕄 := oLoc d ↦[rowSet w]{fullShare} f

/-- What a task is handed: its block of rows of the two operands at their launch contents, and of the result at any
    contents. -/
def goP (d : Dev nD) (w : Fin 32) : sProp 𝕄 := iprop(wRowPts m d w ∗ mRowPts m d w ∗ ∃ f, oRowPts d w f)
/-- What it hands back: the operands' rows unchanged, the result's rows at the product. -/
def tdP (d : Dev nD) (w : Fin 32) : sProp 𝕄 := iprop(wRowPts m d w ∗ mRowPts m d w ∗ oRowPts d w (s1Val m d))

instance goP_storable (d : Dev nD) (w : Fin 32) : BI.Storable (upEmb : UEmb _ 𝕄) (goP m d w) := by unfold goP; infer_instance
instance tdP_storable (d : Dev nD) (w : Fin 32) : BI.Storable (upEmb : UEmb _ 𝕄) (tdP m d w) := by unfold tdP; infer_instance

/-- The one SparseCore call: a SparseCore is handed its sixteen tasks' rows and hands them back, each task its own. -/
def P : (K (F := F)).Pay (nD := nD) (Val := Elt F) (Name := ℕ) (U := UU) where
  st := fun q d c => match q with | 0 => bigSep Finset.univ fun i : Fin 16 => goP m d (wid (Fin.cast nCore_zero c) i)
  dn := fun q d c => match q with | 0 => bigSep Finset.univ fun i : Fin 16 => tdP m d (wid (Fin.cast nCore_zero c) i)
  go := fun q d c i => match q with | 0 => goP m d (wid (Fin.cast nCore_zero c) (Fin.cast nSub_zero i))
  td := fun q d c i => match q with | 0 => tdP m d (wid (Fin.cast nCore_zero c) (Fin.cast nSub_zero i))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KB

end
-- ==== Proof.KB.Thread.lean ====
/-
  The buffers' contents threaded through @main, over proof data for the three regions given as a bundle: the launch
  contents; after the SparseCore call the product s1 = W1 ∘ M1 in its result array; after each region that region's
  arrays at what its pipeline leaves; after the reshape the bias as a row.
-/
import proofs.«214096_g36816459661730_cont_8to1_b_1468_17_alg».proof.Proof.KB.Setup
import Idealize.ShloMosaic.Lib.Pipeline.FrameBody
import Idealize.ShloMosaic.Lib.Pipeline.RegionsLoop
import Idealize.ShloMosaic.Lib.Pipeline.FrameSuffix

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Pipeline (Dat Seg HostSeg RegionSeg BodyObligation)

variable {F : FTy → Type} [FloatOps F]

local notation "𝕄" => MT nD τ sig (HIx 1) (Elt F) ℕ UU ℕ

/-! ## What a region's proof supplies -/

/-- The proof data of one pipelined region at any entry contents of the TensorCore's buffers, with what the launch
    asks of them: the arrays are the entry contents, full shares, nothing owed, the body obligation, and the invariant
    entered from (and left at) the generator register and the scoped buffers no window stages. -/
structure RegionData (cfg : Pipeline.Cfg sig Λ₀) where
  dat : ((c : Dev nD) → (b : Ref sig .tc) → Buf (Elt F) ((c.tc : Thread nD τ).loc b)) → (c : Dev nD) → Dat τ (Elt F) (HIx 1) ℕ UU ℕ cfg c
  A_eq : ∀ V c (w : Fin cfg.W), (dat V c).A w = V c (Pipeline.arrRef (fun w => (cfg.win w).toWinSpec) w)
  q_full : ∀ V c (w : Fin cfg.W), (dat V c).q w = fullShare
  owed : ∀ V c t, (dat V c).owed t = 0
  recorded : ∀ V c t, (dat V c).recorded t = Set.univ
  body : ∀ V c, BodyObligation (dat V c) (defs₀ (F := F)) Variants.none (none : HIx 1) Set.univ
  hin : ∀ V c, iprop((∃ r, prngReg c r) ∗ Pipeline.scopedRest (fun w => (cfg.win w).toWinSpec) c) ⊢ ((dat V c).Φ 0 : sProp 𝕄)
  hout : ∀ V c, ((dat V c).Φ (Fin.last cfg.N) : sProp 𝕄) ⊢ iprop((∃ r, prngReg c r) ∗ Pipeline.scopedRest (fun w => (cfg.win w).toWinSpec) c)

variable (m : (ℓ : Loc nD τ sig) → Buf (Elt F) ℓ) (ρ : Dev nD → PrngReg)
variable (R1 : RegionData (F := F) cfg1) (R2 : RegionData (F := F) cfg2) (R3 : RegionData (F := F) cfg3)

/-! ## The buffers' contents through @main -/

/-- The one host operation of @main: the bias as a row. -/
abbrev opR : HloOp τ sig (Elt F) := StableHlo.reshape main_arg7 main_v3 rfl shapeCasts_S4096_S1x4096
abbrev hostOpsR : List (HloOp τ sig (Elt F)) := [opR]

/-- At launch. -/
abbrev W0 : Dev nD → Valuation τ sig (Elt F) := fun c b => m (c, b)
/-- After the SparseCore call: its result array at the product. -/
def W1 (c : Dev nD) : Valuation τ sig (Elt F) := Function.update (W0 m c) (Proc.devRef .tc main_v0) (s1Val m c)
abbrev V1 : (c : Dev nD) → (b : Ref sig .tc) → Buf (Elt F) ((c.tc : Thread nD τ).loc b) := fun c b => W1 m c (Proc.devRef .tc b)
/-- After the first region. -/
def W2 (c : Dev nD) : Valuation τ sig (Elt F) :=
  Pipeline.withArrays spec1 c (W1 m c) fun w => (R1.dat (V1 m) c).arrAt w cfg1.N
abbrev V2 : (c : Dev nD) → (b : Ref sig .tc) → Buf (Elt F) ((c.tc : Thread nD τ).loc b) := fun c b => W2 m R1 c (Proc.devRef .tc b)
/-- After the second region. -/
def W3 (c : Dev nD) : Valuation τ sig (Elt F) :=
  Pipeline.withArrays spec2 c (W2 m R1 c) fun w => (R2.dat (V2 m R1) c).arrAt w cfg2.N
/-- After the reshape. -/
abbrev W4 : Dev nD → Valuation τ sig (Elt F) := fun c => StableHlo.after hostOpsR (W3 m R1 R2 c)
abbrev V4 : (c : Dev nD) → (b : Ref sig .tc) → Buf (Elt F) ((c.tc : Thread nD τ).loc b) := fun c b => W4 m R1 R2 c (Proc.devRef .tc b)
/-- After the third region. -/
def W5 (c : Dev nD) : Valuation τ sig (Elt F) :=
  Pipeline.withArrays spec3 c (W4 m R1 R2 c) fun w => (R3.dat (V4 m R1 R2) c).arrAt w cfg3.N

theorem W2_arr (c : Dev nD) (w : Fin cfg1.W) :
    W2 m R1 c (Proc.devRef .tc (Pipeline.arrRef spec1 w)) = (R1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m R1 c (Proc.devRef .tc b) = W1 m c (Proc.devRef .tc b) := by
  unfold W2; exact Pipeline.withArrays_of_ne spec1 c _ _ b hb
theorem W3_arr (c : Dev nD) (w : Fin cfg2.W) :
    W3 m R1 R2 c (Proc.devRef .tc (Pipeline.arrRef spec2 w)) = (R2.dat (V2 m R1) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m R1 R2 c (Proc.devRef .tc b) = W2 m R1 c (Proc.devRef .tc b) := by
  unfold W3; exact Pipeline.withArrays_of_ne spec2 c _ _ b hb
theorem W5_arr (c : Dev nD) (w : Fin cfg3.W) :
    W5 m R1 R2 R3 c (Proc.devRef .tc (Pipeline.arrRef spec3 w)) = (R3.dat (V4 m R1 R2) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m R1 R2 R3 c (Proc.devRef .tc b) = W4 m R1 R2 c (Proc.devRef .tc b) := by
  unfold W5; exact Pipeline.withArrays_of_ne spec3 c _ _ b hb

end Cert.Proof.KB

end
-- ==== Proof.KB.Launch.lean ====
/-
  The launch: @main on the TensorCore — the SparseCore call, then the three matrix products as pipelined regions with
  one reshape between — run from what the launch deals, over proof data for the three regions given as hypotheses.

  The buffers' contents are threaded through @main: the launch contents; after the SparseCore call the product
  s1 = W1 ∘ M1 in its result array; after each region that region's arrays at what its pipeline leaves; after the
  reshape the bias as a row.
-/
import proofs.«214096_g36816459661730_cont_8to1_b_1468_17_alg».proof.Proof.KB.Thread
import Idealize.ShloMosaic.Lib.Pipeline.FrameBody
import Idealize.ShloMosaic.Lib.Pipeline.RegionsLoop
import Idealize.ShloMosaic.Lib.Pipeline.FrameSuffix

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Pipeline (Dat Seg HostSeg RegionSeg BodyObligation)

variable {F : FTy → Type} [FloatOps F]

local notation "𝕄" => MT nD τ sig (HIx 1) (Elt F) ℕ UU ℕ

variable (m : (ℓ : Loc nD τ sig) → Buf (Elt F) ℓ) (ρ : Dev nD → PrngReg)
variable (R1 : RegionData (F := F) cfg1) (R2 : RegionData (F := F) cfg2) (R3 : RegionData (F := F) cfg3)

/-! ## The proof data family and the thread state -/

/-- No pipeline has a prefetched table. -/
abbrev adm : (p : Fin 3) → (pcfgs (F := F) p).Adm := fun p => (cfgs p).toPCfg_adm

/-- Every pipeline's proof data, each at its region's entry contents. -/
def pdats : (p : Fin 3) → (c : Dev nD) → Dat τ (Elt F) (HIx 1) ℕ UU ℕ (Pipeline.pin (pcfgs (F := F)) adm p) c
  | ⟨0, _⟩ => fun c => R1.dat (V1 m) c
  | ⟨1, _⟩ => fun c => R2.dat (V2 m R1) c
  | ⟨2, _⟩ => fun c => R3.dat (V4 m R1 R2) c

theorem hF1 (c : Dev nD) (w : Fin cfg1.W) : (pdats m R1 R2 R3 0 c).arrAt w cfg1.N = W2 m R1 c (Proc.devRef .tc (Pipeline.arrRef spec1 w)) :=
  (W2_arr m R1 c w).symm
theorem hrest1 (c : Dev nD) : ∀ b, b ∉ Finset.univ.image (Pipeline.arrRef spec1) → W2 m R1 c (Proc.devRef .tc b) = V1 m c b :=
  fun b hb => W2_of_ne m R1 c b fun w e => hb (Finset.mem_image.mpr ⟨w, Finset.mem_univ _, e⟩)
theorem hF2 (c : Dev nD) (w : Fin cfg2.W) : (pdats m R1 R2 R3 1 c).arrAt w cfg2.N = W3 m R1 R2 c (Proc.devRef .tc (Pipeline.arrRef spec2 w)) :=
  (W3_arr m R1 R2 c w).symm
theorem hrest2 (c : Dev nD) : ∀ b, b ∉ Finset.univ.image (Pipeline.arrRef spec2) → W3 m R1 R2 c (Proc.devRef .tc b) = V2 m R1 c b :=
  fun b hb => W3_of_ne m R1 R2 c b fun w e => hb (Finset.mem_image.mpr ⟨w, Finset.mem_univ _, e⟩)
theorem hF3 (c : Dev nD) (w : Fin cfg3.W) : (pdats m R1 R2 R3 2 c).arrAt w cfg3.N = W5 m R1 R2 R3 c (Proc.devRef .tc (Pipeline.arrRef spec3 w)) :=
  (W5_arr m R1 R2 R3 c w).symm
theorem hrest3 (c : Dev nD) : ∀ b, b ∉ Finset.univ.image (Pipeline.arrRef spec3) → W5 m R1 R2 R3 c (Proc.devRef .tc b) = V4 m R1 R2 c b :=
  fun b hb => W5_of_ne m R1 R2 R3 c b fun w e => hb (Finset.mem_image.mpr ⟨w, Finset.mem_univ _, e⟩)

/-- What rides beside the buffers through the TensorCore's segments: the generator register at some state, and the
    core owing nothing. -/
abbrev Rr (c : Dev nD) : sProp 𝕄 := iprop((∃ r, prngReg c r) ∗ ∃ W, owes (c : Thread nD τ) (0 : CellTallies nD τ sig (HIx 1)) W)

/-! ## The regions as segments -/

set_option backward.isDefEq.respectTransparency.types false in
/-- Region 0 (pallas_call 1) over the thread state: entered with every unscoped buffer at W1 m, left at W2 m R1.
    Its arrays are split out of the unscoped buffers and put back at the exit contents; the generator register goes into
    the region's invariant and comes back; nothing is owed; the kernel has no semaphore of its own. -/
def reg1 : RegionSeg (pcfgs (F := F)) adm (pdats m R1 R2 R3) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (R1.body (V1 m) c).loose
  hwaits := Pipeline.hwaits_of_owed_zero _ _ _ _ (K (F := F)).L (K (F := F)).lev 0 fun c t => R1.owed (V1 m) c t
  pre c := iprop(held (c : Thread nD τ) (Pipeline.ucRefs τ sig) (W1 m c) ∗ Rr c)
  post c := iprop(held (c : Thread nD τ) (Pipeline.ucRefs τ sig) (W2 m R1 c) ∗ Rr c)
  X c := iprop(∃ r, prngReg c r)
  Y c := iprop(∃ r, prngReg c r)
  Z c := Pipeline.unscopedRest (Ix := HIx 1) (Name := ℕ) (U := UU) (Lvl := ℕ) spec1 c (V1 m c)
  hentry c := by
    rw [Pipeline.ownSems0_none]
    have hsplit := Pipeline.arrays_of_unscopedBufs (p := 0) (pcfgs (F := F)) adm (pdats m R1 R2 R3) launch1.win launch1.arr_whole c
      ((pdats m R1 R2 R3 0 c).share_full fun w => R1.q_full (V1 m) c w) (V1 m c) fun w => R1.A_eq (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m R1 R2 R3 0 c).recorded 0 = Set.univ from R1.recorded (V1 m) c 0]; trivial)
      rw [show (pdats m R1 R2 R3 0 c).owed 0 = 0 from R1.owed (V1 m) c 0]
      iexact HO
    isplitl [Hp]; · iexact Hp
    iexact Hrest
  hin c := by
    have h := R1.hin (V1 m) c
    change _ ⊢ ((R1.dat (V1 m) c).Φ 0 : sProp 𝕄)
    iintro ⟨Hp, -, Hr⟩
    iapply h
    isplitl [Hp]; · iexact Hp
    iexact Hr
  hout c := by
    rw [Pipeline.ownSems0_none]
    refine (R1.hout (V1 m) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m R1 R2 R3) ((pdats m R1 R2 R3 0 c).share_full fun w => R1.q_full (V1 m) c w)
      (V1 m c) (fun b => W2 m R1 c (Proc.devRef .tc b)) ((pdats m R1 R2 R3 0 c).arrAt · cfg1.N) (hF1 m R1 R2 R3 c) (hrest1 m R1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m R1 R2 R3 0 c).owed (Fin.last _) = 0 from R1.owed (V1 m) c _]
    iexact HO

set_option backward.isDefEq.respectTransparency.types false in
/-- Region 1 (pallas_call 2) over the thread state: entered with every unscoped buffer at W2 m R1, left at W3 m R1 R2.
    Its arrays are split out of the unscoped buffers and put back at the exit contents; the generator register goes into
    the region's invariant and comes back; nothing is owed; the kernel has no semaphore of its own. -/
def reg2 : RegionSeg (pcfgs (F := F)) adm (pdats m R1 R2 R3) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (R2.body (V2 m R1) c).loose
  hwaits := Pipeline.hwaits_of_owed_zero _ _ _ _ (K (F := F)).L (K (F := F)).lev 1 fun c t => R2.owed (V2 m R1) c t
  pre c := iprop(held (c : Thread nD τ) (Pipeline.ucRefs τ sig) (W2 m R1 c) ∗ Rr c)
  post c := iprop(held (c : Thread nD τ) (Pipeline.ucRefs τ sig) (W3 m R1 R2 c) ∗ Rr c)
  X c := iprop(∃ r, prngReg c r)
  Y c := iprop(∃ r, prngReg c r)
  Z c := Pipeline.unscopedRest (Ix := HIx 1) (Name := ℕ) (U := UU) (Lvl := ℕ) spec2 c (V2 m R1 c)
  hentry c := by
    rw [Pipeline.ownSems0_none]
    have hsplit := Pipeline.arrays_of_unscopedBufs (p := 1) (pcfgs (F := F)) adm (pdats m R1 R2 R3) launch2.win launch2.arr_whole c
      ((pdats m R1 R2 R3 1 c).share_full fun w => R2.q_full (V2 m R1) c w) (V2 m R1 c) fun w => R2.A_eq (V2 m R1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m R1 R2 R3 1 c).recorded 0 = Set.univ from R2.recorded (V2 m R1) c 0]; trivial)
      rw [show (pdats m R1 R2 R3 1 c).owed 0 = 0 from R2.owed (V2 m R1) c 0]
      iexact HO
    isplitl [Hp]; · iexact Hp
    iexact Hrest
  hin c := by
    have h := R2.hin (V2 m R1) c
    change _ ⊢ ((R2.dat (V2 m R1) c).Φ 0 : sProp 𝕄)
    iintro ⟨Hp, -, Hr⟩
    iapply h
    isplitl [Hp]; · iexact Hp
    iexact Hr
  hout c := by
    rw [Pipeline.ownSems0_none]
    refine (R2.hout (V2 m R1) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m R1 R2 R3) ((pdats m R1 R2 R3 1 c).share_full fun w => R2.q_full (V2 m R1) c w)
      (V2 m R1 c) (fun b => W3 m R1 R2 c (Proc.devRef .tc b)) ((pdats m R1 R2 R3 1 c).arrAt · cfg2.N) (hF2 m R1 R2 R3 c) (hrest2 m R1 R2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m R1 R2 R3 1 c).owed (Fin.last _) = 0 from R2.owed (V2 m R1) c _]
    iexact HO

set_option backward.isDefEq.respectTransparency.types false in
/-- Region 2 (pallas_call 3) over the thread state: entered with every unscoped buffer at W4 m R1 R2, left at W5 m R1 R2 R3.
    Its arrays are split out of the unscoped buffers and put back at the exit contents; the generator register goes into
    the region's invariant and comes back; nothing is owed; the kernel has no semaphore of its own. -/
def reg3 : RegionSeg (pcfgs (F := F)) adm (pdats m R1 R2 R3) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (R3.body (V4 m R1 R2) c).loose
  hwaits := Pipeline.hwaits_of_owed_zero _ _ _ _ (K (F := F)).L (K (F := F)).lev 2 fun c t => R3.owed (V4 m R1 R2) c t
  pre c := iprop(held (c : Thread nD τ) (Pipeline.ucRefs τ sig) (W4 m R1 R2 c) ∗ Rr c)
  post c := iprop(held (c : Thread nD τ) (Pipeline.ucRefs τ sig) (W5 m R1 R2 R3 c) ∗ Rr c)
  X c := iprop(∃ r, prngReg c r)
  Y c := iprop(∃ r, prngReg c r)
  Z c := Pipeline.unscopedRest (Ix := HIx 1) (Name := ℕ) (U := UU) (Lvl := ℕ) spec3 c (V4 m R1 R2 c)
  hentry c := by
    rw [Pipeline.ownSems0_none]
    have hsplit := Pipeline.arrays_of_unscopedBufs (p := 2) (pcfgs (F := F)) adm (pdats m R1 R2 R3) launch3.win launch3.arr_whole c
      ((pdats m R1 R2 R3 2 c).share_full fun w => R3.q_full (V4 m R1 R2) c w) (V4 m R1 R2 c) fun w => R3.A_eq (V4 m R1 R2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m R1 R2 R3 2 c).recorded 0 = Set.univ from R3.recorded (V4 m R1 R2) c 0]; trivial)
      rw [show (pdats m R1 R2 R3 2 c).owed 0 = 0 from R3.owed (V4 m R1 R2) c 0]
      iexact HO
    isplitl [Hp]; · iexact Hp
    iexact Hrest
  hin c := by
    have h := R3.hin (V4 m R1 R2) c
    change _ ⊢ ((R3.dat (V4 m R1 R2) c).Φ 0 : sProp 𝕄)
    iintro ⟨Hp, -, Hr⟩
    iapply h
    isplitl [Hp]; · iexact Hp
    iexact Hr
  hout c := by
    rw [Pipeline.ownSems0_none]
    refine (R3.hout (V4 m R1 R2) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats m R1 R2 R3) ((pdats m R1 R2 R3 2 c).share_full fun w => R3.q_full (V4 m R1 R2) c w)
      (V4 m R1 R2 c) (fun b => W5 m R1 R2 R3 c (Proc.devRef .tc b)) ((pdats m R1 R2 R3 2 c).arrAt · cfg3.N) (hF3 m R1 R2 R3 c) (hrest3 m R1 R2 R3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m R1 R2 R3 2 c).owed (Fin.last _) = 0 from R3.owed (V4 m R1 R2) c _]
    iexact HO

/-! ## The reshape as a segment, and @main's tail as segments -/

theorem hostOpsR_sub : ∀ op ∈ (hostOpsR : List (HloOp τ sig (Elt F))), op.bufs ⊆ Pipeline.ucRefs τ sig := by
  intro op h
  obtain rfl := List.mem_singleton.mp h
  show ({Proc.devRef .tc main_arg7, Proc.devRef .tc main_v3} : Finset (DevRef τ sig)) ⊆ Pipeline.ucRefs τ sig
  decide
theorem hostOpsR_fresh : ∀ op ∈ (hostOpsR : List (HloOp τ sig (Elt F))), op.fresh = ∅ := by
  intro op h
  obtain rfl := List.mem_singleton.mp h
  rfl

/-- The reshape over the unscoped buffers from the contents after the second region. -/
abbrev hsegR : HostSeg (Name := ℕ) (U := UU) (pcfgs (F := F)) defs₀ 𝒱₀ (K (F := F)).L (K (F := F)).lev :=
  HostSeg.ofOps _ _ _ _ _ (Pipeline.ucRefs τ sig) hostOpsR hostOpsR_sub hostOpsR_fresh (W3 m R1 R2) Rr

/-- @main after the SparseCore call: region, region, reshape, region. -/
abbrev segs : List (Seg (pcfgs (F := F)) adm (pdats m R1 R2 R3) (none : HIx 1) defs₀ 𝒱₀ (K (F := F)).L (K (F := F)).lev) :=
  [ .region (reg1 m R1 R2 R3), .region (reg2 m R1 R2 R3), .host (hsegR m R1 R2), .region (reg3 m R1 R2 R3) ]

/-- @main is the SparseCore call followed by the segments' run, lifted to the program's body table. -/
theorem main_eq (d : Dev nD) :
    main (F := F) d = ((K (F := F)).run d 0 >>= fun _ => SparseCore.liftProg (Seg.run (segs m R1 R2 R3))) := by
  rfl

/-! ## The launch element -/

/-- What the launch leaves each TensorCore for the regions: the rounds ghost state of the three pipelines' cells. -/
abbrev G (d : Dev nD) : sProp 𝕄 := Pipeline.ghostOn (pcfgs (F := F)) adm EP Finset.univ d

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hghost : iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun c : Dev nD => G (F := F) c := by
    rw [← bigSep_sep']
    exact bigSep_mono fun c _ => show iprop((bigSep Finset.univ fun p => Pipeline.cellsGhost (Pipeline.pin (pcfgs (F := F)) adm) EP p c)
          ∗ bigSep Finset.univ fun p => (Pipeline.toksInit (Pipeline.pin (pcfgs (F := F)) adm) EP p c : sProp 𝕄))
        ⊢ Pipeline.ghostOn (pcfgs (F := F)) adm EP Finset.univ c
      from Entails.of_eq (by unfold Pipeline.ghostOn Pipeline.PerCore.ghostOn; rw [bigSep_sep'])
  unfold u₀
  iintro Hu
  ihave H := (ownU_pair _ _) $$ Hu
  icases H with ⟨HH, HR⟩
  ihave HR' := (show (BI.own (embR (initOf (Pipeline.cells (Pipeline.pin (pcfgs (F := F)) adm) cellOf_inj) (Pipeline.launchToks (Pipeline.pin (pcfgs (F := F)) adm) cellOf_inj), (1 : Counters))) : sProp 𝕄)
      ⊢ BI.own (EP (initOf (Pipeline.cells (Pipeline.pin (pcfgs (F := F)) adm) cellOf_inj) (Pipeline.launchToks (Pipeline.pin (pcfgs (F := F)) adm) cellOf_inj))) from .rfl) $$ HR
  imod (Pipeline.fund_ghost (Pipeline.pin (pcfgs (F := F)) adm) EP cellOf_inj) $$ HR' with ⟨Hg, Ht⟩
  imodintro
  isplitl [HH]; · iexact HH
  isplitl [Hg Ht]
  · iapply hghost; isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The SparseCore call's three arrays among the unscoped buffers -/

abbrev w' : DevRef τ sig := Proc.devRef .tc (main_arg2 : Ref sig .tc)
abbrev m' : DevRef τ sig := Proc.devRef .tc (main_arg5 : Ref sig .tc)
abbrev o' : DevRef τ sig := Proc.devRef .tc (main_v0 : Ref sig .tc)
abbrev T3 : Finset (DevRef τ sig) := {w', m', o'}
theorem T3_sub : T3 ⊆ Pipeline.ucRefs τ sig := by decide

theorem held_T3 (d : Dev nD) (W : Valuation τ sig (Elt F)) :
    (held (T d) T3 W : sProp 𝕄) = iprop((wLoc d ↦{fullShare} W w') ∗ (mLoc d ↦{fullShare} W m') ∗ oLoc d ↦{fullShare} W o') := by
  unfold held T3
  rw [SparseCore.bigSep_insert' (by decide), SparseCore.bigSep_insert' (by decide), bigSep_singleton]

theorem W1_w (d : Dev nD) : W1 m d w' = m (wLoc d) := Function.update_of_ne (show w' ≠ o' by decide) _ _
theorem W1_m (d : Dev nD) : W1 m d m' = m (mLoc d) := Function.update_of_ne (show m' ≠ o' by decide) _ _
theorem W1_o (d : Dev nD) : W1 m d o' = s1Val m d := Function.update_self _ _ _
theorem held_rest_W1 (d : Dev nD) :
    (held (T d) (Pipeline.ucRefs τ sig \ T3) (W1 m d) : sProp 𝕄) = held (T d) (Pipeline.ucRefs τ sig \ T3) (W0 m d) :=
  held_congr (T d) fun b hb => Function.update_of_ne (fun e => (Finset.mem_sdiff.mp hb).2 (by subst e; decide)) _ _

/-- The three arrays back from the call, the result at the product, beside the other unscoped buffers: every
    unscoped buffer at the contents after the call. -/
theorem held_W1_intro (d : Dev nD) :
    iprop((wLoc d ↦{fullShare} m (wLoc d)) ∗ (mLoc d ↦{fullShare} m (mLoc d)) ∗ (oLoc d ↦{fullShare} s1Val m d)
        ∗ held (T d) (Pipeline.ucRefs τ sig \ T3) (W0 m d))
      ⊢ (held (T d) (Pipeline.ucRefs τ sig) (W1 m d) : sProp 𝕄) := by
  rw [held_sub_split (T d) T3_sub (W1 m d), held_T3, W1_w, W1_m, W1_o, held_rest_W1]
  iintro ⟨Hw, Hm, Ho, Hr⟩
  isplitr [Hr]
  · isplitl [Hw]; · iexact Hw
    isplitl [Hm]; · iexact Hm
    iexact Ho
  iexact Hr

/-! ## The TensorCore's handshake state after the one call -/

/-- With one SparseCore call every recorded wait sits at or below level 8. -/
theorem wbelow_any (d : Dev nD) (W : Waits sig (HIx 1)) : (K (F := F)).WBelow (T d) W (8 * 1) := by
  intro p _
  rcases p with ⟨sm, ι⟩
  cases ι with
  | none => show (K (F := F)).lev (T d, sm) none ≤ 8; rw [SparseCore.Cfg.lev_none]; omega
  | some q =>
    have h := (K (F := F)).lev_some_le (T d, sm) q
    have hq : q.val = 0 := by omega
    show (K (F := F)).lev (T d, sm) (some q) ≤ 8
    omega

/-- After its one call the TensorCore owes nothing: its `owes` can be lent out and, returned with any recorded
    waits, restores the handshake state. -/
theorem tcSt_owes (d : Dev nD) :
    ((K (F := F)).tcSt EH d ((0 : Fin 1).val + 1) : sProp 𝕄)
      ⊢ iprop((∃ W, owes (T d) (0 : CellTallies nD τ sig (HIx 1)) W)
          ∗ ((∃ W, owes (T d) (0 : CellTallies nD τ sig (HIx 1)) W) -∗ (K (F := F)).tcSt EH d 1)) := by
  show ((K (F := F)).tcSt EH d 1 : sProp 𝕄) ⊢ _
  unfold SparseCore.Cfg.tcSt
  rw [(K (F := F)).Otc_end d (le_refl 1)]
  iintro ⟨⟨%W, -, HO⟩, Hr⟩
  isplitl [HO]; · iexists W; iexact HO
  iintro ⟨%W', HO'⟩
  isplitl [HO']
  · iexists W'; isplitr
    · ipureintro; exact wbelow_any d W'
    · iexact HO'
  iexact Hr

/-! ## @main on the TensorCore -/

/-- What @main leaves the claim: every unscoped buffer at the last contents. -/
abbrev FIN (d : Dev nD) : sProp 𝕄 := held (T d) (Pipeline.ucRefs τ sig) (W5 m R1 R2 R3 d)

set_option backward.isDefEq.respectTransparency.types false in
/-- @main on device `d`'s TensorCore: the SparseCore call (its three arrays out of the unscoped buffers and back,
    the result at the product), then the three regions and the reshape as segments, entered from the region boundary,
    the unscoped buffers, the generator register, the core owing nothing, and the pipelines' ghost state. -/
theorem hmain
    (hst0 : ∀ d : Dev nD, iprop((wLoc d ↦{fullShare} m (wLoc d)) ∗ (mLoc d ↦{fullShare} m (mLoc d)) ∗ ∃ f : Buf (Elt F) (oLoc d), oLoc d ↦{fullShare} f)
      ⊢ (bigSep Finset.univ fun c : Fin ((K (F := F)).nCore 0) => (P m).st 0 d c : sProp 𝕄))
    (hdn0 : ∀ d : Dev nD, (bigSep Finset.univ fun c : Fin ((K (F := F)).nCore 0) => (P m).dn 0 d c : sProp 𝕄)
      ⊢ iprop((wLoc d ↦{fullShare} m (wLoc d)) ∗ (mLoc d ↦{fullShare} m (mLoc d)) ∗ oLoc d ↦{fullShare} s1Val m d))
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R1 R2 R3 d) := by
  unfold SparseCore.Cfg.tcRes
  rw [Pipeline.unscopedBufs_held d (W0 m d), main_eq m R1 R2 R3 d, wp_bind]
  iintro ⟨#Hctx, Hst, ⟨Hb, Hheld, -, Hpr⟩, HG⟩
  ihave Hh := (Entails.of_eq (held_sub_split (T d) T3_sub (W0 m d))) $$ Hheld
  icases Hh with ⟨H3, Hrest⟩
  ihave H3' := (Entails.of_eq (held_T3 (F := F) d _)) $$ H3
  icases H3' with ⟨Hw, Hm, Ho⟩
  iapply ((K (F := F)).wp_run (D (F := F)) 𝒱 (EH := EH) (P := P m) κ d 0) $$ [Hst Hw Hm Ho Hb Hrest Hpr HG]
  isplitr; · iexact Hctx
  isplitl [Hst]; · iexact Hst
  isplitl [Hw Hm Ho]
  · iapply (hst0 d)
    isplitl [Hw]; · iexact Hw
    isplitl [Hm]; · iexact Hm
    iexists _; iexact Ho
  iintro ⟨Hst, Hdn⟩
  ihave Hdn' := (hdn0 d) $$ Hdn
  icases Hdn' with ⟨Hw, Hm, Ho⟩
  ihave Hheld := (held_W1_intro m d) $$ [Hw Hm Ho Hrest]
  · isplitl [Hw]; · iexact Hw
    isplitl [Hm]; · iexact Hm
    isplitl [Ho]; · iexact Ho
    iexact Hrest
  ihave Hs := (tcSt_owes (F := F) d) $$ Hst
  icases Hs with ⟨HO, Hback⟩
  iapply ((K (F := F)).wp_liftProg (D (F := F)) 𝒱 (T d) Set.univ none _ _)
  iapply (Pipeline.wp_segs (pcfgs (F := F)) adm (pdats m R1 R2 R3) (none : HIx 1) cellOf_inj EP defs₀ 𝒱₀ (K (F := F)).L (K (F := F)).lev d
      (segs m R1 R2 R3) Finset.univ
      (fun c => iprop(held (c : Thread nD τ) (Pipeline.ucRefs τ sig) (W1 m c) ∗ Rr c))
      (fun c => iprop(held (c : Thread nD τ) (Pipeline.ucRefs τ sig) (W5 m R1 R2 R3 c) ∗ Rr c))
      (by simp only [segs, Seg.pipes_host, Seg.pipes_region, Seg.pipes_nil]; decide) (fun p _ => Finset.mem_univ p)
      ⟨fun _ => .rfl, fun _ => .rfl, fun _ => .rfl, fun _ => .rfl, fun _ => .rfl⟩)
  isplitl [Hback]
  · iintro ⟨-, Hh, -, HO⟩
    isplitl [Hback HO]; · iapply Hback; iexact HO
    iexact Hh
  isplitl [Hb]; · iexact Hb
  isplitl [Hheld Hpr HO]
  · isplitl [Hheld]; · iexact Hheld
    isplitl [Hpr]; · iexists _; iexact Hpr
    iexact HO
  isplitr; · iapply (SparseCore.Cfg.ctx_levAts κ); iexact Hctx
  iexact HG

/-! ## Reading the claim off the final memory -/

def fq (d : Dev nD) (s' : Phys nD τ sig (Elt F)) : Prop := ∀ b ∈ Pipeline.ucRefs τ sig, s'.mem.mem (d, b) = W5 m R1 R2 R3 d b

theorem hfin (d : Dev nD) (s' : Phys nD τ sig (Elt F)) : iprop(FIN m R1 R2 R3 d ∗ SI s') ⊢ (⌜fq m R1 R2 R3 d s'⌝ : sProp 𝕄) := by
  show iprop((bigSep (Pipeline.ucRefs τ sig) fun b => (((T d : Thread nD τ).1, b) ↦{fullShare} W5 m R1 R2 R3 d b : sProp 𝕄)) ∗ SI s') ⊢ _
  iintro ⟨Hh, HSI⟩
  ihave Hr := (pointsTo_read_all (Pipeline.ucRefs τ sig) (fun b => ((T d : Thread nD τ).1, b)) (W5 m R1 R2 R3 d) s') $$ [Hh HSI]
  · isplitl [Hh] <;> iassumption
  icases Hr with ⟨%h, -⟩
  ipureintro; exact h

/-! ## The program's run -/

/-- Every unscoped buffer of every TensorCore ends at the last contents. -/
def QC : PUnit × MemSt nD τ sig (Elt F) → Prop := fun r => ∀ c : Dev nD, ∀ b ∈ Pipeline.ucRefs τ sig, r.2.mem (c, b) = W5 m R1 R2 R3 c b

/-- The program's run, from the SparseCore kernel's two obligations, the dealing of the call's arrays, and the three
    regions' proof data: every weakly fair execution of all the threads terminates, nothing faulting, and every
    unscoped buffer of every TensorCore ends at the last contents. -/
theorem run_main [∀ e, Nonempty (Elt F e)]
    (htile : (K (F := F)).TileObl (D (F := F)) 𝒱 (P m) v₀ 0) (hvec : (K (F := F)).VecSplit' (P m) 0)
    (hst0 : ∀ d : Dev nD, iprop((wLoc d ↦{fullShare} m (wLoc d)) ∗ (mLoc d ↦{fullShare} m (mLoc d)) ∗ ∃ f : Buf (Elt F) (oLoc d), oLoc d ↦{fullShare} f)
      ⊢ (bigSep Finset.univ fun c : Fin ((K (F := F)).nCore 0) => (P m).st 0 d c : sProp 𝕄))
    (hdn0 : ∀ d : Dev nD, (bigSep Finset.univ fun c : Fin ((K (F := F)).nCore 0) => (P m).dn 0 d c : sProp 𝕄)
      ⊢ iprop((wLoc d ↦{fullShare} m (wLoc d)) ∗ (mLoc d ↦{fullShare} m (mLoc d)) ∗ oLoc d ↦{fullShare} s1Val m d)) :
    θ_run (Cert.Kernel.defs (F := F)) (Cert.Kernel.threads (F := F)) ⟨m, fun _ => 0, ρ⟩ (QC m R1 R2 R3) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (fun d => G (F := F) d) (FIN m R1 R2 R3) (u₀ (F := F)) (sep_elim_left.trans (hu₀ m)) (hmain m ρ R1 R2 R3 hst0 hdn0)
    (fq m R1 R2 R3) (hfin m R1 R2 R3) (QC m R1 R2 R3) (fun _ h => h)

end Cert.Proof.KB

end
-- ==== Proof.KB.TileTrip.lean ====
import proofs.«214096_g36816459661730_cont_8to1_b_1468_17_alg».proof.Proof.KB.Setup
import proofs.«214096_g36816459661730_cont_8to1_b_1468_17_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## One trip of the inner loop: sixty-four 16-lane pieces of the two scratch rows multiplied in place

Trip `k` of the inner loop treats the columns `[64 k, 64 k + 64)` of the two 16 × 2048 scratch buffers: for each row
`r < 16` and each quarter `q < 4` it loads the 1 × 16 piece at `(r, 64 k + 16 q)` of both buffers and stores the
lane-wise product into the first. The pieces are pairwise disjoint, so every load reads what the first buffer held
before the trip, and after the trip it holds the product on the trip's columns and its old contents elsewhere. -/

section Tile
variable (d : Dev nD) (L : grid0.Coords)

abbrev cV (L : grid0.Coords) : Fin τ.nSC := (L 0).castLE hcore0
abbrev jV (L : grid0.Coords) : Fin τ.nSub := (L 1).castLE hsub0
abbrev sW : Memref sig .scVector .vmem S16x2048 .f32 := Memref.whole cc0_scratch0
abbrev sM : Memref sig .scVector .vmem S16x2048 .f32 := Memref.whole cc0_scratch1

/-- Row and column of an index of a 16 × 2048 scratch buffer. -/
abbrev row (y : S16x2048.Idx) : ℕ := (y (0 : Fin 2)).val
abbrev col (y : S16x2048.Idx) : ℕ := (y (1 : Fin 2)).val

/-- The lane-wise product of two 1 × 16 pieces, spelt as the program computes it (through the flat 16-lane vector). -/
def mulfPiece (a b : Vec F S1x16 .f32) : FVec F S1x16 .f32 :=
  shapeCast S1x16 (mulf (shapeCast S16 a shapeCasts_S1x16_S16) (shapeCast S16 b shapeCasts_S1x16_S16)) shapeCasts_S16_S1x16

theorem mulfPiece_apply (a b : Vec F S1x16 .f32) (x : S1x16.Idx) : mulfPiece a b x = FloatOps.mulf (a x) (b x) := by
  show FloatOps.mulf (a (Shape.reshapeEquiv _ (Shape.reshapeEquiv _ x))) (b (Shape.reshapeEquiv _ (Shape.reshapeEquiv _ x))) = _
  rw [Shape.reshapeEquiv_reshapeEquiv, Shape.reshapeEquiv_self]

/-- The column constant of quarter `q`. -/
def colC : Fin 4 → BitVec 32 := ![0#32, 16#32, 32#32, 48#32]
omit [FloatOps F] in
theorem colC_eq (q : Fin 4) : colC q = BitVec.ofNat 32 (16 * q.val) := by
  match q with
  | ⟨0, _⟩ => rfl
  | ⟨1, _⟩ => rfl
  | ⟨2, _⟩ => rfl
  | ⟨3, _⟩ => rfl

/-- The offsets of the piece of row `r` at column constant `c` in trip `k`, as the program computes them. -/
def offRow (k : Fin k0_t2_loop.trips) (c : BitVec 32) : Fin 16 → Fin 2 → ℕ :=
  ![k0_off2 k c, k0_off3 k c, k0_off4 k c, k0_off5 k c, k0_off6 k c, k0_off7 k c, k0_off8 k c, k0_off9 k c, k0_off10 k c, k0_off11 k c, k0_off12 k c, k0_off13 k c, k0_off14 k c, k0_off15 k c, k0_off16 k c, k0_off17 k c]

/-- In closed form: row `r`, column `64 k + 16 q`. -/
theorem offRow_eq (k : Fin k0_t2_loop.trips) (r : Fin 16) (q : Fin 4) :
    offRow k (colC q) r = ![r.val, 64 * k.val + 16 * q.val] := by
  rw [colC_eq]
  match r with
  | ⟨0, _⟩ => exact k0_off2_eq k q
  | ⟨1, _⟩ => exact k0_off3_eq k q
  | ⟨2, _⟩ => exact k0_off4_eq k q
  | ⟨3, _⟩ => exact k0_off5_eq k q
  | ⟨4, _⟩ => exact k0_off6_eq k q
  | ⟨5, _⟩ => exact k0_off7_eq k q
  | ⟨6, _⟩ => exact k0_off8_eq k q
  | ⟨7, _⟩ => exact k0_off9_eq k q
  | ⟨8, _⟩ => exact k0_off10_eq k q
  | ⟨9, _⟩ => exact k0_off11_eq k q
  | ⟨10, _⟩ => exact k0_off12_eq k q
  | ⟨11, _⟩ => exact k0_off13_eq k q
  | ⟨12, _⟩ => exact k0_off14_eq k q
  | ⟨13, _⟩ => exact k0_off15_eq k q
  | ⟨14, _⟩ => exact k0_off16_eq k q
  | ⟨15, _⟩ => exact k0_off17_eq k q
  | ⟨n + 16, h⟩ => exact absurd h (by omega)

theorem offRow_inb (k : Fin k0_t2_loop.trips) (r : Fin 16) (q : Fin 4) :
    ∀ a, offRow k (colC q) r a + S1x16.size a ≤ S16x2048.size a := by
  rw [offRow_eq]
  have hk : k.val < 32 := k.isLt
  have hr := r.isLt
  have hq := q.isLt
  intro a
  match a with
  | ⟨0, _⟩ => show r.val + 1 ≤ 16; omega
  | ⟨1, _⟩ => show 64 * k.val + 16 * q.val + 16 ≤ 2048; omega

/-- The rectangle of the piece of row `r`, quarter `q` in trip `k`. -/
abbrev pieceRect (k : Fin k0_t2_loop.trips) (rq : Fin 16 × Fin 4) : Rect S16x2048 :=
  Rect.unit (s := S16x2048) (offRow k (colC rq.2) rq.1) S1x16.size (offRow_inb k rq.1 rq.2)

omit [FloatOps F] in
theorem mem_pieceRect (k : Fin k0_t2_loop.trips) (rq : Fin 16 × Fin 4) (y : S16x2048.Idx) :
    y ∈ (pieceRect k rq).set ↔ row y = rq.1.val ∧ 64 * k.val + 16 * rq.2.val ≤ col y ∧ col y < 64 * k.val + 16 * rq.2.val + 16 := by
  unfold pieceRect
  rw [Rect.mem_set_unit, offRow_eq]
  constructor
  · intro h
    have h0 := h (0 : Fin 2)
    have h1 := h (1 : Fin 2)
    change rq.1.val ≤ row y ∧ row y < rq.1.val + 1 at h0
    change 64 * k.val + 16 * rq.2.val ≤ col y ∧ col y < 64 * k.val + 16 * rq.2.val + 16 at h1
    omega
  · intro h a
    match a with
    | ⟨0, _⟩ => show rq.1.val ≤ row y ∧ row y < rq.1.val + 1; omega
    | ⟨1, _⟩ => show 64 * k.val + 16 * rq.2.val ≤ col y ∧ col y < 64 * k.val + 16 * rq.2.val + 16; omega

variable (k : Fin k0_t2_loop.trips)
  (fw : (sW : Memref sig .scVector .vmem S16x2048 .f32).view.ty.Contents (Elt F))
  (fm : (sM : Memref sig .scVector .vmem S16x2048 .f32).view.ty.Contents (Elt F))

/-- The piece trip `k` stores at row `r`, quarter `q`: the product of what the two buffers hold there. -/
def piece (rq : Fin 16 × Fin 4) : View.Piece (Elt F) S16x2048 .f32 :=
  ⟨pieceRect k rq,
    mulfPiece (View.readAt (Elt F) (sW : Memref sig .scVector .vmem S16x2048 .f32).view (pieceRect k rq).toLoadRect fw)
      (View.readAt (Elt F) (sM : Memref sig .scVector .vmem S16x2048 .f32).view (pieceRect k rq).toLoadRect fm)⟩

/-- The trip's pieces, the last stored first. -/
def pairs : List (Fin 16 × Fin 4) := [(15, 3), (15, 2), (15, 1), (15, 0), (14, 3), (14, 2), (14, 1), (14, 0), (13, 3), (13, 2), (13, 1), (13, 0), (12, 3), (12, 2), (12, 1), (12, 0), (11, 3), (11, 2), (11, 1), (11, 0), (10, 3), (10, 2), (10, 1), (10, 0), (9, 3), (9, 2), (9, 1), (9, 0), (8, 3), (8, 2), (8, 1), (8, 0), (7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]
omit [FloatOps F] in
theorem pairs_mem : ∀ rq : Fin 16 × Fin 4, rq ∈ pairs := by decide

def tripPieces : List (View.Piece (Elt F) S16x2048 .f32) := pairs.map (piece k fw fm)

/-- What the first buffer holds after the trip: the product on the trip's columns, its old contents elsewhere. -/
theorem tripPieces_read (y : S16x2048.Idx) :
    (sW : Memref sig .scVector .vmem S16x2048 .f32).view.read (Elt F)
        (View.writes (sW : Memref sig .scVector .vmem S16x2048 .f32).view (Elt F) fw (tripPieces k fw fm)) y
      = if 64 * k.val ≤ col y ∧ col y < 64 * k.val + 64 then
          (FloatOps.mulf ((sW : Memref sig .scVector .vmem S16x2048 .f32).view.read (Elt F) fw y : F .f32)
            ((sM : Memref sig .scVector .vmem S16x2048 .f32).view.read (Elt F) fm y : F .f32) : F .f32)
        else (sW : Memref sig .scVector .vmem S16x2048 .f32).view.read (Elt F) fw y := by
  split
  · rename_i h
    refine View.read_writes_apply_of_pieces (sW : Memref sig .scVector .vmem S16x2048 .f32).view fw
      (fun y => (FloatOps.mulf ((sW : Memref sig .scVector .vmem S16x2048 .f32).view.read (Elt F) fw y : F .f32)
            ((sM : Memref sig .scVector .vmem S16x2048 .f32).view.read (Elt F) fm y : F .f32) : F .f32)) (tripPieces k fw fm) ?_ y ?_
    · intro p hp x
      obtain ⟨rq, -, rfl⟩ := List.mem_map.mp hp
      exact mulfPiece_apply _ _ x
    · have hr : row y < 16 := (y (0 : Fin 2)).isLt
      have hq : (col y - 64 * k.val) / 16 < 4 := by omega
      refine ⟨piece k fw fm (⟨row y, hr⟩, ⟨(col y - 64 * k.val) / 16, hq⟩), List.mem_map.mpr ⟨_, pairs_mem _, rfl⟩, ?_⟩
      show y ∈ (pieceRect k _).set
      rw [mem_pieceRect]
      show row y = row y ∧ 64 * k.val + 16 * ((col y - 64 * k.val) / 16) ≤ col y ∧ col y < 64 * k.val + 16 * ((col y - 64 * k.val) / 16) + 16
      omega
  · rename_i h
    refine View.read_writes_apply_of_forall_not_mem (sW : Memref sig .scVector .vmem S16x2048 .f32).view fw y _ ?_
    intro p hp hy
    obtain ⟨rq, -, rfl⟩ := List.mem_map.mp hp
    have := (mem_pieceRect k rq y).mp hy
    have hq := rq.2.isLt
    omega

set_option maxHeartbeats 1000000 in
/-- One trip, run: the first buffer takes the trip's pieces, the second is read only. -/
theorem trip2 (fw : Buf (Elt F) ((V d (cV L) (jV L)).loc cc0_scratch0)) (fm : Buf (Elt F) ((V d (cV L) (jV L)).loc cc0_scratch1)) :
    iprop(((sW : Memref sig .scVector .vmem S16x2048 .f32).view.loc (V d (cV L) (jV L)) ↦{fullShare} fw)
        ∗ ((sM : Memref sig .scVector .vmem S16x2048 .f32).view.loc (V d (cV L) (jV L)) ↦{fullShare} fm))
      ⊢ (wp frame (wpE (defs₀ (F := F)) 𝒱₀ (V d (cV L) (jV L)) none) Set.univ
          (k0_t2_body L wV (Memref.isWhole_whole _) mV (Memref.isWhole_whole _) oV (Memref.isWhole_whole _)
            sW (Memref.isWhole_whole _) sM (Memref.isWhole_whole _) cc0_scoped0 cc0_scoped1 cc0_scoped2 k ())
          fun _ => iprop(((sW : Memref sig .scVector .vmem S16x2048 .f32).view.loc (V d (cV L) (jV L)) ↦{fullShare}
                View.writes (sW : Memref sig .scVector .vmem S16x2048 .f32).view (Elt F) fw (tripPieces k fw fm))
            ∗ ((sM : Memref sig .scVector .vmem S16x2048 .f32).view.loc (V d (cV L) (jV L)) ↦{fullShare} fm)) : sProp 𝕄) := by
  unfold k0_t2_body
  iintro ⟨Hw, Hm⟩
  sl_exec
  sl_step
  isplitl [Hw]
  · iexact Hw
  · iexact Hm

end Tile
end Cert.Proof.KB
end
-- ==== Proof.KB.TileBody.lean ====
import proofs.«214096_g36816459661730_cont_8to1_b_1468_17_alg».proof.Proof.KB.Setup
import proofs.«214096_g36816459661730_cont_8to1_b_1468_17_alg».proof.Proof.Gen.Kernel.Skeleton
import proofs.«214096_g36816459661730_cont_8to1_b_1468_17_alg».proof.Proof.KB.TileTrip

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

section Tile
variable (d : Dev nD) (L : grid0.Coords)

/-- The sixteen rows chunk `k1` of the task moves. -/
abbrev chunkRect (L : grid0.Coords) (k1 : Fin k0_t1_loop.trips) : Rect S2048x2048 :=
  Rect.unit (s := S2048x2048) (k0_off1 L k1) S16x2048.size (k0_off1_inb L k1)
abbrev wSl (L : grid0.Coords) (k1 : Fin k0_t1_loop.trips) : Memref sig .scVector .hbm S16x2048 .f32 :=
  (wV : Memref sig .scVector .hbm S2048x2048 .f32).slice (chunkRect L k1) (fun _ => rfl)
abbrev mSl (L : grid0.Coords) (k1 : Fin k0_t1_loop.trips) : Memref sig .scVector .hbm S16x2048 .f32 :=
  (mV : Memref sig .scVector .hbm S2048x2048 .f32).slice (chunkRect L k1) (fun _ => rfl)
abbrev oSl (L : grid0.Coords) (k1 : Fin k0_t1_loop.trips) : Memref sig .scVector .hbm S16x2048 .f32 :=
  (oV : Memref sig .scVector .hbm S2048x2048 .f32).slice (chunkRect L k1) (fun _ => rfl)

/-- The inner loop's invariant: before trip `k` the first scratch holds the product on the columns below `64 k` and
    what it held at loop entry (`fw0`) elsewhere; the second scratch is unchanged. -/
def invIn (fw0 : Buf (Elt F) ((V d (cV L) (jV L)).loc cc0_scratch0)) (fm : Buf (Elt F) ((V d (cV L) (jV L)).loc cc0_scratch1))
    (k : Nat) (_ : PUnit) : sProp 𝕄 :=
  iprop(∃ fw : Buf (Elt F) ((V d (cV L) (jV L)).loc cc0_scratch0),
    ⌜∀ y : S16x2048.Idx, (sW : Memref sig .scVector .vmem S16x2048 .f32).view.read (Elt F) fw y
        = if col y < 64 * k then
            (FloatOps.mulf ((sW : Memref sig .scVector .vmem S16x2048 .f32).view.read (Elt F) fw0 y : F .f32)
              ((sM : Memref sig .scVector .vmem S16x2048 .f32).view.read (Elt F) fm y : F .f32) : F .f32)
          else (sW : Memref sig .scVector .vmem S16x2048 .f32).view.read (Elt F) fw0 y⌝
      ∗ ((sW : Memref sig .scVector .vmem S16x2048 .f32).view.loc (V d (cV L) (jV L)) ↦{fullShare} fw)
      ∗ ((sM : Memref sig .scVector .vmem S16x2048 .f32).view.loc (V d (cV L) (jV L)) ↦{fullShare} fm))

/-- One trip keeps the invariant. -/
theorem invIn_step (fw0 : Buf (Elt F) ((V d (cV L) (jV L)).loc cc0_scratch0)) (fm : Buf (Elt F) ((V d (cV L) (jV L)).loc cc0_scratch1))
    (k : Fin k0_t2_loop.trips) (acc : PUnit) :
    invIn d L fw0 fm k.val acc
      ⊢ (wp frame (wpE (defs₀ (F := F)) 𝒱₀ (V d (cV L) (jV L)) none) Set.univ
          (k0_t2_body L wV (Memref.isWhole_whole _) mV (Memref.isWhole_whole _) oV (Memref.isWhole_whole _)
            sW (Memref.isWhole_whole _) sM (Memref.isWhole_whole _) cc0_scoped0 cc0_scoped1 cc0_scoped2 k acc)
          (invIn d L fw0 fm (k.val + 1)) : sProp 𝕄) := by
  unfold invIn
  have key : ∀ (fw : Buf (Elt F) ((V d (cV L) (jV L)).loc cc0_scratch0)),
      (∀ y : S16x2048.Idx, (sW : Memref sig .scVector .vmem S16x2048 .f32).view.read (Elt F) fw y
        = if col y < 64 * k.val then
            (FloatOps.mulf ((sW : Memref sig .scVector .vmem S16x2048 .f32).view.read (Elt F) fw0 y : F .f32)
              ((sM : Memref sig .scVector .vmem S16x2048 .f32).view.read (Elt F) fm y : F .f32) : F .f32)
          else (sW : Memref sig .scVector .vmem S16x2048 .f32).view.read (Elt F) fw0 y) →
      iprop(((sW : Memref sig .scVector .vmem S16x2048 .f32).view.loc (V d (cV L) (jV L)) ↦{fullShare} fw)
        ∗ ((sM : Memref sig .scVector .vmem S16x2048 .f32).view.loc (V d (cV L) (jV L)) ↦{fullShare} fm))
      ⊢ (wp frame (wpE (defs₀ (F := F)) 𝒱₀ (V d (cV L) (jV L)) none) Set.univ
          (k0_t2_body L wV (Memref.isWhole_whole _) mV (Memref.isWhole_whole _) oV (Memref.isWhole_whole _)
            sW (Memref.isWhole_whole _) sM (Memref.isWhole_whole _) cc0_scoped0 cc0_scoped1 cc0_scoped2 k acc)
          (invIn d L fw0 fm (k.val + 1)) : sProp 𝕄) := by
    intro fw hfw
    refine (trip2 d L k fw fm).trans (wp_mono frame _ _ fun _ => ?_)
    unfold invIn
    iintro ⟨Hw, Hm⟩
    iexists _
    isplitr
    · ipureintro
      intro y
      rw [tripPieces_read k fw fm y, hfw y]
      by_cases h1 : col y < 64 * k.val
      · have h2 : ¬ (64 * k.val ≤ col y ∧ col y < 64 * k.val + 64) := by omega
        have h3 : col y < 64 * (k.val + 1) := by omega
        rw [if_neg h2, if_pos h1, if_pos h3]
      · by_cases h2 : col y < 64 * k.val + 64
        · have h3 : 64 * k.val ≤ col y ∧ col y < 64 * k.val + 64 := by omega
          have h4 : col y < 64 * (k.val + 1) := by omega
          rw [if_pos h3, if_neg h1, if_pos h4]
        · have h3 : ¬ (64 * k.val ≤ col y ∧ col y < 64 * k.val + 64) := by omega
          have h4 : ¬ col y < 64 * (k.val + 1) := by omega
          rw [if_neg h3, if_neg h1, if_neg h4]
    · isplitl [Hw]
      · iexact Hw
      · iexact Hm
  iintro ⟨%fw, %hfw, Hw, Hm⟩
  iapply (key fw hfw)
  isplitl [Hw]
  · iexact Hw
  · iexact Hm

/-- What chunk `k1`'s write-out leaves in its rows of the result, read through the chunk's view: the product of the two
    operands' rows. -/
theorem chunk_read (k1 : Fin k0_t1_loop.trips) (fo : Buf (Elt F) (oLoc d))
    (fw : Buf (Elt F) ((V d (cV L) (jV L)).loc cc0_scratch0)) (fm : Buf (Elt F) ((V d (cV L) (jV L)).loc cc0_scratch1))
    (fw2 : Buf (Elt F) ((V d (cV L) (jV L)).loc cc0_scratch0))
    (hfw2 : ∀ y : S16x2048.Idx, (sW : Memref sig .scVector .vmem S16x2048 .f32).view.read (Elt F) fw2 y
        = if col y < 64 * Scf.trips k0_t2_loop.lb k0_t2_loop.ub k0_t2_loop.st then
            (FloatOps.mulf ((sW : Memref sig .scVector .vmem S16x2048 .f32).view.read (Elt F)
                (View.write (Elt F) (sW : Memref sig .scVector .vmem S16x2048 .f32).view fw ((wSl L k1).view.read (Elt F) (m (wLoc d))) Finset.univ) y : F .f32)
              ((sM : Memref sig .scVector .vmem S16x2048 .f32).view.read (Elt F)
                (View.write (Elt F) (sM : Memref sig .scVector .vmem S16x2048 .f32).view fm ((mSl L k1).view.read (Elt F) (m (mLoc d))) Finset.univ) y : F .f32) : F .f32)
          else (sW : Memref sig .scVector .vmem S16x2048 .f32).view.read (Elt F)
                (View.write (Elt F) (sW : Memref sig .scVector .vmem S16x2048 .f32).view fw ((wSl L k1).view.read (Elt F) (m (wLoc d))) Finset.univ) y)
    (y : S16x2048.Idx) :
    (oSl L k1).view.read (Elt F) ((oSl L k1).view.writes (Elt F) fo [⟨Rect.whole S16x2048, (sW : Memref sig .scVector .vmem S16x2048 .f32).view.read (Elt F) fw2⟩]) y
      = (FloatOps.mulf ((wSl L k1).view.read (Elt F) (m (wLoc d)) y : F .f32) ((mSl L k1).view.read (Elt F) (m (mLoc d)) y : F .f32) : F .f32) := by
  have h32 : Scf.trips k0_t2_loop.lb k0_t2_loop.ub k0_t2_loop.st = 32 := rfl
  have hy : col y < 64 * Scf.trips k0_t2_loop.lb k0_t2_loop.ub k0_t2_loop.st := by
    rw [h32]; exact (y (1 : Fin 2)).isLt
  rw [View.read_writes_whole, hfw2 y, if_pos hy, View.read_write_univ, View.read_write_univ]

set_option maxHeartbeats 1000000 in
/-- Read as elements of the result array: the product. -/
theorem chunk_congr (k1 : Fin k0_t1_loop.trips) (f : Buf (Elt F) (oLoc d))
    (hf : ∀ y : S16x2048.Idx, (oSl L k1).view.read (Elt F) f y
      = (FloatOps.mulf ((wSl L k1).view.read (Elt F) (m (wLoc d)) y : F .f32) ((mSl L k1).view.read (Elt F) (m (mLoc d)) y : F .f32) : F .f32)) :
    ∀ i ∈ (oSl L k1).view.set, f i = s1Val m d i := by
  intro i hi
  obtain ⟨y, -, rfl⟩ := Finset.mem_map.mp hi
  exact hf y

/-- Chunk `c`'s rows of the result, as the outer loop holds them before chunk `k`: at the product if already done. -/
def oChunk (k : Nat) (c : Fin k0_t1_loop.trips) : sProp 𝕄 :=
  iprop(∃ f : Buf (Elt F) (oLoc d), ⌜c.val < k → ∀ i ∈ (oSl L c).view.set, f i = s1Val m d i⌝
      ∗ ((oSl L c).view.loc (V d (cV L) (jV L)) ↦[(oSl L c).view.set]{fullShare} f))

/-- The outer loop's invariant: before chunk `k` the operands' rows are unchanged, the result's rows of the chunks below
    `k` hold the product, the two scratch buffers hold anything, the three semaphores are at zero. -/
def invOut (O : CellTallies nD τ sig (HIx 1)) (W : Waits sig (HIx 1)) (k : Nat) (_ : PUnit) : sProp 𝕄 :=
  iprop(Transfers.MayWaits (V d (cV L) (jV L)) (none : HIx 1) O
    ∗ (bigSep Finset.univ (fun c : Fin k0_t1_loop.trips => ((wSl L c).view.loc (V d (cV L) (jV L)) ↦[(wSl L c).view.set]{fullShare} m (wLoc d) : sProp 𝕄)))
    ∗ (bigSep Finset.univ (fun c : Fin k0_t1_loop.trips => ((mSl L c).view.loc (V d (cV L) (jV L)) ↦[(mSl L c).view.set]{fullShare} m (mLoc d) : sProp 𝕄)))
    ∗ (bigSep Finset.univ fun c : Fin k0_t1_loop.trips => oChunk m d L k c)
    ∗ (∃ fw, (sW : Memref sig .scVector .vmem S16x2048 .f32).view.loc (V d (cV L) (jV L)) ↦{fullShare} fw)
    ∗ (∃ fm, (sM : Memref sig .scVector .vmem S16x2048 .f32).view.loc (V d (cV L) (jV L)) ↦{fullShare} fm)
    ∗ semVal ((V d (cV L) (jV L)), SemLoc.dma cc0_scoped0.sem) 0
    ∗ semVal ((V d (cV L) (jV L)), SemLoc.dma cc0_scoped1.sem) 0
    ∗ semVal ((V d (cV L) (jV L)), SemLoc.dma cc0_scoped2.sem) 0
    ∗ ∃ W', ⌜∀ p ∈ W', p ∈ W ∨ p.2 = none⌝ ∗ owes (V d (cV L) (jV L)) O W')

/-- The chunks other than `k1` are as they were. -/
theorem oRest_mono (k1 : Fin k0_t1_loop.trips) :
    (bigSep (Finset.univ.erase k1) fun c : Fin k0_t1_loop.trips => oChunk m d L k1.val c)
      ⊢ (bigSep (Finset.univ.erase k1) fun c : Fin k0_t1_loop.trips => oChunk m d L (k1.val + 1) c : sProp 𝕄) := by
  have hc : ∀ c ∈ Finset.univ.erase k1, oChunk m d L k1.val c ⊢ (oChunk m d L (k1.val + 1) c : sProp 𝕄) := by
    intro c hc
    have hne : c.val ≠ k1.val := fun e => (Finset.mem_erase.mp hc).1 (Fin.ext e)
    unfold oChunk
    iintro ⟨%f, %hf, H⟩
    iexists f
    isplitr
    · ipureintro; exact fun h => hf (by omega)
    · iexact H
  exact bigSep_mono hc

set_option maxHeartbeats 2000000 in
/-- One chunk keeps the invariant: both operands' rows copied in, the inner loop, the product copied out. -/
theorem invOut_step (O : CellTallies nD τ sig (HIx 1)) (W : Waits sig (HIx 1)) (k1 : Fin k0_t1_loop.trips) (acc : PUnit) :
    invOut m d L O W k1.val acc
      ⊢ (wp frame (wpE (defs₀ (F := F)) 𝒱₀ (V d (cV L) (jV L)) none) Set.univ
          (k0_t1_body L wV (Memref.isWhole_whole _) mV (Memref.isWhole_whole _) oV (Memref.isWhole_whole _)
            sW (Memref.isWhole_whole _) sM (Memref.isWhole_whole _) cc0_scoped0 cc0_scoped1 cc0_scoped2 k1 acc)
          (invOut m d L O W (k1.val + 1)) : sProp 𝕄) := by
  unfold invOut
  rw [SparseCore.bigSep_erase' (Finset.mem_univ k1) (Φ := (fun c : Fin k0_t1_loop.trips => ((wSl L c).view.loc (V d (cV L) (jV L)) ↦[(wSl L c).view.set]{fullShare} m (wLoc d) : sProp 𝕄))),
    SparseCore.bigSep_erase' (Finset.mem_univ k1) (Φ := (fun c : Fin k0_t1_loop.trips => ((mSl L c).view.loc (V d (cV L) (jV L)) ↦[(mSl L c).view.set]{fullShare} m (mLoc d) : sProp 𝕄))),
    SparseCore.bigSep_erase' (Finset.mem_univ k1) (Φ := fun c : Fin k0_t1_loop.trips => oChunk m d L k1.val c),
    SparseCore.bigSep_erase' (Finset.mem_univ k1) (Φ := fun c : Fin k0_t1_loop.trips => oChunk m d L (k1.val + 1) c)]
  unfold k0_t1_body
  iintro ⟨Hmw, ⟨Hws, Hwr⟩, ⟨Hms, Hmr⟩, ⟨Hoc, Hor⟩, ⟨%fw, Hw⟩, ⟨%fm, Hm⟩, Hs0, Hs1, Hs2, %W', %hW', HO⟩
  unfold oChunk
  icases Hoc with ⟨%fo, -, Hos⟩
  sl_exec
  sl_for (invIn d L (View.write (Elt F) (sW : Memref sig .scVector .vmem S16x2048 .f32).view fw ((wSl L k1).view.read (Elt F) (m (wLoc d))) Finset.univ)
      (View.write (Elt F) (sM : Memref sig .scVector .vmem S16x2048 .f32).view fm ((mSl L k1).view.read (Elt F) (m (mLoc d))) Finset.univ)) $$ [Hw Hm]
  case region => exact fun k acc => invIn_step d L _ _ k acc
  · unfold invIn
    iexists _
    isplitr
    · ipureintro; intro y; rw [if_neg (by omega)]
    isplitl [Hw]
    · iexact Hw
    · iexact Hm
  iintro %_ HI
  unfold invIn
  icases HI with ⟨%fw2, %hfw2, Hw, Hm⟩
  sl_exec
  sl_step
  isplitl [Hmw]; · iexact Hmw
  isplitl [Hws Hwr]
  · isplitl [Hws]; · iexact Hws
    iexact Hwr
  isplitl [Hms Hmr]
  · isplitl [Hms]; · iexact Hms
    iexact Hmr
  isplitl [Hos Hor]
  · isplitl [Hos]
    · iexists _
      isplitr
      · ipureintro
        exact fun _ => chunk_congr m d L k1 _ (chunk_read m d L k1 fo fw fm fw2 hfw2)
      · iexact Hos
    · iapply (oRest_mono m d L k1); iexact Hor
  isplitl [Hw]; · iexists _; iexact Hw
  isplitl [Hm]; · iexists _; iexact Hm
  isplitl [Hs0]; · iexact Hs0
  isplitl [Hs1]; · iexact Hs1
  isplitl [Hs2]; · iexact Hs2
  iexists (insert (SemLoc.dma cc0_scoped2.sem, (default : HIx 1)) (insert (SemLoc.dma cc0_scoped1.sem, (default : HIx 1))
    (insert (SemLoc.dma cc0_scoped0.sem, (default : HIx 1)) W')))
  isplitr
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  · iexact HO

end Tile
end Cert.Proof.KB
end
-- ==== Proof.KB.TileRows.lean ====
import proofs.«214096_g36816459661730_cont_8to1_b_1468_17_alg».proof.Proof.KB.Setup
import proofs.«214096_g36816459661730_cont_8to1_b_1468_17_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## How the call's arrays are dealt to the 32 tasks

Task `(c, i)` takes block `2 i + c` of the 32 blocks of 64 rows; `(c, i) ↦ 2 i + c` is a bijection onto `Fin 32`, the
blocks are pairwise disjoint and cover the rows, so an array held whole is its 32 blocks held apart, and back. -/

omit [FloatOps F] in
theorem rowSet_eq (w : Fin 32) : rowSet w = (rows w).set := by
  show ((View.whole (main_arg2_scv : Ref sig .scVector)).slice (rows w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)

/-- `(c, i) ↦ 2 i + c`, a bijection of the 2 × 16 tasks with the 32 blocks. -/
def widEquiv : Fin 2 × Fin 16 ≃ Fin 32 where
  toFun p := wid p.1 p.2
  invFun w := (⟨w.val % 2, by omega⟩, ⟨w.val / 2, by omega⟩)
  left_inv p := by
    obtain ⟨c, i⟩ := p
    have hc := c.isLt
    refine Prod.ext (Fin.ext ?_) (Fin.ext ?_)
    · show (2 * i.val + c.val) % 2 = c.val; omega
    · show (2 * i.val + c.val) / 2 = i.val; omega
  right_inv w := by
    apply Fin.ext
    show 2 * (w.val / 2) + w.val % 2 = w.val; omega

omit [FloatOps F] in
theorem bigSep_wid (Ψ : Fin 32 → sProp 𝕄) :
    (bigSep Finset.univ fun c : Fin 2 => bigSep Finset.univ fun i : Fin 16 => Ψ (wid c i)) = bigSep Finset.univ Ψ := by
  rw [BI.bigSep_univ_equiv widEquiv Ψ, BI.bigSep_univ_prod]; rfl

omit [FloatOps F] in
theorem wPts_rows (d : Dev nD) (f : Buf (Elt F) (wLoc d)) :
    (wLoc d ↦{fullShare} f : sProp 𝕄) = bigSep Finset.univ fun w : Fin 32 => wLoc d ↦[rowSet w]{fullShare} f := by
  rw [← pointsTo_biUnion Finset.univ (ℓ := wLoc d) rowSet rows_disjoint, rows_cover]; try rfl
omit [FloatOps F] in
theorem mPts_rows (d : Dev nD) (f : Buf (Elt F) (mLoc d)) :
    (mLoc d ↦{fullShare} f : sProp 𝕄) = bigSep Finset.univ fun w : Fin 32 => mLoc d ↦[rowSet w]{fullShare} f := by
  rw [← pointsTo_biUnion Finset.univ (ℓ := mLoc d) rowSet rows_disjoint, rows_cover]; try rfl
omit [FloatOps F] in
theorem oPts_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_eq (d : Dev nD) (c : Fin ((K (F := F)).nCore 0)) :
    (P m).st 0 d c = bigSep Finset.univ fun i : Fin 16 => goP m d (wid (Fin.cast nCore_zero c) i) := rfl
theorem dn_eq (d : Dev nD) (c : Fin ((K (F := F)).nCore 0)) :
    (P m).dn 0 d c = bigSep Finset.univ fun i : Fin 16 => tdP m d (wid (Fin.cast nCore_zero c) i) := rfl
theorem go_eq (d : Dev nD) (c : Fin ((K (F := F)).nCore 0)) (i : Fin ((K (F := F)).nSub 0)) :
    (P m).go 0 d c i = goP m d (wid (Fin.cast nCore_zero c) (Fin.cast nSub_zero i)) := rfl
theorem td_eq (d : Dev nD) (c : Fin ((K (F := F)).nCore 0)) (i : Fin ((K (F := F)).nSub 0)) :
    (P m).td 0 d c i = tdP m d (wid (Fin.cast nCore_zero c) (Fin.cast nSub_zero i)) := rfl

/-- A SparseCore's sixteen blocks go to its sixteen tasks and come back from them, each task its own. -/
theorem vecSplit : (K (F := F)).VecSplit' (P m) 0 := by
  intro d c
  rw [st_eq, dn_eq]
  simp only [go_eq, td_eq]
  rw [bigSep_tasks (F := F) (fun i => goP m d (wid (Fin.cast nCore_zero c) i)),
    bigSep_tasks (F := F) (fun i => tdP m d (wid (Fin.cast nCore_zero c) i))]
  iintro H; imodintro
  isplitl [H]; · iexact H
  iintro H; iexact H

theorem st0_eq (d : Dev nD) :
    (bigSep Finset.univ fun c : Fin ((K (F := F)).nCore 0) => (P m).st 0 d c : sProp 𝕄) = bigSep Finset.univ fun w : Fin 32 => goP m d w := by
  simp only [st_eq]
  rw [bigSep_cores (F := F) (fun c => bigSep Finset.univ fun i : Fin 16 => goP m d (wid c i))]
  exact bigSep_wid (fun w => goP m d w)
theorem dn0_eq (d : Dev nD) :
    (bigSep Finset.univ fun c : Fin ((K (F := F)).nCore 0) => (P m).dn 0 d c : sProp 𝕄) = bigSep Finset.univ fun w : Fin 32 => tdP m d w := by
  simp only [dn_eq]
  rw [bigSep_cores (F := F) (fun c => bigSep Finset.univ fun i : Fin 16 => tdP m d (wid c i))]
  exact bigSep_wid (fun w => tdP m d w)

omit [FloatOps F] in
theorem oRows_intro (d : Dev nD) (f : Buf (Elt F) (oLoc d)) :
    (oLoc d ↦{fullShare} f : sProp 𝕄) ⊢ (bigSep Finset.univ fun w : Fin 32 => iprop(∃ f, oLoc d ↦[rowSet w]{fullShare} f) : sProp 𝕄) := by
  have hex : ∀ w : Fin 32, (oLoc d ↦[rowSet w]{fullShare} f : sProp 𝕄) ⊢ iprop(∃ f, oLoc d ↦[rowSet w]{fullShare} f) :=
    fun w => by iintro H; iexists f; iexact H
  rw [oPts_rows]
  exact bigSep_mono fun w _ => hex w

/-- The three arrays held whole, the result at any contents, are what the call hands the two SparseCores. -/
theorem st0_intro (d : Dev nD) :
    iprop((wLoc d ↦{fullShare} m (wLoc d)) ∗ (mLoc d ↦{fullShare} m (mLoc d)) ∗ ∃ f : Buf (Elt F) (oLoc d), oLoc d ↦{fullShare} f)
      ⊢ (bigSep Finset.univ fun c : Fin ((K (F := F)).nCore 0) => (P m).st 0 d c : sProp 𝕄) := by
  rw [st0_eq]
  unfold goP wRowPts mRowPts oRowPts
  rw [bigSep_sep', bigSep_sep', ← wPts_rows, ← mPts_rows]
  iintro ⟨Hw, Hm, %f, Ho⟩
  isplitl [Hw]; · iexact Hw
  isplitl [Hm]; · iexact Hm
  iapply (oRows_intro d f)
  iexact Ho

/-- What the two SparseCores hand back is the three arrays whole, the result at the product. -/
theorem dn0_elim (d : Dev nD) :
    (bigSep Finset.univ fun c : Fin ((K (F := F)).nCore 0) => (P m).dn 0 d c : sProp 𝕄)
      ⊢ iprop((wLoc d ↦{fullShare} m (wLoc d)) ∗ (mLoc d ↦{fullShare} m (mLoc d)) ∗ oLoc d ↦{fullShare} s1Val m d) := by
  rw [dn0_eq]
  unfold tdP wRowPts mRowPts oRowPts
  rw [bigSep_sep', bigSep_sep', ← wPts_rows, ← mPts_rows, ← oPts_rows]

end Cert.Proof.KB
end
-- ==== Proof.KB.TileChunks.lean ====
import proofs.«214096_g36816459661730_cont_8to1_b_1468_17_alg».proof.Proof.KB.Setup
import proofs.«214096_g36816459661730_cont_8to1_b_1468_17_alg».proof.Proof.Gen.Kernel.Skeleton
import proofs.«214096_g36816459661730_cont_8to1_b_1468_17_alg».proof.Proof.KB.TileRows
import proofs.«214096_g36816459661730_cont_8to1_b_1468_17_alg».proof.Proof.KB.TileBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## A task's block of 64 rows as its four chunks of 16 rows

The task at grid coordinates `L = (c, i)` takes block `2 i + c` of the 32 blocks of 64 rows; trip `k` of its outer loop
moves the 16 rows from `128 i + 64 c + 16 k`. The four chunks are pairwise disjoint and together are the block, so the
block held at given contents is its four chunks held apart, and back. -/

theorem bound_zero : grid0.bound 0 = 2 := rfl
theorem bound_one : grid0.bound 1 = 16 := rfl

/-- The block of rows of the task at grid coordinates `L`. -/
abbrev widL (L : grid0.Coords) : Fin 32 := wid (Fin.cast bound_zero (L 0)) (Fin.cast bound_one (L 1))

omit [FloatOps F] in
theorem trips1 : k0_t1_loop.trips = 4 := by decide

section Tile
variable (d : Dev nD) (L : grid0.Coords)

omit [FloatOps F] in
theorem widL_val : (widL L).val = 2 * (L 1).val + (L 0).val := rfl

/-- A block of 64 rows: the rows from `64 w`. -/
theorem mem_rows (w : Fin 32) (y : S2048x2048.Idx) :
    y ∈ (rows w).set ↔ 64 * w.val ≤ (y (0 : Fin 2)).val ∧ (y (0 : Fin 2)).val < 64 * w.val + 64 := by
  rw [Rect.mem_set_unit]
  constructor
  · intro h
    have h0 := h (0 : Fin 2)
    change w.val * 64 ≤ (y (0 : Fin 2)).val ∧ (y (0 : Fin 2)).val < w.val * 64 + 64 at h0
    omega
  · intro h a
    have h1 : (y (1 : Fin 2)).val < 2048 := (y (1 : Fin 2)).isLt
    match a with
    | ⟨0, _⟩ => show w.val * 64 ≤ (y (0 : Fin 2)).val ∧ (y (0 : Fin 2)).val < w.val * 64 + 64; omega
    | ⟨1, _⟩ => show 0 * 2048 ≤ (y (1 : Fin 2)).val ∧ (y (1 : Fin 2)).val < 0 * 2048 + 2048; omega

/-- A chunk of 16 rows: the rows from `128 i + 64 c + 16 k`. -/
theorem mem_chunk (k1 : Fin k0_t1_loop.trips) (y : S2048x2048.Idx) :
    y ∈ (chunkRect L k1).set ↔ 128 * (L 1).val + 64 * (L 0).val + 16 * k1.val ≤ (y (0 : Fin 2)).val
      ∧ (y (0 : Fin 2)).val < 128 * (L 1).val + 64 * (L 0).val + 16 * k1.val + 16 := by
  unfold chunkRect
  rw [Rect.mem_set_unit, k0_off1_eq]
  constructor
  · intro h
    have h0 := h (0 : Fin 2)
    change 128 * (L 1).val + 64 * (L 0).val + 16 * k1.val ≤ (y (0 : Fin 2)).val
      ∧ (y (0 : Fin 2)).val < 128 * (L 1).val + 64 * (L 0).val + 16 * k1.val + 16 at h0
    exact h0
  · intro h a
    have h1 : (y (1 : Fin 2)).val < 2048 := (y (1 : Fin 2)).isLt
    match a with
    | ⟨0, _⟩ =>
      show 128 * (L 1).val + 64 * (L 0).val + 16 * k1.val ≤ (y (0 : Fin 2)).val
        ∧ (y (0 : Fin 2)).val < 128 * (L 1).val + 64 * (L 0).val + 16 * k1.val + 16
      exact h
    | ⟨1, _⟩ => show 0 ≤ (y (1 : Fin 2)).val ∧ (y (1 : Fin 2)).val < 0 + 2048; omega

omit [FloatOps F] in
theorem set_wSl (k1 : Fin k0_t1_loop.trips) : (wSl L k1).view.set = (chunkRect L k1).set := by
  show ((View.whole (main_arg2_scv : Ref sig .scVector)).slice (chunkRect L k1)).set = _
  rw [View.set_slice]; exact Finset.map_refl
omit [FloatOps F] in
theorem set_mSl (k1 : Fin k0_t1_loop.trips) : (mSl L k1).view.set = (chunkRect L k1).set := by
  show ((View.whole (main_arg5_scv : Ref sig .scVector)).slice (chunkRect L k1)).set = _
  rw [View.set_slice]; exact Finset.map_refl
omit [FloatOps F] in
theorem set_oSl (k1 : Fin k0_t1_loop.trips) : (oSl L k1).view.set = (chunkRect L k1).set := by
  show ((View.whole (main_v0_scv : Ref sig .scVector)).slice (chunkRect L k1)).set = _
  rw [View.set_slice]; exact Finset.map_refl

/-- The four chunks are pairwise disjoint, -/
theorem chunk_disjoint : ∀ c ∈ (Finset.univ : Finset (Fin k0_t1_loop.trips)), ∀ c' ∈ (Finset.univ : Finset (Fin k0_t1_loop.trips)),
    c ≠ c' → Disjoint (chunkRect L c).set (chunkRect L c').set := by
  intro c _ c' _ hne
  have hv : c.val ≠ c'.val := fun h => hne (Fin.ext h)
  rw [Finset.disjoint_left]
  intro y hy hy'
  rw [mem_chunk] at hy hy'
  omega

/-- and together they are the task's block. -/
theorem chunk_cover : (Finset.univ : Finset (Fin k0_t1_loop.trips)).biUnion (fun c => (chunkRect L c).set) = rowSet (widL L) := by
  have hL0 : (L 0).val < 2 := (L 0).isLt
  have hL1 : (L 1).val < 16 := (L 1).isLt
  ext y
  rw [rowSet_eq, mem_rows, widL_val]
  simp only [Finset.mem_biUnion, Finset.mem_univ, true_and]
  constructor
  · rintro ⟨c, hc⟩
    have hc4 : c.val < 4 := lt_of_lt_of_eq c.isLt trips1
    rw [mem_chunk] at hc
    omega
  · intro h
    refine ⟨⟨((y (0 : Fin 2)).val - (128 * (L 1).val + 64 * (L 0).val)) / 16, by rw [trips1]; omega⟩, ?_⟩
    rw [mem_chunk]
    show 128 * (L 1).val + 64 * (L 0).val + 16 * (((y (0 : Fin 2)).val - (128 * (L 1).val + 64 * (L 0).val)) / 16) ≤ (y (0 : Fin 2)).val
      ∧ (y (0 : Fin 2)).val < 128 * (L 1).val + 64 * (L 0).val + 16 * (((y (0 : Fin 2)).val - (128 * (L 1).val + 64 * (L 0).val)) / 16) + 16
    omega

omit [FloatOps F] in
/-- A points-to at an equal element set. -/
theorem pts_congr_set {ℓ : Loc nD τ sig} (K K' : Finset (Idx ℓ)) (h : K = K') (f : Buf (Elt F) ℓ) :
    (ℓ ↦[K]{fullShare} f : sProp 𝕄) = ℓ ↦[K']{fullShare} f := by rw [h]

/-- The task's block of the first operand, held at contents `f`, is its four chunks held apart, each through the slice
    of the array the outer loop's trip moves. -/
theorem wChunks (f : Buf (Elt F) (wLoc d)) :
    (wLoc d ↦[rowSet (widL L)]{fullShare} f : sProp 𝕄)
      = bigSep Finset.univ fun c : Fin k0_t1_loop.trips => (wSl L c).view.loc (V d (cV L) (jV L)) ↦[(wSl L c).view.set]{fullShare} f := by
  have h : (wLoc d ↦[rowSet (widL L)]{fullShare} f : sProp 𝕄)
      = bigSep Finset.univ fun c : Fin k0_t1_loop.trips => wLoc d ↦[(chunkRect L c).set]{fullShare} f := by
    rw [← chunk_cover L, pointsTo_biUnion Finset.univ _ (chunk_disjoint L)]
  exact h.trans (bigSep_congr fun c _ => pts_congr_set (ℓ := wLoc d) _ _ (set_wSl L c).symm f)

theorem mChunks (f : Buf (Elt F) (mLoc d)) :
    (mLoc d ↦[rowSet (widL L)]{fullShare} f : sProp 𝕄)
      = bigSep Finset.univ fun c : Fin k0_t1_loop.trips => (mSl L c).view.loc (V d (cV L) (jV L)) ↦[(mSl L c).view.set]{fullShare} f := by
  have h : (mLoc d ↦[rowSet (widL L)]{fullShare} f : sProp 𝕄)
      = bigSep Finset.univ fun c : Fin k0_t1_loop.trips => mLoc d ↦[(chunkRect L c).set]{fullShare} f := by
    rw [← chunk_cover L, pointsTo_biUnion Finset.univ _ (chunk_disjoint L)]
  exact h.trans (bigSep_congr fun c _ => pts_congr_set (ℓ := mLoc d) _ _ (set_mSl L c).symm f)

theorem oChunks (f : Buf (Elt F) (oLoc d)) :
    (oLoc d ↦[rowSet (widL L)]{fullShare} f : sProp 𝕄)
      = bigSep Finset.univ fun c : Fin k0_t1_loop.trips => (oSl L c).view.loc (V d (cV L) (jV L)) ↦[(oSl L c).view.set]{fullShare} f := by
  have h : (oLoc d ↦[rowSet (widL L)]{fullShare} f : sProp 𝕄)
      = bigSep Finset.univ fun c : Fin k0_t1_loop.trips => oLoc d ↦[(chunkRect L c).set]{fullShare} f := by
    rw [← chunk_cover L, pointsTo_biUnion Finset.univ _ (chunk_disjoint L)]
  exact h.trans (bigSep_congr fun c _ => pts_congr_set (ℓ := oLoc d) _ _ (set_oSl L c).symm f)

end Tile

end Cert.Proof.KB

end
-- ==== Proof.KB.TileWrap.lean ====
/-
  A vector subcore's task of the SparseCore call, as the launch states it and as the body is proved: the task's scoped
  semaphores and buffers with the three DMA semaphores and the two scratch rows the body uses named and split off, the
  body table's row at a vector subcore, and the task's obligation from the body's triple at every subcore of the grid.
-/
import proofs.«214096_g36816459661730_cont_8to1_b_1468_17_alg».proof.Proof.KB.TileBody
import proofs.«214096_g36816459661730_cont_8to1_b_1468_17_alg».proof.Proof.KB.TileChunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

section Tile
variable (d : Dev nD) (L : grid0.Coords)

/-! ## The subcore's own semaphores and buffers, the ones the body uses split off -/

omit [FloatOps F] in
/-- The three DMA semaphores of the body's transfers are among the subcore's own cells: all at zero is these three at
    zero and the rest at zero. -/
theorem ownSems0_V :
    (ownSems0 (V d (cV L) (jV L)) : sProp 𝕄)
      = iprop(semVal (V d (cV L) (jV L), SemLoc.dma cc0_scoped0.sem) 0 ∗ semVal (V d (cV L) (jV L), SemLoc.dma cc0_scoped1.sem) 0
          ∗ semVal (V d (cV L) (jV L), SemLoc.dma cc0_scoped2.sem) 0
          ∗ bigSep ((((ownCells (V d (cV L) (jV L))).erase (V d (cV L) (jV L), SemLoc.dma cc0_scoped0.sem)).erase
              (V d (cV L) (jV L), SemLoc.dma cc0_scoped1.sem)).erase (V d (cV L) (jV L), SemLoc.dma cc0_scoped2.sem))
              fun g => semVal g 0) := by
  unfold SparseCore.Cfg.ownSems0
  rw [SparseCore.bigSep_erase' ((mem_ownCells (g := (V d (cV L) (jV L), SemLoc.dma cc0_scoped0.sem))).mpr ⟨rfl, by
      show (SemLoc.dma cc0_scoped0.sem : SemLoc sig).isScoped .scVector = true; decide⟩),
    SparseCore.bigSep_erase' (Finset.mem_erase.mpr ⟨by simp; decide, (mem_ownCells (g := (V d (cV L) (jV L), SemLoc.dma cc0_scoped1.sem))).mpr ⟨rfl, by
      show (SemLoc.dma cc0_scoped1.sem : SemLoc sig).isScoped .scVector = true; decide⟩⟩),
    SparseCore.bigSep_erase' (Finset.mem_erase.mpr ⟨by simp; decide, Finset.mem_erase.mpr ⟨by simp; decide,
      (mem_ownCells (g := (V d (cV L) (jV L), SemLoc.dma cc0_scoped2.sem))).mpr ⟨rfl, by show (SemLoc.dma cc0_scoped2.sem : SemLoc sig).isScoped .scVector = true; decide⟩⟩⟩)]

omit [FloatOps F] in
/-- The two scratch rows are among the subcore's own buffers: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

/-! ## The task's obligation from the body's triple -/

/-- The grid coordinates of the task of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The body table's row at a vector subcore: the call's body at the subcore's coordinates, on the whole arrays and the
    subcore's scratch, where the subcore is in the grid. -/
theorem defs₀_vector (c : Fin τ.nSC) (s : Fin τ.nSub) :
    defs₀ (F := F) (.scVector c s) 0 ()
      = SparseCore.onTile hcore0 hsub0 (fun c s => cc0_body (coordsV c s)
          wV (Memref.isWhole_whole _) mV (Memref.isWhole_whole _) oV (Memref.isWhole_whole _)
          sW (Memref.isWhole_whole _) sM (Memref.isWhole_whole _) cc0_scoped0 cc0_scoped1 cc0_scoped2) ⟨⟩ c s := rfl

omit [FloatOps F] in
/-- A task that records no wait of the call's own index records none outside what the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the call's tasks, from the body's triple at every subcore of the grid: handed its block
    of rows of the two operands and of the result, its scoped storage and what it owes, the body runs to the rows
    handed back with the result's at the product, the storage returned, and the same dues. -/
theorem tileObl_of
    (h : ∀ (d : Dev nD) (L : grid0.Coords) (O : CellTallies nD τ sig (HIx 1)) (W : Waits sig (HIx 1)), (∀ g, O g none = 0) →
      iprop(levAts (K (F := F)).L (K (F := F)).lev ∗ emp ∗ goP m d (widL L) ∗ scopedBufs (V d (cV L) (jV L)) ∗ scopedSems0 (V d (cV L) (jV L))
          ∗ owes (V d (cV L) (jV L)) O W)
        ⊢ wp frame (wpE (defs₀ (F := F)) 𝒱₀ (V d (cV L) (jV L)) none) Set.univ
            (cc0_body L wV (Memref.isWhole_whole _) mV (Memref.isWhole_whole _) oV (Memref.isWhole_whole _)
              sW (Memref.isWhole_whole _) sM (Memref.isWhole_whole _) cc0_scoped0 cc0_scoped1 cc0_scoped2) fun _ =>
            iprop(tdP m d (widL L) ∗ scopedBufs (V d (cV L) (jV L)) ∗ scopedSems0 (V d (cV L) (jV L))
              ∗ ∃ W', ⌜∀ p ∈ W', p ∈ W ∨ p.2 = none⌝ ∗ owes (V d (cV L) (jV L)) O W')) :
    (K (F := F)).TileObl (D (F := F)) 𝒱 (P m) v₀ 0 := by
  intro d c i O W hO _ _
  -- the call owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (h d (coordsV ⟨_, hc.1⟩ ⟨_, hc.2⟩) O W hO).trans (wp_mono frame _ _ fun _ => obl_post)

end Cert.Proof.KB

end
-- ==== Proof.KB.Tile.lean ====
import proofs.«214096_g36816459661730_cont_8to1_b_1468_17_alg».proof.Proof.KB.Setup
import proofs.«214096_g36816459661730_cont_8to1_b_1468_17_alg».proof.Proof.Gen.Kernel.Skeleton
import proofs.«214096_g36816459661730_cont_8to1_b_1468_17_alg».proof.Proof.KB.TileWrap
import proofs.«214096_g36816459661730_cont_8to1_b_1468_17_alg».proof.Proof.KB.TileRows
/-
  The SparseCore call's vector-subcore task and how the call's arrays are dealt to the 32 tasks.

  Task `(c, i)` owns the 64 rows of block `2 i + c` of the two operands and of the result. It works through them in four
  chunks of sixteen rows: the chunk's rows of both operands are copied into two scratch buffers (each copy issued and
  waited for on its own semaphore), the first scratch is multiplied in place by the second in 32 trips of sixty-four
  16-lane pieces, and the first scratch is copied out to the chunk's rows of the result. The outer loop's invariant says
  that the result's rows of the chunks already treated hold the elementwise product of the operands as launched; after
  the fourth chunk the whole block does.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

section Tile
variable (d : Dev nD) (L : grid0.Coords)

omit [FloatOps F] in
theorem pts_sW (f : Buf (Elt F) ((V d (cV L) (jV L)).loc cc0_scratch0)) :
    ((sW : Memref sig .scVector .vmem S16x2048 .f32).view.loc (V d (cV L) (jV L)) ↦{fullShare} f : sProp 𝕄) = (V d (cV L) (jV L)).loc cc0_scratch0 ↦{fullShare} f := rfl
omit [FloatOps F] in
theorem pts_sM (f : Buf (Elt F) ((V d (cV L) (jV L)).loc cc0_scratch1)) :
    ((sM : Memref sig .scVector .vmem S16x2048 .f32).view.loc (V d (cV L) (jV L)) ↦{fullShare} f : sProp 𝕄) = (V d (cV L) (jV L)).loc cc0_scratch1 ↦{fullShare} f := rfl

/-- The result's rows at any contents are the chunks as the outer loop holds them before chunk 0. -/
theorem oChunks_in (fo : Buf (Elt F) (oLoc d)) :
    (bigSep Finset.univ fun c : Fin k0_t1_loop.trips => ((oSl L c).view.loc (V d (cV L) (jV L)) ↦[(oSl L c).view.set]{fullShare} fo : sProp 𝕄))
      ⊢ (bigSep Finset.univ fun c : Fin k0_t1_loop.trips => oChunk m d L 0 c : sProp 𝕄) := by
  have hc : ∀ c ∈ (Finset.univ : Finset (Fin k0_t1_loop.trips)),
      ((oSl L c).view.loc (V d (cV L) (jV L)) ↦[(oSl L c).view.set]{fullShare} fo : sProp 𝕄) ⊢ oChunk m d L 0 c := by
    intro c _
    unfold oChunk
    iintro H
    iexists fo
    isplitr
    · ipureintro; exact fun h => absurd h (Nat.not_lt_zero _)
    · iexact H
  exact bigSep_mono hc

/-- After the last chunk every chunk of the result's rows holds the product. -/
theorem oChunks_out :
    (bigSep Finset.univ fun c : Fin k0_t1_loop.trips => oChunk m d L k0_t1_loop.trips c : sProp 𝕄)
      ⊢ (bigSep Finset.univ fun c : Fin k0_t1_loop.trips => ((oSl L c).view.loc (V d (cV L) (jV L)) ↦[(oSl L c).view.set]{fullShare} s1Val m d : sProp 𝕄)) := by
  have hc : ∀ c ∈ (Finset.univ : Finset (Fin k0_t1_loop.trips)),
      oChunk m d L k0_t1_loop.trips c ⊢ ((oSl L c).view.loc (V d (cV L) (jV L)) ↦[(oSl L c).view.set]{fullShare} s1Val m d : sProp 𝕄) := by
    intro c _
    unfold oChunk
    iintro ⟨%f, %hf, H⟩
    iapply (Entails.of_eq (pointsTo_congr (q := fullShare) (hf c.isLt)))
    iexact H
  exact bigSep_mono hc

set_option maxHeartbeats 2000000 in
/-- The task on vector subcore `(L 0, L 1)` of device `d`: four chunks of sixteen rows. -/
theorem tile_body (hF : (K (F := F)).Facts) (O : CellTallies nD τ sig (HIx 1)) (W : Waits sig (HIx 1)) (hO : ∀ g, O g none = 0) :
    iprop(levAts (K (F := F)).L (K (F := F)).lev ∗ emp ∗ goP m d (widL L)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_body L wV (Memref.isWhole_whole _) mV (Memref.isWhole_whole _) oV (Memref.isWhole_whole _)
            sW (Memref.isWhole_whole _) sM (Memref.isWhole_whole _) cc0_scoped0 cc0_scoped1 cc0_scoped2)
          fun _ => iprop(tdP m d (widL L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold goP tdP wRowPts mRowPts oRowPts
  rw [wChunks, mChunks, oChunks d L (s1Val m d)]
  iintro ⟨#Hlv, -, ⟨Hwc, Hmc, %fo, Ho⟩, ⟨⟨%fw, Hw⟩, ⟨%fm, Hm⟩, Hbufs⟩, ⟨Hs0, Hs1, Hs2, Hsems⟩, HO⟩
  ihave Hmw := ((K (F := F)).mayWaits_none (thr := (V d (cV L) (jV L))) hO) $$ Hlv
  ihave Hoc := (Entails.of_eq (oChunks d L fo)) $$ Ho
  ihave Hoc' := (oChunks_in m d L fo) $$ Hoc
  ihave Hw' := (Entails.of_eq (pts_sW (F := F) d L fw).symm) $$ Hw
  ihave Hm' := (Entails.of_eq (pts_sM (F := F) d L fm).symm) $$ Hm
  sl_for (invOut m d L O W) $$ [Hmw Hwc Hmc Hoc' Hw' Hm' Hs0 Hs1 Hs2 HO]
  case region => exact fun k acc => invOut_step m d L O W k acc
  · unfold invOut
    isplitl [Hmw]; · iexact Hmw
    isplitl [Hwc]; · iexact Hwc
    isplitl [Hmc]; · iexact Hmc
    isplitl [Hoc']; · iexact Hoc'
    isplitl [Hw']; · iexists _; iexact Hw'
    isplitl [Hm']; · iexists _; iexact Hm'
    isplitl [Hs0]; · iexact Hs0
    isplitl [Hs1]; · iexact Hs1
    isplitl [Hs2]; · iexact Hs2
    iexists W; isplitr
    · ipureintro; exact fun p hp => .inl hp
    · iexact HO
  iintro %_ HI
  unfold invOut
  icases HI with ⟨-, Hwc, Hmc, Hoc, ⟨%fw', Hw⟩, ⟨%fm', Hm⟩, Hs0, Hs1, Hs2, %W', %hW', HO⟩
  sl_exec
  sl_step
  isplitl [Hwc Hmc Hoc]
  · isplitl [Hwc]; · iexact Hwc
    isplitl [Hmc]; · iexact Hmc
    iapply (oChunks_out m d L); iexact Hoc
  isplitl [Hw Hm Hbufs]
  · isplitl [Hw]; · iexists _; iapply (Entails.of_eq (pts_sW (F := F) d L _)); iexact Hw
    isplitl [Hm]; · iexists _; iapply (Entails.of_eq (pts_sM (F := F) d L _)); iexact Hm
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro; exact hW'
  · iexact HO

end Tile

/-- The task's obligation at the one SparseCore call: its block of the result at the product, everything else as handed. -/
theorem tileObl : (K (F := F)).TileObl (D (F := F)) 𝒱 (P m) v₀ 0 :=
  tileObl_of m (fun d L O W hO => tile_body m d L facts O W hO)

end Cert.Proof.KB
end
-- ==== Proof.KB.Region1.lean ====
/-
  Region 1 of the kernel: the first masked product `a1 = U · (W2 ∘ M2)ᵀ`, computed block by block on the grid
  (m, n, k) = (2, 2, 4): at each point the 2048×1024 block of U at (m, k) is multiplied (contracting the last axis of
  both) with the elementwise product of the 1024×1024 blocks of W2 and M2 at (n, k); the products over k are summed in
  a 2048×1024 accumulator (set at k = 0, added to at 0 < k < 3), and at k = 3 the sum, rounded, is stored into the
  output block at (m, n), which is written back there and nowhere else.

  This file states the pipeline's proof data at ANY entry contents `V` of the core's buffers — what every staging
  buffer holds after each point, and what the accumulator holds between points (the region invariant) — and proves
  the body obligation: the body's triple in each of its three cases, then the obligation at a generic point.
-/
import proofs.«214096_g36816459661730_cont_8to1_b_1468_17_alg».proof.Proof.KB.Setup
import proofs.«214096_g36816459661730_cont_8to1_b_1468_17_alg».proof.Proof.Gen.Kernel.Skeleton
import proofs.«214096_g36816459661730_cont_8to1_b_1468_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c.tc : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch conditions, in closed form over the grid -/

/-- The first conditional's condition (`k = 0`), from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (`0 < k < 3`). -/
abbrev cond1_1 (i : grid1.Coords) : Prop := (Scalar.cmpi .ne (Scalar.extui (Scalar.andi (Scalar.cmpi .sgt (BitVec.ofNat 32 (i 2).val) 0#32) (Scalar.cmpi .slt (BitVec.ofNat 32 (i 2).val) 3#32))) 0#32) = 1#1
theorem hcond1_1 : ∀ t : Fin cfg1.N, cond1_1 (grid1.coords t) ↔ (t.val % 4 = 1 ∨ t.val % 4 = 2) :=
  (by decide +kernel : ∀ t : Fin grid1.N, cond1_1 (grid1.coords t) ↔ (t.val % 4 = 1 ∨ t.val % 4 = 2))

/-- The third conditional's condition (`k = 3`). -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off `k = 3` the output window is idle and not written back. -/
theorem idleAt1_3 : ∀ t : Fin cfg1.N, ¬ t.val % 4 = 3 → cfg1.idle 3 (grid1.coords t) = true := by decide +kernel
theorem noFlush1_3 : ∀ t : Fin cfg1.N, ¬ t.val % 4 = 3 → (cfg1.win 3).flush t = false := by decide +kernel
/-- At `k = 3` it is live. -/
theorem liveAt1_3 : ∀ t : Fin cfg1.N, t.val % 4 = 3 → cfg1.idle 3 (grid1.coords t) = false := by decide +kernel

/-! ## The body's accesses and what it leaves -/

abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0

/-- The accumulator after the first step of a run (`k = 0`): the product of the blocks. -/
def accA (x0 : Vec F S2048x1024 .f32) (x1 x2 : Vec F S1024x1024 .f32) : Vec F S2048x1024 .f32 :=
  View.canon [⟨rA, k1_pay1 (View.ld x0 rA) (View.ld x1 rW) (View.ld x2 rW)⟩]

/-- The accumulator after a middle step (`0 < k < 3`): what it held plus the product of the blocks. -/
def accB (xs x0 : Vec F S2048x1024 .f32) (x1 x2 : Vec F S1024x1024 .f32) : Vec F S2048x1024 .f32 :=
  View.canon [⟨rA, k1_pay2 (View.ld xs rA) (View.ld x0 rA) (View.ld x1 rW) (View.ld x2 rW)⟩]

/-- The output block after the last step (`k = 3`): the accumulator plus the product of the blocks, rounded. -/
def outC (xs x0 : Vec F S2048x1024 .f32) (x1 x2 : Vec F S1024x1024 .f32) : Vec F S2048x1024 .bf16 :=
  View.canon [⟨rA, k1_pay3 (View.ld xs rA) (View.ld x0 rA) (View.ld x1 rW) (View.ld x2 rW)⟩]

/-- One whole-buffer store covers the buffer. -/
theorem cover1 {e : EltTy} (p0 : rA.shape.Idx → Elt F e) (y : S2048x1024.Idx) :
    ∃ pc ∈ ([⟨rA, p0⟩] : List (View.Piece (Elt F) S2048x1024 e)), y ∈ pc.1.set :=
  View.cover_of_tiled [⟨rA, p0⟩] S2048x1024.size (by rfl) y

/-! ## The body's triple, case by case -/

/-- A load of a whole memref through the whole rectangle reads its contents there. -/
theorem readAt_unread {s : Shape} {e : EltTy} (m : Memref sig .tc .vmem s e) (h : m.IsWhole) (r : Rect s) (X : s.Idx → Elt F e) :
    View.readAt (Elt F) m.view r.toLoadRect (h.unread X) = View.ld X r :=
  (View.readAt_eq_ld _ _ _).trans (by rw [h.read_unread])

set_option maxHeartbeats 1000000 in
/-- Case `k = 0`: the inputs' buffers and the (idle) output's are handed back as found, the accumulator — loaded, its value
    unused, then stored whole — holds the product of the blocks. -/
theorem sound_kernel1_A (c : Dev nD) (E : Set ℕ) (i : grid1.Coords)
    (arg3 : Memref sig .tc .vmem S2048x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S2048x1024 .bf16) (harg6 : arg6.IsWhole)
    (arg7 : Memref sig .tc .vmem S2048x1024 .f32) (harg7 : arg7.IsWhole)
    (hc0 : cond1_0 i) (hc1 : ¬cond1_1 i) (hc2 : ¬cond1_2 i)
    (x0 : Vec F S2048x1024 .f32) (x1 x2 : Vec F S1024x1024 .f32) (xi3 : Vec F S2048x1024 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (accA x0 x1 x2)) -∗ K ⟨⟩))
      ⊢ wp frame (wpE (defs₀ (F := F)) Variants.none c none) E (cc1__mm_body i arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%d7, %f7, -, H7⟩, Hk⟩
  obtain rfl := harg3.eq_unread hf0; obtain rfl := harg4.eq_unread hf1; obtain rfl := harg5.eq_unread hf2; obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H7
  ipureintro
  rw [readAt_unread, readAt_unread, readAt_unread]
  exact View.read_writes_eq_canon _ _ _ (cover1 _)

set_option maxHeartbeats 1000000 in
/-- Case `0 < k < 3`: the accumulator, at `xs`, ends at `xs` plus the product of the blocks. -/
theorem sound_kernel1_B (c : Dev nD) (E : Set ℕ) (i : grid1.Coords)
    (arg3 : Memref sig .tc .vmem S2048x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S2048x1024 .bf16) (harg6 : arg6.IsWhole)
    (arg7 : Memref sig .tc .vmem S2048x1024 .f32) (harg7 : arg7.IsWhole)
    (hc0 : ¬cond1_0 i) (hc1 : cond1_1 i) (hc2 : ¬cond1_2 i)
    (x0 : Vec F S2048x1024 .f32) (x1 x2 : Vec F S1024x1024 .f32) (xi3 : Vec F S2048x1024 .bf16) (xs : Vec F S2048x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (accB xs x0 x1 x2)) -∗ K ⟨⟩))
      ⊢ wp frame (wpE (defs₀ (F := F)) Variants.none c none) E (cc1__mm_body i arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf7
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H7
  ipureintro
  rw [readAt_unread, readAt_unread, readAt_unread, readAt_unread]
  exact View.read_writes_eq_canon _ _ _ (cover1 _)

set_option maxHeartbeats 1000000 in
/-- Case `k = 3`: the accumulator, at `xs`, is left as it was; the output block — loaded, its value unused, then stored
    whole — holds `xs` plus the product of the blocks, rounded. -/
theorem sound_kernel1_C (c : Dev nD) (E : Set ℕ) (i : grid1.Coords)
    (arg3 : Memref sig .tc .vmem S2048x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S2048x1024 .bf16) (harg6 : arg6.IsWhole)
    (arg7 : Memref sig .tc .vmem S2048x1024 .f32) (harg7 : arg7.IsWhole)
    (hc0 : ¬cond1_0 i) (hc1 : ¬cond1_1 i) (hc2 : cond1_2 i)
    (x0 : Vec F S2048x1024 .f32) (x1 x2 : Vec F S1024x1024 .f32) (xs : Vec F S2048x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (outC xs x0 x1 x2) ∗ owns (c : Thread nD τ) arg7 fullShare xs) -∗ K ⟨⟩))
      ⊢ wp frame (wpE (defs₀ (F := F)) Variants.none c none) E (cc1__mm_body i arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%d3, %f3, -, H3⟩, ⟨%f7, %hf7, H7⟩, Hk⟩
  obtain rfl := harg3.eq_unread hf0; obtain rfl := harg4.eq_unread hf1; obtain rfl := harg5.eq_unread hf2
  obtain rfl := harg7.eq_unread hf7
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [readAt_unread, readAt_unread, readAt_unread, readAt_unread]
    exact View.read_writes_eq_canon _ _ _ (cover1 _)
  iexists _; isplitr; · ipureintro; exact harg7.read_unread _
  iexact H7

/-! ## What the accumulator holds after each point -/

/-- The accumulator after the body at position `n`: at `k = 0` the product of the point's blocks; at `0 < k < 3` what the
    point before left plus the product; at `k = 3` what the point before left (the step reads it and does not store it). -/
def sAt1 (c : Dev nD) : (n : ℕ) → n < cfg1.N → Vec F S2048x1024 .f32
  | 0, hn => accA (iblk1 V c 0 ⟨0, hn⟩) (iblk1 V c 1 ⟨0, hn⟩) (iblk1 V c 2 ⟨0, hn⟩)
  | n + 1, hn =>
    if (n + 1) % 4 = 0 then accA (iblk1 V c 0 ⟨n + 1, hn⟩) (iblk1 V c 1 ⟨n + 1, hn⟩) (iblk1 V c 2 ⟨n + 1, hn⟩)
    else if (n + 1) % 4 = 3 then sAt1 c n (Nat.lt_of_succ_lt hn)
    else accB (sAt1 c n (Nat.lt_of_succ_lt hn)) (iblk1 V c 0 ⟨n + 1, hn⟩) (iblk1 V c 1 ⟨n + 1, hn⟩) (iblk1 V c 2 ⟨n + 1, hn⟩)

theorem prev1 (t : Fin cfg1.N) : t.val - 1 < cfg1.N := Nat.lt_of_le_of_lt (Nat.sub_le _ _) t.isLt

theorem sAt1_A (c : Dev nD) (t : Fin cfg1.N) (h0 : t.val % 4 = 0) :
    sAt1 V c t.val t.isLt = accA (iblk1 V c 0 t) (iblk1 V c 1 t) (iblk1 V c 2 t) := by
  obtain ⟨n, hn⟩ := t
  cases n with
  | zero => exact rfl
  | succ n => exact (if_pos h0).trans rfl

theorem sAt1_B (c : Dev nD) (t : Fin cfg1.N) (h : t.val % 4 = 1 ∨ t.val % 4 = 2) :
    sAt1 V c t.val t.isLt = accB (sAt1 V c (t.val - 1) (prev1 t)) (iblk1 V c 0 t) (iblk1 V c 1 t) (iblk1 V c 2 t) := by
  obtain ⟨n, hn⟩ := t
  cases n with
  | zero => exfalso; have h' : 0 % 4 = 1 ∨ 0 % 4 = 2 := h; omega
  | succ n =>
    have h' : (n + 1) % 4 = 1 ∨ (n + 1) % 4 = 2 := h
    exact (if_neg (by omega)).trans ((if_neg (by omega)).trans rfl)

theorem sAt1_C (c : Dev nD) (t : Fin cfg1.N) (h3 : t.val % 4 = 3) :
    sAt1 V c t.val t.isLt = sAt1 V c (t.val - 1) (prev1 t) := by
  obtain ⟨n, hn⟩ := t
  cases n with
  | zero => exfalso; have h' : 0 % 4 = 3 := h3; omega
  | succ n =>
    have h' : (n + 1) % 4 = 3 := h3
    exact (if_neg (by omega)).trans ((if_pos h').trans rfl)

/-! ## The region invariant: the accumulator's contents between points -/

/-- The accumulator: a whole scoped buffer of the kernel's own, passed beside the windows. -/
abbrev scM1 : Memref sig .tc .vmem S2048x1024 .f32 := Memref.whole cc1_scratch0

/-- The invariant before position `n`: before the first point the generator register and every scoped buffer that is no
    staging buffer at anything; afterwards the accumulator at what the point before left, the other scoped buffers at
    anything, and the register. -/
def PhiS1 (c : Dev nD) : (n : ℕ) → n ≤ cfg1.N → sProp 𝕄
  | 0, _ => iprop((∃ r, prngReg c r) ∗ Pipeline.scopedRest spec1 c)
  | n + 1, hn => iprop((∃ r, prngReg c r) ∗ owns (c : Thread nD τ) scM1 fullShare (sAt1 V c n hn) ∗ Pipeline.scopedRestBut spec1 c [cc1_scratch0])

theorem PhiS1_zero (c : Dev nD) (n : ℕ) (h : n ≤ cfg1.N) (hz : n = 0) :
    PhiS1 V c n h = iprop((∃ r, prngReg c r) ∗ Pipeline.scopedRest spec1 c) := by
  subst hz; rfl

theorem PhiS1_succ (c : Dev nD) (n : ℕ) (hn : n < cfg1.N) :
    PhiS1 V c (n + 1) hn = iprop((∃ r, prngReg c r) ∗ owns (c : Thread nD τ) scM1 fullShare (sAt1 V c n hn) ∗ Pipeline.scopedRestBut spec1 c [cc1_scratch0]) := rfl

theorem PhiS1_pos (c : Dev nD) (n : ℕ) (h : n ≤ cfg1.N) (hz : n ≠ 0) :
    PhiS1 V c n h = iprop((∃ r, prngReg c r) ∗ owns (c : Thread nD τ) scM1 fullShare (sAt1 V c (n - 1) (by omega)) ∗ Pipeline.scopedRestBut spec1 c [cc1_scratch0]) := by
  cases n with
  | zero => exact absurd rfl hz
  | succ n => rfl

/-- The scoped rest with the accumulator split off, as a memref owned at some contents. -/
theorem scopedRest1_split (c : Dev nD) :
    (Pipeline.scopedRest spec1 c : sProp 𝕄)
      = iprop((∃ d, owns (c : Thread nD τ) scM1 fullShare d) ∗ Pipeline.scopedRestBut spec1 c [cc1_scratch0]) := by
  rw [Pipeline.scopedRest_split_of_list spec1 c [cc1_scratch0] (by decide) (by decide)]
  simp only [scM1, owns_whole]
  rfl

/-! ## The pipeline's proof data -/

/-- The proof data of the pipeline on core `c`: the arrays as the region finds them; after the body at point `t` each
    input's buffer at its block and the output's at the last step's result over what the point before left in the
    accumulator (consulted at `k = 3` only: elsewhere the window is idle); the invariant `PhiS1`; nothing owed; full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outC (sAt1 V c (t.val - 1) (prev1 t)) (iblk1 V c 0 t) (iblk1 V c 1 t) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_full1 (c : Dev nD) (w) : (dat1 V c).q w = fullShare := rfl
theorem owed1 (c : Dev nD) (t) : (dat1 V c).owed t = 0 := rfl
theorem recorded1 (c : Dev nD) (t) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outC (sAt1 V c (t.val - 1) (prev1 t)) (iblk1 V c 0 t) (iblk1 V c 1 t) (iblk1 V c 2 t) := by dsimp only [dat1]

/-- Each input is fetched at every point, and its window is uncut: its current staging buffer holds its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)
theorem before1_2 (c : Dev nD) (t : Fin cfg1.N) (d) : (dat1 V c).before 2 t d = iblk1 V c 2 t :=
  ((dat1 V c).before_fetched 2 t (fetch1_2 t) d).trans (by unfold Dat.fetched Dat.blockOf iblk1; rw [A_eq1]; try rfl)

/-! ## The body obligation, at a generic point -/

/-- Each window's current staging memref at point `t`, spelled as the pipeline passes it, and its wholeness. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .bf16 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt none t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt none t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything before the first point) and
    takes it back at this point's contents; off `k = 3` the output's buffer is handed back as found; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt none t.succ = (dat1 V c).owesAt none t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 4 = 0
  · have h1 : ¬(t.val % 4 = 1 ∨ t.val % 4 = 2) := by omega
    have h3 : ¬t.val % 4 = 3 := by omega
    rw [Dat.leavesExact_idle (dat1 V c) 3 t (idleAt1_3 t h3) (noFlush1_3 t h3)]
    rw [sAt1_A V c t h0]
    by_cases hz : t.val = 0
    · rw [PhiS1_castSucc V c t, PhiS1_zero V c _ _ hz, scopedRest1_split]
      iintro ⟨⟨Hg, HS, HR⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (fun h => h3 ((hcond1_2 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hg, HS, HR⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (fun h => h3 ((hcond1_2 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3
  · have hz : t.val ≠ 0 := by omega
    by_cases h3 : t.val % 4 = 3
    · have h1 : ¬(t.val % 4 = 1 ∨ t.val % 4 = 2) := by omega
      rw [show (dat1 V c).leavesExact 3 t = owns (c : Thread nD τ) (ms1_3 t) fullShare ((dat1 V c).after 3 t) from by
        unfold Dat.leavesExact; rw [liveAt1_3 t h3], after1_3]
      rw [sAt1_C V c t h3]
      rw [PhiS1_castSucc V c t, PhiS1_pos V c _ _ hz]
      iintro ⟨⟨Hg, HS, HR⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) (fun h => h1 ((hcond1_1 t).mp h)) ((hcond1_2 t).mpr h3)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexact H3
    · have h1 : t.val % 4 = 1 ∨ t.val % 4 = 2 := by omega
      rw [Dat.leavesExact_idle (dat1 V c) 3 t (idleAt1_3 t h3) (noFlush1_3 t h3)]
      rw [sAt1_B V c t h1]
      rw [PhiS1_castSucc V c t, PhiS1_pos V c _ _ hz]
      iintro ⟨⟨Hg, HS, HR⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) ((hcond1_1 t).mpr h1) (fun h => h3 ((hcond1_2 t).mp h))
        (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      iexists _; iexact H3

/-- The library's body obligation, at every point. -/
theorem body_obligation1 (c : Dev nD) : Pipeline.BodyObligation (dat1 (F := F) V c) (defs₀ (F := F)) Variants.none (none : HIx 1) Set.univ := fun t => by
  rw [bigSep_W1, bigSep_W1]
  exact sound_body1 V c t

/-- What the region is entered with is the invariant before the first point. -/
theorem hin1 (c : Dev nD) : iprop((∃ r, prngReg c r) ∗ Pipeline.scopedRest spec1 c) ⊢ ((dat1 V c).Φ 0 : sProp 𝕄) := by
  rw [show (dat1 V c).Φ 0 = PhiS1 V c 0 (Nat.zero_le _) from rfl, PhiS1_zero V c 0 _ rfl]

/-- After the last point the invariant gives it back: the accumulator's named contents are forgotten. -/
theorem hout1 (c : Dev nD) : ((dat1 V c).Φ (Fin.last cfg1.N) : sProp 𝕄) ⊢ iprop((∃ r, prngReg c r) ∗ Pipeline.scopedRest spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), scopedRest1_split]
  iintro ⟨Hg, HS, HR⟩
  isplitl [Hg]; · iexact Hg
  isplitl [HS]; · iexists _; iexact HS
  iexact HR

end Cert.Proof.KB

end
-- ==== Proof.KB.Region2.lean ====
/-
  The second TensorCore matrix product of the kernel, a2 = a1 · s1ᵀ rounded to bf16, as a pipeline over the grid
  (m, n, k) = (2, 2, 1): at each point the body reads a 2048×2048 block of a1 and a 1024×2048 block of s1 and leaves
  the 2048×1024 block  trunc(a1_blk · (trunc s1_blk)ᵀ)  in the output window, which is written back at every point.
  There is one contraction step, so no accumulator and one control case.

  This file gives the pipeline's proof data at ANY contents `V` of the core's buffers on entry, and the body's
  obligation against them.
-/
import proofs.«214096_g36816459661730_cont_8to1_b_1468_17_alg».proof.Proof.KB.Setup
import proofs.«214096_g36816459661730_cont_8to1_b_1468_17_alg».proof.Proof.Gen.Kernel.Skeleton
import proofs.«214096_g36816459661730_cont_8to1_b_1468_17_alg».proof.Proof.Gen.Kernel.Points
import Idealize.ShloMosaic.Lib.Pipeline.FrameBody
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered
variable (V : (c : Dev nD) → (b : Ref sig .tc) → Buf (Elt F) ((c.tc : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a point that does
    not fetch it has the block index of the point before), for any proof data whose array is `V`'s and whose body
    leaves the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_x : Rect S2048x2048 := Rect.unit (s := S2048x2048) ![0, 0] S2048x2048.size inb_S2048x2048_S2048x2048_0_0
abbrev r2_s : Rect S1024x2048 := Rect.unit (s := S1024x2048) ![0, 0] S1024x2048.size inb_S1024x2048_S1024x2048_0_0
abbrev r2_o : Rect S2048x1024 := Rect.unit (s := S2048x1024) ![0, 0] S2048x1024.size inb_S2048x1024_S2048x1024_0_0

/-! ## What the body leaves in the output window's buffer -/

/-- The output window's staging buffer after the body, from the input windows' blocks: its one store. -/
def out2_2 (x0 : Vec F S2048x2048 .bf16) (x1 : Vec F S1024x2048 .f32) : Vec F S2048x1024 .bf16 :=
  View.canon [⟨r2_o, k2_pay1 (View.ld x0 r2_x) (View.ld x1 r2_s)⟩]

/-- The store is of the whole buffer, so it covers it. -/
theorem cover2_2 (p0 : Vec F S2048x1024 .bf16) (y : S2048x1024.Idx) :
    ∃ pc ∈ ([⟨r2_o, p0⟩] : List (View.Piece (Elt F) S2048x1024 .bf16)), y ∈ pc.1.set :=
  View.cover_of_tiled [⟨r2_o, p0⟩] S2048x1024.size (by rfl) y

/-! ## The body's triple -/

set_option maxHeartbeats 1000000 in
/-- The kernel body on whole staging memrefs, the inputs' at read contents `x0`, `x1` and the output's at anything,
    runs to the continuation holding the inputs' as they were and the output's at `out2_2` of the inputs'. The body
    also loads the output's buffer before it stores to it; nothing reads the loaded value. -/
theorem sound_kernel2 (c : Dev nD) (E : Set ℕ) (i : grid2.Coords)
    (arg0 : Memref sig .tc .vmem S2048x2048 .bf16) (harg0 : arg0.IsWhole)
    (arg1 : Memref sig .tc .vmem S1024x2048 .f32) (harg1 : arg1.IsWhole)
    (arg2 : Memref sig .tc .vmem S2048x1024 .bf16) (harg2 : arg2.IsWhole)
    (x0 : Vec F S2048x2048 .bf16) (x1 : Vec F S1024x2048 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__mm_body i arg0 harg0 arg1 harg1 arg2 harg2) K := by
  simp only [cc2__mm_body_eq_skeleton]; unfold cc2__mm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them; after the body at point `t` each
    input's buffer at its block and the output's at `out2_2` of the input blocks; the invariant: the core's scoped buffers
    that are no staging buffer of this pipeline and its generator register, untouched; nothing owed; full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := iprop(Pipeline.scopedRest spec2 c ∗ ∃ r, prngReg c r)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The body owes nothing at any point. -/
theorem owed2 (c : Dev nD) (t : Fin (cfg2.N + 1)) : (dat2 V c).owed t = 0 := rfl

/-- No bound is put on the pairs the core's waits have recorded. -/
theorem recorded2 (c : Dev nD) (t : Fin (cfg2.N + 1)) : (dat2 V c).recorded t = Set.univ := rfl

/-- Every array is held at the full share. -/
theorem q_full2 (c : Dev nD) (w : Fin cfg2.W) : (dat2 V c).q w = fullShare := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt (none : HIx 1) t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt (none : HIx 1) t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt (none : HIx 1) t.succ = (dat2 V c).owesAt (none : HIx 1) t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none (none : HIx 1) Set.univ := fun t => by
  rw [bigSep_W2, bigSep_W2]
  exact sound_body2 V c t

/-! ## The invariant at the region's two ends -/

/-- Entering, the region hands the pipeline the generator register and the scoped buffers that are not its own staging
    buffers: the invariant at the first point. -/
theorem hin2 (c : Dev nD) : iprop((∃ r, prngReg c r) ∗ Pipeline.scopedRest spec2 c) ⊢ ((dat2 V c).Φ 0 : sProp 𝕄) := by
  dsimp only [dat2]
  iintro ⟨H1, H2⟩
  isplitl [H2]; · iexact H2
  iexact H1

/-- Leaving, the invariant after the last point hands them back. -/
theorem hout2 (c : Dev nD) : ((dat2 V c).Φ (Fin.last cfg2.N) : sProp 𝕄) ⊢ iprop((∃ r, prngReg c r) ∗ Pipeline.scopedRest spec2 c) := by
  dsimp only [dat2]
  iintro ⟨H1, H2⟩
  isplitl [H2]; · iexact H2
  iexact H1

end Cert.Proof.KB

end
-- ==== Proof.KB.Region3.lean ====
/-
  The third TensorCore call: out = a2 · (W0 ∘ M0)ᵀ + bias, computed block by block on the grid (m, n, k) = (2, 4, 2).

  At a point (m, n, k) the body forms the product of the (m, k) block of a2 with the transposed masked (n, k) block
  of W0 ∘ M0. At k = 0 it stores that product into the accumulator (a scratch buffer the kernel carries from point
  to point); at k = 1 it adds the product to the accumulator, adds the bias row's n-th block to every row, and stores
  the sum into the output's (m, n) block, which is then written back. The case 0 < k < 1 of the body meets no point.

  This module states, for ANY contents `V` the call finds in the TensorCore's buffers: the blocks the windows hold,
  what the accumulator and the output block hold after each point, the invariant that carries the accumulator, and
  the body's obligation at every point.
-/
import proofs.«214096_g36816459661730_cont_8to1_b_1468_17_alg».proof.Proof.KB.Setup
import proofs.«214096_g36816459661730_cont_8to1_b_1468_17_alg».proof.Proof.Gen.Kernel.Skeleton
import proofs.«214096_g36816459661730_cont_8to1_b_1468_17_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the call is entered
variable (V : (c : Dev nD) → (b : Ref sig .tc) → Buf (Elt F) ((c.tc : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (where it is not
    fetched, its block index has not moved), for any proof data whose array is the entry contents and whose body
    leaves the block in place. -/
theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 1) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) (HIx 1) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's three conditions on the grid coordinate k -/

/-- k = 0. -/
abbrev cond3_0 (i : grid3.Coords) : Prop := (Scalar.cmpi .ne (Scalar.extui (Scalar.cmpi .eq (BitVec.ofNat 32 (i 2).val) 0#32)) 0#32) = 1#1
/-- 0 < k < 1. -/
abbrev cond3_1 (i : grid3.Coords) : Prop :=
  (Scalar.cmpi .ne (Scalar.extui (Scalar.andi (Scalar.cmpi .sgt (BitVec.ofNat 32 (i 2).val) 0#32) (Scalar.cmpi .slt (BitVec.ofNat 32 (i 2).val) 1#32))) 0#32) = 1#1
/-- k = 1. -/
abbrev cond3_2 (i : grid3.Coords) : Prop := k3_cond3 i = 1#1

/-- k = 0 at the even points, -/
theorem hcond3_0 : ∀ t : Fin cfg3.N, cond3_0 (grid3.coords t) ↔ t.val % 2 = 0 :=
  (by decide +kernel : ∀ t : Fin grid3.N, cond3_0 (grid3.coords t) ↔ t.val % 2 = 0)
/-- no point has 0 < k < 1, -/
theorem hcond3_1 : ∀ t : Fin cfg3.N, ¬cond3_1 (grid3.coords t) :=
  (by decide +kernel : ∀ t : Fin grid3.N, ¬cond3_1 (grid3.coords t))
/-- k = 1 at the odd points. -/
theorem hcond3_2 : ∀ t : Fin cfg3.N, cond3_2 (grid3.coords t) ↔ t.val % 2 = 1 :=
  (by decide +kernel : ∀ t : Fin grid3.N, cond3_2 (grid3.coords t) ↔ t.val % 2 = 1)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At the even points (k = 0) the body stores nothing into the output's buffer, and the block is not written back; -/
theorem idleAt3_4 : ∀ t : Fin cfg3.N, t.val % 2 = 0 → cfg3.idle 4 (grid3.coords t) = true := by decide +kernel
theorem noFlush3_4 : ∀ t : Fin cfg3.N, t.val % 2 = 0 → (cfg3.win 4).flush t = false := by decide +kernel
/-- at the odd points (k = 1) it stores the block. -/
theorem liveAt3_4 : ∀ t : Fin cfg3.N, t.val % 2 = 1 → cfg3.idle 4 (grid3.coords t) = false := by decide +kernel

/-- The zero offsets of a whole-buffer access. -/
theorem hz3 : (![0, 0] : Fin 2 → Nat) = fun _ => 0 := funext fun a => by fin_cases a <;> rfl

/-! ## The body's triples, case by case -/

/-- The k = 0 case: on whole staging memrefs — the a2, W0 and M0 blocks at `x0`, `x1`, `x2`, the accumulator at anything
    (the body loads it, and drops what it loaded) — the body runs to the accumulator holding the blocks' product; it
    touches neither the bias row's buffer nor the output's. -/
theorem sound_kernel3_A (c : Dev nD) (E : Set ℕ) (i : grid3.Coords)
    (arg3 : Memref sig .tc .vmem S2048x1024 .bf16) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : cond3_0 i) (hc1 : ¬cond3_1 i) (hc2 : ¬cond3_2 i)
    (x0 : Vec F S2048x1024 .bf16) (x1 x2 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg8 fullShare (k3_pay1 x0 x1 x2)) -∗ K ⟨⟩))
      ⊢ wp frame (wpE (defs₀ (F := F)) Variants.none c none) E (cc3__mm_body i arg3 harg3 arg4 harg4 arg5 harg5 arg6 harg6 arg7 harg7 arg8 harg8) K := by
  simp only [cc3__mm_body_eq_skeleton]; unfold cc3__mm_body_skel
  unfold owns
  iintro ⟨⟨%f0, %hf0, H0⟩, ⟨%f1, %hf1, H1⟩, ⟨%f2, %hf2, H2⟩, ⟨%d8, %f8, -, H8⟩, Hk⟩
  subst hf0; subst hf1; subst hf2
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H8
  ipureintro
  rw [View.read_writes_eq_canon _ _ _ (fun y => ⟨_, List.mem_singleton_self _, View.mem_set_unit_zero hz3 inb_S2048x1024_S2048x1024_0_0 y⟩),
    View.canon_unit_zero hz3]
  simp only [View.readAt_eq_ld, View.ld_unit_zero (S := S2048x1024) hz3, View.ld_unit_zero (S := S1024x1024) hz3, View.ld_unit_zero (S := S1x1024) hz3]

/-- The k = 1 case: the accumulator at `xs`, the a2, W0 and M0 blocks at `x0`, `x1`, `x2`, the bias row's block at `x3`, the
    output's buffer at anything (the body loads it, and drops what it loaded): the body runs to the output's buffer
    holding (xs + the blocks' product) + the bias row on every row; the accumulator is left as it was. -/
theorem sound_kernel3_C (c : Dev nD) (E : Set ℕ) (i : grid3.Coords)
    (arg3 : Memref sig .tc .vmem S2048x1024 .bf16) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬cond3_0 i) (hc1 : ¬cond3_1 i) (hc2 : cond3_2 i)
    (xs : Vec F S2048x1024 .f32) (x0 : Vec F S2048x1024 .bf16) (x1 x2 : Vec F S1024x1024 .f32) (x3 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k3_pay3 xs x0 x1 x2 x3)
            ∗ owns (c : Thread nD τ) arg8 fullShare xs) -∗ K ⟨⟩))
      ⊢ wp frame (wpE (defs₀ (F := F)) Variants.none c none) E (cc3__mm_body i arg3 harg3 arg4 harg4 arg5 harg5 arg6 harg6 arg7 harg7 arg8 harg8) K := by
  simp only [cc3__mm_body_eq_skeleton]; unfold cc3__mm_body_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  subst hf0; subst hf1; subst hf2; subst hf3; subst hf8
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists _; isplitr
    swap; · iexact H7
    ipureintro
    rw [View.read_writes_eq_canon _ _ _ (fun y => ⟨_, List.mem_singleton_self _, View.mem_set_unit_zero hz3 inb_S2048x1024_S2048x1024_0_0 y⟩),
      View.canon_unit_zero hz3]
    simp only [View.readAt_eq_ld, View.ld_unit_zero (S := S2048x1024) hz3, View.ld_unit_zero (S := S1024x1024) hz3, View.ld_unit_zero (S := S1x1024) hz3]
  iexists f8; isplitr; · ipureintro; rfl
  iexact H8

/-! ## The staging memrefs at a point, and the accumulator -/

/-- Each window's current staging memref at point `t`, as the pipeline passes it to the body, and its wholeness. -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x1024 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3 : Memref sig .tc .vmem S2048x1024 .f32 := Memref.whole cc3_scratch0

/-- The even point (k = 0) of the pair of points that `s` is in. -/
def ev3 (s : Fin cfg3.N) : Fin cfg3.N := ⟨2 * (s.val / 2), by have := s.isLt; omega⟩

theorem ev3_even (s : Fin cfg3.N) (h : s.val % 2 = 0) : ev3 s = s := Fin.ext (by show 2 * (s.val / 2) = s.val; omega)

/-- What the accumulator holds after point `s`: the product of the blocks at the k = 0 point of `s`'s pair (stored there,
    and left alone at the k = 1 point). -/
def acc3 (c : Dev nD) (s : Fin cfg3.N) : Vec F S2048x1024 .f32 :=
  k3_pay1 (iblk3 V c 0 (ev3 s)) (iblk3 V c 1 (ev3 s)) (iblk3 V c 2 (ev3 s))

theorem acc3_congr (c : Dev nD) (s s' : Fin cfg3.N) (h : ev3 s = ev3 s') : acc3 V c s = acc3 V c s' := by
  unfold acc3; rw [h]

theorem acc3_even (c : Dev nD) (s : Fin cfg3.N) (h : s.val % 2 = 0) :
    acc3 V c s = k3_pay1 (iblk3 V c 0 s) (iblk3 V c 1 s) (iblk3 V c 2 s) := by
  unfold acc3; rw [ev3_even s h]

/-- What the body leaves in the output's buffer at a k = 1 point: (accumulator + product of the blocks) + bias row. -/
def out3 (c : Dev nD) (t : Fin cfg3.N) : Vec F S2048x1024 .f32 :=
  k3_pay3 (acc3 V c t) (iblk3 V c 0 t) (iblk3 V c 1 t) (iblk3 V c 2 t) (iblk3 V c 3 t)

/-! ## The invariant: the accumulator carried from point to point -/

/-- The core's scoped buffers other than this call's staging buffers and accumulator, at some contents each. -/
abbrev rest3 (c : Dev nD) : sProp 𝕄 := Pipeline.scopedRestBut spec3 c [cc3_scratch0]

/-- The scoped rest with the accumulator split off. -/
theorem scopedRest3_split (c : Dev nD) :
    (Pipeline.scopedRest spec3 c : sProp 𝕄) = iprop((∃ d, owns (c : Thread nD τ) scM3 fullShare d) ∗ rest3 c) := by
  rw [Pipeline.scopedRest_split_of_list spec3 c [cc3_scratch0] (by decide) (by decide)]
  simp only [bigSepL_singleton, scM3, owns_whole]; try rfl

/-- The invariant before position `n`: before the first point the generator register at some state and the scoped rest
    (the accumulator at anything); afterwards the same with the accumulator at what the point before left in it. -/
def Phi3 (c : Dev nD) : (n : ℕ) → n ≤ cfg3.N → sProp 𝕄
  | 0, _ => iprop((∃ r, prngReg c r) ∗ Pipeline.scopedRest spec3 c)
  | n + 1, hn => iprop((∃ r, prngReg c r) ∗ rest3 c ∗ owns (c : Thread nD τ) scM3 fullShare (acc3 V c ⟨n, hn⟩))

theorem Phi3_zero (c : Dev nD) (n : ℕ) (h : n ≤ cfg3.N) (hz : n = 0) :
    Phi3 V c n h = iprop((∃ r, prngReg c r) ∗ Pipeline.scopedRest spec3 c) := by subst hz; rfl

theorem Phi3_succ (c : Dev nD) (n : ℕ) (hn : n < cfg3.N) :
    Phi3 V c (n + 1) hn = iprop((∃ r, prngReg c r) ∗ rest3 c ∗ owns (c : Thread nD τ) scM3 fullShare (acc3 V c ⟨n, hn⟩)) := rfl

theorem Phi3_pos (c : Dev nD) (n : ℕ) (h : n ≤ cfg3.N) (hz : n ≠ 0) :
    Phi3 V c n h = iprop((∃ r, prngReg c r) ∗ rest3 c ∗ owns (c : Thread nD τ) scM3 fullShare (acc3 V c ⟨n - 1, by omega⟩)) := by
  cases n with
  | zero => exact absurd rfl hz
  | succ n => rfl

/-- At any position the invariant yields the accumulator at SOME contents beside the rest. -/
theorem Phi3_forget (c : Dev nD) (n : ℕ) (h : n ≤ cfg3.N) :
    Phi3 V c n h ⊢ iprop((∃ r, prngReg c r) ∗ rest3 c ∗ ∃ d, owns (c : Thread nD τ) scM3 fullShare d) := by
  cases n with
  | zero =>
    rw [Phi3_zero V c 0 h rfl, scopedRest3_split]
    iintro ⟨Hg, HS, HR⟩
    isplitl [Hg]; · iexact Hg
    isplitl [HR]; · iexact HR
    iexact HS
  | succ n =>
    rw [Phi3_succ]
    iintro ⟨Hg, HR, HS⟩
    isplitl [Hg]; · iexact Hg
    isplitl [HR]; · iexact HR
    iexists _; iexact HS

/-! ## The proof data -/

/-- The proof data of this call on core `c`: the arrays as the call finds them; after the body at point `t` each input's
    buffer at its block and the output's at `out3`; the invariant `Phi3`; nothing owed; full shares. -/
def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_full3 (c : Dev nD) (w) : (dat3 V c).q w = fullShare := rfl
theorem owed3 (c : Dev nD) (t) : (dat3 V c).owed t = 0 := rfl
theorem recorded3 (c : Dev nD) (t) : (dat3 V c).recorded t = Set.univ := rfl

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt (none : HIx 1) t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt (none : HIx 1) t.succ
    ∗ (dat3 V c).leavesExact 0 t ∗ (dat3 V c).leavesExact 1 t ∗ (dat3 V c).leavesExact 2 t
    ∗ (dat3 V c).leavesExact 3 t ∗ (dat3 V c).leavesExact 4 t)

/-- The inputs are never idle: each is handed back at its block. -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (ms3_3 t) fullShare (iblk3 V c 3 t) := by
  unfold Dat.leavesExact; rw [liveAt3_3 t, after3_3]

set_option maxHeartbeats 4800000 in
/-- The body at any point. The inputs' memrefs hold their blocks. At an even point (k = 0) the invariant hands the body
    the accumulator at whatever it held and takes it back at the blocks' product; the output's buffer is handed back as it
    was found. At an odd point (k = 1) the invariant hands the accumulator at what the point before left, and takes it
    back unchanged; the output's buffer is left at `out3`. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt (none : HIx 1) t.succ = (dat3 V c).owesAt (none : HIx 1) t.castSucc from rfl]
  rw [show (dat3 V c).Φ t.succ = Phi3 V c (t.val + 1) t.isLt from rfl, Phi3_succ]
  rw [leaves3_0, leaves3_1, leaves3_2, leaves3_3, Phi3_castSucc]
  have hN : t.val < 16 := lt_of_lt_of_eq t.isLt (show cfg3.N = 16 from N_3)
  by_cases h0 : t.val % 2 = 0
  · have hc0 : cond3_0 (grid3.coords t) := (hcond3_0 t).mpr h0
    have hc2 : ¬cond3_2 (grid3.coords t) := fun h => by have := (hcond3_2 t).mp h; omega
    rw [Dat.leavesExact_idle (dat3 V c) 4 t (idleAt3_4 t h0) (noFlush3_4 t h0)]
    rw [show acc3 V c ⟨t.val, t.isLt⟩ = k3_pay1 (iblk3 V c 0 t) (iblk3 V c 1 t) (iblk3 V c 2 t) from acc3_even V c t h0]
    iintro ⟨HΦ, Ho, ⟨%d0, H0⟩, ⟨%d1, H1⟩, ⟨%d2, H2⟩, ⟨%d3, H3⟩, H4⟩
    ihave HΦ' := (Phi3_forget V c _ _) $$ HΦ
    icases HΦ' with ⟨Hg, HR, HS⟩
    iapply (sound_kernel3_A c Set.univ (grid3.coords t) _ _ _ _ _ _ _ (hs3_3 t) _ (hs3_4 t) _ _ hc0 (hcond3_1 t) hc2 (iblk3 V c 0 t) (iblk3 V c 1 t) (iblk3 V c 2 t) _)
    isplitl [H0]; · iexact H0
    isplitl [H1]; · iexact H1
    isplitl [H2]; · iexact H2
    isplitl [HS]; · iexact HS
    iintro ⟨H0, H1, H2, HS⟩
    isplitl [Hg HR HS]
    · isplitl [Hg]; · iexact Hg
      isplitl [HR]; · iexact HR
      iexact HS
    isplitl [Ho]; · iexact Ho
    isplitl [H0]; · iexact H0
    isplitl [H1]; · iexact H1
    isplitl [H2]; · iexact H2
    isplitl [H3]; · iexact H3
    iexact H4
  · have h1 : t.val % 2 = 1 := by omega
    have hc0 : ¬cond3_0 (grid3.coords t) := fun h => h0 ((hcond3_0 t).mp h)
    have hc2 : cond3_2 (grid3.coords t) := (hcond3_2 t).mpr h1
    have hz : t.val ≠ 0 := by omega
    rw [show (dat3 V c).leavesExact 4 t = owns (c : Thread nD τ) (ms3_4 t) fullShare (out3 V c t) from by
      unfold Dat.leavesExact; rw [liveAt3_4 t h1, after3_4]]
    rw [Phi3_pos V c _ _ hz,
      acc3_congr V c ⟨t.val - 1, _⟩ t (Fin.ext (by show 2 * ((t.val - 1) / 2) = 2 * (t.val / 2); omega)),
      show acc3 V c ⟨t.val, t.isLt⟩ = acc3 V c t from rfl]
    unfold out3
    iintro ⟨⟨Hg, HR, HS⟩, Ho, ⟨%d0, H0⟩, ⟨%d1, H1⟩, ⟨%d2, H2⟩, ⟨%d3, H3⟩, ⟨%d4, H4⟩⟩
    iapply (sound_kernel3_C c Set.univ (grid3.coords t) _ _ _ _ _ _ _ _ _ _ _ _ hc0 (hcond3_1 t) hc2 (acc3 V c t) (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [Hg HR HS]
    · isplitl [Hg]; · iexact Hg
      isplitl [HR]; · iexact HR
      iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation3 (c : Dev nD) : BodyObligation (dat3 (F := F) V c) (defs₀ (F := F)) Variants.none (none : HIx 1) Set.univ := fun t => by
  rw [bigSep_W3, bigSep_W3]
  exact sound_body3 V c t

/-- What the call is entered with is the invariant before the first point. -/
theorem hin3 (c : Dev nD) : iprop((∃ r, prngReg c r) ∗ Pipeline.scopedRest spec3 c) ⊢ ((dat3 V c).Φ 0 : sProp 𝕄) := by
  rw [show (dat3 V c).Φ 0 = Phi3 V c 0 (Nat.zero_le _) from rfl, Phi3_zero V c 0 _ rfl]

/-- After the last point the invariant gives it back: the accumulator's named contents are forgotten. -/
theorem hout3 (c : Dev nD) : ((dat3 V c).Φ (Fin.last cfg3.N) : sProp 𝕄) ⊢ iprop((∃ r, prngReg c r) ∗ Pipeline.scopedRest spec3 c) := by
  rw [show (dat3 V c).Φ (Fin.last cfg3.N) = Phi3 V c cfg3.N (le_refl _) from rfl, scopedRest3_split]
  refine (Phi3_forget V c _ _).trans ?_
  iintro ⟨Hg, HR, HS⟩
  isplitl [Hg]; · iexact Hg
  isplitl [HS]; · iexact HS
  iexact HR

end Cert.Proof.KB

end
-- ==== Proof.KB.Chase.lean ====
/-
  The eight arguments of @main end as launched: no step of the program writes one. The SparseCore call writes only its
  result array; a pipelined region changes only its output window's array (an argument it reads through an input window
  comes back as entered, one it does not stage is untouched); the reshape writes only the bias row.
-/
import proofs.«214096_g36816459661730_cont_8to1_b_1468_17_alg».proof.Proof.KB.Thread
import Idealize.ShloMosaic.Lib.StableHlo.Run

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ)
variable (R1 : RegionData (F := F) cfg1) (R2 : RegionData (F := F) cfg2) (R3 : RegionData (F := F) cfg3)

/-! ## What each step leaves unchanged -/

/-- The SparseCore call changes only its result array. -/
theorem W1_of_ne (c : Dev nD) (b : Ref sig .tc) (h : b ≠ main_v0) :
    W1 m c (Proc.devRef .tc b) = m ((c.tc : Thread nD τ).loc b) := by
  unfold W1
  rw [Function.update_of_ne (StableHlo.devRef_ne_of_ne h : (Proc.devRef .tc b : DevRef τ sig) ≠ Proc.devRef .tc main_v0)]
/-- and leaves the product there. -/
theorem W1_v0 (c : Dev nD) : W1 m c (Proc.devRef .tc main_v0) = s1Val m c := by
  unfold W1; exact Function.update_self _ _ _

/-- An input window's array leaves a region as it entered it. -/
theorem W2_in (c : Dev nD) (w : Fin cfg1.W) (hin : (cfg1.win w).isOut = false) :
    W2 m R1 c (Proc.devRef .tc (Pipeline.arrRef spec1 w)) = W1 m c (Proc.devRef .tc (Pipeline.arrRef spec1 w)) :=
  (W2_arr m R1 c w).trans (((R1.dat (V1 m) c).arrAt_in w hin _).trans (R1.A_eq (V1 m) c w))
theorem W3_in (c : Dev nD) (w : Fin cfg2.W) (hin : (cfg2.win w).isOut = false) :
    W3 m R1 R2 c (Proc.devRef .tc (Pipeline.arrRef spec2 w)) = W2 m R1 c (Proc.devRef .tc (Pipeline.arrRef spec2 w)) :=
  (W3_arr m R1 R2 c w).trans (((R2.dat (V2 m R1) c).arrAt_in w hin _).trans (R2.A_eq (V2 m R1) c w))
theorem W5_in (c : Dev nD) (w : Fin cfg3.W) (hin : (cfg3.win w).isOut = false) :
    W5 m R1 R2 R3 c (Proc.devRef .tc (Pipeline.arrRef spec3 w)) = W4 m R1 R2 c (Proc.devRef .tc (Pipeline.arrRef spec3 w)) :=
  (W5_arr m R1 R2 R3 c w).trans (((R3.dat (V4 m R1 R2) c).arrAt_in w hin _).trans (R3.A_eq (V4 m R1 R2) c w))

/-- The reshape writes the bias row and nothing else. -/
abbrev hostOpsR_W : List (Ref sig .tc) := [main_v3]
theorem hostOpsR_writes : (hostOpsR : List (HloOp τ sig (Elt F))).Forall fun op => op.writes ⊆ (hostOpsR_W.map (Proc.devRef (τ := τ) .tc)).toFinset := by
  simp only [List.Forall]; exact (by simp only [StableHlo.reshape_writes, Finset.singleton_subset_iff, List.mem_toFinset]; exact List.mem_map_of_mem (by decide))
theorem W4_of_ne (c : Dev nD) (b : Ref sig .tc) (h : b ∉ hostOpsR_W) :
    W4 m R1 R2 c (Proc.devRef .tc b) = W3 m R1 R2 c (Proc.devRef .tc b) :=
  StableHlo.after_of_writes_sub hostOpsR _ hostOpsR_writes h

/-! ## The arguments end as launched -/

/-- The arguments the last region reads, as it finds them. -/
theorem W4_arg1 (c : Dev nD) : W4 m R1 R2 c (Proc.devRef .tc main_arg1) = m ((c.tc : Thread nD τ).loc main_arg1) :=
  (W4_of_ne m R1 R2 c main_arg1 (by decide)).trans <|
    (W3_of_ne m R1 R2 c main_arg1 (by decide)).trans <| (W2_of_ne m R1 c main_arg1 (by decide)).trans <| W1_of_ne m c main_arg1 (by decide)
theorem W4_arg4 (c : Dev nD) : W4 m R1 R2 c (Proc.devRef .tc main_arg4) = m ((c.tc : Thread nD τ).loc main_arg4) :=
  (W4_of_ne m R1 R2 c main_arg4 (by decide)).trans <|
    (W3_of_ne m R1 R2 c main_arg4 (by decide)).trans <| (W2_of_ne m R1 c main_arg4 (by decide)).trans <| W1_of_ne m c main_arg4 (by decide)
/-- The bias, as the reshape finds it. -/
theorem W3_arg7 (c : Dev nD) : W3 m R1 R2 c (Proc.devRef .tc main_arg7) = m ((c.tc : Thread nD τ).loc main_arg7) :=
  (W3_of_ne m R1 R2 c main_arg7 (by decide)).trans <| (W2_of_ne m R1 c main_arg7 (by decide)).trans <| W1_of_ne m c main_arg7 (by decide)

theorem W5_arg0 (c : Dev nD) : W5 m R1 R2 R3 c (Proc.devRef .tc main_arg0) = m ((c.tc : Thread nD τ).loc main_arg0) :=
  (W5_of_ne m R1 R2 R3 c main_arg0 (by decide)).trans <| (W4_of_ne m R1 R2 c main_arg0 (by decide)).trans <|
    (W3_of_ne m R1 R2 c main_arg0 (by decide)).trans <| (W2_in m R1 c 0 rfl).trans <| W1_of_ne m c main_arg0 (by decide)
theorem W5_arg1 (c : Dev nD) : W5 m R1 R2 R3 c (Proc.devRef .tc main_arg1) = m ((c.tc : Thread nD τ).loc main_arg1) :=
  (W5_in m R1 R2 R3 c 1 rfl).trans (W4_arg1 m R1 R2 c)
theorem W5_arg2 (c : Dev nD) : W5 m R1 R2 R3 c (Proc.devRef .tc main_arg2) = m ((c.tc : Thread nD τ).loc main_arg2) :=
  (W5_of_ne m R1 R2 R3 c main_arg2 (by decide)).trans <| (W4_of_ne m R1 R2 c main_arg2 (by decide)).trans <|
    (W3_of_ne m R1 R2 c main_arg2 (by decide)).trans <| (W2_of_ne m R1 c main_arg2 (by decide)).trans <| W1_of_ne m c main_arg2 (by decide)
theorem W5_arg3 (c : Dev nD) : W5 m R1 R2 R3 c (Proc.devRef .tc main_arg3) = m ((c.tc : Thread nD τ).loc main_arg3) :=
  (W5_of_ne m R1 R2 R3 c main_arg3 (by decide)).trans <| (W4_of_ne m R1 R2 c main_arg3 (by decide)).trans <|
    (W3_of_ne m R1 R2 c main_arg3 (by decide)).trans <| (W2_in m R1 c 1 rfl).trans <| W1_of_ne m c main_arg3 (by decide)
theorem W5_arg4 (c : Dev nD) : W5 m R1 R2 R3 c (Proc.devRef .tc main_arg4) = m ((c.tc : Thread nD τ).loc main_arg4) :=
  (W5_in m R1 R2 R3 c 2 rfl).trans (W4_arg4 m R1 R2 c)
theorem W5_arg5 (c : Dev nD) : W5 m R1 R2 R3 c (Proc.devRef .tc main_arg5) = m ((c.tc : Thread nD τ).loc main_arg5) :=
  (W5_of_ne m R1 R2 R3 c main_arg5 (by decide)).trans <| (W4_of_ne m R1 R2 c main_arg5 (by decide)).trans <|
    (W3_of_ne m R1 R2 c main_arg5 (by decide)).trans <| (W2_of_ne m R1 c main_arg5 (by decide)).trans <| W1_of_ne m c main_arg5 (by decide)
theorem W5_arg6 (c : Dev nD) : W5 m R1 R2 R3 c (Proc.devRef .tc main_arg6) = m ((c.tc : Thread nD τ).loc main_arg6) :=
  (W5_of_ne m R1 R2 R3 c main_arg6 (by decide)).trans <| (W4_of_ne m R1 R2 c main_arg6 (by decide)).trans <|
    (W3_of_ne m R1 R2 c main_arg6 (by decide)).trans <| (W2_in m R1 c 2 rfl).trans <| W1_of_ne m c main_arg6 (by decide)
theorem W5_arg7 (c : Dev nD) : W5 m R1 R2 R3 c (Proc.devRef .tc main_arg7) = m ((c.tc : Thread nD τ).loc main_arg7) :=
  (W5_of_ne m R1 R2 R3 c main_arg7 (by decide)).trans <| (W4_of_ne m R1 R2 c main_arg7 (by decide)).trans <|
    (W3_of_ne m R1 R2 c main_arg7 (by decide)).trans <| (W2_of_ne m R1 c main_arg7 (by decide)).trans <| W1_of_ne m c main_arg7 (by decide)

/-! ## The arrays the regions and the two other steps write, where the next reader finds them -/

/-- The first region's result, as the second finds it. -/
theorem W2_v1 (c : Dev nD) : W2 m R1 c (Proc.devRef .tc main_v1) = (R1.dat (V1 m) c).arrAt 3 cfg1.N := W2_arr m R1 c 3
/-- The SparseCore call's result, as the second region finds it: the first region does not stage it. -/
theorem W2_v0 (c : Dev nD) : W2 m R1 c (Proc.devRef .tc main_v0) = s1Val m c :=
  (W2_of_ne m R1 c main_v0 (by decide)).trans (W1_v0 m c)
/-- The second region's result, as the third finds it: the reshape does not write it. -/
theorem W4_v2 (c : Dev nD) : W4 m R1 R2 c (Proc.devRef .tc main_v2) = (R2.dat (V2 m R1) c).arrAt 2 cfg2.N :=
  (W4_of_ne m R1 R2 c main_v2 (by decide)).trans (W3_arr m R1 R2 c 2)
/-- The bias row: the reshape of the bias as launched. -/
theorem W4_v3 (c : Dev nD) : W4 m R1 R2 c (Proc.devRef .tc main_v3)
    = fun i => shapeCast S1x4096 (m ((c.tc : Thread nD τ).loc main_arg7)) shapeCasts_S4096_S1x4096 i := by
  show StableHlo.after [opR] (W3 m R1 R2 c) (Proc.devRef .tc main_v3) = _
  rw [StableHlo.after_cons, StableHlo.after_nil]
  refine (StableHlo.reshape_result main_arg7 main_v3 rfl shapeCasts_S4096_S1x4096 _ _ (W3 m R1 R2 c)).trans ?_
  rw [W3_arg7]
  rfl

end Cert.Proof.KB

end
-- ==== Proof.KB.Run.lean ====
/-
  The kernel program's run with everything supplied: the SparseCore task, the dealing of the call's arrays, and the
  three regions' proof data. From it the frame: every weakly fair execution terminates, nothing faulting, and the
  eight argument arrays end as launched.
-/
import proofs.«214096_g36816459661730_cont_8to1_b_1468_17_alg».proof.Proof.KB.Launch
import proofs.«214096_g36816459661730_cont_8to1_b_1468_17_alg».proof.Proof.KB.Tile
import proofs.«214096_g36816459661730_cont_8to1_b_1468_17_alg».proof.Proof.KB.Region1
import proofs.«214096_g36816459661730_cont_8to1_b_1468_17_alg».proof.Proof.KB.Region2
import proofs.«214096_g36816459661730_cont_8to1_b_1468_17_alg».proof.Proof.KB.Region3
import proofs.«214096_g36816459661730_cont_8to1_b_1468_17_alg».proof.Proof.KB.Chase

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The three regions' proof data, bundled. -/
def RD1 : RegionData (F := F) cfg1 where
  dat V c := dat1 V c
  A_eq V c w := A_eq1 V c w
  q_full V c w := q_full1 V c w
  owed V c t := owed1 V c t
  recorded V c t := recorded1 V c t
  body V c := body_obligation1 V c
  hin V c := hin1 V c
  hout V c := hout1 V c
def RD2 : RegionData (F := F) cfg2 where
  dat V c := dat2 V c
  A_eq V c w := A_eq2 V c w
  q_full V c w := q_full2 V c w
  owed V c t := owed2 V c t
  recorded V c t := recorded2 V c t
  body V c := body_obligation2 V c
  hin V c := hin2 V c
  hout V c := hout2 V c
def RD3 : RegionData (F := F) cfg3 where
  dat V c := dat3 V c
  A_eq V c w := A_eq3 V c w
  q_full V c w := q_full3 V c w
  owed V c t := owed3 V c t
  recorded V c t := recorded3 V c t
  body V c := body_obligation3 V c
  hin V c := hin3 V c
  hout V c := hout3 V c

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run: every unscoped buffer of every TensorCore ends at the last contents. -/
theorem run [∀ e, Nonempty (Elt F e)] :
    θ_run (Cert.Kernel.defs (F := F)) (Cert.Kernel.threads (F := F)) ⟨m, fun _ => 0, ρ⟩ (QC m RD1 RD2 RD3) :=
  run_main m ρ RD1 RD2 RD3 (tileObl m) (vecSplit m) (st0_intro m) (dn0_elim m)

/-- The run with its result named: the result array ends at the last contents and the eight argument arrays as
    launched. -/
theorem run_result [∀ e, Nonempty (Elt F e)] :
    θ_run (Cert.Kernel.defs (F := F)) (Cert.Kernel.threads (F := F)) ⟨m, fun _ => 0, ρ⟩ (fun r => ∀ c : Dev nD,
      r.2.mem ((c.tc : Thread nD τ).loc main_v4) = W5 m RD1 RD2 RD3 c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.Kernel.defs (F := F)) _ _).mono (fun r h c =>
    ⟨h c _ (mem_uc main_v4 (by decide)),
     (h c _ (mem_uc main_arg0 (by decide))).trans (W5_arg0 m RD1 RD2 RD3 c),
     (h c _ (mem_uc main_arg1 (by decide))).trans (W5_arg1 m RD1 RD2 RD3 c),
     (h c _ (mem_uc main_arg2 (by decide))).trans (W5_arg2 m RD1 RD2 RD3 c),
     (h c _ (mem_uc main_arg3 (by decide))).trans (W5_arg3 m RD1 RD2 RD3 c),
     (h c _ (mem_uc main_arg4 (by decide))).trans (W5_arg4 m RD1 RD2 RD3 c),
     (h c _ (mem_uc main_arg5 (by decide))).trans (W5_arg5 m RD1 RD2 RD3 c),
     (h c _ (mem_uc main_arg6 (by decide))).trans (W5_arg6 m RD1 RD2 RD3 c),
     (h c _ (mem_uc main_arg7 (by decide))).trans (W5_arg7 m RD1 RD2 RD3 c)⟩) (run m ρ)

/-- The frame: the eight argument arrays end as launched. -/
theorem frame [∀ e, Nonempty (Elt F e)] :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.Kernel.defs (F := F)) _ _).mono (fun r h c => (h c).2) (run_result m ρ)

end Cert.Proof.KB

end
-- ==== Proof.Spec.lean ====
/-
  The mathematics of the kernel, at the extended reals, index by index.

  With S0 = W0 ∘ M0, S1 = W1 ∘ M1, S2 = W2 ∘ M2 (elementwise products), the kernel computes
    a1[n, h]  = Σ_k  U[n, k] · S2[h, k]              (k over 4096)
    a2[n, h'] = Σ_h  a1[n, h] · S1[h', h]            (h over 2048)
    out[n, d] = Σ_h' a2[n, h'] · S0[d, h'] + bias[d] (h' over 2048)
  Each stage contracts the LAST axis of both operands (a product with the second operand transposed).
-/
import Idealize.ShloMosaic.PureOps.Ideal
import Idealize.ShloMosaic.Lib.ValueIdx

noncomputable section

open scoped BigOperators

namespace Cert.Proof.Spec

open Idealize.ShloMosaic Idealize.ShloMosaic.ValueIdx

/-- One stage: `x · (w ∘ μ)ᵀ`, the contraction over the last axis (extent `kk`) of `x : [nn, kk]` and the masked `w, μ : [hh, kk]`. -/
def stageM {nn hh kk : Nat} (x : (⟨2, ![nn, kk]⟩ : Shape).Idx → EReal) (w μ : (⟨2, ![hh, kk]⟩ : Shape).Idx → EReal) :
    (⟨2, ![nn, hh]⟩ : Shape).Idx → EReal :=
  fun i => ∑ k : Fin kk, x (ix2 (i 0) k) * (w (ix2 (i 1) k) * μ (ix2 (i 1) k))

/-- The same with the second operand given whole: `x · sᵀ`. -/
def stage {nn hh kk : Nat} (x : (⟨2, ![nn, kk]⟩ : Shape).Idx → EReal) (s : (⟨2, ![hh, kk]⟩ : Shape).Idx → EReal) :
    (⟨2, ![nn, hh]⟩ : Shape).Idx → EReal :=
  fun i => ∑ k : Fin kk, x (ix2 (i 0) k) * s (ix2 (i 1) k)

/-- The last stage adds the bias row `b : [1, hh]` to every row. -/
def stageMB {nn hh kk : Nat} (x : (⟨2, ![nn, kk]⟩ : Shape).Idx → EReal) (w μ : (⟨2, ![hh, kk]⟩ : Shape).Idx → EReal)
    (b : (⟨2, ![1, hh]⟩ : Shape).Idx → EReal) : (⟨2, ![nn, hh]⟩ : Shape).Idx → EReal :=
  fun i => stageM x w μ i + b (ix2 (0 : Fin 1) (i 1))

/-- The elementwise product. -/
def had {s : Shape} (w μ : s.Idx → EReal) : s.Idx → EReal := fun i => w i * μ i

/-- The bias as a row. -/
def rowOf {hh : Nat} (bias : (⟨1, ![hh]⟩ : Shape).Idx → EReal) : (⟨2, ![1, hh]⟩ : Shape).Idx → EReal := fun i => bias (ix1 (i 1))

/-- The kernel's result as one function of its eight argument arrays. -/
def G (U : (⟨2, ![4096, 4096]⟩ : Shape).Idx → EReal) (W0 : (⟨2, ![4096, 2048]⟩ : Shape).Idx → EReal)
    (W1 : (⟨2, ![2048, 2048]⟩ : Shape).Idx → EReal) (W2 : (⟨2, ![2048, 4096]⟩ : Shape).Idx → EReal)
    (M0 : (⟨2, ![4096, 2048]⟩ : Shape).Idx → EReal) (M1 : (⟨2, ![2048, 2048]⟩ : Shape).Idx → EReal)
    (M2 : (⟨2, ![2048, 4096]⟩ : Shape).Idx → EReal) (bias : (⟨1, ![4096]⟩ : Shape).Idx → EReal) :
    (⟨2, ![4096, 4096]⟩ : Shape).Idx → EReal :=
  stageMB (stage (stageM U W2 M2) (had W1 M1)) W0 M0 (rowOf bias)

end Cert.Proof.Spec

end
-- ==== Proof.KI.Region1Value.lean ====
/-
  The VALUE of region 1 at the extended reals: after its last point the array `main_v1` holds the specification's
  first stage `a1[i, h] = Σ_k U[i, k] · (W2[h, k] · M2[h, k])` (k over all 4096 columns) of the operand arrays as the
  region finds them.

  At the extended reals the roundings are the identity and the matrix unit's product with a zero accumulator is the
  sum over the contracted axis, so one point's step adds the contraction's terms over that point's 1024 columns:
  the four points `k = 0, 1, 2, 3` of one `(m, n)` leave in the output block the terms over the four column blocks, that
  is (re-indexing `Fin 4 × Fin 1024 ≃ Fin 4096`) over all columns. Only addition and multiplication of extended
  reals are used, in the order the kernel performs them: no finiteness is needed. The output blocks `(m, n)`, each
  written back once, tile the array.
-/
import proofs.«214096_g36816459661730_cont_8to1_b_1468_17_alg».proof.Proof.KI.Region1
import proofs.«214096_g36816459661730_cont_8to1_b_1468_17_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The whole-buffer rectangle is the identity -/

section Generic
variable {F : FTy → Type} [FloatOps F]

theorem rA_idx (j : S2048x1024.Idx) : rA.idx j = j := by
  funext a
  apply Fin.ext
  match a with
  | ⟨0, _⟩ => show 0 + 1 * (j 0).val = (j 0).val; omega
  | ⟨1, _⟩ => show 0 + 1 * (j 1).val = (j 1).val; omega

theorem rW_idx (j : S1024x1024.Idx) : rW.idx j = j := by
  funext a
  apply Fin.ext
  match a with
  | ⟨0, _⟩ => show 0 + 1 * (j 0).val = (j 0).val; omega
  | ⟨1, _⟩ => show 0 + 1 * (j 1).val = (j 1).val; omega

theorem ld_rA {e : EltTy} (x : Vec F S2048x1024 e) : View.ld x rA = x := funext fun j => congrArg x (rA_idx j)
theorem ld_rW {e : EltTy} (x : Vec F S1024x1024 e) : View.ld x rW = x := funext fun j => congrArg x (rW_idx j)

theorem canon_rA {e : EltTy} (p : Vec F S2048x1024 e) : View.canon [(⟨rA, p⟩ : View.Piece (Elt F) S2048x1024 e)] = p := funext fun y => by
  have h := View.canon_cons_emb rA p [] y
  rwa [show rA.emb y = y from rA_idx y] at h

theorem accA_eq (x0 : Vec F S2048x1024 .f32) (x1 x2 : Vec F S1024x1024 .f32) : accA x0 x1 x2 = k1_pay1 x0 x1 x2 := by
  unfold accA; rw [canon_rA, ld_rA, ld_rW, ld_rW]
theorem accB_eq (xs x0 : Vec F S2048x1024 .f32) (x1 x2 : Vec F S1024x1024 .f32) : accB xs x0 x1 x2 = k1_pay2 xs x0 x1 x2 := by
  unfold accB; rw [canon_rA, ld_rA, ld_rA, ld_rW, ld_rW]
theorem outC_eq (xs x0 : Vec F S2048x1024 .f32) (x1 x2 : Vec F S1024x1024 .f32) : outC xs x0 x1 x2 = k1_pay3 xs x0 x1 x2 := by
  unfold outC; rw [canon_rA, ld_rA, ld_rA, ld_rW, ld_rW]

end Generic

/-! ## One point's product, at the extended reals, index by index -/

abbrev D1 := dot_S2048x1024_S1024x1024_S2048x1024_1_1_0_0_n_n

/-- The product of one point's blocks: the contraction over the blocks' last axis (1024 long). -/
def dotv (x0 : Vec Ideal S2048x1024 .f32) (x1 x2 : Vec Ideal S1024x1024 .f32) (j : S2048x1024.Idx) : EReal :=
  ∑ k : Fin 1024, x0 (ix2 (j 0) k) * (x1 (ix2 (j 1) k) * x2 (ix2 (j 1) k))

theorem lhs1_0 (i : S2048x1024.Idx) (q : D1.contr.Idx) : (D1.lhsIdx i q 0).val = (i 0).val := by
  unfold DotDims.lhsIdx
  rw [dif_neg (show ¬(0 : Fin S2048x1024.rank) ∈ D1.lhsBatch by decide), dif_pos (show (0 : Fin S2048x1024.rank) ∈ D1.lhsNonContracting by decide)]
  rfl
theorem lhs1_1 (i : S2048x1024.Idx) (q : D1.contr.Idx) : (D1.lhsIdx i q 1).val = (q ⟨0, by decide⟩).val :=
  D1.lhsIdx_val_of_single rfl i q
theorem rhs1_0 (i : S2048x1024.Idx) (q : D1.contr.Idx) : (D1.rhsIdx i q 0).val = (i 1).val := by
  unfold DotDims.rhsIdx
  rw [dif_neg (show ¬(0 : Fin S1024x1024.rank) ∈ D1.rhsBatch by decide), dif_pos (show (0 : Fin S1024x1024.rank) ∈ D1.rhsNonContracting by decide)]
  rfl
theorem rhs1_1 (i : S2048x1024.Idx) (q : D1.contr.Idx) : (D1.rhsIdx i q 1).val = (q ⟨0, by decide⟩).val :=
  D1.rhsIdx_val_of_single rfl i q

/-- The matrix unit's product with a zero accumulator, at an index: the sum over the contracted axis. -/
theorem mm1_apply (a : FVec Ideal S2048x1024 .bf16) (b : FVec Ideal S1024x1024 .bf16) (j : S2048x1024.Idx) :
    matmul D1 none a b (constant S2048x1024 .f32 0x00000000#32) j = ∑ k : Fin 1024, a (ix2 (j 0) k) * b (ix2 (j 1) k) := by
  show FloatOps.matmul D1 none a b (constant S2048x1024 .f32 0x00000000#32) j = _
  rw [Ideal.matmul_constant_zero_apply, ← Equiv.sum_comp (ValueIdx.contrEquiv1 D1 1024 rfl rfl).symm]
  refine Finset.sum_congr rfl fun k _ => ?_
  have hk := ValueIdx.contrEquiv1_symm_val D1 1024 rfl rfl k
  have el : D1.lhsIdx j ((ValueIdx.contrEquiv1 D1 1024 rfl rfl).symm k) = ix2 (j 0) k := funext fun a => Fin.ext (by
    match a with
    | ⟨0, _⟩ => exact lhs1_0 _ _
    | ⟨1, _⟩ => exact (lhs1_1 _ _).trans hk)
  have er : D1.rhsIdx j ((ValueIdx.contrEquiv1 D1 1024 rfl rfl).symm k) = ix2 (j 1) k := funext fun a => Fin.ext (by
    match a with
    | ⟨0, _⟩ => exact rhs1_0 _ _
    | ⟨1, _⟩ => exact (rhs1_1 _ _).trans hk)
  rw [el, er]
  rfl

theorem r1_pay1_apply (x0 : Vec Ideal S2048x1024 .f32) (x1 x2 : Vec Ideal S1024x1024 .f32) (j : S2048x1024.Idx) :
    k1_pay1 (F := Ideal) x0 x1 x2 j = dotv x0 x1 x2 j := by
  unfold k1_pay1 dotv
  simp only [shapeCast_self]
  rw [mm1_apply]
  rfl

theorem r1_pay2_apply (xs x0 : Vec Ideal S2048x1024 .f32) (x1 x2 : Vec Ideal S1024x1024 .f32) (j : S2048x1024.Idx) :
    k1_pay2 (F := Ideal) xs x0 x1 x2 j = xs j + dotv x0 x1 x2 j := by
  unfold k1_pay2 dotv
  simp only [shapeCast_self]
  rw [addf_apply, mm1_apply]
  rfl

theorem r1_pay3_apply (xs x0 : Vec Ideal S2048x1024 .f32) (x1 x2 : Vec Ideal S1024x1024 .f32) (j : S2048x1024.Idx) :
    k1_pay3 (F := Ideal) xs x0 x1 x2 j = xs j + dotv x0 x1 x2 j := by
  unfold k1_pay3 dotv
  rw [truncf_apply, addf_apply, mm1_apply]
  rfl

/-! ## The windows' blocks, index by index -/

section Blocks
variable {F : FTy → Type} [FloatOps F]
variable (V : (c : Dev nD) → (b : Ref sig .tc) → Buf (Elt F) ((c.tc : Thread nD τ).loc b))

/-- The grid's points in row-major order: point `t` is `(m, n, k) = (t / 8, t / 4 % 2, t % 4)`; window 0's block index there
    is `(m, k)`, windows 1 and 2's `(n, k)`, window 3's `(m, n)`. -/
theorem index1_0 (t : Fin cfg1.N) : win1_0.index t 0 = t.val / 8 ∧ win1_0.index t 1 = t.val % 4 := by
  rcases fin_N1 t with rfl | rfl | rfl | rfl | rfl | rfl | rfl | rfl | rfl | rfl | rfl | rfl | rfl | rfl | rfl | rfl <;> decide
theorem index1_1 (t : Fin cfg1.N) : win1_1.index t 0 = t.val / 4 % 2 ∧ win1_1.index t 1 = t.val % 4 := by
  rcases fin_N1 t with rfl | rfl | rfl | rfl | rfl | rfl | rfl | rfl | rfl | rfl | rfl | rfl | rfl | rfl | rfl | rfl <;> decide
theorem index1_2 (t : Fin cfg1.N) : win1_2.index t 0 = t.val / 4 % 2 ∧ win1_2.index t 1 = t.val % 4 := by
  rcases fin_N1 t with rfl | rfl | rfl | rfl | rfl | rfl | rfl | rfl | rfl | rfl | rfl | rfl | rfl | rfl | rfl | rfl <;> decide
theorem index1_3 (t : Fin cfg1.N) : win1_3.index t 0 = t.val / 8 ∧ win1_3.index t 1 = t.val / 4 % 2 := by
  rcases fin_N1 t with rfl | rfl | rfl | rfl | rfl | rfl | rfl | rfl | rfl | rfl | rfl | rfl | rfl | rfl | rfl | rfl <;> decide

theorem iblk1_0_apply (c : Dev nD) (t : Fin cfg1.N) (j : S2048x1024.Idx) (i : S4096x4096.Idx)
    (h0 : (i 0).val = 2048 * (t.val / 8) + (j 0).val) (h1 : (i 1).val = 1024 * (t.val % 4) + (j 1).val) :
    iblk1 V c 0 t j = V c main_arg0 i := by
  have hi := index1_0 t
  unfold iblk1
  rw [View.read_apply]
  show V c main_arg0 _ = V c main_arg0 i
  congr 1
  funext a
  apply Fin.ext
  match a with
  | ⟨0, _⟩ => show win1_0.index t 0 * 2048 + 1 * (j 0).val = (i 0).val; rw [hi.1, h0]; omega
  | ⟨1, _⟩ => show win1_0.index t 1 * 1024 + 1 * (j 1).val = (i 1).val; rw [hi.2, h1]; omega

theorem iblk1_1_apply (c : Dev nD) (t : Fin cfg1.N) (j : S1024x1024.Idx) (i : S2048x4096.Idx)
    (h0 : (i 0).val = 1024 * (t.val / 4 % 2) + (j 0).val) (h1 : (i 1).val = 1024 * (t.val % 4) + (j 1).val) :
    iblk1 V c 1 t j = V c main_arg3 i := by
  have hi := index1_1 t
  unfold iblk1
  rw [View.read_apply]
  show V c main_arg3 _ = V c main_arg3 i
  congr 1
  funext a
  apply Fin.ext
  match a with
  | ⟨0, _⟩ => show win1_1.index t 0 * 1024 + 1 * (j 0).val = (i 0).val; rw [hi.1, h0]; omega
  | ⟨1, _⟩ => show win1_1.index t 1 * 1024 + 1 * (j 1).val = (i 1).val; rw [hi.2, h1]; omega

theorem iblk1_2_apply (c : Dev nD) (t : Fin cfg1.N) (j : S1024x1024.Idx) (i : S2048x4096.Idx)
    (h0 : (i 0).val = 1024 * (t.val / 4 % 2) + (j 0).val) (h1 : (i 1).val = 1024 * (t.val % 4) + (j 1).val) :
    iblk1 V c 2 t j = V c main_arg6 i := by
  have hi := index1_2 t
  unfold iblk1
  rw [View.read_apply]
  show V c main_arg6 _ = V c main_arg6 i
  congr 1
  funext a
  apply Fin.ext
  match a with
  | ⟨0, _⟩ => show win1_2.index t 0 * 1024 + 1 * (j 0).val = (i 0).val; rw [hi.1, h0]; omega
  | ⟨1, _⟩ => show win1_2.index t 1 * 1024 + 1 * (j 1).val = (i 1).val; rw [hi.2, h1]; omega

end Blocks

/-! ## Arrays read at natural-number coordinates -/

/-- A two-axis array read at natural-number coordinates (zero off the array): lets index arithmetic be stated, and
    rewritten, without carrying bounds. -/
def at2 {n0 n1 : ℕ} (A : (⟨2, ![n0, n1]⟩ : Shape).Idx → EReal) (a b : ℕ) : EReal :=
  if h : a < n0 ∧ b < n1 then A (ix2 ⟨a, h.1⟩ ⟨b, h.2⟩) else 0

theorem at2_eq {n0 n1 : ℕ} (A : (⟨2, ![n0, n1]⟩ : Shape).Idx → EReal) (i : (⟨2, ![n0, n1]⟩ : Shape).Idx) (a b : ℕ)
    (ha : (i 0).val = a) (hb : (i 1).val = b) : at2 A a b = A i := by
  subst ha hb
  unfold at2
  rw [dif_pos ⟨(i 0).isLt, (i 1).isLt⟩]
  exact congrArg A (eq_ix2 i).symm

/-- A sum over 4096 as four sums over 1024. -/
theorem sum_4096 (f : ℕ → EReal) :
    ∑ kk : Fin 4096, f kk.val = ∑ kb : Fin 4, ∑ k : Fin 1024, f (k.val + 1024 * kb.val) := by
  have h := Equiv.sum_comp (finProdFinEquiv : Fin 4 × Fin 1024 ≃ Fin (4 * 1024)) (fun kk => f kk.val)
  rw [show (∑ kk : Fin 4096, f kk.val) = ∑ kk : Fin (4 * 1024), f kk.val from rfl, ← h, Fintype.sum_prod_type]
  rfl

section Value
variable (V : (c : Dev nD) → (b : Ref sig .tc) → Buf (Elt Ideal) ((c.tc : Thread nD τ).loc b))

/-- The three operand arrays as the region finds them, as functions into the extended reals. -/
abbrev aU (c : Dev nD) : (⟨2, ![4096, 4096]⟩ : Shape).Idx → EReal := V c main_arg0
abbrev aW (c : Dev nD) : (⟨2, ![2048, 4096]⟩ : Shape).Idx → EReal := V c main_arg3
abbrev aM (c : Dev nD) : (⟨2, ![2048, 4096]⟩ : Shape).Idx → EReal := V c main_arg6

theorem iblk1_0_at (c : Dev nD) (t : Fin cfg1.N) (j : S2048x1024.Idx) :
    iblk1 V c 0 t j = at2 (aU V c) ((j 0).val + 2048 * (t.val / 8)) ((j 1).val + 1024 * (t.val % 4)) := by
  have hN : t.val < 16 := lt_of_lt_of_eq t.isLt (show cfg1.N = 16 from N_1)
  have h0 := idx2_lt0 j
  have h1 := idx2_lt1 j
  unfold at2
  rw [dif_pos ⟨by omega, by omega⟩]
  exact iblk1_0_apply V c t j _ (by show (j 0).val + 2048 * (t.val / 8) = _; omega) (by show (j 1).val + 1024 * (t.val % 4) = _; omega)

theorem iblk1_1_at (c : Dev nD) (t : Fin cfg1.N) (j : S1024x1024.Idx) :
    iblk1 V c 1 t j = at2 (aW V c) ((j 0).val + 1024 * (t.val / 4 % 2)) ((j 1).val + 1024 * (t.val % 4)) := by
  have hN : t.val < 16 := lt_of_lt_of_eq t.isLt (show cfg1.N = 16 from N_1)
  have h0 := idx2_lt0 j
  have h1 := idx2_lt1 j
  unfold at2
  rw [dif_pos ⟨by omega, by omega⟩]
  exact iblk1_1_apply V c t j _ (by show (j 0).val + 1024 * (t.val / 4 % 2) = _; omega) (by show (j 1).val + 1024 * (t.val % 4) = _; omega)

theorem iblk1_2_at (c : Dev nD) (t : Fin cfg1.N) (j : S1024x1024.Idx) :
    iblk1 V c 2 t j = at2 (aM V c) ((j 0).val + 1024 * (t.val / 4 % 2)) ((j 1).val + 1024 * (t.val % 4)) := by
  have hN : t.val < 16 := lt_of_lt_of_eq t.isLt (show cfg1.N = 16 from N_1)
  have h0 := idx2_lt0 j
  have h1 := idx2_lt1 j
  unfold at2
  rw [dif_pos ⟨by omega, by omega⟩]
  exact iblk1_2_apply V c t j _ (by show (j 0).val + 1024 * (t.val / 4 % 2) = _; omega) (by show (j 1).val + 1024 * (t.val % 4) = _; omega)

/-- One term of the contraction, at natural-number coordinates: row `a` of U, row `b` of W2 and M2, column `x`. -/
def term (c : Dev nD) (a b x : ℕ) : EReal := at2 (aU V c) a x * (at2 (aW V c) b x * at2 (aM V c) b x)

/-- One point's product is the contraction's terms over that point's 1024 columns. -/
theorem dotv_blk (c : Dev nD) (p : Fin cfg1.N) (j : S2048x1024.Idx) :
    dotv (iblk1 V c 0 p) (iblk1 V c 1 p) (iblk1 V c 2 p) j
      = ∑ k : Fin 1024, term V c ((j 0).val + 2048 * (p.val / 8)) ((j 1).val + 1024 * (p.val / 4 % 2)) (k.val + 1024 * (p.val % 4)) := by
  unfold dotv term
  refine Finset.sum_congr rfl fun k _ => ?_
  rw [iblk1_0_at, iblk1_1_at, iblk1_2_at]

theorem dotv_blk' (c : Dev nD) (p : Fin cfg1.N) (j : S2048x1024.Idx) (m n kb : ℕ)
    (hm : p.val / 8 = m) (hn : p.val / 4 % 2 = n) (hk : p.val % 4 = kb) :
    dotv (iblk1 V c 0 p) (iblk1 V c 1 p) (iblk1 V c 2 p) j
      = ∑ k : Fin 1024, term V c ((j 0).val + 2048 * m) ((j 1).val + 1024 * n) (k.val + 1024 * kb) := by
  rw [dotv_blk, hm, hn, hk]

/-- The recursion's steps at a position given as a natural number. -/
theorem sAt1_A' (c : Dev nD) (n : ℕ) (hn : n < cfg1.N) (h0 : n % 4 = 0) :
    sAt1 V c n hn = accA (iblk1 V c 0 ⟨n, hn⟩) (iblk1 V c 1 ⟨n, hn⟩) (iblk1 V c 2 ⟨n, hn⟩) := sAt1_A V c ⟨n, hn⟩ h0
theorem sAt1_B' (c : Dev nD) (n : ℕ) (hn : n < cfg1.N) (h : n % 4 = 1 ∨ n % 4 = 2) :
    sAt1 V c n hn = accB (sAt1 V c (n - 1) (Nat.lt_of_le_of_lt (Nat.sub_le _ _) hn)) (iblk1 V c 0 ⟨n, hn⟩) (iblk1 V c 1 ⟨n, hn⟩) (iblk1 V c 2 ⟨n, hn⟩) :=
  sAt1_B V c ⟨n, hn⟩ h

/-- THE OUTPUT BLOCK at a point with `k = 3`: the four points of its run — one `(m, n)`, `k = 0, 1, 2, 3` — have summed the
    contraction's terms over their column blocks; together, over all 4096 columns. -/
theorem after1_3_apply (c : Dev nD) (t : Fin cfg1.N) (h3 : t.val % 4 = 3) (j : S2048x1024.Idx) :
    (dat1 V c).after 3 t j
      = ∑ kb : Fin 4, ∑ k : Fin 1024, term V c ((j 0).val + 2048 * (t.val / 8)) ((j 1).val + 1024 * (t.val / 4 % 2)) (k.val + 1024 * kb.val) := by
  have hNN : cfg1.N = 16 := N_1
  have hN : t.val < 16 := lt_of_lt_of_eq t.isLt hNN
  have p1 : t.val - 1 < cfg1.N := by omega
  have p2 : t.val - 1 - 1 < cfg1.N := by omega
  have p3 : t.val - 1 - 1 - 1 < cfg1.N := by omega
  have e1 := sAt1_B' V c (t.val - 1) p1 (Or.inr (by omega))
  have e2 := sAt1_B' V c (t.val - 1 - 1) p2 (Or.inl (by omega))
  have e3 := sAt1_A' V c (t.val - 1 - 1 - 1) p3 (by omega)
  rw [after1_3, e1, e2, e3, outC_eq, accB_eq, accB_eq, accA_eq, r1_pay3_apply, r1_pay2_apply, r1_pay2_apply, r1_pay1_apply]
  rw [dotv_blk' V c ⟨t.val - 1 - 1 - 1, p3⟩ j (t.val / 8) (t.val / 4 % 2) 0 (by show (t.val - 1 - 1 - 1) / 8 = _; omega) (by show (t.val - 1 - 1 - 1) / 4 % 2 = _; omega) (by show (t.val - 1 - 1 - 1) % 4 = _; omega),
    dotv_blk' V c ⟨t.val - 1 - 1, p2⟩ j (t.val / 8) (t.val / 4 % 2) 1 (by show (t.val - 1 - 1) / 8 = _; omega) (by show (t.val - 1 - 1) / 4 % 2 = _; omega) (by show (t.val - 1 - 1) % 4 = _; omega),
    dotv_blk' V c ⟨t.val - 1, p1⟩ j (t.val / 8) (t.val / 4 % 2) 2 (by show (t.val - 1) / 8 = _; omega) (by show (t.val - 1) / 4 % 2 = _; omega) (by show (t.val - 1) % 4 = _; omega),
    dotv_blk' V c t j (t.val / 8) (t.val / 4 % 2) 3 rfl rfl h3, Fin.sum_univ_four]
  rfl

/-- The specification's stage at an index, as the same double sum. -/
theorem stageM_at (c : Dev nD) (i : (⟨2, ![4096, 2048]⟩ : Shape).Idx) :
    Cert.Proof.Spec.stageM (aU V c) (aW V c) (aM V c) i
      = ∑ kb : Fin 4, ∑ k : Fin 1024, term V c (i 0).val (i 1).val (k.val + 1024 * kb.val) := by
  rw [← sum_4096 (fun x => term V c (i 0).val (i 1).val x)]
  unfold Cert.Proof.Spec.stageM term
  refine Finset.sum_congr rfl fun k _ => ?_
  rw [at2_eq (aU V c) (ix2 (i 0) k) _ _ rfl rfl, at2_eq (aW V c) (ix2 (i 1) k) _ _ rfl rfl, at2_eq (aM V c) (ix2 (i 1) k) _ _ rfl rfl]

/-- The output window's block at point `t` of an array `G`, index by index. -/
theorem blk1_3_read (c : Dev nD) (G : Buf (Elt Ideal) ((cfg1.win 3).arr.view.loc (c.tc : Thread nD τ))) (t : Fin cfg1.N) (j : S2048x1024.Idx) (i : S4096x2048.Idx)
    (h0 : (i 0).val = (j 0).val + 2048 * (t.val / 8)) (h1 : (i 1).val = (j 1).val + 1024 * (t.val / 4 % 2)) :
    ((cfg1.win 3).blk t).view.read (Elt Ideal) G j = G i := by
  have hi := index1_3 t
  rw [View.read_apply]
  show G _ = G i
  congr 1
  funext a
  apply Fin.ext
  match a with
  | ⟨0, _⟩ => show win1_3.index t 0 * 2048 + 1 * (j 0).val = (i 0).val; rw [hi.1, h0]; omega
  | ⟨1, _⟩ => show win1_3.index t 1 * 1024 + 1 * (j 1).val = (i 1).val; rw [hi.2, h1]; omega

/-- The array the region leaves in `main_v1`: the specification's first stage of the operand arrays as the region finds them. -/
abbrev result1 (c : Dev nD) : Buf (Elt Ideal) ((cfg1.win 3).arr.view.loc (c.tc : Thread nD τ)) :=
  Cert.Proof.Spec.stageM (aU V c) (aW V c) (aM V c)

/-- What every write-back writes is its block of that array. -/
theorem flushed_eq1 (c : Dev nD) (t : Fin cfg1.N) (hf : (cfg1.win 3).flush t = true) :
    (dat1 V c).flushed 3 t = ((cfg1.win 3).blk t).view.read (Elt Ideal) (result1 V c) := by
  have h3 := (flush1_3 t).mp hf
  have hN : t.val < 16 := lt_of_lt_of_eq t.isLt (show cfg1.N = 16 from N_1)
  refine funext fun (j : S2048x1024.Idx) => ?_
  have h0 : (j 0).val < 2048 := idx2_lt0 j
  have h1 : (j 1).val < 1024 := idx2_lt1 j
  obtain ⟨i, hi0, hi1⟩ : ∃ i : S4096x2048.Idx, (i 0).val = (j 0).val + 2048 * (t.val / 8) ∧ (i 1).val = (j 1).val + 1024 * (t.val / 4 % 2) :=
    ⟨ix2 ⟨(j 0).val + 2048 * (t.val / 8), by omega⟩ ⟨(j 1).val + 1024 * (t.val / 4 % 2), by omega⟩, rfl, rfl⟩
  have hb := blk1_3_read c (result1 V c) t j i hi0 hi1
  have hs := stageM_at V c i
  rw [hi0, hi1] at hs
  show (dat1 V c).after 3 t j = _
  rw [after1_3_apply V c t h3 j]
  exact hs.symm.trans hb.symm

/-- The output window's blocks are whole at every point. -/
theorem xsize1_3 : ∀ t : Fin cfg1.N, win1_3.xsize (grid1.coords t) 0 = 2048 ∧ win1_3.xsize (grid1.coords t) 1 = 1024 := by decide +kernel

/-- Every index of the array lies in the block some point with `k = 3` writes back: the blocks `(m, n)` tile it. -/
theorem cover1_3 (i : S4096x2048.Idx) : ∃ t : Fin cfg1.N, (cfg1.win 3).flush t = true ∧ i ∈ ((cfg1.win 3).blk t).view.set := by
  have h0 : (i 0 : ℕ) < 4096 := idx2_lt0 i
  have h1 : (i 1 : ℕ) < 2048 := idx2_lt1 i
  have hNN : cfg1.N = 16 := N_1
  obtain ⟨t, ht⟩ : ∃ t : Fin cfg1.N, t.val = 8 * ((i 0).val / 2048) + 4 * ((i 1).val / 1024) + 3 :=
    ⟨⟨8 * ((i 0).val / 2048) + 4 * ((i 1).val / 1024) + 3, by omega⟩, rfl⟩
  refine ⟨t, (flush1_3 t).mpr (by omega), ?_⟩
  have hi := index1_3 t
  have hx := xsize1_3 t
  show i ∈ ((View.whole main_v1).slice (win1_3.rect t)).set
  rw [View.set_slice_whole, Rect.mem_set_unit]
  intro a
  match a with
  | ⟨0, _⟩ =>
    show win1_3.index t 0 * win1_3.size 0 ≤ (i 0 : ℕ) ∧ (i 0 : ℕ) < win1_3.index t 0 * win1_3.size 0 + win1_3.xsize (grid1.coords t) 0
    rw [hi.1, hx.1, show win1_3.size 0 = 2048 from rfl, ht]; omega
  | ⟨1, _⟩ =>
    show win1_3.index t 1 * win1_3.size 1 ≤ (i 1 : ℕ) ∧ (i 1 : ℕ) < win1_3.index t 1 * win1_3.size 1 + win1_3.xsize (grid1.coords t) 1
    rw [hi.2, hx.2, show win1_3.size 1 = 1024 from rfl, ht]; omega

end Value

/-- THE VALUE of region 1: whatever the core's buffers hold when the region is entered, after its last point the array
    `main_v1` holds the specification's first stage of `main_arg0`, `main_arg3` and `main_arg6` as found:
    `a1[i, h] = Σ_k U[i, k] · (W2[h, k] · M2[h, k])`, the sum over all 4096 columns. -/
theorem final1 (V : (c : Dev nD) → (b : Ref sig .tc) → Buf (Elt Ideal) ((c.tc : Thread nD τ).loc b)) (c : Dev nD) :
    (dat1 (F := Ideal) V c).arrAt 3 cfg1.N = Cert.Proof.Spec.stageM (V c main_arg0) (V c main_arg3) (V c main_arg6) :=
  (dat1 V c).arrAt_eq_of_cover 3 (result1 V c) (flushed_eq1 V c) cover1_3

end Cert.Proof.KI

end
-- ==== Proof.KI.Region2Value.lean ====
/-
  The value of the second TensorCore matrix product at the extended reals: after the pipeline has run, the output array
  holds, at every index (n, h'), the sum over the whole contracted axis of a1[n, h] · s1[h', h] of the arrays the region
  found. Each grid point writes one 2048×1024 block of that function (there is one contraction step, so a block's sum is
  the whole sum), and the four blocks tile the array.
-/
import proofs.«214096_g36816459661730_cont_8to1_b_1468_17_alg».proof.Proof.KI.Region2
import proofs.«214096_g36816459661730_cont_8to1_b_1468_17_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The body's payload at an index -/

theorem hz2 : (![0, 0] : Fin 2 → Nat) = fun _ => 0 := funext fun a => by fin_cases a <;> rfl

/-- The contraction's left index: the result's row, the contracted coordinate. -/
theorem lhs2_0 (i : S2048x1024.Idx) (q : dot_S2048x2048_S1024x2048_S2048x1024_1_1_0_0_n_n.contr.Idx) :
    (dot_S2048x2048_S1024x2048_S2048x1024_1_1_0_0_n_n.lhsIdx i q 0).val = (i 0).val := by
  unfold DotDims.lhsIdx
  rw [dif_neg (show ¬(0 : Fin S2048x2048.rank) ∈ dot_S2048x2048_S1024x2048_S2048x1024_1_1_0_0_n_n.lhsBatch by decide), dif_pos (show (0 : Fin S2048x2048.rank) ∈ dot_S2048x2048_S1024x2048_S2048x1024_1_1_0_0_n_n.lhsNonContracting by decide)]
  rfl
theorem lhs2_1 (i : S2048x1024.Idx) (q : dot_S2048x2048_S1024x2048_S2048x1024_1_1_0_0_n_n.contr.Idx) :
    (dot_S2048x2048_S1024x2048_S2048x1024_1_1_0_0_n_n.lhsIdx i q 1).val = (q ⟨0, by decide⟩).val :=
  dot_S2048x2048_S1024x2048_S2048x1024_1_1_0_0_n_n.lhsIdx_val_of_single rfl i q
/-- The right index: the result's column, the contracted coordinate. -/
theorem rhs2_0 (i : S2048x1024.Idx) (q : dot_S2048x2048_S1024x2048_S2048x1024_1_1_0_0_n_n.contr.Idx) :
    (dot_S2048x2048_S1024x2048_S2048x1024_1_1_0_0_n_n.rhsIdx i q 0).val = (i 1).val := by
  unfold DotDims.rhsIdx
  rw [dif_neg (show ¬(0 : Fin S1024x2048.rank) ∈ dot_S2048x2048_S1024x2048_S2048x1024_1_1_0_0_n_n.rhsBatch by decide), dif_pos (show (0 : Fin S1024x2048.rank) ∈ dot_S2048x2048_S1024x2048_S2048x1024_1_1_0_0_n_n.rhsNonContracting by decide)]
  rfl
theorem rhs2_1 (i : S2048x1024.Idx) (q : dot_S2048x2048_S1024x2048_S2048x1024_1_1_0_0_n_n.contr.Idx) :
    (dot_S2048x2048_S1024x2048_S2048x1024_1_1_0_0_n_n.rhsIdx i q 1).val = (q ⟨0, by decide⟩).val :=
  dot_S2048x2048_S1024x2048_S2048x1024_1_1_0_0_n_n.rhsIdx_val_of_single rfl i q

/-- The payload at (p, q): the contraction over the blocks' whole last axis (the format changes are the identity at the
    extended reals, the accumulator starts at zero). -/
theorem pay2_apply (x0 : Vec Ideal S2048x2048 .bf16) (x1 : Vec Ideal S1024x2048 .f32) (p : Fin 2048) (q : Fin 1024) :
    k2_pay1 (F := Ideal) x0 x1 (ix2 p q) = ∑ k : Fin 2048, x0 (ix2 p k) * x1 (ix2 q k) := by
  unfold k2_pay1
  refine (Ideal.matmul_constant_zero_apply dot_S2048x2048_S1024x2048_S2048x1024_1_1_0_0_n_n none _ _ (ix2 p q)).trans ?_
  rw [← Equiv.sum_comp (ValueIdx.contrEquiv1 dot_S2048x2048_S1024x2048_S2048x1024_1_1_0_0_n_n 2048 rfl rfl).symm]
  refine Finset.sum_congr rfl fun k _ => ?_
  have hk := ValueIdx.contrEquiv1_symm_val dot_S2048x2048_S1024x2048_S2048x1024_1_1_0_0_n_n 2048 rfl rfl k
  have el : dot_S2048x2048_S1024x2048_S2048x1024_1_1_0_0_n_n.lhsIdx (ix2 p q) ((ValueIdx.contrEquiv1 dot_S2048x2048_S1024x2048_S2048x1024_1_1_0_0_n_n 2048 rfl rfl).symm k) = ix2 p k := funext fun a => Fin.ext (by
    match a with
    | ⟨0, _⟩ => exact lhs2_0 _ _
    | ⟨1, _⟩ => exact (lhs2_1 _ _).trans hk)
  have er : dot_S2048x2048_S1024x2048_S2048x1024_1_1_0_0_n_n.rhsIdx (ix2 p q) ((ValueIdx.contrEquiv1 dot_S2048x2048_S1024x2048_S2048x1024_1_1_0_0_n_n 2048 rfl rfl).symm k) = ix2 q k := funext fun a => Fin.ext (by
    match a with
    | ⟨0, _⟩ => exact rhs2_0 _ _
    | ⟨1, _⟩ => exact (rhs2_1 _ _).trans hk)
  rw [el, er, shapeCast_self, shapeCast_self]
  rfl

/-! ## From the blocks to the array -/

variable (V : (c : Dev nD) → (b : Ref sig .tc) → Buf (Elt Ideal) ((c.tc : Thread nD τ).loc b))

/-- The printed index maps, decided over the grid: the left operand's block row is the output's block row, the right
    operand's block row is the output's block column, both operands' blocks span the whole contracted axis, and the
    output's block indices stay in their ranges. -/
theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 1 ∧ win2_2.index t (1 : Fin 2) ≤ 1 :=
  (by decide +kernel : ∀ t : Fin grid2.N, _)

/-- Every block of the output array is some point's. -/
theorem idx_onto2 : ∀ (q0 : Fin 2) (q1 : Fin 2), ∃ t : Fin cfg2.N, win2_2.index t = ![q0.val, q1.val] :=
  (by decide +kernel : ∀ (q0 : Fin 2) (q1 : Fin 2), ∃ t : Fin grid2.N, win2_2.index t = ![q0.val, q1.val])

/-- What point `t` writes back is block `t` of the product of the two arrays as the region finds them. -/
theorem flushed2_eq (c : Dev nD) (t : Fin cfg2.N) :
    (dat2 V c).flushed 2 t = ((cfg2.win 2).blk t).view.read (Elt Ideal) (Cert.Proof.Spec.stage (V c main_v1) (V c main_v0)) := by
  show (cfg2.win 2).cut (grid2.coords t) ((dat2 V c).after 2 t) = _
  rw [after2_2]
  unfold out2_2
  rw [View.canon_unit_zero hz2]
  simp only [View.ld_unit_zero (S := S2048x2048) hz2, View.ld_unit_zero (S := S1024x2048) hz2]
  obtain ⟨e0, e1, e2, e3, e4, e5⟩ := idx_facts2 t
  funext j
  obtain ⟨p, q, rfl⟩ : ∃ (p : Fin 2048) (q : Fin 1024), j = ix2 p q := ⟨j 0, j 1, eq_ix2 j⟩
  show k2_pay1 (F := Ideal) (iblk2 V c 0 t) (iblk2 V c 1 t) (ix2 p q) = Cert.Proof.Spec.stage (V c main_v1) (V c main_v0) (((cfg2.win 2).blk t).view.emb (ix2 p q))
  refine (pay2_apply (iblk2 V c 0 t) (iblk2 V c 1 t) p q).trans ?_
  unfold Cert.Proof.Spec.stage
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2048 + 1 * p.val = win2_2.index t (0 : Fin 2) * 2048 + 1 * p.val; omega
    | ⟨1, _⟩ => show win2_0.index t (1 : Fin 2) * 2048 + 1 * k.val = k.val; omega
  have h1 : ((cfg2.win 1).blk t).view.emb (ix2 q k) = ix2 ((((cfg2.win 2).blk t).view.emb (ix2 p q)) 1) k := by
    funext a; apply Fin.ext
    match a with
    | ⟨0, _⟩ => show win2_1.index t (0 : Fin 2) * 1024 + 1 * q.val = win2_2.index t (1 : Fin 2) * 1024 + 1 * q.val; omega
    | ⟨1, _⟩ => show win2_1.index t (1 : Fin 2) * 2048 + 1 * k.val = k.val; omega
  have key : ∀ (X : S4096x2048.Idx → EReal) (Y : S2048x2048.Idx → EReal),
      X (((cfg2.win 0).blk t).view.emb (ix2 p k)) * Y (((cfg2.win 1).blk t).view.emb (ix2 q k))
        = X (ix2 ((((cfg2.win 2).blk t).view.emb (ix2 p q)) 0) k) * Y (ix2 ((((cfg2.win 2).blk t).view.emb (ix2 p q)) 1) k) := by
    intro X Y; exact congrArg₂ (fun a b => X a * Y b) h0 h1
  exact key (V c main_v1) (V c main_v0)

/-- An index of the array is in point `t`'s block iff each coordinate is in the block's range on its axis. -/
theorem mem_blk2 (t : Fin cfg2.N) (i : S4096x2048.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v2).slice (win2_2.rect t)).set ↔ _
  rw [View.set_slice_whole, Rect.mem_set_unit]
  exact Iff.rfl

/-- The four blocks tile the array: every index is in the block of some point, and every point writes its block back. -/
theorem cover2 (i : S4096x2048.Idx) :
    ∃ t : Fin cfg2.N, (cfg2.win 2).flush t = true ∧ i ∈ ((cfg2.win 2).blk t).view.set := by
  have hi0 : (i 0).val < 4096 := (i 0).isLt
  have hi1 : (i 1).val < 2048 := (i 1).isLt
  obtain ⟨t, ht⟩ := idx_onto2 ⟨(i 0).val / 2048, by omega⟩ ⟨(i 1).val / 1024, by omega⟩
  have q0 : win2_2.index t (0 : Fin 2) = (i 0).val / 2048 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 1024 ≤ (i 1).val ∧ (i 1).val < win2_2.index t (1 : Fin 2) * 1024 + 1024; omega

/-- The output array after the run: the product of the two arrays the region found, contracted over their whole last
    axis. -/
theorem final2 (c : Dev nD) :
    (dat2 (F := Ideal) V c).arrAt 2 cfg2.N = Cert.Proof.Spec.stage (V c main_v1) (V c main_v0) :=
  (dat2 V c).arrAt_eq_of_cover 2 (Cert.Proof.Spec.stage (V c main_v1) (V c main_v0)) (fun t _ => flushed2_eq V c t) cover2

end Cert.Proof.KI

end
-- ==== Proof.KI.Region3Value.lean ====
/-
  The third TensorCore call's result, at the extended reals, index by index.

  The call's output array ends holding  out[i0, i1] = Σ_k a2[i0, k] · (W0[i1, k] · M0[i1, k]) + bias[0, i1],  k over 2048.
  Its (m, n) block is written back once, at the point (m, n, k = 1), holding (accumulator + product of the k = 1 blocks)
  + bias row, the accumulator being the product of the k = 0 blocks: the two partial sums over 1024 contraction indices
  join into the whole sum over 2048. The eight written blocks tile the array.
-/
import proofs.«214096_g36816459661730_cont_8to1_b_1468_17_alg».proof.Proof.KI.Region3
import proofs.«214096_g36816459661730_cont_8to1_b_1468_17_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig (HIx 1) (Elt Ideal) ℕ UU ℕ

variable (V : (c : Dev nD) → (b : Ref sig .tc) → Buf (Elt Ideal) ((c.tc : Thread nD τ).loc b))

/-! ## The windows' block indices on the grid (m, n, k): point t = 8 m + 2 n + k -/

theorem idx3 : ∀ t : Fin cfg3.N,
    (win3_0.index t 0 = t.val / 8 ∧ win3_0.index t 1 = t.val % 2) ∧
    (win3_1.index t 0 = t.val / 2 % 4 ∧ win3_1.index t 1 = t.val % 2) ∧
    (win3_2.index t 0 = t.val / 2 % 4 ∧ win3_2.index t 1 = t.val % 2) ∧
    (win3_3.index t 0 = 0 ∧ win3_3.index t 1 = t.val / 2 % 4) ∧
    (win3_4.index t 0 = t.val / 8 ∧ win3_4.index t 1 = t.val / 2 % 4) :=
  (by decide +kernel : ∀ t : Fin grid3.N,
    (win3_0.index t 0 = t.val / 8 ∧ win3_0.index t 1 = t.val % 2) ∧
    (win3_1.index t 0 = t.val / 2 % 4 ∧ win3_1.index t 1 = t.val % 2) ∧
    (win3_2.index t 0 = t.val / 2 % 4 ∧ win3_2.index t 1 = t.val % 2) ∧
    (win3_3.index t 0 = 0 ∧ win3_3.index t 1 = t.val / 2 % 4) ∧
    (win3_4.index t 0 = t.val / 8 ∧ win3_4.index t 1 = t.val / 2 % 4))

/-! ## A block read at an index: the array at the block's offset plus the index -/

theorem iblk3_0_apply (c : Dev nD) (t : Fin cfg3.N) (j : S2048x1024.Idx) (I : S4096x2048.Idx)
    (h0 : (I 0).val = t.val / 8 * 2048 + (j 0).val) (h1 : (I 1).val = t.val % 2 * 1024 + (j 1).val) :
    (iblk3 V c 0 t : Vec Ideal S2048x1024 .bf16) j = V c main_v2 I := by
  unfold iblk3
  rw [View.read_apply]
  show V c main_v2 _ = V c main_v2 _
  congr 1
  funext a
  apply Fin.ext
  match a with
  | ⟨0, _⟩ => show win3_0.index t 0 * 2048 + 1 * (j 0).val = (I 0).val; rw [(idx3 t).1.1, h0]; omega
  | ⟨1, _⟩ => show win3_0.index t 1 * 1024 + 1 * (j 1).val = (I 1).val; rw [(idx3 t).1.2, h1]; omega

theorem iblk3_1_apply (c : Dev nD) (t : Fin cfg3.N) (j : S1024x1024.Idx) (I : S4096x2048.Idx)
    (h0 : (I 0).val = t.val / 2 % 4 * 1024 + (j 0).val) (h1 : (I 1).val = t.val % 2 * 1024 + (j 1).val) :
    (iblk3 V c 1 t : Vec Ideal S1024x1024 .f32) j = V c main_arg1 I := by
  unfold iblk3
  rw [View.read_apply]
  show V c main_arg1 _ = V c main_arg1 _
  congr 1
  funext a
  apply Fin.ext
  match a with
  | ⟨0, _⟩ => show win3_1.index t 0 * 1024 + 1 * (j 0).val = (I 0).val; rw [(idx3 t).2.1.1, h0]; omega
  | ⟨1, _⟩ => show win3_1.index t 1 * 1024 + 1 * (j 1).val = (I 1).val; rw [(idx3 t).2.1.2, h1]; omega

theorem iblk3_2_apply (c : Dev nD) (t : Fin cfg3.N) (j : S1024x1024.Idx) (I : S4096x2048.Idx)
    (h0 : (I 0).val = t.val / 2 % 4 * 1024 + (j 0).val) (h1 : (I 1).val = t.val % 2 * 1024 + (j 1).val) :
    (iblk3 V c 2 t : Vec Ideal S1024x1024 .f32) j = V c main_arg4 I := by
  unfold iblk3
  rw [View.read_apply]
  show V c main_arg4 _ = V c main_arg4 _
  congr 1
  funext a
  apply Fin.ext
  match a with
  | ⟨0, _⟩ => show win3_2.index t 0 * 1024 + 1 * (j 0).val = (I 0).val; rw [(idx3 t).2.2.1.1, h0]; omega
  | ⟨1, _⟩ => show win3_2.index t 1 * 1024 + 1 * (j 1).val = (I 1).val; rw [(idx3 t).2.2.1.2, h1]; omega

theorem iblk3_3_apply (c : Dev nD) (t : Fin cfg3.N) (j : S1x1024.Idx) (I : S1x4096.Idx)
    (h0 : (I 0).val = 0) (h1 : (I 1).val = t.val / 2 % 4 * 1024 + (j 1).val) :
    (iblk3 V c 3 t : Vec Ideal S1x1024 .f32) j = V c main_v3 I := by
  unfold iblk3
  rw [View.read_apply]
  show V c main_v3 _ = V c main_v3 _
  congr 1
  funext a
  apply Fin.ext
  match a with
  | ⟨0, _⟩ => show win3_3.index t 0 * 1 + 1 * (j 0).val = (I 0).val; rw [(idx3 t).2.2.2.1.1, h0]; have hj : (j 0).val < 1 := (j 0).isLt; omega
  | ⟨1, _⟩ => show win3_3.index t 1 * 1024 + 1 * (j 1).val = (I 1).val; rw [(idx3 t).2.2.2.1.2, h1]; omega

/-! ## The matrix product at an index -/

/-- The dimension numbers of the body's product: both operands contract their last axis. -/
abbrev D3 : DotDims S2048x1024 S1024x1024 S2048x1024 := dot_S2048x1024_S1024x1024_S2048x1024_1_1_0_0_n_n

theorem lhs3_0 (i : S2048x1024.Idx) (q : D3.contr.Idx) : (D3.lhsIdx i q 0).val = (i 0).val := by
  unfold DotDims.lhsIdx
  rw [dif_neg (show ¬(0 : Fin S2048x1024.rank) ∈ D3.lhsBatch by decide), dif_pos (show (0 : Fin S2048x1024.rank) ∈ D3.lhsNonContracting by decide)]
  rfl
theorem lhs3_1 (i : S2048x1024.Idx) (q : D3.contr.Idx) : (D3.lhsIdx i q 1).val = (q ⟨0, by decide⟩).val :=
  D3.lhsIdx_val_of_single rfl i q
theorem rhs3_0 (i : S2048x1024.Idx) (q : D3.contr.Idx) : (D3.rhsIdx i q 0).val = (i 1).val := by
  unfold DotDims.rhsIdx
  rw [dif_neg (show ¬(0 : Fin S1024x1024.rank) ∈ D3.rhsBatch by decide), dif_pos (show (0 : Fin S1024x1024.rank) ∈ D3.rhsNonContracting by decide)]
  rfl
theorem rhs3_1 (i : S2048x1024.Idx) (q : D3.contr.Idx) : (D3.rhsIdx i q 1).val = (q ⟨0, by decide⟩).val :=
  D3.rhsIdx_val_of_single rfl i q

/-- The product of a block `x : [2048, 1024]` with the transpose of `y : [1024, 1024]`, into the zero accumulator, at an
    index: the sum over the 1024 contraction indices. -/
theorem dot3_apply (x : FVec Ideal S2048x1024 .bf16) (y : FVec Ideal S1024x1024 .bf16) (i : S2048x1024.Idx) :
    matmul D3 none x y (constant S2048x1024 .f32 0x00000000#32) i = ∑ k : Fin 1024, x (ix2 (i 0) k) * y (ix2 (i 1) k) := by
  show FloatOps.matmul D3 none x y (constant S2048x1024 .f32 0x00000000#32) i = _
  rw [Ideal.matmul_constant_zero_apply, ← Equiv.sum_comp (contrEquiv1 D3 1024 rfl rfl).symm]
  refine Finset.sum_congr rfl fun k _ => ?_
  have hk := contrEquiv1_symm_val D3 1024 rfl rfl k
  have el : D3.lhsIdx i ((contrEquiv1 D3 1024 rfl rfl).symm k) = ix2 (i 0) k := funext fun a => Fin.ext (by
    match a with
    | ⟨0, _⟩ => exact lhs3_0 _ _
    | ⟨1, _⟩ => exact (lhs3_1 _ _).trans hk)
  have er : D3.rhsIdx i ((contrEquiv1 D3 1024 rfl rfl).symm k) = ix2 (i 1) k := funext fun a => Fin.ext (by
    match a with
    | ⟨0, _⟩ => exact rhs3_0 _ _
    | ⟨1, _⟩ => exact (rhs3_1 _ _).trans hk)
  rw [el, er]
  rfl

/-! ## The body's payloads at an index -/

/-- The k = 0 payload: the product of the a2 block with the transposed masked block. -/
theorem pay1_apply (x0 : Vec Ideal S2048x1024 .bf16) (x1 x2 : Vec Ideal S1024x1024 .f32) (i : S2048x1024.Idx) :
    k3_pay1 (F := Ideal) x0 x1 x2 i = ∑ k : Fin 1024, x0 (ix2 (i 0) k) * (x1 (ix2 (i 1) k) * x2 (ix2 (i 1) k)) := by
  unfold k3_pay1
  simp only [shapeCast_self]
  rw [dot3_apply]
  rfl

/-- The k = 1 payload: (accumulator + product) + the bias row on every row. -/
theorem pay3_apply (xs : Vec Ideal S2048x1024 .f32) (x0 : Vec Ideal S2048x1024 .bf16) (x1 x2 : Vec Ideal S1024x1024 .f32)
    (x3 : Vec Ideal S1x1024 .f32) (i : S2048x1024.Idx) :
    k3_pay3 (F := Ideal) xs x0 x1 x2 x3 i
      = (xs i + ∑ k : Fin 1024, x0 (ix2 (i 0) k) * (x1 (ix2 (i 1) k) * x2 (ix2 (i 1) k))) + x3 (ix2 (0 : Fin 1) (i 1)) := by
  unfold k3_pay3
  simp only [shapeCast_self]
  rw [addf_apply, addf_apply, dot3_apply,
    broadcastTo_apply x3 broadcasts_S1x1024_S2048x1024 i (ix2 (0 : Fin 1) (i 1)) (fun a => by
      match a with
      | ⟨0, _⟩ => rfl
      | ⟨1, _⟩ => rfl)]
  rfl

/-! ## The two K-blocks' sums join into the whole contraction -/

/-- A sum over 2048 indices is the sum over the first 1024 plus the sum over the last 1024. -/
theorem sum_2048 {M : Type} [AddCommMonoid M] (f : Fin 2048 → M) :
    ∑ k : Fin 2048, f k
      = ∑ k : Fin 1024, f ⟨k.val, by have := k.isLt; omega⟩ + ∑ k : Fin 1024, f ⟨1024 + k.val, by have := k.isLt; omega⟩ :=
  Fin.sum_univ_add (M := M) (a := 1024) (b := 1024) f

/-! ## The output's block as written back -/

/-- The contents the output array ends with. -/
abbrev G3 (c : Dev nD) : (⟨2, ![4096, 4096]⟩ : Shape).Idx → EReal :=
  Cert.Proof.Spec.stageMB (V c main_v2) (V c main_arg1) (V c main_arg4) (V c main_v3)

/-- At a k = 1 point (m, n, 1) the output's buffer, at block index `j`, holds the whole contraction at the array index
    (2048 m + j0, 1024 n + j1): the accumulator is the k = 0 half of the sum, the product at this point the other half. -/
theorem out3_apply (c : Dev nD) (t : Fin cfg3.N) (h1 : t.val % 2 = 1) (j : S2048x1024.Idx) (I : S4096x4096.Idx)
    (hI0 : (I 0).val = t.val / 8 * 2048 + (j 0).val) (hI1 : (I 1).val = t.val / 2 % 4 * 1024 + (j 1).val) :
    out3 V c t j = G3 V c I := by
  have hev0 : (ev3 t).val / 8 = t.val / 8 := by show 2 * (t.val / 2) / 8 = t.val / 8; omega
  have hev1 : (ev3 t).val % 2 = 0 := by show 2 * (t.val / 2) % 2 = 0; omega
  have hev2 : (ev3 t).val / 2 % 4 = t.val / 2 % 4 := by show 2 * (t.val / 2) / 2 % 4 = t.val / 2 % 4; omega
  unfold out3 acc3
  rw [pay3_apply, pay1_apply]
  unfold G3 Cert.Proof.Spec.stageMB Cert.Proof.Spec.stageM
  rw [sum_2048]
  congr 1
  · congr 1
    · refine Finset.sum_congr rfl fun k _ => ?_
      rw [iblk3_0_apply V c (ev3 t) (ix2 (j 0) k) (ix2 (I 0) ⟨k.val, by have := k.isLt; omega⟩)
          (by show (I 0).val = (ev3 t).val / 8 * 2048 + (j 0).val; rw [hev0]; exact hI0)
          (by show k.val = (ev3 t).val % 2 * 1024 + k.val; rw [hev1]; omega),
        iblk3_1_apply V c (ev3 t) (ix2 (j 1) k) (ix2 (I 1) ⟨k.val, by have := k.isLt; omega⟩)
          (by show (I 1).val = (ev3 t).val / 2 % 4 * 1024 + (j 1).val; rw [hev2]; exact hI1)
          (by show k.val = (ev3 t).val % 2 * 1024 + k.val; rw [hev1]; omega),
        iblk3_2_apply V c (ev3 t) (ix2 (j 1) k) (ix2 (I 1) ⟨k.val, by have := k.isLt; omega⟩)
          (by show (I 1).val = (ev3 t).val / 2 % 4 * 1024 + (j 1).val; rw [hev2]; exact hI1)
          (by show k.val = (ev3 t).val % 2 * 1024 + k.val; rw [hev1]; omega)]
    · refine Finset.sum_congr rfl fun k _ => ?_
      rw [iblk3_0_apply V c t (ix2 (j 0) k) (ix2 (I 0) ⟨1024 + k.val, by have := k.isLt; omega⟩)
          (by show (I 0).val = t.val / 8 * 2048 + (j 0).val; exact hI0)
          (by show 1024 + k.val = t.val % 2 * 1024 + k.val; rw [h1]),
        iblk3_1_apply V c t (ix2 (j 1) k) (ix2 (I 1) ⟨1024 + k.val, by have := k.isLt; omega⟩)
          (by show (I 1).val = t.val / 2 % 4 * 1024 + (j 1).val; exact hI1)
          (by show 1024 + k.val = t.val % 2 * 1024 + k.val; rw [h1]),
        iblk3_2_apply V c t (ix2 (j 1) k) (ix2 (I 1) ⟨1024 + k.val, by have := k.isLt; omega⟩)
          (by show (I 1).val = t.val / 2 % 4 * 1024 + (j 1).val; exact hI1)
          (by show 1024 + k.val = t.val % 2 * 1024 + k.val; rw [h1])]
  · exact iblk3_3_apply V c t (ix2 (0 : Fin 1) (j 1)) (ix2 (0 : Fin 1) (I 1)) rfl (by show (I 1).val = t.val / 2 % 4 * 1024 + (j 1).val; exact hI1)

/-- The extents of the output's blocks (none is cut: the blocks tile the array). -/
theorem xsize3_4 : ∀ t : Fin cfg3.N, win3_4.xsize (grid3.coords t) 0 = 2048 ∧ win3_4.xsize (grid3.coords t) 1 = 1024 :=
  (by decide +kernel : ∀ t : Fin grid3.N, win3_4.xsize (grid3.coords t) 0 = 2048 ∧ win3_4.xsize (grid3.coords t) 1 = 1024)

/-- What a writing point writes is its block of `G3`. -/
theorem flushed_eq3 (c : Dev nD) (t : Fin cfg3.N) (hf : (cfg3.win 4).flush t = true) :
    (dat3 V c).flushed 4 t = ((cfg3.win 4).blk t).view.read (Elt Ideal) (G3 V c) := by
  have h1 : t.val % 2 = 1 := (flush3_4 t).mp hf
  show (cfg3.win 4).cut (grid3.coords t) ((dat3 V c).after 4 t) = _
  rw [after3_4]
  funext j
  rw [View.read_apply]
  exact out3_apply V c t h1 j _
    (by show win3_4.index t 0 * 2048 + 1 * (j 0).val = _; rw [(idx3 t).2.2.2.2.1]; omega)
    (by show win3_4.index t 1 * 1024 + 1 * (j 1).val = _; rw [(idx3 t).2.2.2.2.2]; omega)

/-- Every index of the output array is in the block of a writing point: (i0, i1) in that of (i0 / 2048, i1 / 1024, 1). -/
theorem cover3 (c : Dev nD) (i : ((cfg3.win 4).arr.view.loc (c.tc : Thread nD τ)).2.ty.Idx) :
    ∃ t : Fin cfg3.N, (cfg3.win 4).flush t = true ∧ i ∈ ((cfg3.win 4).blk t).view.set := by
  have h0 : (i 0 : Nat) < 4096 := (i 0).isLt
  have h1 : (i 1 : Nat) < 4096 := (i 1).isLt
  have hN : cfg3.N = 16 := N_3
  refine ⟨⟨(i 0).val / 2048 * 8 + (i 1).val / 1024 * 2 + 1, by rw [hN]; omega⟩, (flush3_4 _).mpr (by show ((i 0).val / 2048 * 8 + (i 1).val / 1024 * 2 + 1) % 2 = 1; omega), ?_⟩
  generalize ht : (⟨(i 0).val / 2048 * 8 + (i 1).val / 1024 * 2 + 1, by rw [hN]; omega⟩ : Fin cfg3.N) = t
  have htv : t.val = (i 0).val / 2048 * 8 + (i 1).val / 1024 * 2 + 1 := by rw [← ht]
  show i ∈ ((View.whole main_v4).slice (win3_4.rect t)).set
  rw [View.set_slice_whole, Rect.mem_set_unit]
  intro a
  match a with
  | ⟨0, _⟩ =>
    show win3_4.index t 0 * win3_4.size 0 ≤ (i 0 : Nat) ∧ (i 0 : Nat) < win3_4.index t 0 * win3_4.size 0 + win3_4.xsize (grid3.coords t) 0
    rw [(idx3 t).2.2.2.2.1, (xsize3_4 t).1, show win3_4.size 0 = 2048 from rfl]; omega
  | ⟨1, _⟩ =>
    show win3_4.index t 1 * win3_4.size 1 ≤ (i 1 : Nat) ∧ (i 1 : Nat) < win3_4.index t 1 * win3_4.size 1 + win3_4.xsize (grid3.coords t) 1
    rw [(idx3 t).2.2.2.2.2, (xsize3_4 t).2, show win3_4.size 1 = 1024 from rfl]; omega

/-! ## The result -/

/-- After the call the output array holds, at every index, the whole contraction plus the bias. -/
theorem final3 (V : (c : Dev nD) → (b : Ref sig .tc) → Buf (Elt Ideal) ((c.tc : Thread nD τ).loc b)) (c : Dev nD) :
    (dat3 (F := Ideal) V c).arrAt 4 cfg3.N = Cert.Proof.Spec.stageMB (V c main_v2) (V c main_arg1) (V c main_arg4) (V c main_v3) :=
  (dat3 V c).arrAt_eq_of_cover 4 (G3 V c) (flushed_eq3 V c) (cover3 c)

end Cert.Proof.KI

end
-- ==== Proof.KI.ChaseValue.lean ====
/-
  The result array after @main, at the extended reals, is the specification's function of the eight arguments as
  launched: the last region's output is its stage of what it finds; of those, the second region's output is its stage of
  the first region's output and of the SparseCore call's product; the bias row is the reshape of the bias; and every
  argument is found as launched.
-/
import proofs.«214096_g36816459661730_cont_8to1_b_1468_17_alg».proof.Proof.KI.Chase
import proofs.«214096_g36816459661730_cont_8to1_b_1468_17_alg».proof.Proof.Spec
import Idealize.ShloMosaic.Lib.Pipeline.Value
import Idealize.ShloMosaic.Lib.ValueIdx

set_option maxRecDepth 16384

noncomputable section

open scoped BigOperators

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable (m : (ℓ : Loc nD τ sig) → Buf (Elt Ideal) ℓ)
variable (R1 : RegionData (F := Ideal) cfg1) (R2 : RegionData (F := Ideal) cfg2) (R3 : RegionData (F := Ideal) cfg3)

/-- The SparseCore call's product is the elementwise product of the two arrays as launched. -/
theorem s1Val_eq_had (c : Dev nD) :
    s1Val m c = Cert.Proof.Spec.had (m ((c.tc : Thread nD τ).loc main_arg2)) (m ((c.tc : Thread nD τ).loc main_arg5)) := rfl

/-- The reshape of the bias to a row reads the bias at the row's column. -/
theorem reshape_eq_rowOf (b : S4096.Idx → EReal) :
    (fun i => shapeCast S1x4096 b shapeCasts_S4096_S1x4096 i) = Cert.Proof.Spec.rowOf b := by
  funext i
  refine (shapeCast_addUnit_apply ![4096] b shapeCasts_S4096_S1x4096 i).trans ?_
  exact congrArg b (funext fun a => by match a with | ⟨0, _⟩ => rfl)

theorem W5_result
    (h1 : ∀ V c, (R1.dat V c).arrAt 3 cfg1.N = Cert.Proof.Spec.stageM (V c main_arg0) (V c main_arg3) (V c main_arg6))
    (h2 : ∀ V c, (R2.dat V c).arrAt 2 cfg2.N = Cert.Proof.Spec.stage (V c main_v1) (V c main_v0))
    (h3 : ∀ V c, (R3.dat V c).arrAt 4 cfg3.N = Cert.Proof.Spec.stageMB (V c main_v2) (V c main_arg1) (V c main_arg4) (V c main_v3))
    (c : Dev nD) :
    W5 m R1 R2 R3 c (Proc.devRef .tc main_v4)
      = Cert.Proof.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  -- the first region's result, as the second finds it
  have b1 : V2 m R1 c main_v1 = Cert.Proof.Spec.stageM (m ((c.tc : Thread nD τ).loc main_arg0)) (m ((c.tc : Thread nD τ).loc main_arg3)) (m ((c.tc : Thread nD τ).loc main_arg6)) := by
    refine (W2_v1 m R1 c).trans ((h1 _ c).trans ?_)
    rw [show V1 m c main_arg0 = m ((c.tc : Thread nD τ).loc main_arg0) from W1_of_ne m c main_arg0 (by decide),
      show V1 m c main_arg3 = m ((c.tc : Thread nD τ).loc main_arg3) from W1_of_ne m c main_arg3 (by decide),
      show V1 m c main_arg6 = m ((c.tc : Thread nD τ).loc main_arg6) from W1_of_ne m c main_arg6 (by decide)]
  have b0 : V2 m R1 c main_v0 = Cert.Proof.Spec.had (m ((c.tc : Thread nD τ).loc main_arg2)) (m ((c.tc : Thread nD τ).loc main_arg5)) :=
    (W2_v0 m R1 c).trans (s1Val_eq_had m c)
  -- the second region's result, as the third finds it
  have a2 : V4 m R1 R2 c main_v2 = Cert.Proof.Spec.stage
      (Cert.Proof.Spec.stageM (m ((c.tc : Thread nD τ).loc main_arg0)) (m ((c.tc : Thread nD τ).loc main_arg3)) (m ((c.tc : Thread nD τ).loc main_arg6)))
      (Cert.Proof.Spec.had (m ((c.tc : Thread nD τ).loc main_arg2)) (m ((c.tc : Thread nD τ).loc main_arg5))) := by
    refine (W4_v2 m R1 R2 c).trans ((h2 _ c).trans ?_)
    rw [b1, b0]
  have a1 : V4 m R1 R2 c main_arg1 = m ((c.tc : Thread nD τ).loc main_arg1) := W4_arg1 m R1 R2 c
  have a4 : V4 m R1 R2 c main_arg4 = m ((c.tc : Thread nD τ).loc main_arg4) := W4_arg4 m R1 R2 c
  have a3 : V4 m R1 R2 c main_v3 = Cert.Proof.Spec.rowOf (m ((c.tc : Thread nD τ).loc main_arg7)) :=
    (W4_v3 m R1 R2 c).trans (reshape_eq_rowOf _)
  refine (W5_arr m R1 R2 R3 c 4).trans ((h3 _ c).trans ?_)
  rw [a2, a1, a4, a3]
  rfl

end Cert.Proof.KI

end
-- ==== Proof.RefSide.lean ====
/-
  The reference at the extended reals is the specification's function `G` of the eight argument arrays, index by index.

  The reference forms S0 = W0 ∘ M0, S1 = W1 ∘ M1, S2 = W2 ∘ M2, then y = S2 · Uᵀ, y = S1 · y, y = S0 · y, and returns yᵀ + bias.
  At the index (n, d) that is
    Σ_h' S0[d, h'] · ( Σ_h S1[h', h] · ( Σ_k S2[h, k] · U[n, k] ) ) + bias[d],
  the specification's nested sums with the two factors of each product exchanged.
-/
import proofs.«214096_g36816459661730_cont_8to1_b_1468_17_alg».proof.Proof.Gen.ReferenceIdeal.Read
import proofs.«214096_g36816459661730_cont_8to1_b_1468_17_alg».proof.Proof.Spec

noncomputable section

open scoped BigOperators

namespace Cert.Proof.RefSide

open Cert.ReferenceIdeal Cert.ReferenceIdeal.Gen Cert.ReferenceIdeal.Read
open Idealize.ShloMosaic Idealize.ShloMosaic.ValueIdx

/-! ## The composed index functions, on coordinates -/

/-- A transpose reads the swapped index. -/
theorem idx3_ix2 (a b : Fin 4096) : idx_main_v3 (ix2 a b) = ix2 b a :=
  funext fun x => Fin.ext (by match x with | ⟨0, _⟩ => rfl | ⟨1, _⟩ => rfl)
theorem idx7_ix2 (a b : Fin 4096) : idx_main_v7 (ix2 a b) = ix2 b a :=
  funext fun x => Fin.ext (by match x with | ⟨0, _⟩ => rfl | ⟨1, _⟩ => rfl)
/-- A product's left operand is read at (row, contracted), its right operand at (contracted, column). -/
theorem lidx4_ix2 (a : Fin 2048) (b : Fin 4096) (k : Fin 4096) : lidx_main_v4 (ix2 a b) k = ix2 a k :=
  funext fun x => Fin.ext (by match x with | ⟨0, _⟩ => rfl | ⟨1, _⟩ => rfl)
theorem ridx4_ix2 (a : Fin 2048) (b : Fin 4096) (k : Fin 4096) : ridx_main_v4 (ix2 a b) k = ix2 k b :=
  funext fun x => Fin.ext (by match x with | ⟨0, _⟩ => rfl | ⟨1, _⟩ => rfl)
theorem lidx5_ix2 (a : Fin 2048) (b : Fin 4096) (k : Fin 2048) : lidx_main_v5 (ix2 a b) k = ix2 a k :=
  funext fun x => Fin.ext (by match x with | ⟨0, _⟩ => rfl | ⟨1, _⟩ => rfl)
theorem ridx5_ix2 (a : Fin 2048) (b : Fin 4096) (k : Fin 2048) : ridx_main_v5 (ix2 a b) k = ix2 k b :=
  funext fun x => Fin.ext (by match x with | ⟨0, _⟩ => rfl | ⟨1, _⟩ => rfl)
theorem lidx6_ix2 (a : Fin 4096) (b : Fin 4096) (k : Fin 2048) : lidx_main_v6 (ix2 a b) k = ix2 a k :=
  funext fun x => Fin.ext (by match x with | ⟨0, _⟩ => rfl | ⟨1, _⟩ => rfl)
theorem ridx6_ix2 (a : Fin 4096) (b : Fin 4096) (k : Fin 2048) : ridx_main_v6 (ix2 a b) k = ix2 k b :=
  funext fun x => Fin.ext (by match x with | ⟨0, _⟩ => rfl | ⟨1, _⟩ => rfl)
/-- The bias is broadcast along the rows: read at the column. -/
theorem idx9_ix2 (a b : Fin 4096) : idx_main_v9 (ix2 a b) = ix2 (0 : Fin 1) b :=
  funext fun x => Fin.ext (by match x with | ⟨0, _⟩ => rfl | ⟨1, _⟩ => rfl)
theorem idx8_ix2 (a : Fin 1) (b : Fin 4096) : idx_main_v8 (ix2 a b) = ix1 b :=
  funext fun x => Fin.ext (by match x with | ⟨0, _⟩ => rfl)

/-! ## The specification at an index, its definitions unfolded -/

theorem G_apply (U : (⟨2, ![4096, 4096]⟩ : Shape).Idx → EReal) (W0 : (⟨2, ![4096, 2048]⟩ : Shape).Idx → EReal)
    (W1 : (⟨2, ![2048, 2048]⟩ : Shape).Idx → EReal) (W2 : (⟨2, ![2048, 4096]⟩ : Shape).Idx → EReal)
    (M0 : (⟨2, ![4096, 2048]⟩ : Shape).Idx → EReal) (M1 : (⟨2, ![2048, 2048]⟩ : Shape).Idx → EReal)
    (M2 : (⟨2, ![2048, 4096]⟩ : Shape).Idx → EReal) (bias : (⟨1, ![4096]⟩ : Shape).Idx → EReal) (n d : Fin 4096) :
    Cert.Proof.Spec.G U W0 W1 W2 M0 M1 M2 bias (ix2 n d)
      = (∑ h' : Fin 2048, (∑ h : Fin 2048, (∑ k : Fin 4096, U (ix2 n k) * (W2 (ix2 h k) * M2 (ix2 h k))) * (W1 (ix2 h' h) * M1 (ix2 h' h)))
          * (W0 (ix2 d h') * M0 (ix2 d h'))) + bias (ix1 d) := rfl

/-! ## The reference is `G` -/

theorem ref_eq (x0 : (⟨S4096x4096, .f32⟩ : BufTy).Contents (Elt Ideal)) (x1 : (⟨S4096x2048, .f32⟩ : BufTy).Contents (Elt Ideal))
    (x2 : (⟨S2048x2048, .f32⟩ : BufTy).Contents (Elt Ideal)) (x3 : (⟨S2048x4096, .f32⟩ : BufTy).Contents (Elt Ideal))
    (x4 : (⟨S4096x2048, .f32⟩ : BufTy).Contents (Elt Ideal)) (x5 : (⟨S2048x2048, .f32⟩ : BufTy).Contents (Elt Ideal))
    (x6 : (⟨S2048x4096, .f32⟩ : BufTy).Contents (Elt Ideal)) (x7 : (⟨S4096, .f32⟩ : BufTy).Contents (Elt Ideal)) :
    val_main_v10 (F := Ideal) x0 x1 x2 x3 x4 x5 x6 x7 = Cert.Proof.Spec.G x0 x1 x2 x3 x4 x5 x6 x7 := by
  funext i
  obtain ⟨n, d, rfl⟩ : ∃ (n : Fin 4096) (d : Fin 4096), i = ix2 n d := ⟨i 0, i 1, eq_ix2 i⟩
  rw [val_main_v10_apply, val_main_v7_apply, val_main_v9_apply, val_main_v8_apply, idx7_ix2, idx9_ix2, idx8_ix2, val_main_v6_apply]
  simp only [lidx6_ix2, ridx6_ix2, val_main_v0_apply, val_main_v5_apply, lidx5_ix2, ridx5_ix2, val_main_v1_apply, val_main_v4_apply,
    lidx4_ix2, ridx4_ix2, val_main_v2_apply, val_main_v3_apply, idx3_ix2, Ideal.mulf_def, Ideal.addf_def]
  refine Eq.trans ?_ (G_apply x0 x1 x2 x3 x4 x5 x6 x7 n d).symm
  refine congrArg₂ (· + ·) ?_ rfl
  refine Finset.sum_congr rfl fun h' _ => ?_
  refine (mul_comm _ _).trans ?_
  refine congrArg₂ (· * ·) ?_ rfl
  refine Finset.sum_congr rfl fun h _ => ?_
  refine (mul_comm _ _).trans ?_
  refine congrArg₂ (· * ·) ?_ rfl
  exact Finset.sum_congr rfl fun k _ => mul_comm _ _

end Cert.Proof.RefSide

end
-- ==== Proof.lean ====
/-
  The proof of the certificate's claim.

  The kernel computes out = ((U · S2ᵀ) · S1ᵀ) · S0ᵀ + bias with S_i = W_i ∘ M_i: the product S1 on the SparseCore's
  32 vector subcores, 64 rows each, and the three matrix products as pipelined regions on the TensorCore, the first and
  the last accumulating blocks of the contracted axis over a grid axis. The reference computes
  (S0 · (S1 · (S2 · Uᵀ)))ᵀ + bias. On the extended reals the two differ by the commutativity of the product under each
  sum, a transpose, and the grouping of each finite sum into blocks; no finiteness of the inputs is used.

  The frames: every weakly fair execution of all the threads — the TensorCore, the two sequencers, the 32 vector
  subcores — terminates, faults nowhere, and leaves the eight argument arrays as launched; at the word level and at the
  extended reals by one text read at the two instances. The reference's frame is its run with the value dropped.
-/
import proofs.«214096_g36816459661730_cont_8to1_b_1468_17_alg».proof.Defs
import proofs.«214096_g36816459661730_cont_8to1_b_1468_17_alg».proof.Proof.Gen.Kernel
import proofs.«214096_g36816459661730_cont_8to1_b_1468_17_alg».proof.Proof.Gen.Kernel.Skeleton
import proofs.«214096_g36816459661730_cont_8to1_b_1468_17_alg».proof.Proof.Gen.Kernel.Launch
import proofs.«214096_g36816459661730_cont_8to1_b_1468_17_alg».proof.Proof.Gen.Kernel.Regions
import proofs.«214096_g36816459661730_cont_8to1_b_1468_17_alg».proof.Proof.Gen.Kernel.Points
import proofs.«214096_g36816459661730_cont_8to1_b_1468_17_alg».proof.Proof.Gen.KernelIdeal
import proofs.«214096_g36816459661730_cont_8to1_b_1468_17_alg».proof.Proof.Gen.KernelIdeal.Skeleton
import proofs.«214096_g36816459661730_cont_8to1_b_1468_17_alg».proof.Proof.Gen.KernelIdeal.Launch
import proofs.«214096_g36816459661730_cont_8to1_b_1468_17_alg».proof.Proof.Gen.KernelIdeal.Regions
import proofs.«214096_g36816459661730_cont_8to1_b_1468_17_alg».proof.Proof.Gen.KernelIdeal.Points
import proofs.«214096_g36816459661730_cont_8to1_b_1468_17_alg».proof.Proof.Gen.ReferenceIdeal
import proofs.«214096_g36816459661730_cont_8to1_b_1468_17_alg».proof.Proof.Gen.Pre_finite_inputs
import proofs.«214096_g36816459661730_cont_8to1_b_1468_17_alg».proof.Proof.Gen.ReferenceIdeal.Run
import proofs.«214096_g36816459661730_cont_8to1_b_1468_17_alg».proof.Proof.Gen.ReferenceIdeal.Read
import proofs.«214096_g36816459661730_cont_8to1_b_1468_17_alg».proof.Proof.KI.Run
import proofs.«214096_g36816459661730_cont_8to1_b_1468_17_alg».proof.Proof.KB.Run
import proofs.«214096_g36816459661730_cont_8to1_b_1468_17_alg».proof.Proof.KI.Region1Value
import proofs.«214096_g36816459661730_cont_8to1_b_1468_17_alg».proof.Proof.KI.Region2Value
import proofs.«214096_g36816459661730_cont_8to1_b_1468_17_alg».proof.Proof.KI.Region3Value
import proofs.«214096_g36816459661730_cont_8to1_b_1468_17_alg».proof.Proof.KI.ChaseValue
import proofs.«214096_g36816459661730_cont_8to1_b_1468_17_alg».proof.Proof.RefSide
import Idealize.ShloMosaic.Adequacy
import Idealize.ShloMosaic.Init

noncomputable section

namespace Cert.Proof

open Idealize.ShloMosaic Idealize.SL.Sem

/-- The word-level program's frame. -/
theorem frame_k : Cert.frame_Kernel :=
  fun m ρ _ => Cert.Proof.KB.frame (F := Bits) m ρ

/-- The idealized program's frame. -/
theorem frame_ki : Cert.frame_KernelIdeal :=
  fun m ρ _ => Cert.Proof.KI.frame (F := Ideal) m ρ

/-- The reference's frame: its run with the value dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end with the result array at one function of the eight arguments: the
    kernel's last contents are that function by the regions' values chased through @main, the reference's composed
    term is it index by index. -/
theorem algebraic : Cert.algebraic_KernelIdeal_ReferenceIdeal := by
  intro m ρ m' ρ' _ hagree
  refine ⟨fun c => Cert.Proof.KI.W5 m Cert.Proof.KI.RD1 Cert.Proof.KI.RD2 Cert.Proof.KI.RD3 c (Proc.devRef .tc Cert.KernelIdeal.main_v4),
    Cert.Proof.KI.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Proof.RefSide.ref_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.Proof.KI.W5_result m Cert.Proof.KI.RD1 Cert.Proof.KI.RD2 Cert.Proof.KI.RD3
    (fun V c => Cert.Proof.KI.final1 V c) (fun V c => Cert.Proof.KI.final2 V c) (fun V c => Cert.Proof.KI.final3 V c) c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
